-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x64 : Shape := ⟨2, ![100000, 64]⟩
abbrev S1600000x64 : Shape := ⟨2, ![1600000, 64]⟩
abbrev S64x64 : Shape := ⟨2, ![64, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_arg0 : IVec S2x1600000 32) (main_v63 : IVec S_ 1) (main_v67 : IVec S_ 1) : IVec S_ 1 :=
  let main_v68 : IVec S_ 1 := andi main_v63 main_v67
  let main_v69 : IVec S1x1600000 32 := (extractStridedSlice S1x1600000 ![1, 0] · slices_S2x1600000_S1x1600000_1_0) main_arg0
  let main_v70 : IVec S1600000 32 := shapeCast S1600000 main_v69 shapeCasts_S1x1600000_S1600000
  let main_c_26 : IVec S_ 32 := constantI S_ 32 0#32
  let main_v71 : IVec S1600000 32 := broadcastInDim S1600000 ![] bcast_S_S1600000 main_c_26
  let main_v72 : IVec S1600000 1 := cmpi .sge main_v70 main_v71
  let main_c_27 : IVec S_ 1 := constantI S_ 1 1#1
  let main_v73 : IVec S_ 1 := (fun x v => Host.reduce IntOp.andi x v reducesTo_S1600000_S_d0 h_S_) main_v72 main_c_27
  let main_v74 : IVec S_ 1 := andi main_v68 main_v73
  main_v74

def fn_part3 {F : FTy → Type} [FloatOps F] (main_arg0 : IVec S2x1600000 32) (main_arg12 : FVec F S64 .f32) (main_arg13 : FVec F S64 .f32) (main_arg14 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg0 main_v63 main_v67

def fn_part2 {F : FTy → Type} [FloatOps F] (main_arg0 : IVec S2x1600000 32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg0 main_arg12 main_arg13 main_arg14 main_v48 main_v49 main_v50

def fn_part1 {F : FTy → Type} [FloatOps F] (main_arg0 : IVec S2x1600000 32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg0 main_arg8 main_arg9 main_arg10 main_arg11 main_arg12 main_arg13 main_arg14 main_v33

def fn {F : FTy → Type} [FloatOps F] (main_arg0 : IVec S2x1600000 32) (main_arg1 : FVec F S100000x64 .f32) (main_arg2 : FVec F S1600000x64 .f32) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg5 main_arg6 main_arg7 main_arg8 main_arg9 main_arg10 main_arg11 main_arg12 main_arg13 main_arg14 main_v13 main_v16
-- ==== Kernel.lean ====
abbrev S2x1600000 : Shape := ⟨2, ![2, 1600000]⟩
abbrev S100000x64 : Shape := ⟨2, ![100000, 64]⟩
abbrev S1600000x64 : Shape := ⟨2, ![1600000, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x64 : Shape := ⟨2, ![5000, 64]⟩
abbrev S8000x64 : Shape := ⟨2, ![8000, 64]⟩
abbrev S8000x1 : Shape := ⟨2, ![8000, 1]⟩
abbrev S1x64 : Shape := ⟨2, ![1, 64]⟩
abbrev S5000x1 : Shape := ⟨2, ![5000, 1]⟩

abbrev nBuf : Space → Nat
  | .hbm => 190
  | .vmem => 90
  | .smem => 0
  | _ => 0

abbrev hbmTy0_0 (i : Nat) : BufTy := match i % 128 with
  | 0 => ⟨S2x1600000, .i32⟩
  | 1 => ⟨S100000x64, .f32⟩
  | 2 => ⟨S1600000x64, .f32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S100000, .f32⟩
  | 30 => ⟨S100000x1, .f32⟩
  | 31 => ⟨S100000x64, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S1600000x1, .f32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S1x64, .f32⟩
  | 67 => ⟨S100000x64, .f32⟩
  | 68 => ⟨S1x64, .f32⟩
  | 69 => ⟨S1x64, .f32⟩
  | 70 => ⟨S_, .f32⟩
  | 71 => ⟨S1x64, .f32⟩
  | 72 => ⟨S1x64, .f32⟩
  | 73 => ⟨S_, .f32⟩
  | 74 => ⟨S1x64, .f32⟩
  | 75 => ⟨S1x64, .f32⟩
  | 76 => ⟨S1x64, .f32⟩
  | 77 => ⟨S1x64, .f32⟩
  | 78 => ⟨S_, .f32⟩
  | 79 => ⟨S1x64, .f32⟩
  | 80 => ⟨S1x64, .f32⟩
  | 81 => ⟨S1x64, .f32⟩
  | 82 => ⟨S1x64, .f32⟩
  | 83 => ⟨S100000x64, .f32⟩
  | 84 => ⟨S100000x64, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x64, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S1600000x1, .f32⟩
  | 114 => ⟨S1600000x64, .f32⟩
  | 115 => ⟨S_, .f32⟩
  | 116 => ⟨S100000x64, .f32⟩
  | 117 => ⟨S1600000x1, .i32⟩
  | 118 => ⟨S100000x64, .f32⟩
  | 119 => ⟨S1x64, .f32⟩
  | 120 => ⟨S100000x64, .f32⟩
  | 121 => ⟨S1x64, .f32⟩
  | 122 => ⟨S1x64, .f32⟩
  | 123 => ⟨S_, .f32⟩
  | 124 => ⟨S1x64, .f32⟩
  | 125 => ⟨S1x64, .f32⟩
  | 126 => ⟨S_, .f32⟩
  | 127 => ⟨S1x64, .f32⟩
  | _ => ⟨S2x1600000, .i32⟩

abbrev hbmTy0_1 (i : Nat) : BufTy := match i % 128 with
  | 0 => ⟨S1x64, .f32⟩
  | 1 => ⟨S1x64, .f32⟩
  | 2 => ⟨S1x64, .f32⟩
  | 3 => ⟨S_, .f32⟩
  | 4 => ⟨S1x64, .f32⟩
  | 5 => ⟨S1x64, .f32⟩
  | 6 => ⟨S1x64, .f32⟩
  | 7 => ⟨S1x64, .f32⟩
  | 8 => ⟨S100000x64, .f32⟩
  | 9 => ⟨S100000x64, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x64, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S1600000, .f32⟩
  | 38 => ⟨S1600000x1, .f32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S1x64, .f32⟩
  | 45 => ⟨S100000x64, .f32⟩
  | 46 => ⟨S1x64, .f32⟩
  | 47 => ⟨S1x64, .f32⟩
  | 48 => ⟨S_, .f32⟩
  | 49 => ⟨S1x64, .f32⟩
  | 50 => ⟨S1x64, .f32⟩
  | 51 => ⟨S_, .f32⟩
  | 52 => ⟨S1x64, .f32⟩
  | 53 => ⟨S1x64, .f32⟩
  | 54 => ⟨S1x64, .f32⟩
  | 55 => ⟨S1x64, .f32⟩
  | 56 => ⟨S_, .f32⟩
  | 57 => ⟨S1x64, .f32⟩
  | 58 => ⟨S1x64, .f32⟩
  | 59 => ⟨S1x64, .f32⟩
  | 60 => ⟨S1x64, .f32⟩
  | 61 => ⟨S100000x64, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S8000x64, .f32⟩
  | .local _ .vmem, ⟨6, _⟩ => ⟨S8000x64, .f32⟩
  | .local _ .vmem, ⟨7, _⟩ => ⟨S8000x1, .f32⟩
  | .local _ .vmem, ⟨8, _⟩ => ⟨S8000x1, .f32⟩
  | .local _ .vmem, ⟨9, _⟩ => ⟨S8000x64, .f32⟩
  | .local _ .vmem, ⟨10, _⟩ => ⟨S8000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S5000x64, .f32⟩
  | .local _ .vmem, ⟨34, _⟩ => ⟨S5000x64, .f32⟩
  | .local _ .vmem, ⟨35, _⟩ => ⟨S8000x64, .f32⟩
  | .local _ .vmem, ⟨36, _⟩ => ⟨S8000x64, .f32⟩
  | .local _ .vmem, ⟨37, _⟩ => ⟨S8000x1, .f32⟩
  | .local _ .vmem, ⟨38, _⟩ => ⟨S8000x1, .f32⟩
  | .local _ .vmem, ⟨39, _⟩ => ⟨S8000x64, .f32⟩
  | .local _ .vmem, ⟨40, _⟩ => ⟨S8000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x1, .f32⟩
  | .local _ .vmem, ⟨46, _⟩ => ⟨S5000x1, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S64x64, .f32⟩
  | .local _ .vmem, ⟨63, _⟩ => ⟨S5000x64, .f32⟩
  | .local _ .vmem, ⟨64, _⟩ => ⟨S5000x64, .f32⟩
  | .local _ .vmem, ⟨65, _⟩ => ⟨S8000x64, .f32⟩
  | .local _ .vmem, ⟨66, _⟩ => ⟨S8000x64, .f32⟩
  | .local _ .vmem, ⟨67, _⟩ => ⟨S8000x1, .f32⟩
  | .local _ .vmem, ⟨68, _⟩ => ⟨S8000x1, .f32⟩
  | .local _ .vmem, ⟨69, _⟩ => ⟨S8000x64, .f32⟩
  | .local _ .vmem, ⟨70, _⟩ => ⟨S8000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S5000x64, .f32⟩
  | .local _ .vmem, ⟨75, _⟩ => ⟨S5000x1, .f32⟩
  | .local _ .vmem, ⟨76, _⟩ => ⟨S5000x1, .f32⟩
  | .local _ .vmem, ⟨77, _⟩ => ⟨S1x64, .f32⟩
  | .local _ .vmem, ⟨78, _⟩ => ⟨S5000x64, .f32⟩
  | .local _ .vmem, ⟨79, _⟩ => ⟨S5000x64, .f32⟩
  | .local _ .vmem, ⟨80, _⟩ => ⟨S1x64, .f32⟩
  | .local _ .vmem, ⟨81, _⟩ => ⟨S1x64, .f32⟩
  | .local _ .vmem, ⟨82, _⟩ => ⟨S5000x64, .f32⟩
  | .local _ .vmem, ⟨83, _⟩ => ⟨S5000x64, .f32⟩
  | .local _ .vmem, ⟨84, _⟩ => ⟨S1x64, .f32⟩
  | .local _ .vmem, ⟨85, _⟩ => ⟨S1x64, .f32⟩
  | .local _ .vmem, ⟨86, _⟩ => ⟨S1x64, .f32⟩
  | .local _ .vmem, ⟨87, _⟩ => ⟨S1x64, .f32⟩
  | .local _ .vmem, ⟨88, _⟩ => ⟨S5000x64, .f32⟩
  | .local _ .vmem, ⟨89, _⟩ => ⟨S5000x64, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42_0 : Ref sig .tc := ⟨.hbm, 67, rfl⟩
abbrev main_v42_1 : Ref sig .tc := ⟨.hbm, 68, rfl⟩
abbrev main_v42_2 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_11 : Ref sig .tc := ⟨.hbm, 85, rfl⟩
abbrev main_v55 : Ref sig .tc := ⟨.hbm, 86, rfl⟩
abbrev main_v56 : Ref sig .tc := ⟨.hbm, 87, rfl⟩
abbrev main_c_12 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_c_14 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_15 : Ref sig .tc := ⟨.hbm, 103, rfl⟩
abbrev main_v69 : Ref sig .tc := ⟨.hbm, 104, rfl⟩
abbrev main_v70 : Ref sig .tc := ⟨.hbm, 105, rfl⟩
abbrev main_c_16 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_17 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83_0 : Ref sig .tc := ⟨.hbm, 120, rfl⟩
abbrev main_v83_1 : Ref sig .tc := ⟨.hbm, 121, rfl⟩
abbrev main_v83_2 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_cst_19 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_21 : Ref sig .tc := ⟨.hbm, 138, rfl⟩
abbrev main_v96 : Ref sig .tc := ⟨.hbm, 139, rfl⟩
abbrev main_v97 : Ref sig .tc := ⟨.hbm, 140, rfl⟩
abbrev main_c_22 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_23 : Ref sig .tc := ⟨.hbm, 147, rfl⟩
abbrev main_v103 : Ref sig .tc := ⟨.hbm, 148, rfl⟩
abbrev main_v104 : Ref sig .tc := ⟨.hbm, 149, rfl⟩
abbrev main_c_24 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_c_25 : Ref sig .tc := ⟨.hbm, 156, rfl⟩
abbrev main_v110 : Ref sig .tc := ⟨.hbm, 157, rfl⟩
abbrev main_v111 : Ref sig .tc := ⟨.hbm, 158, rfl⟩
abbrev main_c_26 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_27 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124_0 : Ref sig .tc := ⟨.hbm, 173, rfl⟩
abbrev main_v124_1 : Ref sig .tc := ⟨.hbm, 174, rfl⟩
abbrev main_v124_2 : Ref sig .tc := ⟨.hbm, 175, rfl⟩
abbrev main_cst_28 : Ref sig .tc := ⟨.hbm, 176, rfl⟩
abbrev main_v125 : Ref sig .tc := ⟨.hbm, 177, rfl⟩
abbrev main_v126 : Ref sig .tc := ⟨.hbm, 178, rfl⟩
abbrev main_cst_29 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_30 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg6_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg4_1 : Ref sig .tc := ⟨.vmem, 49, rfl⟩
abbrev cc6_stg5_0 : Ref sig .tc := ⟨.vmem, 50, rfl⟩
abbrev cc6_stg6_0 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg5_0 : Ref sig .tc := ⟨.vmem, 58, rfl⟩
abbrev cc7_stg5_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg2_1 : Ref sig .tc := ⟨.vmem, 64, rfl⟩
abbrev cc9_stg0_0 : Ref sig .tc := ⟨.vmem, 65, rfl⟩
abbrev cc9_stg0_1 : Ref sig .tc := ⟨.vmem, 66, rfl⟩
abbrev cc9_stg1_0 : Ref sig .tc := ⟨.vmem, 67, rfl⟩
abbrev cc9_stg1_1 : Ref sig .tc := ⟨.vmem, 68, rfl⟩
abbrev cc9_stg2_0 : Ref sig .tc := ⟨.vmem, 69, rfl⟩
abbrev cc9_stg2_1 : Ref sig .tc := ⟨.vmem, 70, rfl⟩
abbrev cc10_stg0_0 : Ref sig .tc := ⟨.vmem, 71, rfl⟩
abbrev cc10_stg0_1 : Ref sig .tc := ⟨.vmem, 72, rfl⟩
abbrev cc10_stg1_0 : Ref sig .tc := ⟨.vmem, 73, rfl⟩
abbrev cc10_stg1_1 : Ref sig .tc := ⟨.vmem, 74, rfl⟩
abbrev cc10_stg2_0 : Ref sig .tc := ⟨.vmem, 75, rfl⟩
abbrev cc10_stg2_1 : Ref sig .tc := ⟨.vmem, 76, rfl⟩
abbrev cc10_stg3_0 : Ref sig .tc := ⟨.vmem, 77, rfl⟩
abbrev cc10_stg4_0 : Ref sig .tc := ⟨.vmem, 78, rfl⟩
abbrev cc10_stg4_1 : Ref sig .tc := ⟨.vmem, 79, rfl⟩
abbrev cc10_stg5_0 : Ref sig .tc := ⟨.vmem, 80, rfl⟩
abbrev cc10_stg6_0 : Ref sig .tc := ⟨.vmem, 81, rfl⟩
abbrev cc11_stg0_0 : Ref sig .tc := ⟨.vmem, 82, rfl⟩
abbrev cc11_stg0_1 : Ref sig .tc := ⟨.vmem, 83, rfl⟩
abbrev cc11_stg1_0 : Ref sig .tc := ⟨.vmem, 84, rfl⟩
abbrev cc11_stg2_0 : Ref sig .tc := ⟨.vmem, 85, rfl⟩
abbrev cc11_stg3_0 : Ref sig .tc := ⟨.vmem, 86, rfl⟩
abbrev cc11_stg4_0 : Ref sig .tc := ⟨.vmem, 87, rfl⟩
abbrev cc11_stg5_0 : Ref sig .tc := ⟨.vmem, 88, rfl⟩
abbrev cc11_stg5_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem6_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc6_sem3_0 : DmaSem sig := 47
abbrev cc6_sem4_0 : DmaSem sig := 48
abbrev cc6_sem4_1 : DmaSem sig := 49
abbrev cc6_sem5_0 : DmaSem sig := 50
abbrev cc6_sem6_0 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem3_0 : DmaSem sig := 56
abbrev cc7_sem4_0 : DmaSem sig := 57
abbrev cc7_sem5_0 : DmaSem sig := 58
abbrev cc7_sem5_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem2_1 : DmaSem sig := 64
abbrev cc9_sem0_0 : DmaSem sig := 65
abbrev cc9_sem0_1 : DmaSem sig := 66
abbrev cc9_sem1_0 : DmaSem sig := 67
abbrev cc9_sem1_1 : DmaSem sig := 68
abbrev cc9_sem2_0 : DmaSem sig := 69
abbrev cc9_sem2_1 : DmaSem sig := 70
abbrev cc10_sem0_0 : DmaSem sig := 71
abbrev cc10_sem0_1 : DmaSem sig := 72
abbrev cc10_sem1_0 : DmaSem sig := 73
abbrev cc10_sem1_1 : DmaSem sig := 74
abbrev cc10_sem2_0 : DmaSem sig := 75
abbrev cc10_sem2_1 : DmaSem sig := 76
abbrev cc10_sem3_0 : DmaSem sig := 77
abbrev cc10_sem4_0 : DmaSem sig := 78
abbrev cc10_sem4_1 : DmaSem sig := 79
abbrev cc10_sem5_0 : DmaSem sig := 80
abbrev cc10_sem6_0 : DmaSem sig := 81
abbrev cc11_sem0_0 : DmaSem sig := 82
abbrev cc11_sem0_1 : DmaSem sig := 83
abbrev cc11_sem1_0 : DmaSem sig := 84
abbrev cc11_sem2_0 : DmaSem sig := 85
abbrev cc11_sem3_0 : DmaSem sig := 86
abbrev cc11_sem4_0 : DmaSem sig := 87
abbrev cc11_sem5_0 : DmaSem sig := 88
abbrev cc11_sem5_1 : DmaSem sig := 89

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![200], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S8000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S1x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1600000_S1600000x1 : S1600000.ShapeCasts S1600000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1600000x64.size a
  hwx1_2 : ∀ i : grid1.Coords, EltTy.bits .f32 = 32 ∨ (Rect.block (s := S1600000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S1600000x64.size a
  hwx5_0 : ∀ i : grid5.Coords, EltTy.bits .f32 = 32 ∨ (Rect.block (s := S1600000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x1.size a ≤ S1600000x1.size a
  hwx5_1 : ∀ i : grid5.Coords, EltTy.bits .f32 = 32 ∨ (Rect.block (s := S1600000x1) S8000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x64.size a ≤ S1600000x64.size a
  hwx5_2 : ∀ i : grid5.Coords, EltTy.bits .f32 = 32 ∨ (Rect.block (s := S1600000x64) S8000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S100000x64.size a
  hwx7_5 : ∀ i : grid7.Coords, EltTy.bits .f32 = 32 ∨ (Rect.block (s := S100000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S100000x64.size a
  hwx8_2 : ∀ i : grid8.Coords, EltTy.bits .f32 = 32 ∨ (Rect.block (s := S100000x64) S5000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x64.size a ≤ S1600000x64.size a
  hwx9_0 : ∀ i : grid9.Coords, EltTy.bits .f32 = 32 ∨ (Rect.block (s := S1600000x64) S8000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8000x1.size a ≤ S1600000x1.size a
  hwx9_1 : ∀ i : grid9.Coords, EltTy.bits .f32 = 32 ∨ (Rect.block (s := S1600000x1) S8000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8000x64.size a ≤ S1600000x64.size a
  hwx9_2 : ∀ i : grid9.Coords, EltTy.bits .f32 = 32 ∨ (Rect.block (s := S1600000x64) S8000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S100000x64.size a
  hwx10_1 : ∀ i : grid10.Coords, EltTy.bits .f32 = 32 ∨ (Rect.block (s := S100000x64) S5000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x1.size a ≤ S100000x1.size a
  hwx10_2 : ∀ i : grid10.Coords, EltTy.bits .f32 = 32 ∨ (Rect.block (s := S100000x1) S5000x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x64.size a ≤ S100000x64.size a
  hwx10_4 : ∀ i : grid10.Coords, EltTy.bits .f32 = 32 ∨ (Rect.block (s := S100000x64) S5000x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x64.size a ≤ S1x64.size a
  hwx10_5 : ∀ i : grid10.Coords, EltTy.bits .f32 = 32 ∨ (Rect.block (s := S1x64) S1x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x64.size a ≤ S1x64.size a
  hwx10_6 : ∀ i : grid10.Coords, EltTy.bits .f32 = 32 ∨ (Rect.block (s := S1x64) S1x64.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S100000x64.size a
  hwx11_0 : ∀ i : grid11.Coords, EltTy.bits .f32 = 32 ∨ (Rect.block (s := S100000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x64.size a ≤ S100000x64.size a
  hwx11_5 : ∀ i : grid11.Coords, EltTy.bits .f32 = 32 ∨ (Rect.block (s := S100000x64) S5000x64.size (cc11_transform_5 i) (hinb11_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v42_1) S1x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_2) S1x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v53) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v61) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S8000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v78) S8000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v81) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v54) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v12) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v82) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v83_0) S5000x64.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v83_1) S1x64.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v83_2) S1x64.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v83_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v85) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v91) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v92) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v93) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v94) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v94) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v95) S5000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v102) S8000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v118) S8000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v119) S8000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v122) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v95) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v12) S5000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v123) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v124_0) S5000x64.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v124_1) S1x64.size cc10_transform_5 reads10_5 true true 1 stage10_5 sem10_5
    hrank10 hreads10_5 hinb10_5 nbuf10_5 (Memref.isWhole_whole _) hwx10_5 hstage10_5

abbrev win10_6 : Pipeline.Window sig grid10 :=
  Pipeline.Window.ofSpec (Memref.whole main_v124_2) S1x64.size cc10_transform_6 reads10_6 true true 1 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v124_0) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v126) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v132) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v133) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v134) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v135) S5000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S2x1600000 : Shape := ⟨2, ![2, 1600000]⟩
abbrev S100000x64 : Shape := ⟨2, ![100000, 64]⟩
abbrev S1600000x64 : Shape := ⟨2, ![1600000, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩

abbrev nBuf : Space → Nat
  | .hbm => 309
  | .vmem => 0
  | .smem => 0
  | _ => 0

abbrev hbmTy0_0 (i : Nat) : BufTy := match i % 128 with
  | 0 => ⟨S2x1600000, .i32⟩
  | 1 => ⟨S100000x64, .f32⟩
  | 2 => ⟨S1600000x64, .f32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S_, .f32⟩
  | 30 => ⟨S1600000, .f32⟩
  | 31 => ⟨S100000, .f32⟩
  | 32 => ⟨S_, .f32⟩
  | 33 => ⟨S100000, .f32⟩
  | 34 => ⟨S100000, .f32⟩
  | 35 => ⟨S100000, .f32⟩
  | 36 => ⟨S100000x64, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1600000x64, .f32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S100000, .f32⟩
  | 73 => ⟨S100000x1, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S_, .f32⟩
  | 84 => ⟨S64, .f32⟩
  | 85 => ⟨S_, .f32⟩
  | 86 => ⟨S64, .f32⟩
  | 87 => ⟨S64, .f32⟩
  | 88 => ⟨S_, .i32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S100000x64, .f32⟩
  | 96 => ⟨S100000x64, .f32⟩
  | 97 => ⟨S100000x64, .f32⟩
  | 98 => ⟨S_, .f32⟩
  | 99 => ⟨S_, .f32⟩
  | 100 => ⟨S_, .f32⟩
  | 101 => ⟨S_, .f32⟩
  | 102 => ⟨S64, .f32⟩
  | 103 => ⟨S64, .f32⟩
  | 104 => ⟨S64, .f32⟩
  | 105 => ⟨S_, .f32⟩
  | 106 => ⟨S_, .i1⟩
  | 107 => ⟨S_, .f32⟩
  | 108 => ⟨S_, .f32⟩
  | 109 => ⟨S64, .f32⟩
  | 110 => ⟨S64, .f32⟩
  | 111 => ⟨S1x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S64, .f32⟩
  | 119 => ⟨S64, .f32⟩
  | 120 => ⟨S64, .f32⟩
  | 121 => ⟨S1x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S100000x64, .f32⟩
  | _ => ⟨S2x1600000, .i32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000, .f32⟩
  | 18 => ⟨S1600000, .f32⟩
  | 19 => ⟨S1600000x1, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x64, .f32⟩
  | 29 => ⟨S1600000x64, .f32⟩
  | 30 => ⟨S1600000x64, .f32⟩
  | 31 => ⟨S_, .f32⟩
  | 32 => ⟨S100000x64, .f32⟩
  | 33 => ⟨S1600000x1, .i32⟩
  | 34 => ⟨S100000x64, .f32⟩
  | 35 => ⟨S100000, .f32⟩
  | 36 => ⟨S100000x1, .f32⟩
  | 37 => ⟨S100000x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S_, .f32⟩
  | 47 => ⟨S64, .f32⟩
  | 48 => ⟨S_, .f32⟩
  | 49 => ⟨S64, .f32⟩
  | 50 => ⟨S64, .f32⟩
  | 51 => ⟨S_, .i32⟩
  | 52 => ⟨S_, .f32⟩
  | 53 => ⟨S64, .f32⟩
  | 54 => ⟨S1x64, .f32⟩
  | 55 => ⟨S_, .f32⟩
  | 56 => ⟨S1x64, .f32⟩
  | 57 => ⟨S1x64, .f32⟩
  | 58 => ⟨S100000x64, .f32⟩
  | 59 => ⟨S100000x64, .f32⟩
  | 60 => ⟨S100000x64, .f32⟩
  | 61 => ⟨S_, .f32⟩
  | 62 => ⟨S_, .f32⟩
  | 63 => ⟨S_, .f32⟩
  | 64 => ⟨S_, .f32⟩
  | 65 => ⟨S64, .f32⟩
  | 66 => ⟨S64, .f32⟩
  | 67 => ⟨S64, .f32⟩
  | 68 => ⟨S_, .f32⟩
  | 69 => ⟨S_, .i1⟩
  | 70 => ⟨S_, .f32⟩
  | 71 => ⟨S_, .f32⟩
  | 72 => ⟨S64, .f32⟩
  | 73 => ⟨S64, .f32⟩
  | 74 => ⟨S1x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S64, .f32⟩
  | 82 => ⟨S64, .f32⟩
  | 83 => ⟨S64, .f32⟩
  | 84 => ⟨S1x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S100000x64, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S1600000, .f32⟩
  | 110 => ⟨S1600000x1, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S1600000x64, .f32⟩
  | 121 => ⟨S1600000x64, .f32⟩
  | 122 => ⟨S_, .f32⟩
  | 123 => ⟨S100000x64, .f32⟩
  | 124 => ⟨S1600000x1, .i32⟩
  | 125 => ⟨S100000x64, .f32⟩
  | 126 => ⟨S100000, .f32⟩
  | 127 => ⟨S100000x1, .f32⟩
  | _ => ⟨S2x1600000, .i32⟩

abbrev hbmTy0_2 (i : Nat) : BufTy := match i % 128 with
  | 0 => ⟨S100000x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S_, .f32⟩
  | 10 => ⟨S64, .f32⟩
  | 11 => ⟨S_, .f32⟩
  | 12 => ⟨S64, .f32⟩
  | 13 => ⟨S64, .f32⟩
  | 14 => ⟨S_, .i32⟩
  | 15 => ⟨S_, .f32⟩
  | 16 => ⟨S64, .f32⟩
  | 17 => ⟨S1x64, .f32⟩
  | 18 => ⟨S_, .f32⟩
  | 19 => ⟨S1x64, .f32⟩
  | 20 => ⟨S1x64, .f32⟩
  | 21 => ⟨S100000x64, .f32⟩
  | 22 => ⟨S100000x64, .f32⟩
  | 23 => ⟨S100000x64, .f32⟩
  | 24 => ⟨S_, .f32⟩
  | 25 => ⟨S_, .f32⟩
  | 26 => ⟨S_, .f32⟩
  | 27 => ⟨S_, .f32⟩
  | 28 => ⟨S64, .f32⟩
  | 29 => ⟨S64, .f32⟩
  | 30 => ⟨S64, .f32⟩
  | 31 => ⟨S_, .f32⟩
  | 32 => ⟨S_, .i1⟩
  | 33 => ⟨S_, .f32⟩
  | 34 => ⟨S_, .f32⟩
  | 35 => ⟨S64, .f32⟩
  | 36 => ⟨S64, .f32⟩
  | 37 => ⟨S1x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S64, .f32⟩
  | 45 => ⟨S64, .f32⟩
  | 46 => ⟨S64, .f32⟩
  | 47 => ⟨S1x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | _ => ⟨S2x1600000, .i32⟩

abbrev hbmTy (i : Nat) : BufTy := match i / 128 with
  | 0 => hbmTy0_0 i
  | 1 => hbmTy0_1 i
  | 2 => hbmTy0_2 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call0_cst : Ref sig .tc := ⟨.hbm, 80, rfl⟩
abbrev main_call0_v0 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_c_12 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_cst_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_cst_1 : Ref sig .tc := ⟨.hbm, 99, rfl⟩
abbrev main_call1_v8 : Ref sig .tc := ⟨.hbm, 100, rfl⟩
abbrev main_call1_cst_2 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_cst_3 : Ref sig .tc := ⟨.hbm, 105, rfl⟩
abbrev main_call1_v12 : Ref sig .tc := ⟨.hbm, 106, rfl⟩
abbrev main_call1_cst_4 : Ref sig .tc := ⟨.hbm, 107, rfl⟩
abbrev main_call1_call0_v0 : Ref sig .tc := ⟨.hbm, 108, rfl⟩
abbrev main_call1_call0_v1 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_13 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_c_14 : Ref sig .tc := ⟨.hbm, 128, rfl⟩
abbrev main_v74 : Ref sig .tc := ⟨.hbm, 129, rfl⟩
abbrev main_v75 : Ref sig .tc := ⟨.hbm, 130, rfl⟩
abbrev main_c_15 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_c_16 : Ref sig .tc := ⟨.hbm, 137, rfl⟩
abbrev main_v81 : Ref sig .tc := ⟨.hbm, 138, rfl⟩
abbrev main_v82 : Ref sig .tc := ⟨.hbm, 139, rfl⟩
abbrev main_c_17 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_c_18 : Ref sig .tc := ⟨.hbm, 148, rfl⟩
abbrev main_v90 : Ref sig .tc := ⟨.hbm, 149, rfl⟩
abbrev main_v91 : Ref sig .tc := ⟨.hbm, 150, rfl⟩
abbrev main_c_19 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_cst_20 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_call2_cst : Ref sig .tc := ⟨.hbm, 171, rfl⟩
abbrev main_call2_v0 : Ref sig .tc := ⟨.hbm, 172, rfl⟩
abbrev main_v110 : Ref sig .tc := ⟨.hbm, 173, rfl⟩
abbrev main_cst_21 : Ref sig .tc := ⟨.hbm, 174, rfl⟩
abbrev main_v111 : Ref sig .tc := ⟨.hbm, 175, rfl⟩
abbrev main_cst_22 : Ref sig .tc := ⟨.hbm, 176, rfl⟩
abbrev main_v112 : Ref sig .tc := ⟨.hbm, 177, rfl⟩
abbrev main_v113 : Ref sig .tc := ⟨.hbm, 178, rfl⟩
abbrev main_c_23 : Ref sig .tc := ⟨.hbm, 179, rfl⟩
abbrev main_call3_cst : Ref sig .tc := ⟨.hbm, 180, rfl⟩
abbrev main_call3_v0 : Ref sig .tc := ⟨.hbm, 181, rfl⟩
abbrev main_call3_v1 : Ref sig .tc := ⟨.hbm, 182, rfl⟩
abbrev main_call3_cst_0 : Ref sig .tc := ⟨.hbm, 183, rfl⟩
abbrev main_call3_v2 : Ref sig .tc := ⟨.hbm, 184, rfl⟩
abbrev main_call3_v3 : Ref sig .tc := ⟨.hbm, 185, rfl⟩
abbrev main_call3_v4 : Ref sig .tc := ⟨.hbm, 186, rfl⟩
abbrev main_call3_v5 : Ref sig .tc := ⟨.hbm, 187, rfl⟩
abbrev main_call3_v6 : Ref sig .tc := ⟨.hbm, 188, rfl⟩
abbrev main_call3_v7 : Ref sig .tc := ⟨.hbm, 189, rfl⟩
abbrev main_call3_cst_1 : Ref sig .tc := ⟨.hbm, 190, rfl⟩
abbrev main_call3_v8 : Ref sig .tc := ⟨.hbm, 191, rfl⟩
abbrev main_call3_cst_2 : Ref sig .tc := ⟨.hbm, 192, rfl⟩
abbrev main_call3_v9 : Ref sig .tc := ⟨.hbm, 193, rfl⟩
abbrev main_call3_v10 : Ref sig .tc := ⟨.hbm, 194, rfl⟩
abbrev main_call3_v11 : Ref sig .tc := ⟨.hbm, 195, rfl⟩
abbrev main_call3_cst_3 : Ref sig .tc := ⟨.hbm, 196, rfl⟩
abbrev main_call3_v12 : Ref sig .tc := ⟨.hbm, 197, rfl⟩
abbrev main_call3_cst_4 : Ref sig .tc := ⟨.hbm, 198, rfl⟩
abbrev main_call3_call0_v0 : Ref sig .tc := ⟨.hbm, 199, rfl⟩
abbrev main_call3_call0_v1 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_cst_24 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_c_25 : Ref sig .tc := ⟨.hbm, 219, rfl⟩
abbrev main_v131 : Ref sig .tc := ⟨.hbm, 220, rfl⟩
abbrev main_v132 : Ref sig .tc := ⟨.hbm, 221, rfl⟩
abbrev main_c_26 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_c_27 : Ref sig .tc := ⟨.hbm, 228, rfl⟩
abbrev main_v138 : Ref sig .tc := ⟨.hbm, 229, rfl⟩
abbrev main_v139 : Ref sig .tc := ⟨.hbm, 230, rfl⟩
abbrev main_c_28 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_c_29 : Ref sig .tc := ⟨.hbm, 239, rfl⟩
abbrev main_v147 : Ref sig .tc := ⟨.hbm, 240, rfl⟩
abbrev main_v148 : Ref sig .tc := ⟨.hbm, 241, rfl⟩
abbrev main_c_30 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_cst_31 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_call4_cst : Ref sig .tc := ⟨.hbm, 262, rfl⟩
abbrev main_call4_v0 : Ref sig .tc := ⟨.hbm, 263, rfl⟩
abbrev main_v167 : Ref sig .tc := ⟨.hbm, 264, rfl⟩
abbrev main_cst_32 : Ref sig .tc := ⟨.hbm, 265, rfl⟩
abbrev main_v168 : Ref sig .tc := ⟨.hbm, 266, rfl⟩
abbrev main_cst_33 : Ref sig .tc := ⟨.hbm, 267, rfl⟩
abbrev main_v169 : Ref sig .tc := ⟨.hbm, 268, rfl⟩
abbrev main_v170 : Ref sig .tc := ⟨.hbm, 269, rfl⟩
abbrev main_c_34 : Ref sig .tc := ⟨.hbm, 270, rfl⟩
abbrev main_call5_cst : Ref sig .tc := ⟨.hbm, 271, rfl⟩
abbrev main_call5_v0 : Ref sig .tc := ⟨.hbm, 272, rfl⟩
abbrev main_call5_v1 : Ref sig .tc := ⟨.hbm, 273, rfl⟩
abbrev main_call5_cst_0 : Ref sig .tc := ⟨.hbm, 274, rfl⟩
abbrev main_call5_v2 : Ref sig .tc := ⟨.hbm, 275, rfl⟩
abbrev main_call5_v3 : Ref sig .tc := ⟨.hbm, 276, rfl⟩
abbrev main_call5_v4 : Ref sig .tc := ⟨.hbm, 277, rfl⟩
abbrev main_call5_v5 : Ref sig .tc := ⟨.hbm, 278, rfl⟩
abbrev main_call5_v6 : Ref sig .tc := ⟨.hbm, 279, rfl⟩
abbrev main_call5_v7 : Ref sig .tc := ⟨.hbm, 280, rfl⟩
abbrev main_call5_cst_1 : Ref sig .tc := ⟨.hbm, 281, rfl⟩
abbrev main_call5_v8 : Ref sig .tc := ⟨.hbm, 282, rfl⟩
abbrev main_call5_cst_2 : Ref sig .tc := ⟨.hbm, 283, rfl⟩
abbrev main_call5_v9 : Ref sig .tc := ⟨.hbm, 284, rfl⟩
abbrev main_call5_v10 : Ref sig .tc := ⟨.hbm, 285, rfl⟩
abbrev main_call5_v11 : Ref sig .tc := ⟨.hbm, 286, rfl⟩
abbrev main_call5_cst_3 : Ref sig .tc := ⟨.hbm, 287, rfl⟩
abbrev main_call5_v12 : Ref sig .tc := ⟨.hbm, 288, rfl⟩
abbrev main_call5_cst_4 : Ref sig .tc := ⟨.hbm, 289, rfl⟩
abbrev main_call5_call0_v0 : Ref sig .tc := ⟨.hbm, 290, rfl⟩
abbrev main_call5_call0_v1 : Ref sig .tc := ⟨.hbm, 291, rfl⟩
abbrev main_v171 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_cst_35 : Ref sig .tc := ⟨.hbm, 299, rfl⟩
abbrev main_v178 : Ref sig .tc := ⟨.hbm, 300, rfl⟩
abbrev main_v179 : Ref sig .tc := ⟨.hbm, 301, rfl⟩
abbrev main_v180 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.RefSpec.lean ====
/- The reference network as pure functions of its arguments.
   A three-layer graph-convolution encoder over 100000 nodes with 64 features and 1600000 directed edges, each layer
   followed by a rectifier and a batch normalisation over the nodes. Every function below is written in the order and
   spelling of the reference program's own operations, at any float family: the gathers, the scatter-additions, the
   matrix product and the column sums stay the host operations they are printed as.
     deg      = 1 + number of edges into each node;        dinv = deg^(-1/2)
     conv     = relu (scatter-add over dst of h[src] · (dinv[src] · dinv[dst]) + dinv² · h + b),   h = x · W
     mean z   = (column sums of z) / 100000
     var z    = (column sums of (z − mean z)²) / (100000 − 0), selected against a not-a-number when the divisor is not positive
     bn z     = γ · (z − mean z) · rsqrt (var z + ε) + β
   A layer is bn ∘ conv; the network is three layers with their own parameters over one edge list. -/
import proofs.«145301_j17463337025613_1_alg».proof.ReferenceIdeal

noncomputable section

namespace Cert.Gcn.RefSpec

open Idealize.ShloMosaic Cert.ReferenceIdeal
open Cert.ReferenceIdeal.Facts₀

variable {F : FTy → Type} [FloatOps F] [Cert.ReferenceIdeal.Facts₀]

/-- Row 0 of the edge list: the edges' source nodes. -/
def refSrc (a : IVec S2x1600000 32) : IVec S1600000 32 :=
  let v0 : IVec S1x1600000 32 := (extractStridedSlice S1x1600000 ![0, 0] · slices_S2x1600000_S1x1600000_0_0) a
  shapeCast S1600000 v0 shapeCasts_S1x1600000_S1600000

/-- Row 1 of the edge list: the edges' destination nodes. -/
def refDst (a : IVec S2x1600000 32) : IVec S1600000 32 :=
  let v2 : IVec S1x1600000 32 := (extractStridedSlice S1x1600000 ![1, 0] · slices_S2x1600000_S1x1600000_1_0) a
  shapeCast S1600000 v2 shapeCasts_S1x1600000_S1600000

/-- A node index with a negative value counted from the end: `d + 100000` where `d < 0`, else `d`. -/
def refWrap (d : IVec S1600000 32) : IVec S1600000 32 :=
  let c : IVec S_ 32 := constantI S_ 32 0#32
  let v5 : IVec S1600000 32 := broadcastInDim S1600000 ![] bcast_S_S1600000 c
  let v6 : IVec S1600000 1 := cmpi .slt d v5
  let c_0 : IVec S_ 32 := constantI S_ 32 100000#32
  let v7 : IVec S1600000 32 := broadcastInDim S1600000 ![] bcast_S_S1600000 c_0
  let v8 : IVec S1600000 32 := addi d v7
  select v6 v8 d

/-- The inverse square root of each node's degree, the degree counting the node itself: one plus the number of
    edges whose (wrapped) destination it is. -/
def refDinv (dst : IVec S1600000 32) : FVec F S100000 .f32 :=
  let cst : FVec F S_ .f32 := constant S_ .f32 0x00000000#32
  let v4 : FVec F S100000 .f32 := broadcastInDim S100000 ![] bcast_S_S100000 cst
  let v9 : IVec S1600000 32 := refWrap dst
  let v10 : IVec S1600000x1 32 := broadcastInDim S1600000x1 ![0] bcast_S1600000_S1600000x1_0 v9
  let cst_1 : FVec F S_ .f32 := constant S_ .f32 0x3F800000#32
  let v11 : FVec F S1600000 .f32 := broadcastInDim S1600000 ![] bcast_S_S1600000 cst_1
  let v12 : FVec F S100000 .f32 := (fun x i u => Host.scatterAdd scatter_S100000_S1600000x1_S1600000_n_0_0_1 x i u) v4 v10 v11
  let cst_2 : FVec F S_ .f32 := constant S_ .f32 0x3F800000#32
  let v13 : FVec F S100000 .f32 := broadcastInDim S100000 ![] bcast_S_S100000 cst_2
  let v14 : FVec F S100000 .f32 := addf v12 v13
  Host.rsqrt v14

/-- One graph convolution and its rectifier: with `h = x · W`, the sum over the edges into each node of the source's
    row of `h` weighted by `dinv[src] · dinv[dst]`, plus the node's own row weighted by `dinv²`, plus the bias; then
    the maximum with zero. The gathers read through wrapped indices, the scatter-addition through the destinations as
    given. -/
def refConv (x : FVec F S100000x64 .f32) (W : FVec F S64x64 .f32) (b : FVec F S64 .f32)
    (src dst : IVec S1600000 32) (dinv : FVec F S100000 .f32) : FVec F S100000x64 .f32 :=
  let v16 : FVec F S100000x64 .f32 := (fun l r => Host.dotGeneral dot_S100000x64_S64x64_S100000x64_1_0_0_1_n_n none l r) x W
  let v22 : IVec S1600000x1 32 := broadcastInDim S1600000x1 ![0] bcast_S1600000_S1600000x1_0 (refWrap src)
  let v23 : FVec F S1600000 .f32 := (fun x i => Host.gather gather_S100000_S1600000x1_S1600000_n_0_n_n_0_1_1 x i) dinv v22
  let v29 : IVec S1600000x1 32 := broadcastInDim S1600000x1 ![0] bcast_S1600000_S1600000x1_0 (refWrap dst)
  let v30 : FVec F S1600000 .f32 := (fun x i => Host.gather gather_S100000_S1600000x1_S1600000_n_0_n_n_0_1_1 x i) dinv v29
  let v31 : FVec F S1600000 .f32 := mulf v23 v30
  let v32 : FVec F S1600000x1 .f32 := broadcastInDim S1600000x1 ![0] bcast_S1600000_S1600000x1_0 v31
  let v38 : IVec S1600000x1 32 := broadcastInDim S1600000x1 ![0] bcast_S1600000_S1600000x1_0 (refWrap src)
  let v39 : FVec F S1600000x64 .f32 := (fun x i => Host.gather gather_S100000x64_S1600000x1_S1600000x64_1_0_n_n_0_1_164 x i) v16 v38
  let v40 : FVec F S1600000x64 .f32 := broadcastInDim S1600000x64 ![0, 1] bcast_S1600000x1_S1600000x64_0_1 v32
  let v41 : FVec F S1600000x64 .f32 := mulf v39 v40
  let cst_9 : FVec F S_ .f32 := constant S_ .f32 0x00000000#32
  let v42 : FVec F S100000x64 .f32 := broadcastInDim S100000x64 ![] bcast_S_S100000x64 cst_9
  let v43 : IVec S1600000x1 32 := broadcastInDim S1600000x1 ![0] bcast_S1600000_S1600000x1_0 dst
  let v44 : FVec F S100000x64 .f32 := (fun x i u => Host.scatterAdd scatter_S100000x64_S1600000x1_S1600000x64_1_0_0_1 x i u) v42 v43 v41
  let v45 : FVec F S100000 .f32 := mulf dinv dinv
  let v46 : FVec F S100000x1 .f32 := broadcastInDim S100000x1 ![0] bcast_S100000_S100000x1_0 v45
  let v47 : FVec F S100000x64 .f32 := broadcastInDim S100000x64 ![0, 1] bcast_S100000x1_S100000x64_0_1 v46
  let v48 : FVec F S100000x64 .f32 := mulf v47 v16
  let v49 : FVec F S100000x64 .f32 := addf v44 v48
  let v50 : FVec F S1x64 .f32 := broadcastInDim S1x64 ![1] bcast_S64_S1x64_1 b
  let v51 : FVec F S100000x64 .f32 := broadcastInDim S100000x64 ![0, 1] bcast_S1x64_S100000x64_0_1 v50
  let v52 : FVec F S100000x64 .f32 := addf v49 v51
  let rcst : FVec F S_ .f32 := constant S_ .f32 0x00000000#32
  let r0 : FVec F S100000x64 .f32 := broadcastInDim S100000x64 ![] bcast_S_S100000x64 rcst
  maximumf v52 r0

/-- The column means over the 100000 nodes. -/
def refMean (z : FVec F S100000x64 .f32) : FVec F S64 .f32 :=
  let cst_10 : FVec F S_ .f32 := constant S_ .f32 0x00000000#32
  let v54 : FVec F S64 .f32 := (fun x v => Host.reduceAdd x v reducesTo_S100000x64_S64_d0 h_S_) z cst_10
  let cst_11 : FVec F S_ .f32 := constant S_ .f32 0x47C35000#32
  let v55 : FVec F S64 .f32 := broadcastInDim S64 ![] bcast_S_S64 cst_11
  Host.divf v54 v55

/-- The column variances over the nodes, as the mean of the squared deviations from the column mean: the sums divided by
    `100000 − 0` (no degrees of freedom removed), and a not-a-number instead where that divisor is not positive. -/
def refVar (z : FVec F S100000x64 .f32) : FVec F S64 .f32 :=
  let c_12 : IVec S_ 32 := constantI S_ 32 0#32
  let cst : FVec F S_ .f32 := constant S_ .f32 0x00000000#32
  let v0 : FVec F S64 .f32 := (fun x v => Host.reduceAdd x v reducesTo_S100000x64_S64_d0 h_S_) z cst
  let v1 : FVec F S1x64 .f32 := broadcastInDim S1x64 ![1] bcast_S64_S1x64_1 v0
  let cst_0 : FVec F S_ .f32 := constant S_ .f32 0x47C35000#32
  let v2 : FVec F S1x64 .f32 := broadcastInDim S1x64 ![] bcast_S_S1x64 cst_0
  let v3 : FVec F S1x64 .f32 := Host.divf v1 v2
  let v4 : FVec F S100000x64 .f32 := broadcastInDim S100000x64 ![0, 1] bcast_S1x64_S100000x64_0_1 v3
  let v5 : FVec F S100000x64 .f32 := subf z v4
  let v6 : FVec F S100000x64 .f32 := mulf v5 v5
  let v7 : FVec F S_ .f32 := sitofp .f32 c_12
  let cst_1 : FVec F S_ .f32 := constant S_ .f32 0x47C35000#32
  let v8 : FVec F S_ .f32 := subf cst_1 v7
  let cst_2 : FVec F S_ .f32 := constant S_ .f32 0x00000000#32
  let v9 : FVec F S64 .f32 := (fun x v => Host.reduceAdd x v reducesTo_S100000x64_S64_d0 h_S_) v6 cst_2
  let v10 : FVec F S64 .f32 := broadcastInDim S64 ![] bcast_S_S64 v8
  let v11 : FVec F S64 .f32 := Host.divf v9 v10
  let cst_3 : FVec F S_ .f32 := constant S_ .f32 0x00000000#32
  let v12 : IVec S_ 1 := cmpf .ogt v8 cst_3
  let cst_4 : FVec F S_ .f32 := constant S_ .f32 0x7FC00000#32
  let w0 : FVec F S_ .f32 := id cst_4
  let w1 : FVec F S64 .f32 := broadcastInDim S64 ![] bcast_S_S64 w0
  (fun p a b => select (broadcastInDim S64 ![] bcast_S_S64 p) a b) v12 v11 w1

/-- The batch normalisation over the nodes: `γ · (z − mean z) · rsqrt (var z + ε) + β`, column by column. -/
def refBn (z : FVec F S100000x64 .f32) (γ β : FVec F S64 .f32) : FVec F S100000x64 .f32 :=
  let v56 : FVec F S64 .f32 := refMean z
  let v57 : FVec F S64 .f32 := refVar z
  let v58 : FVec F S1x64 .f32 := broadcastInDim S1x64 ![1] bcast_S64_S1x64_1 v56
  let v59 : FVec F S100000x64 .f32 := broadcastInDim S100000x64 ![0, 1] bcast_S1x64_S100000x64_0_1 v58
  let v60 : FVec F S100000x64 .f32 := subf z v59
  let v61 : FVec F S1x64 .f32 := broadcastInDim S1x64 ![1] bcast_S64_S1x64_1 γ
  let v62 : FVec F S100000x64 .f32 := broadcastInDim S100000x64 ![0, 1] bcast_S1x64_S100000x64_0_1 v61
  let v63 : FVec F S100000x64 .f32 := mulf v62 v60
  let cst_13 : FVec F S_ .f32 := constant S_ .f32 0x3727C5AC#32
  let v64 : FVec F S64 .f32 := broadcastInDim S64 ![] bcast_S_S64 cst_13
  let v65 : FVec F S64 .f32 := addf v57 v64
  let v66 : FVec F S64 .f32 := Host.rsqrt v65
  let v67 : FVec F S1x64 .f32 := broadcastInDim S1x64 ![1] bcast_S64_S1x64_1 v66
  let v68 : FVec F S100000x64 .f32 := broadcastInDim S100000x64 ![0, 1] bcast_S1x64_S100000x64_0_1 v67
  let v69 : FVec F S100000x64 .f32 := mulf v63 v68
  let v70 : FVec F S1x64 .f32 := broadcastInDim S1x64 ![1] bcast_S64_S1x64_1 β
  let v71 : FVec F S100000x64 .f32 := broadcastInDim S100000x64 ![0, 1] bcast_S1x64_S100000x64_0_1 v70
  addf v69 v71

/-- One layer: the convolution with its rectifier, then the batch normalisation. -/
def refLayer (x : FVec F S100000x64 .f32) (W : FVec F S64x64 .f32) (b γ β : FVec F S64 .f32)
    (src dst : IVec S1600000 32) (dinv : FVec F S100000 .f32) : FVec F S100000x64 .f32 :=
  refBn (refConv x W b src dst dinv) γ β

/-- The network: three layers over one edge list, each with its own weights, bias, scale and shift. -/
def refNet (a : IVec S2x1600000 32) (x : FVec F S100000x64 .f32)
    (W1 : FVec F S64x64 .f32) (b1 γ1 β1 : FVec F S64 .f32)
    (W2 : FVec F S64x64 .f32) (b2 γ2 β2 : FVec F S64 .f32)
    (W3 : FVec F S64x64 .f32) (b3 γ3 β3 : FVec F S64 .f32) : FVec F S100000x64 .f32 :=
  let src := refSrc a
  let dst := refDst a
  let dinv : FVec F S100000 .f32 := refDinv dst
  let x1 := refLayer x W1 b1 γ1 β1 src dst dinv
  let x2 := refLayer x1 W2 b2 γ2 β2 src dst dinv
  refLayer x2 W3 b3 γ3 β3 src dst dinv

end Cert.Gcn.RefSpec

end
-- ==== Proof.LibVarianceLaw.lean ====
/-
  A general lemma file: the variance law on the extended reals, and the closure facts that let it apply.

  The kernel takes a column's variance as `(∑ h²)/N - ((∑ h)/N)²`; the reference as `(∑ (h - (∑ h)/N)²)/N`. Over the reals
  these are one number: expanding the square, `∑ (h - μ)² = ∑ h² - 2 μ ∑ h + N μ²`, and `∑ h = N μ`. On the extended reals
  the identity FAILS at infinities (`⊤ - ⊤` is junk), so it is stated for columns whose every entry is a real, and the rest
  of this module shows that being a real is kept by the operations that build such a column: sums, products, differences,
  maxima, and a quotient by a real that is at least `1`.
-/
import Idealize.ShloMosaic.PureOps.Ideal

noncomputable section

open scoped BigOperators

namespace Cert.Algebra

open Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The variance identity over the reals, with the division by `N` written as the product with `1/N`. -/
theorem var_real {n : ℕ} (N : ℝ) (hN : N ≠ 0) (hcard : (n : ℝ) = N) (h : Fin n → ℝ) :
    (∑ r, (h r - (∑ r, h r) * (1 / N)) * (h r - (∑ r, h r) * (1 / N))) * (1 / N)
      = (∑ r, h r * h r) * (1 / N) - ((∑ r, h r) * (1 / N)) * ((∑ r, h r) * (1 / N)) := by
  have hexp : ∀ μ : ℝ, (∑ r, (h r - μ) * (h r - μ)) = (∑ r, h r * h r) - 2 * μ * (∑ r, h r) + (n : ℝ) * (μ * μ) := by
    intro μ
    have : ∀ r, (h r - μ) * (h r - μ) = h r * h r - 2 * μ * h r + μ * μ := fun r => by ring
    simp only [this, Finset.sum_add_distrib, Finset.sum_sub_distrib, ← Finset.mul_sum, Finset.sum_const,
      Finset.card_univ, Fintype.card_fin, nsmul_eq_mul]
    ring
  rw [hexp, hcard]
  field_simp
  ring

/-- An array of extended reals every entry of which is a real. -/
def IsReal {ι : Type*} (v : ι → EReal) : Prop := ∀ i, ∃ x : ℝ, v i = (x : EReal)

theorem isReal_sum {ι κ : Type*} (s : Finset κ) (v : ι → κ → EReal) (h : ∀ k, IsReal (fun i => v i k)) :
    IsReal (fun i => ∑ k ∈ s, v i k) := by
  intro i
  choose x hx using fun k => h k i
  exact ⟨∑ k ∈ s, x k, by rw [coe_sum]; exact Finset.sum_congr rfl fun k _ => hx k⟩

theorem exists_real_add {a b : EReal} (ha : ∃ x : ℝ, a = x) (hb : ∃ y : ℝ, b = y) : ∃ z : ℝ, a + b = z := by
  obtain ⟨x, rfl⟩ := ha; obtain ⟨y, rfl⟩ := hb; exact ⟨x + y, (EReal.coe_add x y).symm⟩

theorem exists_real_mul {a b : EReal} (ha : ∃ x : ℝ, a = x) (hb : ∃ y : ℝ, b = y) : ∃ z : ℝ, a * b = z := by
  obtain ⟨x, rfl⟩ := ha; obtain ⟨y, rfl⟩ := hb; exact ⟨x * y, (EReal.coe_mul x y).symm⟩

theorem exists_real_sum {κ : Type*} (s : Finset κ) (v : κ → EReal) (h : ∀ k, ∃ x : ℝ, v k = x) : ∃ z : ℝ, ∑ k ∈ s, v k = z := by
  choose x hx using h
  exact ⟨∑ k ∈ s, x k, by rw [coe_sum]; exact Finset.sum_congr rfl fun k _ => hx k⟩

theorem exists_real_max {a b : EReal} (ha : ∃ x : ℝ, a = x) (hb : ∃ y : ℝ, b = y) : ∃ z : ℝ, max a b = z := by
  obtain ⟨x, rfl⟩ := ha; obtain ⟨y, rfl⟩ := hb
  rcases le_total (x : EReal) (y : EReal) with h | h
  · exact ⟨y, max_eq_right h⟩
  · exact ⟨x, max_eq_left h⟩

/-- A real divided by the larger of a real and `1` is a real: the divisor is a nonzero real. -/
theorem exists_real_div_max_one {a d : EReal} (ha : ∃ x : ℝ, a = x) (hd : ∃ y : ℝ, d = y) :
    ∃ z : ℝ, Ideal.div a (max d ((1 : ℝ) : EReal)) = z := by
  obtain ⟨x, rfl⟩ := ha; obtain ⟨y, rfl⟩ := hd
  have hm : max (y : EReal) ((1 : ℝ) : EReal) = ((max y 1 : ℝ) : EReal) := by
    rcases le_total y 1 with h | h
    · rw [max_eq_right (EReal.coe_le_coe_iff.mpr h), max_eq_right h]
    · rw [max_eq_left (EReal.coe_le_coe_iff.mpr h), max_eq_left h]
  have hne : (max y 1 : ℝ) ≠ 0 := ne_of_gt (lt_of_lt_of_le one_pos (le_max_right y 1))
  rw [hm, Ideal.div_coe hne]
  exact ⟨x * (1 / max y 1), (EReal.coe_mul _ _).symm⟩

/-- THE LAW: for a column of reals, the centred second moment over `N` is the raw second moment over `N` minus the square of
    the mean — with each division the ideal quotient by the real `N ≠ 0`. -/
theorem var_ereal {n : ℕ} (N : ℝ) (hN : N ≠ 0) (hcard : (n : ℝ) = N) (h : Fin n → EReal) (hr : ∀ r, ∃ x : ℝ, h r = x) :
    Ideal.div (∑ r, (h r - Ideal.div (∑ r, h r) (N : EReal)) * (h r - Ideal.div (∑ r, h r) (N : EReal))) (N : EReal)
      = Ideal.div (∑ r, h r * h r) (N : EReal) - Ideal.div (∑ r, h r) (N : EReal) * Ideal.div (∑ r, h r) (N : EReal) := by
  choose x hx using hr
  have hh : h = fun r => (x r : EReal) := funext hx
  subst hh
  simp only [Ideal.div_coe hN, ← coe_sum, ← EReal.coe_mul, ← EReal.coe_sub]
  exact congrArg _ (var_real N hN hcard x)

end Cert.Algebra

end
-- ==== Proof.LibRealValued.lean ====
/-
  Real-valued arrays over the extended reals.

  At the ideal float values every float is an extended real and every float operation the exact one.
  On the extended reals multiplication does not distribute over addition at the infinities, so an
  algebraic rearrangement of a program (moving a matrix product across a weighted sum, say) is only
  sound where every entry involved is a REAL number. This file

  * defines RealV v: every entry of the array v is (the coercion of) a real number;
  * shows that RealV is closed under the operations a host program is built from: pointwise products,
    sums and maxima, any re-indexing (broadcasts, gathers), finite sums, an accumulating scatter, a
    dot_general, the constant arrays 0 and 1, and the reciprocal square root of max 1 z for ANY z;
  * proves the distributive law agg_matmul_comm: a weighted, masked sum over edges followed by a
    scaling and a matrix product equals the matrix product taken first, when all entries are real.
-/
import Idealize.ShloMosaic.PureOps.Ideal.Laws
import Idealize.ShloMosaic.Lib.ValueIdx
import Idealize.ShloMosaic.Lib.Pipeline.Value

namespace Cert.LibRealValued

open Idealize.ShloMosaic

/-! ## Scalars: coercions of sums and conditionals, real witnesses -/

/-- The coercion from the reals to the extended reals commutes with a finite sum. -/
theorem coe_sum {κ : Type*} (s : Finset κ) (g : κ → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The coercion commutes with a conditional. -/
theorem coe_ite (p : Prop) [Decidable p] (x y : ℝ) :
    ((if p then x else y : ℝ) : EReal) = if p then (x : EReal) else (y : EReal) := by
  split_ifs <;> rfl

/-- A product of two reals is real. -/
theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- A sum of two reals is real. -/
theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

/-- The maximum of two reals is real. -/
theorem real_max {x y : EReal} (hx : ∃ r : ℝ, x = r) (hy : ∃ r : ℝ, y = r) : ∃ r : ℝ, max x y = r := by
  rcases le_total x y with h | h
  · rw [max_eq_right h]; exact hy
  · rw [max_eq_left h]; exact hx

/-- A finite sum of reals is real. -/
theorem real_sum {κ : Type*} (s : Finset κ) (g : κ → EReal) (h : ∀ k ∈ s, ∃ r : ℝ, g k = r) :
    ∃ r : ℝ, ∑ k ∈ s, g k = r := by
  classical
  induction s using Finset.induction_on with
  | empty => exact ⟨0, by simp⟩
  | insert a s ha ih =>
    rw [Finset.sum_insert ha]
    exact real_add (h a (Finset.mem_insert_self a s)) (ih fun k hk => h k (Finset.mem_insert_of_mem hk))

/-- The reciprocal square root of an extended real that is at least one is a real number
    (at the top element it is zero; at a real r ≥ 1 it is the inverse of the square root). -/
theorem rsqrt_of_one_le (y : EReal) (h : 1 ≤ y) : ∃ r : ℝ, Ideal.rsqrt y = (r : EReal) := by
  induction y using EReal.rec with
  | bot => exact absurd (le_bot_iff.mp h) (EReal.coe_ne_bot 1)
  | top => exact ⟨0, by simp⟩
  | coe r =>
    have hr : (1 : ℝ) ≤ r := by exact_mod_cast h
    refine ⟨(Real.sqrt r)⁻¹, ?_⟩
    rw [Ideal.rsqrt_coe, if_neg (not_lt.mpr (by linarith)), if_neg (ne_of_gt (by linarith))]

/-- So the reciprocal square root of max 1 z is real for ANY extended real z. -/
theorem rsqrt_max_one (z : EReal) : ∃ r : ℝ, Ideal.rsqrt (max (1 : EReal) z) = (r : EReal) :=
  rsqrt_of_one_le _ (le_max_left _ _)

/-- The f32 pattern of 1.0 denotes the extended real 1. -/
theorem ofBits_one_f32 : Ideal.ofBits .f32 0x3F800000#32 = 1 :=
  IdealRules.sign_bit.ideal_onePat .f32

/-! ## Real-valued arrays -/

/-- Every entry of the array is a real number. -/
def RealV {ι : Type*} (v : ι → EReal) : Prop := ∀ i, ∃ r : ℝ, v i = (r : EReal)

namespace RealV

variable {ι κ : Type*}

/-- Any re-indexing of a real-valued array is real-valued (this covers broadcasts and gathers). -/
theorem comp {v : ι → EReal} (h : RealV v) (f : κ → ι) : RealV (fun i => v (f i)) := fun i => h (f i)

/-- The pointwise product of two real-valued arrays. -/
theorem mul {u v : ι → EReal} (hu : RealV u) (hv : RealV v) : RealV (fun i => u i * v i) :=
  fun i => real_mul (hu i) (hv i)

/-- The pointwise sum of two real-valued arrays. -/
theorem add {u v : ι → EReal} (hu : RealV u) (hv : RealV v) : RealV (fun i => u i + v i) :=
  fun i => real_add (hu i) (hv i)

/-- The pointwise maximum of two real-valued arrays. -/
theorem max {u v : ι → EReal} (hu : RealV u) (hv : RealV v) : RealV (fun i => Max.max (u i) (v i)) :=
  fun i => real_max (hu i) (hv i)

/-- A finite sum of real-valued arrays, over a finite set of summands. -/
theorem sum_finset (s : Finset κ) {f : κ → ι → EReal} (h : ∀ k ∈ s, RealV (f k)) :
    RealV (fun i => ∑ k ∈ s, f k i) :=
  fun i => real_sum s _ fun k hk => h k hk i

/-- A finite sum of real-valued arrays, over a whole finite type. -/
theorem sum [Fintype κ] {f : κ → ι → EReal} (h : ∀ k, RealV (f k)) : RealV (fun i => ∑ k, f k i) :=
  sum_finset _ fun k _ => h k

/-- The sum over the summands that satisfy a (possibly index-dependent) condition. -/
theorem sum_filter [Fintype κ] {f : κ → ι → EReal} (p : ι → κ → Prop) [∀ i, DecidablePred (p i)]
    (h : ∀ k, RealV (f k)) : RealV (fun i => ∑ k ∈ Finset.univ.filter (p i), f k i) :=
  fun i => real_sum _ _ fun k _ => h k i

/-- The same with the condition as a conditional summand. -/
theorem sum_ite [Fintype κ] {f : κ → ι → EReal} (p : ι → κ → Prop) [∀ i, DecidablePred (p i)]
    (h : ∀ k, RealV (f k)) : RealV (fun i => ∑ k, if p i k then f k i else 0) :=
  fun i => real_sum _ _ fun k _ => by
    split_ifs
    · exact h k i
    · exact ⟨0, rfl⟩

/-! ### The same facts in the spelling of the vector operations at the ideal values -/

variable {s t : Shape} {φ : FTy}

/-- A float mulf of two real-valued vectors. -/
theorem mulf {u v : FVec Ideal s φ} (hu : RealV u) (hv : RealV v) : RealV (Idealize.ShloMosaic.mulf u v) :=
  RealV.mul hu hv

/-- A float addf of two real-valued vectors. -/
theorem addf {u v : FVec Ideal s φ} (hu : RealV u) (hv : RealV v) : RealV (Idealize.ShloMosaic.addf u v) :=
  RealV.add hu hv

/-- A float maximumf of two real-valued vectors. -/
theorem maximumf {u v : FVec Ideal s φ} (hu : RealV u) (hv : RealV v) :
    RealV (Idealize.ShloMosaic.maximumf u v) :=
  RealV.max hu hv

/-- A broadcast_in_dim of a real-valued array: a re-indexing. -/
theorem broadcastInDim {dims : Fin s.rank → Fin t.rank} (h : s.BroadcastsInDim t dims) {v : s.Idx → EReal}
    (hv : RealV v) : RealV (Idealize.ShloMosaic.broadcastInDim t dims h v) :=
  fun _ => hv _

/-- A host gather out of a real-valued array: a re-indexing, whatever the start indices are. -/
theorem gather {si : Shape} {w : Nat} (d : GatherDims s si t) {x : s.Idx → EReal} (idx : IVec si w)
    (hx : RealV x) : RealV (Host.gather d x idx) :=
  fun _ => hx _

/-- The constant array of the f32 zero pattern. -/
theorem constant_zero : RealV (constant (F := Ideal) s .f32 0x00000000#32) :=
  fun _ => ⟨0, Ideal.ofBits_zero_f32⟩

/-- The constant array of the f32 pattern of 1.0. -/
theorem constant_one : RealV (constant (F := Ideal) s .f32 0x3F800000#32) :=
  fun _ => ⟨1, ofBits_one_f32⟩

/-- The host's accumulating scatter of real-valued updates into a real-valued operand: each element
    is the operand's plus a finite sum of updates. -/
theorem scatterAdd {si u : Shape} {w : Nat} (d : ScatterDims s si u) {x : FVec Ideal s φ} (idx : IVec si w)
    {upd : FVec Ideal u φ} (hx : RealV x) (hu : RealV upd) : RealV (Host.scatterAdd d x idx upd) :=
  fun i => real_add (hx i) (real_sum _ _ fun j _ => hu j)

/-- The host's dot_general of two real-valued arrays: each element is a finite sum of products. -/
theorem dotGeneral {sl sr so : Shape} {φ₁ φ₂ : FTy} (d : DotDims sl sr so) (prec : Option ContractPrecision)
    {x : FVec Ideal sl φ₁} {y : FVec Ideal sr φ₂} (hx : RealV x) (hy : RealV y) :
    RealV (Host.dotGeneral d prec x y) := fun j => by
  rw [show Host.dotGeneral d prec x y j = _ from Ideal.dotGeneral_apply d prec .single x y j]
  exact real_sum _ _ fun k _ => real_mul (hx _) (hy _)

/-- The host's reciprocal square root of the maximum of an all-ones array and ANY array z
    (z need not be real-valued): real-valued, since the argument is at least one. -/
theorem rsqrt_max_one {c z : FVec Ideal s φ} (hc : ∀ i, c i = 1) :
    RealV (Host.rsqrt (Idealize.ShloMosaic.maximumf c z)) := fun i => by
  show ∃ r : ℝ, Ideal.rsqrt (Max.max (c i) (z i)) = r
  rw [hc i]; exact Cert.LibRealValued.rsqrt_max_one (z i)

/-- The same with the all-ones array spelled as the constant of the f32 pattern of 1.0. -/
theorem rsqrt_max_constant_one {z : FVec Ideal s .f32} :
    RealV (Host.rsqrt (Idealize.ShloMosaic.maximumf (constant s .f32 0x3F800000#32) z)) :=
  rsqrt_max_one fun _ => ofBits_one_f32

end RealV

/-! ## The distributive law -/

section Distrib

variable {E K : Type*} [Fintype E] [Fintype K] {P : E → Prop} [DecidablePred P]

/-- The real-valued core: summing the masked, weighted rows a e over the edges e, scaling by d and then
    contracting with a column Wm is the same as contracting each row first. -/
theorem agg_matmul_comm_real (a : E → K → ℝ) (wv : E → ℝ) (d : ℝ) (Wm : K → ℝ) :
    ∑ k, ((0 + ∑ e, if P e then a e k * wv e else 0) * d) * Wm k
      = (0 + ∑ e, if P e then (∑ k, a e k * Wm k) * wv e else 0) * d := by
  simp only [zero_add, Finset.sum_mul]
  rw [Finset.sum_comm]
  refine Finset.sum_congr rfl fun e _ => ?_
  split_ifs
  · rw [Finset.sum_mul]
    exact Finset.sum_congr rfl fun k _ => by ring
  · simp

/-- The distributive law over the extended reals, for real entries: a masked, weighted sum over the
    edges, scaled by d, then contracted with Wm, equals the sum of the contracted rows. (It fails at
    the infinities, hence the four hypotheses.) -/
theorem agg_matmul_comm (a : E → K → EReal) (wv : E → EReal) (d : EReal) (Wm : K → EReal)
    (ha : ∀ e k, ∃ r : ℝ, a e k = r) (hw : ∀ e, ∃ r : ℝ, wv e = r) (hd : ∃ r : ℝ, d = r)
    (hW : ∀ k, ∃ r : ℝ, Wm k = r) :
    ∑ k, ((0 + ∑ e, if P e then a e k * wv e else 0) * d) * Wm k
      = (0 + ∑ e, if P e then (∑ k, a e k * Wm k) * wv e else 0) * d := by
  choose a' ha' using ha
  choose w' hw' using hw
  obtain ⟨d', rfl⟩ := hd
  choose W' hW' using hW
  have key := congrArg (fun x : ℝ => (x : EReal)) (agg_matmul_comm_real (P := P) a' w' d' W')
  simp only [coe_sum, EReal.coe_mul, EReal.coe_add, EReal.coe_zero, coe_ite] at key
  simp only [ha', hw', hW']
  exact key

/-- The same with the mask as a filter of the set of edges. -/
theorem agg_matmul_comm_filter (a : E → K → EReal) (wv : E → EReal) (d : EReal) (Wm : K → EReal)
    (ha : ∀ e k, ∃ r : ℝ, a e k = r) (hw : ∀ e, ∃ r : ℝ, wv e = r) (hd : ∃ r : ℝ, d = r)
    (hW : ∀ k, ∃ r : ℝ, Wm k = r) :
    ∑ k, ((0 + ∑ e ∈ Finset.univ.filter P, a e k * wv e) * d) * Wm k
      = (0 + ∑ e ∈ Finset.univ.filter P, (∑ k, a e k * Wm k) * wv e) * d := by
  simp only [Finset.sum_filter]
  exact agg_matmul_comm a wv d Wm ha hw hd hW

end Distrib

end Cert.LibRealValued
-- ==== Proof.GcnAlgebra.lean ====
/-
  Two pieces of arithmetic that join the two programs.
  (1) Index wrap-around: on a nonnegative signed word d, "if d < 0 then d + n else d" is d.
  (2) Variance: for a column of REAL numbers z₀ … z_{N-1} with mean μ = (Σ z)/N, the raw form
      max ((Σ z²)/N − μ·μ, 0) equals the centred form (Σ (z − μ)²)/N: the two are equal as real numbers,
      and the centred form is a sum of squares over a positive N, so the clamp at zero does nothing.
-/
import Idealize.ShloMosaic.PureOps.Ideal
import Idealize.ShloMosaic.PureOps.Ideal.Laws
import proofs.«145301_j17463337025613_1_alg».proof.Proof.LibVarianceLaw
import proofs.«145301_j17463337025613_1_alg».proof.Proof.LibRealValued

noncomputable section

namespace Cert.Gcn.Algebra

open Idealize.ShloMosaic Cert.Algebra

/-- A signed word that passes the test "d ≥ 0" fails the test "d < 0". -/
theorem slt_zero_of_sge_zero (d : BitVec 32) (h : IntOp.cmpi .sge d (0#32) = 1#1) : IntOp.cmpi .slt d (0#32) = 0#1 := by
  have h' : BitVec.ofBool ((0#32 : BitVec 32).sle d) = 1#1 := h
  have hb : (0#32 : BitVec 32).sle d = true := by
    cases hc : (0#32 : BitVec 32).sle d with
    | false => rw [hc] at h'; exact absurd h' (by decide)
    | true => rfl
  have h1 : (0 : Int) ≤ d.toInt := by simpa [BitVec.sle] using hb
  have h2 : d.slt (0#32) = false := by
    simp only [BitVec.slt, BitVec.toInt_zero, decide_eq_false_iff_not, not_lt]
    exact h1
  show BitVec.ofBool (d.slt (0#32)) = 0#1
  rw [h2]; rfl

/-- Wrap-around of a negative index is the identity on an array of nonnegative words. -/
theorem wrap_id {s : Shape} (d z n : IVec s 32) (hz : ∀ i, z i = 0#32)
    (h : ∀ i, IntOp.cmpi .sge (d i) (0#32) = 1#1) : select (cmpi .slt d z) (addi d n) d = d := by
  funext i
  show Scalar.select (IntOp.cmpi .slt (d i) (z i)) (IntOp.addi (d i) (n i)) (d i) = d i
  rw [hz i, slt_zero_of_sge_zero (d i) (h i)]
  rfl

/-- The clamp at zero does nothing to the variance of a real column, and the raw form is the centred form. -/
theorem raw_var_eq_centred {n : ℕ} (N : ℝ) (hN : 0 < N) (hcard : (n : ℝ) = N) (h : Fin n → EReal)
    (hr : ∀ r, ∃ x : ℝ, h r = x) :
    max (Ideal.div (∑ r, h r * h r) (N : EReal) - Ideal.div (∑ r, h r) (N : EReal) * Ideal.div (∑ r, h r) (N : EReal)) 0
      = Ideal.div (∑ r, (h r - Ideal.div (∑ r, h r) (N : EReal)) * (h r - Ideal.div (∑ r, h r) (N : EReal))) (N : EReal) := by
  have hN0 : N ≠ 0 := ne_of_gt hN
  rw [← var_ereal N hN0 hcard h hr]
  apply max_eq_left
  choose x hx using hr
  have hh : h = fun r => (x r : EReal) := funext hx
  subst hh
  simp only [Ideal.div_coe hN0, ← coe_sum, ← EReal.coe_mul, ← EReal.coe_sub]
  have : (0 : ℝ) ≤ (∑ r, (x r - (∑ r, x r) * (1 / N)) * (x r - (∑ r, x r) * (1 / N))) * (1 / N) :=
    mul_nonneg (Finset.sum_nonneg fun r _ => mul_self_nonneg _) (by positivity)
  exact_mod_cast this

/-- A degree with its self-loop — zero, plus one per incoming edge, plus one — is at least one. -/
theorem one_le_count_add_one {ι : Type*} (S : Finset ι) : (1 : EReal) ≤ (0 + ∑ _j ∈ S, (1 : EReal)) + 1 := by
  have h0 : (0 : EReal) ≤ ∑ _j ∈ S, (1 : EReal) := Finset.sum_nonneg fun _ _ => zero_le_one
  rw [zero_add]
  exact le_add_of_nonneg_left h0

end Cert.Gcn.Algebra

end
-- ==== Proof.KFoldA.lean ====
/-
  The idealized kernel program's first host stretch read back: from the launch memory it cuts the source and
  destination rows out of the edge list, counts each node's incoming edges (a scatter of ones at the raw
  destination ids), adds the self-loop, and takes the reciprocal square root (dinv) and its square as a column
  (dinv²).  On nonnegative destination ids the raw scatter index is the reference's wrapped one, so dinv is the
  reference's.
-/
import proofs.«145301_j17463337025613_1_alg».proof.Proof.Gen.KernelIdeal.Frame
import proofs.«145301_j17463337025613_1_alg».proof.Proof.Gen.ReferenceIdeal
import proofs.«145301_j17463337025613_1_alg».proof.Proof.RefSpec
import proofs.«145301_j17463337025613_1_alg».proof.Proof.GcnAlgebra
import Idealize.ShloMosaic.PureOps.Ideal

noncomputable section

namespace Cert.KernelIdeal.HandFold

open Cert.KernelIdeal Cert.KernelIdeal.Gen Idealize.ShloMosaic Idealize.ShloMosaic.TcCoe Idealize.SL.Sem
open Idealize.ShloMosaic.StableHlo Cert.Gcn.RefSpec

variable (m : (ℓ : Loc nD τ sig) → Buf (Elt Ideal) ℓ) (ρ : Dev nD → PrngReg) (c : Dev nD)

/-- A buffer that a host stretch does not write keeps its contents. -/
syntax "keep_host " ident : tactic
macro_rules
  | `(tactic| keep_host $ops:ident) => `(tactic|
      exact StableHlo.after_of_forall_not_mem _ _ (List.forall_iff_forall_mem.mp (by
        simp only [$ops:ident, List.Forall, StableHlo.nullary_writes, StableHlo.unary_writes, StableHlo.binary_writes,
          StableHlo.ternary_writes, StableHlo.quaternary_writes, StableHlo.reshape_writes, StableHlo.binaryIndexed_writes,
          Finset.mem_singleton]
        repeat' apply And.intro
        all_goals exact StableHlo.devRef_ne_of_ne (by decide))))

/-- The edge list as launched. -/
abbrev edges : IVec S2x1600000 32 := m ((c.tc : Thread nD τ).loc main_arg0)

theorem s0_src : W1 m ρ c (Proc.devRef .tc main_v1) = refSrc (edges m c) := by
  show StableHlo.after hostOps0 (W0 m ρ c) (Proc.devRef .tc main_v1) = _
  after_results
  rfl

theorem s0_dst : W1 m ρ c (Proc.devRef .tc main_v3) = refDst (edges m c) := by
  show StableHlo.after hostOps0 (W0 m ρ c) (Proc.devRef .tc main_v3) = _
  after_results
  rfl

/-- With every destination id nonnegative, the raw scatter index is the wrapped one. -/
theorem wrap_dst (hd : ∀ i, IntOp.cmpi .sge (refDst (edges m c) i) (0#32) = 1#1) :
    refWrap (refDst (edges m c)) = refDst (edges m c) :=
  Cert.Gcn.Algebra.wrap_id _ _ _ (fun _ => rfl) hd

theorem s0_dinv (hd : ∀ i, IntOp.cmpi .sge (refDst (edges m c) i) (0#32) = 1#1) :
    W1 m ρ c (Proc.devRef .tc main_v10) = refDinv (F := Ideal) (refDst (edges m c)) := by
  show StableHlo.after hostOps0 (W0 m ρ c) (Proc.devRef .tc main_v10) = _
  after_results
  unfold refDinv
  rw [wrap_dst m c hd]
  rfl

theorem s0_dinv2 (hd : ∀ i, IntOp.cmpi .sge (refDst (edges m c) i) (0#32) = 1#1) :
    W1 m ρ c (Proc.devRef .tc main_v12)
      = shapeCast S100000x1 (mulf (refDinv (F := Ideal) (refDst (edges m c))) (refDinv (F := Ideal) (refDst (edges m c))))
          shapeCasts_S100000_S100000x1 := by
  show StableHlo.after hostOps0 (W0 m ρ c) (Proc.devRef .tc main_v12) = _
  after_results
  unfold refDinv
  rw [wrap_dst m c hd]
  rfl

theorem s0_arg1 : W1 m ρ c (Proc.devRef .tc main_arg1) = m ((c.tc : Thread nD τ).loc main_arg1) := by
  show StableHlo.after hostOps0 (W0 m ρ c) (Proc.devRef .tc main_arg1) = _
  keep_host hostOps0

theorem s0_arg3 : W1 m ρ c (Proc.devRef .tc main_arg3) = m ((c.tc : Thread nD τ).loc main_arg3) := by
  show StableHlo.after hostOps0 (W0 m ρ c) (Proc.devRef .tc main_arg3) = _
  keep_host hostOps0

end Cert.KernelIdeal.HandFold

end
-- ==== Proof.KStretch1.lean ====
/-
  Layer 1 of the idealized kernel program: what its three host stretches (the gathers and edge weights; the
  scatter of the messages and the bias row; the means, raw variances and the scale/shift rows) leave in their
  result buffers, as functions of the contents they start from.
-/
import proofs.«145301_j17463337025613_1_alg».proof.Proof.Gen.KernelIdeal.Frame
import proofs.«145301_j17463337025613_1_alg».proof.Proof.Gen.ReferenceIdeal
import proofs.«145301_j17463337025613_1_alg».proof.Proof.RefSpec
import Idealize.ShloMosaic.PureOps.Ideal

noncomputable section

namespace Cert.KernelIdeal.HandFold

open Cert.KernelIdeal Cert.KernelIdeal.Gen Idealize.ShloMosaic Idealize.ShloMosaic.TcCoe Idealize.SL.Sem
open Idealize.ShloMosaic.StableHlo Cert.Gcn.RefSpec

/-! ## Layer 1: the host stretches between its regions, read back at any incoming contents `V` -/

/-- The gathered rows of h at the wrapped source ids. -/
theorem st0_hsrc (V : Valuation τ sig (Elt Ideal)) :
    StableHlo.after hostOps1 V (Proc.devRef .tc main_v20)
      = Host.gather gather_S100000x64_S1600000x1_S1600000x64_1_0_n_n_0_1_164 (V (Proc.devRef .tc main_v13))
          (broadcastInDim S1600000x1 ![0] bcast_S1600000_S1600000x1_0 (refWrap (V (Proc.devRef .tc main_v1)))) := by
  after_results_simp <;> rfl

/-- The edge weights dinv[src]·dinv[dst], as a column. -/
theorem st0_norm (V : Valuation τ sig (Elt Ideal)) :
    @Eq (FVec Ideal S1600000x1 .f32) (StableHlo.after hostOps1 V (Proc.devRef .tc main_v36)) <|
        shapeCast S1600000x1
          (mulf (Host.gather gather_S100000_S1600000x1_S1600000_n_0_n_n_0_1_1 (V (Proc.devRef .tc main_v10))
                  (broadcastInDim S1600000x1 ![0] bcast_S1600000_S1600000x1_0 (refWrap (V (Proc.devRef .tc main_v1)))))
                (Host.gather gather_S100000_S1600000x1_S1600000_n_0_n_n_0_1_1 (V (Proc.devRef .tc main_v10))
                  (broadcastInDim S1600000x1 ![0] bcast_S1600000_S1600000x1_0 (refWrap (V (Proc.devRef .tc main_v3))))))
          shapeCasts_S1600000_S1600000x1 := by
  after_results_simp <;> rfl

/-- The messages summed into their destination rows. -/
theorem st0_agg (V : Valuation τ sig (Elt Ideal)) :
    @Eq (FVec Ideal S100000x64 .f32) (StableHlo.after hostOps2 V (Proc.devRef .tc main_v40)) <|
        Host.scatterAdd scatter_S100000x64_S1600000x1_S1600000x64_1_0_0_1
          (broadcastInDim S100000x64 ![] bcast_S_S100000x64 (constant S_ .f32 0x00000000#32))
          (broadcastInDim S1600000x1 ![0] bcast_S1600000_S1600000x1_0 (V (Proc.devRef .tc main_v3)))
          (V (Proc.devRef .tc main_v37)) := by
  after_results <;> rfl

/-- The bias as a row. -/
theorem st0_bias (V : Valuation τ sig (Elt Ideal)) :
    StableHlo.after hostOps2 V (Proc.devRef .tc main_v41)
      = shapeCast S1x64 (V (Proc.devRef .tc main_arg4)) shapeCasts_S64_S1x64 := by
  after_results <;> rfl

/-- The column means: the column sums over 100000. -/
theorem st0_mean (V : Valuation τ sig (Elt Ideal)) :
    @Eq (FVec Ideal S1x64 .f32) (StableHlo.after hostOps3 V (Proc.devRef .tc main_v44)) <|
        Host.divf (V (Proc.devRef .tc main_v42_1)) (broadcastInDim S1x64 ![] bcast_S_S1x64 (constant S_ .f32 0x47C35000#32)) := by
  after_results <;> rfl

/-- The raw variances, clamped at zero: the sums of squares over 100000 minus the squared means. -/
theorem st0_var (V : Valuation τ sig (Elt Ideal)) :
    @Eq (FVec Ideal S1x64 .f32) (StableHlo.after hostOps3 V (Proc.devRef .tc main_v50)) <|
        maximumf
          (subf (Host.divf (V (Proc.devRef .tc main_v42_2)) (broadcastInDim S1x64 ![] bcast_S_S1x64 (constant S_ .f32 0x47C35000#32)))
                (mulf (Host.divf (V (Proc.devRef .tc main_v42_1)) (broadcastInDim S1x64 ![] bcast_S_S1x64 (constant S_ .f32 0x47C35000#32)))
                      (Host.divf (V (Proc.devRef .tc main_v42_1)) (broadcastInDim S1x64 ![] bcast_S_S1x64 (constant S_ .f32 0x47C35000#32)))))
          (broadcastInDim S1x64 ![] bcast_S_S1x64 (constant S_ .f32 0x00000000#32)) := by
  after_results <;> rfl

/-- The scale and the shift as rows. -/
theorem st0_gamma (V : Valuation τ sig (Elt Ideal)) :
    StableHlo.after hostOps3 V (Proc.devRef .tc main_v51)
      = shapeCast S1x64 (V (Proc.devRef .tc main_arg5)) shapeCasts_S64_S1x64 := by
  after_results <;> rfl

theorem st0_beta (V : Valuation τ sig (Elt Ideal)) :
    StableHlo.after hostOps3 V (Proc.devRef .tc main_v52)
      = shapeCast S1x64 (V (Proc.devRef .tc main_arg6)) shapeCasts_S64_S1x64 := by
  after_results <;> rfl

end Cert.KernelIdeal.HandFold

end
-- ==== Proof.KKeepP.lean ====
/-
  Which buffers the segments of the idealized kernel program leave alone: a buffer that a host stretch does not
  write, and that is no array of a region (or is only an INPUT array of it), holds after the segment what it held
  before.  Chained over consecutive segments this carries the long-lived values (the two rows of the edge list, the
  degrees' reciprocal square roots and their squares, the layer's matmul result, the parameters) from where they are
  made to where they are read.
-/
import proofs.«145301_j17463337025613_1_alg».proof.Proof.KFoldA

noncomputable section

namespace Cert.KernelIdeal.HandFold

open Cert.KernelIdeal Cert.KernelIdeal.Gen Idealize.ShloMosaic Idealize.ShloMosaic.TcCoe Idealize.SL.Sem
open Idealize.ShloMosaic.StableHlo Cert.Gcn.RefSpec

variable (m : (ℓ : Loc nD τ sig) → Buf (Elt Ideal) ℓ) (ρ : Dev nD → PrngReg) (c : Dev nD)

theorem keep_v1_16 : W16 m ρ c (Proc.devRef .tc main_v1) = W15 m ρ c (Proc.devRef .tc main_v1) := W16_of_ne m ρ c main_v1 (by decide)
theorem keep_v1_15 : W15 m ρ c (Proc.devRef .tc main_v1) = W14 m ρ c (Proc.devRef .tc main_v1) := W15_of_ne m ρ c main_v1 (by decide)
theorem keep_v1_14 : W14 m ρ c (Proc.devRef .tc main_v1) = W13 m ρ c (Proc.devRef .tc main_v1) := by
  show StableHlo.after hostOps7 (W13 m ρ c) (Proc.devRef .tc main_v1) = _
  keep_host hostOps7
theorem keep_v1_13 : W13 m ρ c (Proc.devRef .tc main_v1) = W12 m ρ c (Proc.devRef .tc main_v1) := W13_of_ne m ρ c main_v1 (by decide)
theorem keep_v1_12 : W12 m ρ c (Proc.devRef .tc main_v1) = W11 m ρ c (Proc.devRef .tc main_v1) := by
  show StableHlo.after hostOps6 (W11 m ρ c) (Proc.devRef .tc main_v1) = _
  keep_host hostOps6
theorem keep_v1_11 : W11 m ρ c (Proc.devRef .tc main_v1) = W10 m ρ c (Proc.devRef .tc main_v1) := W11_of_ne m ρ c main_v1 (by decide)
theorem keep_v1_10 : W10 m ρ c (Proc.devRef .tc main_v1) = W9 m ρ c (Proc.devRef .tc main_v1) := by
  show StableHlo.after hostOps5 (W9 m ρ c) (Proc.devRef .tc main_v1) = _
  keep_host hostOps5
/-- `main_v1` is written by none of the segments 10–16. -/
theorem walk_v1_16_9 : W16 m ρ c (Proc.devRef .tc main_v1) = W9 m ρ c (Proc.devRef .tc main_v1) :=
  (keep_v1_16 m ρ c).trans ((keep_v1_15 m ρ c).trans ((keep_v1_14 m ρ c).trans ((keep_v1_13 m ρ c).trans ((keep_v1_12 m ρ c).trans ((keep_v1_11 m ρ c).trans (keep_v1_10 m ρ c))))))

theorem keep_v1_9 : W9 m ρ c (Proc.devRef .tc main_v1) = W8 m ρ c (Proc.devRef .tc main_v1) := W9_of_ne m ρ c main_v1 (by decide)
theorem keep_v1_8 : W8 m ρ c (Proc.devRef .tc main_v1) = W7 m ρ c (Proc.devRef .tc main_v1) := W8_of_ne m ρ c main_v1 (by decide)
theorem keep_v1_7 : W7 m ρ c (Proc.devRef .tc main_v1) = W6 m ρ c (Proc.devRef .tc main_v1) := by
  show StableHlo.after hostOps3 (W6 m ρ c) (Proc.devRef .tc main_v1) = _
  keep_host hostOps3
theorem keep_v1_6 : W6 m ρ c (Proc.devRef .tc main_v1) = W5 m ρ c (Proc.devRef .tc main_v1) := W6_of_ne m ρ c main_v1 (by decide)
theorem keep_v1_5 : W5 m ρ c (Proc.devRef .tc main_v1) = W4 m ρ c (Proc.devRef .tc main_v1) := by
  show StableHlo.after hostOps2 (W4 m ρ c) (Proc.devRef .tc main_v1) = _
  keep_host hostOps2
theorem keep_v1_4 : W4 m ρ c (Proc.devRef .tc main_v1) = W3 m ρ c (Proc.devRef .tc main_v1) := W4_of_ne m ρ c main_v1 (by decide)
theorem keep_v1_3 : W3 m ρ c (Proc.devRef .tc main_v1) = W2 m ρ c (Proc.devRef .tc main_v1) := by
  show StableHlo.after hostOps1 (W2 m ρ c) (Proc.devRef .tc main_v1) = _
  keep_host hostOps1
/-- `main_v1` is written by none of the segments 3–9. -/
theorem walk_v1_9_2 : W9 m ρ c (Proc.devRef .tc main_v1) = W2 m ρ c (Proc.devRef .tc main_v1) :=
  (keep_v1_9 m ρ c).trans ((keep_v1_8 m ρ c).trans ((keep_v1_7 m ρ c).trans ((keep_v1_6 m ρ c).trans ((keep_v1_5 m ρ c).trans ((keep_v1_4 m ρ c).trans (keep_v1_3 m ρ c))))))

theorem keep_v1_2 : W2 m ρ c (Proc.devRef .tc main_v1) = W1 m ρ c (Proc.devRef .tc main_v1) := W2_of_ne m ρ c main_v1 (by decide)
/-- `main_v1` is written by none of the segments 2–2. -/
theorem walk_v1_2_1 : W2 m ρ c (Proc.devRef .tc main_v1) = W1 m ρ c (Proc.devRef .tc main_v1) :=
  keep_v1_2 m ρ c

theorem keep_v10_16 : W16 m ρ c (Proc.devRef .tc main_v10) = W15 m ρ c (Proc.devRef .tc main_v10) := W16_of_ne m ρ c main_v10 (by decide)
theorem keep_v10_15 : W15 m ρ c (Proc.devRef .tc main_v10) = W14 m ρ c (Proc.devRef .tc main_v10) := W15_of_ne m ρ c main_v10 (by decide)
theorem keep_v10_14 : W14 m ρ c (Proc.devRef .tc main_v10) = W13 m ρ c (Proc.devRef .tc main_v10) := by
  show StableHlo.after hostOps7 (W13 m ρ c) (Proc.devRef .tc main_v10) = _
  keep_host hostOps7
theorem keep_v10_13 : W13 m ρ c (Proc.devRef .tc main_v10) = W12 m ρ c (Proc.devRef .tc main_v10) := W13_of_ne m ρ c main_v10 (by decide)
theorem keep_v10_12 : W12 m ρ c (Proc.devRef .tc main_v10) = W11 m ρ c (Proc.devRef .tc main_v10) := by
  show StableHlo.after hostOps6 (W11 m ρ c) (Proc.devRef .tc main_v10) = _
  keep_host hostOps6
theorem keep_v10_11 : W11 m ρ c (Proc.devRef .tc main_v10) = W10 m ρ c (Proc.devRef .tc main_v10) := W11_of_ne m ρ c main_v10 (by decide)
theorem keep_v10_10 : W10 m ρ c (Proc.devRef .tc main_v10) = W9 m ρ c (Proc.devRef .tc main_v10) := by
  show StableHlo.after hostOps5 (W9 m ρ c) (Proc.devRef .tc main_v10) = _
  keep_host hostOps5
/-- `main_v10` is written by none of the segments 10–16. -/
theorem walk_v10_16_9 : W16 m ρ c (Proc.devRef .tc main_v10) = W9 m ρ c (Proc.devRef .tc main_v10) :=
  (keep_v10_16 m ρ c).trans ((keep_v10_15 m ρ c).trans ((keep_v10_14 m ρ c).trans ((keep_v10_13 m ρ c).trans ((keep_v10_12 m ρ c).trans ((keep_v10_11 m ρ c).trans (keep_v10_10 m ρ c))))))

theorem keep_v10_9 : W9 m ρ c (Proc.devRef .tc main_v10) = W8 m ρ c (Proc.devRef .tc main_v10) := W9_of_ne m ρ c main_v10 (by decide)
theorem keep_v10_8 : W8 m ρ c (Proc.devRef .tc main_v10) = W7 m ρ c (Proc.devRef .tc main_v10) := W8_of_ne m ρ c main_v10 (by decide)
theorem keep_v10_7 : W7 m ρ c (Proc.devRef .tc main_v10) = W6 m ρ c (Proc.devRef .tc main_v10) := by
  show StableHlo.after hostOps3 (W6 m ρ c) (Proc.devRef .tc main_v10) = _
  keep_host hostOps3
theorem keep_v10_6 : W6 m ρ c (Proc.devRef .tc main_v10) = W5 m ρ c (Proc.devRef .tc main_v10) := W6_of_ne m ρ c main_v10 (by decide)
theorem keep_v10_5 : W5 m ρ c (Proc.devRef .tc main_v10) = W4 m ρ c (Proc.devRef .tc main_v10) := by
  show StableHlo.after hostOps2 (W4 m ρ c) (Proc.devRef .tc main_v10) = _
  keep_host hostOps2
theorem keep_v10_4 : W4 m ρ c (Proc.devRef .tc main_v10) = W3 m ρ c (Proc.devRef .tc main_v10) := W4_of_ne m ρ c main_v10 (by decide)
theorem keep_v10_3 : W3 m ρ c (Proc.devRef .tc main_v10) = W2 m ρ c (Proc.devRef .tc main_v10) := by
  show StableHlo.after hostOps1 (W2 m ρ c) (Proc.devRef .tc main_v10) = _
  keep_host hostOps1
/-- `main_v10` is written by none of the segments 3–9. -/
theorem walk_v10_9_2 : W9 m ρ c (Proc.devRef .tc main_v10) = W2 m ρ c (Proc.devRef .tc main_v10) :=
  (keep_v10_9 m ρ c).trans ((keep_v10_8 m ρ c).trans ((keep_v10_7 m ρ c).trans ((keep_v10_6 m ρ c).trans ((keep_v10_5 m ρ c).trans ((keep_v10_4 m ρ c).trans (keep_v10_3 m ρ c))))))

theorem keep_v10_2 : W2 m ρ c (Proc.devRef .tc main_v10) = W1 m ρ c (Proc.devRef .tc main_v10) := W2_of_ne m ρ c main_v10 (by decide)
/-- `main_v10` is written by none of the segments 2–2. -/
theorem walk_v10_2_1 : W2 m ρ c (Proc.devRef .tc main_v10) = W1 m ρ c (Proc.devRef .tc main_v10) :=
  keep_v10_2 m ρ c

theorem keep_v3_18 : W18 m ρ c (Proc.devRef .tc main_v3) = W17 m ρ c (Proc.devRef .tc main_v3) := W18_of_ne m ρ c main_v3 (by decide)
theorem keep_v3_17 : W17 m ρ c (Proc.devRef .tc main_v3) = W16 m ρ c (Proc.devRef .tc main_v3) := by
  show StableHlo.after hostOps9 (W16 m ρ c) (Proc.devRef .tc main_v3) = _
  keep_host hostOps9
/-- `main_v3` is written by none of the segments 17–18. -/
theorem walk_v3_18_16 : W18 m ρ c (Proc.devRef .tc main_v3) = W16 m ρ c (Proc.devRef .tc main_v3) :=
  (keep_v3_18 m ρ c).trans (keep_v3_17 m ρ c)

theorem keep_v3_16 : W16 m ρ c (Proc.devRef .tc main_v3) = W15 m ρ c (Proc.devRef .tc main_v3) := W16_of_ne m ρ c main_v3 (by decide)
theorem keep_v3_15 : W15 m ρ c (Proc.devRef .tc main_v3) = W14 m ρ c (Proc.devRef .tc main_v3) := W15_of_ne m ρ c main_v3 (by decide)
theorem keep_v3_14 : W14 m ρ c (Proc.devRef .tc main_v3) = W13 m ρ c (Proc.devRef .tc main_v3) := by
  show StableHlo.after hostOps7 (W13 m ρ c) (Proc.devRef .tc main_v3) = _
  keep_host hostOps7
theorem keep_v3_13 : W13 m ρ c (Proc.devRef .tc main_v3) = W12 m ρ c (Proc.devRef .tc main_v3) := W13_of_ne m ρ c main_v3 (by decide)
theorem keep_v3_12 : W12 m ρ c (Proc.devRef .tc main_v3) = W11 m ρ c (Proc.devRef .tc main_v3) := by
  show StableHlo.after hostOps6 (W11 m ρ c) (Proc.devRef .tc main_v3) = _
  keep_host hostOps6
/-- `main_v3` is written by none of the segments 12–16. -/
theorem walk_v3_16_11 : W16 m ρ c (Proc.devRef .tc main_v3) = W11 m ρ c (Proc.devRef .tc main_v3) :=
  (keep_v3_16 m ρ c).trans ((keep_v3_15 m ρ c).trans ((keep_v3_14 m ρ c).trans ((keep_v3_13 m ρ c).trans (keep_v3_12 m ρ c))))

theorem keep_v3_11 : W11 m ρ c (Proc.devRef .tc main_v3) = W10 m ρ c (Proc.devRef .tc main_v3) := W11_of_ne m ρ c main_v3 (by decide)
theorem keep_v3_10 : W10 m ρ c (Proc.devRef .tc main_v3) = W9 m ρ c (Proc.devRef .tc main_v3) := by
  show StableHlo.after hostOps5 (W9 m ρ c) (Proc.devRef .tc main_v3) = _
  keep_host hostOps5
/-- `main_v3` is written by none of the segments 10–11. -/
theorem walk_v3_11_9 : W11 m ρ c (Proc.devRef .tc main_v3) = W9 m ρ c (Proc.devRef .tc main_v3) :=
  (keep_v3_11 m ρ c).trans (keep_v3_10 m ρ c)

theorem keep_v3_9 : W9 m ρ c (Proc.devRef .tc main_v3) = W8 m ρ c (Proc.devRef .tc main_v3) := W9_of_ne m ρ c main_v3 (by decide)
theorem keep_v3_8 : W8 m ρ c (Proc.devRef .tc main_v3) = W7 m ρ c (Proc.devRef .tc main_v3) := W8_of_ne m ρ c main_v3 (by decide)
theorem keep_v3_7 : W7 m ρ c (Proc.devRef .tc main_v3) = W6 m ρ c (Proc.devRef .tc main_v3) := by
  show StableHlo.after hostOps3 (W6 m ρ c) (Proc.devRef .tc main_v3) = _
  keep_host hostOps3
theorem keep_v3_6 : W6 m ρ c (Proc.devRef .tc main_v3) = W5 m ρ c (Proc.devRef .tc main_v3) := W6_of_ne m ρ c main_v3 (by decide)
theorem keep_v3_5 : W5 m ρ c (Proc.devRef .tc main_v3) = W4 m ρ c (Proc.devRef .tc main_v3) := by
  show StableHlo.after hostOps2 (W4 m ρ c) (Proc.devRef .tc main_v3) = _
  keep_host hostOps2
/-- `main_v3` is written by none of the segments 5–9. -/
theorem walk_v3_9_4 : W9 m ρ c (Proc.devRef .tc main_v3) = W4 m ρ c (Proc.devRef .tc main_v3) :=
  (keep_v3_9 m ρ c).trans ((keep_v3_8 m ρ c).trans ((keep_v3_7 m ρ c).trans ((keep_v3_6 m ρ c).trans (keep_v3_5 m ρ c))))

theorem keep_v3_4 : W4 m ρ c (Proc.devRef .tc main_v3) = W3 m ρ c (Proc.devRef .tc main_v3) := W4_of_ne m ρ c main_v3 (by decide)
theorem keep_v3_3 : W3 m ρ c (Proc.devRef .tc main_v3) = W2 m ρ c (Proc.devRef .tc main_v3) := by
  show StableHlo.after hostOps1 (W2 m ρ c) (Proc.devRef .tc main_v3) = _
  keep_host hostOps1
/-- `main_v3` is written by none of the segments 3–4. -/
theorem walk_v3_4_2 : W4 m ρ c (Proc.devRef .tc main_v3) = W2 m ρ c (Proc.devRef .tc main_v3) :=
  (keep_v3_4 m ρ c).trans (keep_v3_3 m ρ c)

theorem keep_v3_2 : W2 m ρ c (Proc.devRef .tc main_v3) = W1 m ρ c (Proc.devRef .tc main_v3) := W2_of_ne m ρ c main_v3 (by decide)
/-- `main_v3` is written by none of the segments 2–2. -/
theorem walk_v3_2_1 : W2 m ρ c (Proc.devRef .tc main_v3) = W1 m ρ c (Proc.devRef .tc main_v3) :=
  keep_v3_2 m ρ c

theorem keep_v12_19 : W19 m ρ c (Proc.devRef .tc main_v12) = W18 m ρ c (Proc.devRef .tc main_v12) := by
  show StableHlo.after hostOps10 (W18 m ρ c) (Proc.devRef .tc main_v12) = _
  keep_host hostOps10
theorem keep_v12_18 : W18 m ρ c (Proc.devRef .tc main_v12) = W17 m ρ c (Proc.devRef .tc main_v12) := W18_of_ne m ρ c main_v12 (by decide)
theorem keep_v12_17 : W17 m ρ c (Proc.devRef .tc main_v12) = W16 m ρ c (Proc.devRef .tc main_v12) := by
  show StableHlo.after hostOps9 (W16 m ρ c) (Proc.devRef .tc main_v12) = _
  keep_host hostOps9
theorem keep_v12_16 : W16 m ρ c (Proc.devRef .tc main_v12) = W15 m ρ c (Proc.devRef .tc main_v12) := W16_of_ne m ρ c main_v12 (by decide)
theorem keep_v12_15 : W15 m ρ c (Proc.devRef .tc main_v12) = W14 m ρ c (Proc.devRef .tc main_v12) := W15_of_ne m ρ c main_v12 (by decide)
theorem keep_v12_14 : W14 m ρ c (Proc.devRef .tc main_v12) = W13 m ρ c (Proc.devRef .tc main_v12) := by
  show StableHlo.after hostOps7 (W13 m ρ c) (Proc.devRef .tc main_v12) = _
  keep_host hostOps7
theorem keep_v12_13 : W13 m ρ c (Proc.devRef .tc main_v12) = W12 m ρ c (Proc.devRef .tc main_v12) := (W13_arr m ρ c 2).trans (((dat6 (V12 m ρ) c).arrAt_in 2 rfl _).trans (A_eq6 (V12 m ρ) c 2))
/-- `main_v12` is written by none of the segments 13–19. -/
theorem walk_v12_19_12 : W19 m ρ c (Proc.devRef .tc main_v12) = W12 m ρ c (Proc.devRef .tc main_v12) :=
  (keep_v12_19 m ρ c).trans ((keep_v12_18 m ρ c).trans ((keep_v12_17 m ρ c).trans ((keep_v12_16 m ρ c).trans ((keep_v12_15 m ρ c).trans ((keep_v12_14 m ρ c).trans (keep_v12_13 m ρ c))))))

theorem keep_v12_12 : W12 m ρ c (Proc.devRef .tc main_v12) = W11 m ρ c (Proc.devRef .tc main_v12) := by
  show StableHlo.after hostOps6 (W11 m ρ c) (Proc.devRef .tc main_v12) = _
  keep_host hostOps6
theorem keep_v12_11 : W11 m ρ c (Proc.devRef .tc main_v12) = W10 m ρ c (Proc.devRef .tc main_v12) := W11_of_ne m ρ c main_v12 (by decide)
theorem keep_v12_10 : W10 m ρ c (Proc.devRef .tc main_v12) = W9 m ρ c (Proc.devRef .tc main_v12) := by
  show StableHlo.after hostOps5 (W9 m ρ c) (Proc.devRef .tc main_v12) = _
  keep_host hostOps5
theorem keep_v12_9 : W9 m ρ c (Proc.devRef .tc main_v12) = W8 m ρ c (Proc.devRef .tc main_v12) := W9_of_ne m ρ c main_v12 (by decide)
theorem keep_v12_8 : W8 m ρ c (Proc.devRef .tc main_v12) = W7 m ρ c (Proc.devRef .tc main_v12) := W8_of_ne m ρ c main_v12 (by decide)
theorem keep_v12_7 : W7 m ρ c (Proc.devRef .tc main_v12) = W6 m ρ c (Proc.devRef .tc main_v12) := by
  show StableHlo.after hostOps3 (W6 m ρ c) (Proc.devRef .tc main_v12) = _
  keep_host hostOps3
theorem keep_v12_6 : W6 m ρ c (Proc.devRef .tc main_v12) = W5 m ρ c (Proc.devRef .tc main_v12) := (W6_arr m ρ c 2).trans (((dat2 (V5 m ρ) c).arrAt_in 2 rfl _).trans (A_eq2 (V5 m ρ) c 2))
/-- `main_v12` is written by none of the segments 6–12. -/
theorem walk_v12_12_5 : W12 m ρ c (Proc.devRef .tc main_v12) = W5 m ρ c (Proc.devRef .tc main_v12) :=
  (keep_v12_12 m ρ c).trans ((keep_v12_11 m ρ c).trans ((keep_v12_10 m ρ c).trans ((keep_v12_9 m ρ c).trans ((keep_v12_8 m ρ c).trans ((keep_v12_7 m ρ c).trans (keep_v12_6 m ρ c))))))

theorem keep_v12_5 : W5 m ρ c (Proc.devRef .tc main_v12) = W4 m ρ c (Proc.devRef .tc main_v12) := by
  show StableHlo.after hostOps2 (W4 m ρ c) (Proc.devRef .tc main_v12) = _
  keep_host hostOps2
theorem keep_v12_4 : W4 m ρ c (Proc.devRef .tc main_v12) = W3 m ρ c (Proc.devRef .tc main_v12) := W4_of_ne m ρ c main_v12 (by decide)
theorem keep_v12_3 : W3 m ρ c (Proc.devRef .tc main_v12) = W2 m ρ c (Proc.devRef .tc main_v12) := by
  show StableHlo.after hostOps1 (W2 m ρ c) (Proc.devRef .tc main_v12) = _
  keep_host hostOps1
theorem keep_v12_2 : W2 m ρ c (Proc.devRef .tc main_v12) = W1 m ρ c (Proc.devRef .tc main_v12) := W2_of_ne m ρ c main_v12 (by decide)
/-- `main_v12` is written by none of the segments 2–5. -/
theorem walk_v12_5_1 : W5 m ρ c (Proc.devRef .tc main_v12) = W1 m ρ c (Proc.devRef .tc main_v12) :=
  (keep_v12_5 m ρ c).trans ((keep_v12_4 m ρ c).trans ((keep_v12_3 m ρ c).trans (keep_v12_2 m ρ c)))

end Cert.KernelIdeal.HandFold

end
-- ==== Proof.KKeepP2.lean ====
/-
  The long-lived values at the stages where they are read: the two rows of the edge list, the degrees' reciprocal
  square roots and their squared column hold, at every later stage, what the first host stretch left.
-/
import proofs.«145301_j17463337025613_1_alg».proof.Proof.KKeepP

noncomputable section

namespace Cert.KernelIdeal.HandFold

open Cert.KernelIdeal Cert.KernelIdeal.Gen Idealize.ShloMosaic Idealize.ShloMosaic.TcCoe Idealize.SL.Sem
open Idealize.ShloMosaic.StableHlo Cert.Gcn.RefSpec

variable (m : (ℓ : Loc nD τ sig) → Buf (Elt Ideal) ℓ) (ρ : Dev nD → PrngReg) (c : Dev nD)

theorem pers_v1_2 : W2 m ρ c (Proc.devRef .tc main_v1) = W1 m ρ c (Proc.devRef .tc main_v1) :=
  walk_v1_2_1 m ρ c

theorem pers_v1_9 : W9 m ρ c (Proc.devRef .tc main_v1) = W1 m ρ c (Proc.devRef .tc main_v1) :=
  (walk_v1_9_2 m ρ c).trans (pers_v1_2 m ρ c)

theorem pers_v1_16 : W16 m ρ c (Proc.devRef .tc main_v1) = W1 m ρ c (Proc.devRef .tc main_v1) :=
  (walk_v1_16_9 m ρ c).trans (pers_v1_9 m ρ c)

theorem pers_v10_2 : W2 m ρ c (Proc.devRef .tc main_v10) = W1 m ρ c (Proc.devRef .tc main_v10) :=
  walk_v10_2_1 m ρ c

theorem pers_v10_9 : W9 m ρ c (Proc.devRef .tc main_v10) = W1 m ρ c (Proc.devRef .tc main_v10) :=
  (walk_v10_9_2 m ρ c).trans (pers_v10_2 m ρ c)

theorem pers_v10_16 : W16 m ρ c (Proc.devRef .tc main_v10) = W1 m ρ c (Proc.devRef .tc main_v10) :=
  (walk_v10_16_9 m ρ c).trans (pers_v10_9 m ρ c)

theorem pers_v3_2 : W2 m ρ c (Proc.devRef .tc main_v3) = W1 m ρ c (Proc.devRef .tc main_v3) :=
  walk_v3_2_1 m ρ c

theorem pers_v3_4 : W4 m ρ c (Proc.devRef .tc main_v3) = W1 m ρ c (Proc.devRef .tc main_v3) :=
  (walk_v3_4_2 m ρ c).trans (pers_v3_2 m ρ c)

theorem pers_v3_9 : W9 m ρ c (Proc.devRef .tc main_v3) = W1 m ρ c (Proc.devRef .tc main_v3) :=
  (walk_v3_9_4 m ρ c).trans (pers_v3_4 m ρ c)

theorem pers_v3_11 : W11 m ρ c (Proc.devRef .tc main_v3) = W1 m ρ c (Proc.devRef .tc main_v3) :=
  (walk_v3_11_9 m ρ c).trans (pers_v3_9 m ρ c)

theorem pers_v3_16 : W16 m ρ c (Proc.devRef .tc main_v3) = W1 m ρ c (Proc.devRef .tc main_v3) :=
  (walk_v3_16_11 m ρ c).trans (pers_v3_11 m ρ c)

theorem pers_v3_18 : W18 m ρ c (Proc.devRef .tc main_v3) = W1 m ρ c (Proc.devRef .tc main_v3) :=
  (walk_v3_18_16 m ρ c).trans (pers_v3_16 m ρ c)

theorem pers_v12_5 : W5 m ρ c (Proc.devRef .tc main_v12) = W1 m ρ c (Proc.devRef .tc main_v12) :=
  walk_v12_5_1 m ρ c

theorem pers_v12_12 : W12 m ρ c (Proc.devRef .tc main_v12) = W1 m ρ c (Proc.devRef .tc main_v12) :=
  (walk_v12_12_5 m ρ c).trans (pers_v12_5 m ρ c)

theorem pers_v12_19 : W19 m ρ c (Proc.devRef .tc main_v12) = W1 m ρ c (Proc.devRef .tc main_v12) :=
  (walk_v12_19_12 m ρ c).trans (pers_v12_12 m ρ c)

end Cert.KernelIdeal.HandFold

end
-- ==== Proof.KKeepA1.lean ====
/-
  Which buffers the segments of the idealized kernel program leave alone: a buffer that a host stretch does not
  write, and that is no array of a region (or is only an INPUT array of it), holds after the segment what it held
  before.  Chained over consecutive segments this carries the long-lived values (the two rows of the edge list, the
  degrees' reciprocal square roots and their squares, the layer's matmul result, the parameters) from where they are
  made to where they are read.
-/
import proofs.«145301_j17463337025613_1_alg».proof.Proof.KFoldA

noncomputable section

namespace Cert.KernelIdeal.HandFold

open Cert.KernelIdeal Cert.KernelIdeal.Gen Idealize.ShloMosaic Idealize.ShloMosaic.TcCoe Idealize.SL.Sem
open Idealize.ShloMosaic.StableHlo Cert.Gcn.RefSpec

variable (m : (ℓ : Loc nD τ sig) → Buf (Elt Ideal) ℓ) (ρ : Dev nD → PrngReg) (c : Dev nD)

theorem keep_arg3_1 : W1 m ρ c (Proc.devRef .tc main_arg3) = W0 m ρ c (Proc.devRef .tc main_arg3) := by
  show StableHlo.after hostOps0 (W0 m ρ c) (Proc.devRef .tc main_arg3) = _
  keep_host hostOps0
/-- `main_arg3` is written by none of the segments 1–1. -/
theorem walk_arg3_1_0 : W1 m ρ c (Proc.devRef .tc main_arg3) = W0 m ρ c (Proc.devRef .tc main_arg3) :=
  keep_arg3_1 m ρ c

theorem keep_arg4_4 : W4 m ρ c (Proc.devRef .tc main_arg4) = W3 m ρ c (Proc.devRef .tc main_arg4) := W4_of_ne m ρ c main_arg4 (by decide)
theorem keep_arg4_3 : W3 m ρ c (Proc.devRef .tc main_arg4) = W2 m ρ c (Proc.devRef .tc main_arg4) := by
  show StableHlo.after hostOps1 (W2 m ρ c) (Proc.devRef .tc main_arg4) = _
  keep_host hostOps1
theorem keep_arg4_2 : W2 m ρ c (Proc.devRef .tc main_arg4) = W1 m ρ c (Proc.devRef .tc main_arg4) := W2_of_ne m ρ c main_arg4 (by decide)
theorem keep_arg4_1 : W1 m ρ c (Proc.devRef .tc main_arg4) = W0 m ρ c (Proc.devRef .tc main_arg4) := by
  show StableHlo.after hostOps0 (W0 m ρ c) (Proc.devRef .tc main_arg4) = _
  keep_host hostOps0
/-- `main_arg4` is written by none of the segments 1–4. -/
theorem walk_arg4_4_0 : W4 m ρ c (Proc.devRef .tc main_arg4) = W0 m ρ c (Proc.devRef .tc main_arg4) :=
  (keep_arg4_4 m ρ c).trans ((keep_arg4_3 m ρ c).trans ((keep_arg4_2 m ρ c).trans (keep_arg4_1 m ρ c)))

theorem keep_arg5_6 : W6 m ρ c (Proc.devRef .tc main_arg5) = W5 m ρ c (Proc.devRef .tc main_arg5) := W6_of_ne m ρ c main_arg5 (by decide)
theorem keep_arg5_5 : W5 m ρ c (Proc.devRef .tc main_arg5) = W4 m ρ c (Proc.devRef .tc main_arg5) := by
  show StableHlo.after hostOps2 (W4 m ρ c) (Proc.devRef .tc main_arg5) = _
  keep_host hostOps2
theorem keep_arg5_4 : W4 m ρ c (Proc.devRef .tc main_arg5) = W3 m ρ c (Proc.devRef .tc main_arg5) := W4_of_ne m ρ c main_arg5 (by decide)
theorem keep_arg5_3 : W3 m ρ c (Proc.devRef .tc main_arg5) = W2 m ρ c (Proc.devRef .tc main_arg5) := by
  show StableHlo.after hostOps1 (W2 m ρ c) (Proc.devRef .tc main_arg5) = _
  keep_host hostOps1
theorem keep_arg5_2 : W2 m ρ c (Proc.devRef .tc main_arg5) = W1 m ρ c (Proc.devRef .tc main_arg5) := W2_of_ne m ρ c main_arg5 (by decide)
theorem keep_arg5_1 : W1 m ρ c (Proc.devRef .tc main_arg5) = W0 m ρ c (Proc.devRef .tc main_arg5) := by
  show StableHlo.after hostOps0 (W0 m ρ c) (Proc.devRef .tc main_arg5) = _
  keep_host hostOps0
/-- `main_arg5` is written by none of the segments 1–6. -/
theorem walk_arg5_6_0 : W6 m ρ c (Proc.devRef .tc main_arg5) = W0 m ρ c (Proc.devRef .tc main_arg5) :=
  (keep_arg5_6 m ρ c).trans ((keep_arg5_5 m ρ c).trans ((keep_arg5_4 m ρ c).trans ((keep_arg5_3 m ρ c).trans ((keep_arg5_2 m ρ c).trans (keep_arg5_1 m ρ c)))))

theorem keep_arg6_6 : W6 m ρ c (Proc.devRef .tc main_arg6) = W5 m ρ c (Proc.devRef .tc main_arg6) := W6_of_ne m ρ c main_arg6 (by decide)
theorem keep_arg6_5 : W5 m ρ c (Proc.devRef .tc main_arg6) = W4 m ρ c (Proc.devRef .tc main_arg6) := by
  show StableHlo.after hostOps2 (W4 m ρ c) (Proc.devRef .tc main_arg6) = _
  keep_host hostOps2
theorem keep_arg6_4 : W4 m ρ c (Proc.devRef .tc main_arg6) = W3 m ρ c (Proc.devRef .tc main_arg6) := W4_of_ne m ρ c main_arg6 (by decide)
theorem keep_arg6_3 : W3 m ρ c (Proc.devRef .tc main_arg6) = W2 m ρ c (Proc.devRef .tc main_arg6) := by
  show StableHlo.after hostOps1 (W2 m ρ c) (Proc.devRef .tc main_arg6) = _
  keep_host hostOps1
theorem keep_arg6_2 : W2 m ρ c (Proc.devRef .tc main_arg6) = W1 m ρ c (Proc.devRef .tc main_arg6) := W2_of_ne m ρ c main_arg6 (by decide)
theorem keep_arg6_1 : W1 m ρ c (Proc.devRef .tc main_arg6) = W0 m ρ c (Proc.devRef .tc main_arg6) := by
  show StableHlo.after hostOps0 (W0 m ρ c) (Proc.devRef .tc main_arg6) = _
  keep_host hostOps0
/-- `main_arg6` is written by none of the segments 1–6. -/
theorem walk_arg6_6_0 : W6 m ρ c (Proc.devRef .tc main_arg6) = W0 m ρ c (Proc.devRef .tc main_arg6) :=
  (keep_arg6_6 m ρ c).trans ((keep_arg6_5 m ρ c).trans ((keep_arg6_4 m ρ c).trans ((keep_arg6_3 m ρ c).trans ((keep_arg6_2 m ρ c).trans (keep_arg6_1 m ρ c)))))

theorem keep_v13_5 : W5 m ρ c (Proc.devRef .tc main_v13) = W4 m ρ c (Proc.devRef .tc main_v13) := by
  show StableHlo.after hostOps2 (W4 m ρ c) (Proc.devRef .tc main_v13) = _
  keep_host hostOps2
theorem keep_v13_4 : W4 m ρ c (Proc.devRef .tc main_v13) = W3 m ρ c (Proc.devRef .tc main_v13) := W4_of_ne m ρ c main_v13 (by decide)
theorem keep_v13_3 : W3 m ρ c (Proc.devRef .tc main_v13) = W2 m ρ c (Proc.devRef .tc main_v13) := by
  show StableHlo.after hostOps1 (W2 m ρ c) (Proc.devRef .tc main_v13) = _
  keep_host hostOps1
/-- `main_v13` is written by none of the segments 3–5. -/
theorem walk_v13_5_2 : W5 m ρ c (Proc.devRef .tc main_v13) = W2 m ρ c (Proc.devRef .tc main_v13) :=
  (keep_v13_5 m ρ c).trans ((keep_v13_4 m ρ c).trans (keep_v13_3 m ρ c))

theorem keep_v42_0_7 : W7 m ρ c (Proc.devRef .tc main_v42_0) = W6 m ρ c (Proc.devRef .tc main_v42_0) := by
  show StableHlo.after hostOps3 (W6 m ρ c) (Proc.devRef .tc main_v42_0) = _
  keep_host hostOps3
/-- `main_v42_0` is written by none of the segments 7–7. -/
theorem walk_v42_0_7_6 : W7 m ρ c (Proc.devRef .tc main_v42_0) = W6 m ρ c (Proc.devRef .tc main_v42_0) :=
  keep_v42_0_7 m ρ c

end Cert.KernelIdeal.HandFold

end
-- ==== Proof.RegionDefs.lean ====
/- The three entrywise stages of a graph-convolution layer, stated once as functions of whole arrays over the
   extended reals, index by index, with literal shapes. A layer has 100000 nodes, 1600000 edges and 64 features.
   (1) The dense product of the node features A (100000 × 64) with the weights W (64 × 64): entry (r, q) is the sum over
   k of A(r, k)·W(k, q). (2) The edge messages: the feature row gathered for edge e, scaled by that edge's
   normalisation weight (a 1600000 × 1 column). (3) The normalisation over the nodes: for column q with mean m, variance
   v, scale g and shift b (each a 1 × 64 row), entry (r, q) of z goes to g·(z − m)·rsqrt(v + ε) + b, ε the
   single-precision word 0x3727C5AC (about 1e-5), kept as that word. Also here: a column vector broadcast across the
   columns of a matrix, read at an entry. -/
import proofs.«145301_j17463337025613_1_alg».proof.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Idealize.ShloMosaic Idealize.ShloMosaic.ValueIdx

/-- The offsets (0, 0), however they are spelt, are the zero function. -/
theorem offsetsZero2 : (![0, 0] : Fin 2 → Nat) = fun _ => 0 := funext fun a => by fin_cases a <;> rfl

/-- A column vector broadcast across the columns of a matrix reads, at (p, c), the vector's entry p. -/
theorem colBroadcast_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (r, q) of the product of a 100000 × 64 matrix with a 64 × 64 matrix. -/
def prodAt (A : S100000x64.Idx → EReal) (W : S64x64.Idx → EReal) (r : Fin 100000) (q : Fin 64) : EReal :=
  ∑ k : Fin 64, A (ix2 r k) * W (ix2 k q)

/-- The product as an array: its entry at an index is the entry at the index's two coordinates. -/
def prodArr (A : S100000x64.Idx → EReal) (W : S64x64.Idx → EReal) : S100000x64.Idx → EReal :=
  fun i => prodAt A W (i 0) (i 1)

/-- Entry (e, q) of the edge messages: the gathered feature times the edge's weight. -/
def msgAt (H : S1600000x64.Idx → EReal) (Nrm : S1600000x1.Idx → EReal) (e : Fin 1600000) (q : Fin 64) : EReal :=
  H (ix2 e q) * Nrm (ix2 e (0 : Fin 1))

/-- The edge messages as an array. -/
def msgArr (H : S1600000x64.Idx → EReal) (Nrm : S1600000x1.Idx → EReal) : S1600000x64.Idx → EReal :=
  fun i => msgAt H Nrm (i 0) (i 1)

/-- Entry (r, q) of the normalised activations: scale·(z − mean)·rsqrt(variance + ε) + shift, column by column. -/
def bnAt (Z : S100000x64.Idx → EReal) (M Vr G B : S1x64.Idx → EReal) (r : Fin 100000) (q : Fin 64) : EReal :=
  G (ix2 (0 : Fin 1) q) * (Z (ix2 r q) - M (ix2 (0 : Fin 1) q))
      * Ideal.rsqrt (Vr (ix2 (0 : Fin 1) q) + Ideal.ofBits .f32 0x3727C5AC#32) + B (ix2 (0 : Fin 1) q)

/-- The normalised activations as an array. -/
def bnArr (Z : S100000x64.Idx → EReal) (M Vr G B : S1x64.Idx → EReal) : S100000x64.Idx → EReal :=
  fun i => bnAt Z M Vr G B (i 0) (i 1)

end Cert.KernelIdeal.HandValue

end
-- ==== Proof.StatsSum.lean ====
/-
  Pure algebra behind the column statistics of a relu'd affine map, over the extended reals.

  For arrays agg, h of shape [100000, 64], a column dinv2 of shape [100000, 1] and a row b of shape [1, 64],
  the entry Z(r, q) = max (agg(r,q) + dinv2(r,0) * h(r,q) + b(0,q)) 0 is named once, and this file proves
  the index facts a row-blocked evaluation of its column sums needs:
    * a column [a, 1] broadcast along the lanes to [a, b] reads, at (r, q), the column at (r, 0);
    * a sum-reduction of an [a, b] array along axis 0, at lane q, is the sum over the rows k of the entry (k, q);
    * a sum over n·m consecutive naturals is the sum over n consecutive blocks of the sums over m naturals each
      (regrouping only: addition on the extended reals is a commutative monoid, so no finiteness is involved);
    * the sum of a function of the naturals below n is the sum over Fin n.
-/
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandValue

open Idealize.ShloMosaic Idealize.ShloMosaic.ValueIdx

/-! ## The entry and its column sums -/

/-- The relu'd affine entry at row r, lane q:  max (agg(r,q) + dinv2(r,0) * h(r,q) + b(0,q)) 0,
    the sum associated to the left and the zero spelled as the f32 word of +0.0. -/
def Zat (agg h : (⟨2, ![100000, 64]⟩ : Shape).Idx → Ideal .f32) (dinv2 : (⟨2, ![100000, 1]⟩ : Shape).Idx → Ideal .f32)
    (b : (⟨2, ![1, 64]⟩ : Shape).Idx → Ideal .f32) (r : Fin 100000) (q : Fin 64) : Ideal .f32 :=
  max (agg (ix2 r q) + dinv2 (ix2 r (0 : Fin 1)) * h (ix2 r q) + b (ix2 (0 : Fin 1) q)) (Ideal.ofBits .f32 0x00000000#32)

/-- The whole [100000, 64] array of entries. -/
def Zarr (agg h : (⟨2, ![100000, 64]⟩ : Shape).Idx → Ideal .f32) (dinv2 : (⟨2, ![100000, 1]⟩ : Shape).Idx → Ideal .f32)
    (b : (⟨2, ![1, 64]⟩ : Shape).Idx → Ideal .f32) : (⟨2, ![100000, 64]⟩ : Shape).Idx → Ideal .f32 :=
  fun i => Zat agg h dinv2 b (i 0) (i 1)

theorem Zarr_ix2 (agg h : (⟨2, ![100000, 64]⟩ : Shape).Idx → Ideal .f32) (dinv2 : (⟨2, ![100000, 1]⟩ : Shape).Idx → Ideal .f32)
    (b : (⟨2, ![1, 64]⟩ : Shape).Idx → Ideal .f32) (r : Fin 100000) (q : Fin 64) :
    Zarr agg h dinv2 b (ix2 r q) = Zat agg h dinv2 b r q := rfl

/-- The column sums of the entries, as a [1, 64] array. -/
def Zsum (agg h : (⟨2, ![100000, 64]⟩ : Shape).Idx → Ideal .f32) (dinv2 : (⟨2, ![100000, 1]⟩ : Shape).Idx → Ideal .f32)
    (b : (⟨2, ![1, 64]⟩ : Shape).Idx → Ideal .f32) : (⟨2, ![1, 64]⟩ : Shape).Idx → Ideal .f32 :=
  fun j => ∑ r : Fin 100000, Zat agg h dinv2 b r (j 1)

/-- The column sums of the squared entries, as a [1, 64] array. -/
def Zsumsq (agg h : (⟨2, ![100000, 64]⟩ : Shape).Idx → Ideal .f32) (dinv2 : (⟨2, ![100000, 1]⟩ : Shape).Idx → Ideal .f32)
    (b : (⟨2, ![1, 64]⟩ : Shape).Idx → Ideal .f32) : (⟨2, ![1, 64]⟩ : Shape).Idx → Ideal .f32 :=
  fun j => ∑ r : Fin 100000, Zat agg h dinv2 b r (j 1) * Zat agg h dinv2 b r (j 1)

/-! ## Layout facts -/

variable {α : Type}

/-- An [a, 1] column broadcast to [a, b] reads, at (r, q), the column at (r, 0). -/
theorem broadcastTo_a1_ab_apply {a b : ℕ} (v : (⟨2, ![a, 1]⟩ : Shape).Idx → α) (h : (⟨2, ![a, 1]⟩ : Shape).Broadcasts ⟨2, ![a, b]⟩)
    (r : Fin a) (q : Fin b) : broadcastTo ⟨2, ![a, b]⟩ v h (ix2 r q) = v (ix2 r (0 : Fin 1)) := by
  refine broadcastTo_apply v h (ix2 r q) (ix2 r (0 : Fin 1)) fun ax => ?_
  match ax with
  | ⟨0, _⟩ =>
    show r.val = if a = 1 then 0 else r.val
    split
    · have := r.isLt; omega
    · rfl
  | ⟨1, _⟩ => rfl

/-- Over the lane q of a [b] array, the index with row k inserted on axis 0 is (k, q). -/
theorem lift_rows {a b : ℕ} (h : (⟨2, ![a, b]⟩ : Shape).Reduces [(0 : Fin 2)] ⟨1, ![b]⟩) (q : Fin b) (k : Fin a) :
    h.lift (ix1 q) k = ix2 k q := by
  funext c
  apply Fin.ext
  show h.liftVal (ix1 q) k.val c = _
  match c with
  | ⟨0, _⟩ => rfl
  | ⟨1, _⟩ => rfl

/-- A float sum-reduction of an [a, b] array along axis 0, read at lane q over the extended reals: the sum over the rows. -/
theorem multiReduction_add_rows {a b : ℕ} {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ)
    (q : Fin b) :
    multiReduction .add [(0 : Fin 2)] ⟨1, ![b]⟩ src acc h hφ hacc (ix1 q) = ∑ k : Fin a, src (ix2 k q) := by
  refine (Ideal.multiReduction_add_single src acc h hφ hacc (ix1 q)).trans ?_
  exact Finset.sum_congr rfl fun k _ => congrArg src (lift_rows h q k)

/-! ## Regrouping sums -/

variable {M : Type*} [AddCommMonoid M]

/-- A sum over the naturals below m·(n+1) splits off its last block of m. -/
theorem sum_range_succ_block (g : ℕ → M) (m n : ℕ) :
    ∑ s ∈ Finset.range (m * (n + 1)), g s = ∑ s ∈ Finset.range (m * n), g s + ∑ k : Fin m, g (m * n + k.val) := by
  rw [Nat.mul_succ, Finset.sum_range_add]
  exact congrArg _ (Finset.sum_range fun x => g (m * n + x))

/-- A function of the rows, extended by zero to all naturals. -/
def extend0 {N : ℕ} (f : Fin N → M) : ℕ → M := fun s => if hs : s < N then f ⟨s, hs⟩ else 0

theorem extend0_of_lt {N : ℕ} (f : Fin N → M) (s : ℕ) (hs : s < N) : extend0 f s = f ⟨s, hs⟩ := dif_pos hs

/-- The sum over all rows is the sum of the extension over the naturals below the number of rows. -/
theorem sum_univ_eq_range_extend0 {N : ℕ} (f : Fin N → M) : ∑ r : Fin N, f r = ∑ s ∈ Finset.range N, extend0 f s := by
  rw [Finset.sum_range]
  exact Finset.sum_congr rfl fun r _ => (extend0_of_lt f r.val r.isLt).symm

end Cert.KernelIdeal.HandValue

end
-- ==== Proof.KTerms.lean ====
/-
  One layer of the idealized kernel program as whole-array terms, stage by stage: the matmul region's product
  h = x·W; the rows of h gathered at the (wrapped) source ids and the edge weights dinv[src]·dinv[dst] as a column;
  the message region's row-by-weight products; their scatter-sum into destination rows and the bias as a row; the
  statistics region's z = max(agg + dinv²·h + b, 0) with its column sums of z and z²; the means and clamped raw
  variances; the batch-norm region's γ·(z − mean)·rsqrt(var + ε) + β.  `kLayer` is their composition.
-/
import proofs.«145301_j17463337025613_1_alg».proof.Proof.RegionDefs
import proofs.«145301_j17463337025613_1_alg».proof.Proof.StatsSum
import proofs.«145301_j17463337025613_1_alg».proof.Proof.Gen.ReferenceIdeal
import proofs.«145301_j17463337025613_1_alg».proof.Proof.Gen.KernelIdeal
import proofs.«145301_j17463337025613_1_alg».proof.Proof.RefSpec
import Idealize.ShloMosaic.PureOps.Ideal

noncomputable section

namespace Cert.KernelIdeal.HandFold

open Cert.KernelIdeal Cert.KernelIdeal.Facts₀ Cert.KernelIdeal.Facts Idealize.ShloMosaic Cert.Gcn.RefSpec Cert.KernelIdeal.HandValue

abbrev tHS (H : FVec Ideal S100000x64 .f32) (src : IVec S1600000 32) : FVec Ideal S1600000x64 .f32 :=
  Host.gather gather_S100000x64_S1600000x1_S1600000x64_1_0_n_n_0_1_164 H
    (broadcastInDim S1600000x1 ![0] bcast_S1600000_S1600000x1_0 (refWrap src))

abbrev tG (dinv : FVec Ideal S100000 .f32) (d : IVec S1600000 32) : FVec Ideal S1600000 .f32 :=
  Host.gather gather_S100000_S1600000x1_S1600000_n_0_n_n_0_1_1 dinv
    (broadcastInDim S1600000x1 ![0] bcast_S1600000_S1600000x1_0 (refWrap d))

abbrev tNR (dinv : FVec Ideal S100000 .f32) (src dst : IVec S1600000 32) : FVec Ideal S1600000x1 .f32 :=
  shapeCast S1600000x1 (mulf (tG dinv src) (tG dinv dst)) shapeCasts_S1600000_S1600000x1

abbrev tA (dst : IVec S1600000 32) (M : FVec Ideal S1600000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst) M

abbrev tRow (v : FVec Ideal S64 .f32) : FVec Ideal S1x64 .f32 := shapeCast S1x64 v shapeCasts_S64_S1x64

abbrev tD2 (dinv : FVec Ideal S100000 .f32) : FVec Ideal S100000x1 .f32 :=
  shapeCast S100000x1 (mulf dinv dinv) shapeCasts_S100000_S100000x1

abbrev tMean (S : FVec Ideal S1x64 .f32) : FVec Ideal S1x64 .f32 :=
  Host.divf S (broadcastInDim S1x64 ![] bcast_S_S1x64 (constant S_ .f32 0x47C35000#32))

abbrev tVar (S SS : FVec Ideal S1x64 .f32) : FVec Ideal S1x64 .f32 :=
  maximumf
    (subf (Host.divf SS (broadcastInDim S1x64 ![] bcast_S_S1x64 (constant S_ .f32 0x47C35000#32))) (mulf (tMean S) (tMean S)))
    (broadcastInDim S1x64 ![] bcast_S_S1x64 (constant S_ .f32 0x00000000#32))

/-- One layer of the kernel program, from its input features to its batch-normalised output. -/
def kLayer (X : FVec Ideal S100000x64 .f32) (W : FVec Ideal S64x64 .f32) (b γ β : FVec Ideal S64 .f32)
    (src dst : IVec S1600000 32) (dinv : FVec Ideal S100000 .f32) : FVec Ideal S100000x64 .f32 :=
  let H := prodArr X W
  let M := msgArr (tHS H src) (tNR dinv src dst)
  let A := tA dst M
  let Z := Zarr A H (tD2 dinv) (tRow b)
  let S := Zsum A H (tD2 dinv) (tRow b)
  let SS := Zsumsq A H (tD2 dinv) (tRow b)
  bnArr Z (tMean S) (tVar S SS) (tRow γ) (tRow β)

end Cert.KernelIdeal.HandFold

end
-- ==== Proof.RegionMatmul.lean ====
/- The dense product stage of graph-convolution layer 1. The node features form a 100000 × 64 matrix A and the
   layer's weights a 64 × 64 matrix W; the stage computes A·W in twenty row blocks of 5000 rows, each block the product
   of the corresponding 5000 rows of A with the whole of W. Over the extended reals the change of float format before
   the product is the identity and the product accumulates into zero, so entry (r, q) of a block is the plain sum over
   k of A(r, k)·W(k, q). Proved here: the array the stage leaves is the whole product, entry by entry, whatever the
   two operand arrays hold when the stage is entered. -/
import proofs.«145301_j17463337025613_1_alg».proof.Proof.Gen.KernelIdeal.Frame
import proofs.«145301_j17463337025613_1_alg».proof.Proof.RegionDefs

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- One block's product at an entry: the sum over the contracted coordinate of the products of the entries. -/
theorem blockProd0_apply (x0 : Vec Ideal S5000x64 .f32) (x1 : Vec Ideal S64x64 .f32) (p : Fin 5000) (q : Fin 64) :
    k0_pay1 x0 x1 (ix2 p q) = ∑ k : Fin 64, x0 (ix2 p k) * x1 (ix2 k q) := by
  unfold k0_pay1
  try simp only [shapeCast_self]
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have c2 := contrEquiv1_symm_val dot_S5000x64_S64x64_S5000x64_1_0_0_1_n_n 64 rfl rfl k
  have l2 : (dot_S5000x64_S64x64_S5000x64_1_0_0_1_n_n).lhsIdx (ix2 p q) ((contrEquiv1 _ 64 rfl rfl).symm k) = ix2 p k := by
    funext ax; apply Fin.ext
    match ax with
    | ⟨0, _⟩ => simp [DotDims.lhsIdx, dot_S5000x64_S64x64_S5000x64_1_0_0_1_n_n]; rfl
    | ⟨1, _⟩ => simp [DotDims.lhsIdx, dot_S5000x64_S64x64_S5000x64_1_0_0_1_n_n]; exact c2
  have r2 : (dot_S5000x64_S64x64_S5000x64_1_0_0_1_n_n).rhsIdx (ix2 p q) ((contrEquiv1 _ 64 rfl rfl).symm k) = ix2 k q := by
    funext ax; apply Fin.ext
    match ax with
    | ⟨0, _⟩ => simp [DotDims.rhsIdx, dot_S5000x64_S64x64_S5000x64_1_0_0_1_n_n]; exact c2
    | ⟨1, _⟩ => simp [DotDims.rhsIdx, dot_S5000x64_S64x64_S5000x64_1_0_0_1_n_n]; rfl
  rw [l2, r2]
  rfl

/-- Where the windows' blocks sit, decided once over the twenty grid points: the two row-blocked windows (the feature
    matrix and the result) are at block row t, column block 0; the weight window is always the whole matrix. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole product of the two operand arrays. -/
theorem flushed0_eq (c : Dev nD) (t : Fin cfg0.N) :
    (dat0 (F := Ideal) V c).flushed 2 t
      = ((cfg0.win 2).blk t).view.read (Elt Ideal) (prodArr (V c (Pipeline.arrRef spec0 0)) (V c (Pipeline.arrRef spec0 1))) := by
  show (cfg0.win 2).cut (grid0.coords t) ((dat0 V c).after 2 t) = _
  rw [after0_2]
  unfold out0_2
  rw [View.canon_unit_zero offsetsZero2]
  simp only [View.ld_unit_zero (S := S5000x64) offsetsZero2, View.ld_unit_zero (S := S64x64) offsetsZero2]
  obtain ⟨e0, e1, e2, e3, e4, e5⟩ := blockIndex0 t
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
    = prodArr (V c (Pipeline.arrRef spec0 0)) (V c (Pipeline.arrRef spec0 1)) (((cfg0.win 2).blk t).view.emb (ix2 p q))
  refine (blockProd0_apply _ _ p q).trans ?_
  unfold prodArr prodAt
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  exact congrArg₂ (fun a b : EReal => a * b) (congrArg (V c (Pipeline.arrRef spec0 0)) h0) (congrArg (V c (Pipeline.arrRef spec0 1)) h1)

/-- An index of the result array lies in point t's block iff each coordinate lies in the block's range on its axis. -/
theorem mem_block0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v13).slice (win0_2.rect t)).set ↔ _
  rw [View.set_slice_whole, Rect.mem_set_unit]
  exact Iff.rfl

/-- The twenty row blocks cover the result array: row r lies in block r / 5000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨e0, e1, e2, e3, e4, e5⟩ := blockIndex0 ⟨(i 0).val / 5000, ht⟩
  refine ⟨⟨(i 0).val / 5000, ht⟩, flush0_2 _, ?_⟩
  rw [mem_block0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- The array the stage leaves is the product of the two operand arrays it found: at index i, with r and q the two
    coordinates of i, the sum over k of A(r, k)·W(k, q), A the array of window 0 and W the array of window 1. -/
theorem final0 (c : Dev nD) :
    (dat0 (F := Ideal) V c).arrAt 2 cfg0.N
      = prodArr (V c (Pipeline.arrRef spec0 0)) (V c (Pipeline.arrRef spec0 1)) :=
  (dat0 (F := Ideal) V c).arrAt_eq_of_cover 2 _ (fun t _ => flushed0_eq V c t) cover0

end Cert.KernelIdeal.HandValue

end
-- ==== Proof.RegionMessage.lean ====
/- The edge-message stage of graph-convolution layer 1. For each of the 1600000 edges the feature row gathered at the
   edge's source (a row of a 1600000 × 64 array H) is scaled by the edge's normalisation weight (a 1600000 × 1 column
   Nrm): entry (e, q) is H(e, q)·Nrm(e, 0). The stage works in two hundred blocks of 8000 edges; within a block the
   weight column is broadcast across the 64 features and multiplied entry by entry. Proved here: the array the stage
   leaves is that product at every entry, whatever the two operand arrays hold when the stage is entered. -/
import proofs.«145301_j17463337025613_1_alg».proof.Proof.Gen.KernelIdeal.Frame
import proofs.«145301_j17463337025613_1_alg».proof.Proof.RegionDefs

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- One block of messages at an entry: the gathered feature times the edge's weight. -/
theorem blockMsg1_apply (x0 : Vec Ideal S8000x64 .f32) (x1 : Vec Ideal S8000x1 .f32) (p : Fin 8000) (q : Fin 64) :
    k1_pay1 x0 x1 (ix2 p q) = x0 (ix2 p q) * x1 (ix2 p (0 : Fin 1)) := by
  unfold k1_pay1
  simp only [shapeCast_self]
  refine (mulf_apply _ _ (ix2 p q)).trans ?_
  exact congrArg (x0 (ix2 p q) * ·) (colBroadcast_apply x1 broadcasts_S8000x1_S8000x64 p q)

/-- Where the windows' blocks sit, decided once over the two hundred grid points: all three windows are at block
    row t, column block 0. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What grid point t writes back is block t of the whole array of messages. -/
theorem flushed1_eq (c : Dev nD) (t : Fin cfg1.N) :
    (dat1 (F := Ideal) V c).flushed 2 t
      = ((cfg1.win 2).blk t).view.read (Elt Ideal) (msgArr (V c (Pipeline.arrRef spec1 0)) (V c (Pipeline.arrRef spec1 1))) := by
  show (cfg1.win 2).cut (grid1.coords t) ((dat1 V c).after 2 t) = _
  rw [after1_2]
  unfold out1_2
  rw [View.canon_unit_zero offsetsZero2]
  simp only [View.ld_unit_zero (S := S8000x64) offsetsZero2, View.ld_unit_zero (S := S8000x1) offsetsZero2]
  obtain ⟨e0, e1, e2, e3, e4, e5⟩ := blockIndex1 t
  funext j
  obtain ⟨p, q, rfl⟩ : ∃ (p : Fin 8000) (q : Fin 64), j = ix2 p q := ⟨j 0, j 1, eq_ix2 j⟩
  show k1_pay1 (iblk1 V c 0 t) (iblk1 V c 1 t) (ix2 p q)
    = msgArr (V c (Pipeline.arrRef spec1 0)) (V c (Pipeline.arrRef spec1 1)) (((cfg1.win 2).blk t).view.emb (ix2 p q))
  refine (blockMsg1_apply _ _ p q).trans ?_
  unfold msgArr msgAt
  have h0 : ((cfg1.win 0).blk t).view.emb (ix2 p q)
      = ix2 ((((cfg1.win 2).blk t).view.emb (ix2 p q)) 0) ((((cfg1.win 2).blk t).view.emb (ix2 p q)) 1) := by
    funext a; apply Fin.ext
    match a with
    | ⟨0, _⟩ => show win1_0.index t (0 : Fin 2) * 8000 + 1 * p.val = win1_2.index t (0 : Fin 2) * 8000 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1)) = ix2 ((((cfg1.win 2).blk t).view.emb (ix2 p q)) 0) (0 : Fin 1) := by
    funext a; apply Fin.ext
    match a with
    | ⟨0, _⟩ => show win1_1.index t (0 : Fin 2) * 8000 + 1 * p.val = win1_2.index t (0 : Fin 2) * 8000 + 1 * p.val; omega
    | ⟨1, _⟩ => show win1_1.index t (1 : Fin 2) * 1 + 1 * 0 = 0; omega
  exact congrArg₂ (fun a b : EReal => a * b) (congrArg (V c (Pipeline.arrRef spec1 0)) h0) (congrArg (V c (Pipeline.arrRef spec1 1)) h1)

/-- An index of the result array lies in point t's block iff each coordinate lies in the block's range on its axis. -/
theorem mem_block1 (t : Fin cfg1.N) (i : S1600000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v37).slice (win1_2.rect t)).set ↔ _
  rw [View.set_slice_whole, Rect.mem_set_unit]
  exact Iff.rfl

/-- The two hundred blocks cover the result array: edge e lies in block e / 8000. -/
theorem cover1 (i : S1600000x64.Idx) : ∃ t : Fin cfg1.N, (cfg1.win 2).flush t = true ∧ i ∈ ((cfg1.win 2).blk t).view.set := by
  have hi0 : (i 0).val < 1600000 := (i 0).isLt
  have hi1 : (i 1).val < 64 := (i 1).isLt
  have hN : cfg1.N = 200 := N_1
  have ht : (i 0).val / 8000 < cfg1.N := by rw [hN]; omega
  obtain ⟨e0, e1, e2, e3, e4, e5⟩ := blockIndex1 ⟨(i 0).val / 8000, ht⟩
  refine ⟨⟨(i 0).val / 8000, ht⟩, flush1_2 _, ?_⟩
  rw [mem_block1]
  intro a
  match a with
  | ⟨0, _⟩ =>
    show win1_2.index ⟨(i 0).val / 8000, ht⟩ (0 : Fin 2) * 8000 ≤ (i 0).val ∧ (i 0).val < win1_2.index ⟨(i 0).val / 8000, ht⟩ (0 : Fin 2) * 8000 + 8000
    rw [e4]; show (i 0).val / 8000 * 8000 ≤ (i 0).val ∧ (i 0).val < (i 0).val / 8000 * 8000 + 8000; omega
  | ⟨1, _⟩ =>
    show win1_2.index ⟨(i 0).val / 8000, ht⟩ (1 : Fin 2) * 64 ≤ (i 1).val ∧ (i 1).val < win1_2.index ⟨(i 0).val / 8000, ht⟩ (1 : Fin 2) * 64 + 64
    rw [e5]; omega

/-- The array the stage leaves: at index i, with e and q the two coordinates of i, H(e, q)·Nrm(e, 0), H the array of
    window 0 (the gathered features) and Nrm the array of window 1 (the edge weights). -/
theorem final1 (c : Dev nD) :
    (dat1 (F := Ideal) V c).arrAt 2 cfg1.N
      = msgArr (V c (Pipeline.arrRef spec1 0)) (V c (Pipeline.arrRef spec1 1)) :=
  (dat1 (F := Ideal) V c).arrAt_eq_of_cover 2 _ (fun t _ => flushed1_eq V c t) cover1

end Cert.KernelIdeal.HandValue

end
-- ==== Proof.RegionStats.lean ====
/-
  The values the relu-and-statistics region 2 leaves in its three result arrays, over the extended reals.

  The region walks 20 row blocks of 5000 rows of the [100000, 64] arrays agg and h, the [100000, 1] column dinv2
  and the [1, 64] row b.  At block t it computes, for each row r of the block and lane q,
      Z(5000 t + r, q) = max (agg + dinv2 * h + b) 0,
  stores that block of Z, and adds the block's column sums of Z and of Z * Z into two [1, 64] accumulators that
  it zeroes at block 0 and carries from block to block; the accumulators are written back after block 19.

  Proved here, for any contents of the arrays at the region's entry:
    * each case of the body leaves the block of Z in the first result's buffer and accumulator + block column sum
      (of Z, of Z * Z) in the other two — the accumulator being the zero row in the first block's case;
    * by induction on the block, after block n the accumulators hold the sums over the rows below 5000 (n + 1);
    * hence the first result array ends as Z, and the other two as the column sums of Z and of Z * Z over all
      100000 rows (regrouping 20 blocks of 5000 into one sum needs only commutative-monoid laws).
-/
import proofs.«145301_j17463337025613_1_alg».proof.Proof.Gen.KernelIdeal.Frame
import proofs.«145301_j17463337025613_1_alg».proof.Proof.StatsSum
import Idealize.ShloMosaic.Lib.Pipeline.Value
import Idealize.ShloMosaic.Lib.Tactic

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen

theorem statsZeroOff2 : (![0, 0] : Fin 2 → Nat) = fun _ => 0 := funext fun a => by fin_cases a <;> rfl

/-! ## What each case of the body leaves, as the body's arithmetic of the blocks it loads -/

section Pieces

variable {F : FTy → Type} [FloatOps F]

/-- First block: the block of Z. -/
theorem out2_A_4_eq (c : Dev nD) (i : grid2.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : cond2_0 i) (x0 x1 : Vec F S5000x64 .f32) (x2 : Vec F S5000x1 .f32) (x3 : Vec F S1x64 .f32) :
    out2_A_4 c i a1 h1 a2 h2 a3 h3 a4 h4 a5 h5 a6 h6 a7 h7 hc x0 x1 x2 x3 = k2_pay3 x0 x2 x1 x3 := by
  unfold out2_A_4
  rw [View.read_writes_eq_canon _ _ _ (cover2_A_4 c i a1 h1 a2 h2 a3 h3 a4 h4 a5 h5 a6 h6 a7 h7 hc x0 x1 x2 x3)]
  unfold kernelRun2_A
  dsimp only
  sl_unfold_words
  rw [View.canon_unit_zero statsZeroOff2]
  simp only [View.readAt_eq_ld, h1.read_unread, h2.read_unread, h3.read_unread, h4.read_unread,
    View.ld_unit_zero (S := S5000x64) statsZeroOff2, View.ld_unit_zero (S := S5000x1) statsZeroOff2, View.ld_unit_zero (S := S1x64) statsZeroOff2]

/-- First block: the zero row plus the block's column sums of Z. -/
theorem out2_A_5_eq (c : Dev nD) (i : grid2.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : cond2_0 i) (x0 x1 : Vec F S5000x64 .f32) (x2 : Vec F S5000x1 .f32) (x3 : Vec F S1x64 .f32) :
    out2_A_5 c i a1 h1 a2 h2 a3 h3 a4 h4 a5 h5 a6 h6 a7 h7 hc x0 x1 x2 x3 = k2_pay4 x0 x2 x1 x3 k2_pay1 := by
  unfold out2_A_5
  rw [View.read_writes_eq_canon _ _ _ (cover2_A_5 c i a1 h1 a2 h2 a3 h3 a4 h4 a5 h5 a6 h6 a7 h7 hc x0 x1 x2 x3)]
  unfold kernelRun2_A
  dsimp only
  sl_unfold_words
  rw [View.canon_cons_unit_zero (S := S1x64) statsZeroOff2, View.readCov_unit_zero (S := S1x64) _ statsZeroOff2]
  simp only [View.readAt_eq_ld, h1.read_unread, h2.read_unread, h3.read_unread, h4.read_unread,
    View.ld_unit_zero (S := S5000x64) statsZeroOff2, View.ld_unit_zero (S := S5000x1) statsZeroOff2, View.ld_unit_zero (S := S1x64) statsZeroOff2]

/-- First block: the zero row plus the block's column sums of Z * Z. -/
theorem out2_A_6_eq (c : Dev nD) (i : grid2.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : cond2_0 i) (x0 x1 : Vec F S5000x64 .f32) (x2 : Vec F S5000x1 .f32) (x3 : Vec F S1x64 .f32) :
    out2_A_6 c i a1 h1 a2 h2 a3 h3 a4 h4 a5 h5 a6 h6 a7 h7 hc x0 x1 x2 x3 = k2_pay5 x0 x2 x1 x3 k2_pay2 := by
  unfold out2_A_6
  rw [View.read_writes_eq_canon _ _ _ (cover2_A_6 c i a1 h1 a2 h2 a3 h3 a4 h4 a5 h5 a6 h6 a7 h7 hc x0 x1 x2 x3)]
  unfold kernelRun2_A
  dsimp only
  sl_unfold_words
  rw [View.canon_cons_unit_zero (S := S1x64) statsZeroOff2, View.readCov_unit_zero (S := S1x64) _ statsZeroOff2]
  simp only [View.readAt_eq_ld, h1.read_unread, h2.read_unread, h3.read_unread, h4.read_unread,
    View.ld_unit_zero (S := S5000x64) statsZeroOff2, View.ld_unit_zero (S := S5000x1) statsZeroOff2, View.ld_unit_zero (S := S1x64) statsZeroOff2]

/-- A later block: the block of Z. -/
theorem out2_B_4_eq (c : Dev nD) (i : grid2.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : ¬cond2_0 i) (x0 x1 : Vec F S5000x64 .f32) (x2 : Vec F S5000x1 .f32) (x3 xo5 xo6 : Vec F S1x64 .f32) :
    out2_B_4 c i a1 h1 a2 h2 a3 h3 a4 h4 a5 h5 a6 h6 a7 h7 hc x0 x1 x2 x3 xo5 xo6 = k2_pay3 x0 x2 x1 x3 := by
  unfold out2_B_4
  rw [View.read_writes_eq_canon _ _ _ (cover2_B_4 c i a1 h1 a2 h2 a3 h3 a4 h4 a5 h5 a6 h6 a7 h7 hc x0 x1 x2 x3 xo5 xo6)]
  unfold kernelRun2_B
  dsimp only
  sl_unfold_words
  rw [View.canon_unit_zero statsZeroOff2]
  simp only [View.readAt_eq_ld, h1.read_unread, h2.read_unread, h3.read_unread, h4.read_unread, h6.read_unread, h7.read_unread,
    View.ld_unit_zero (S := S5000x64) statsZeroOff2, View.ld_unit_zero (S := S5000x1) statsZeroOff2, View.ld_unit_zero (S := S1x64) statsZeroOff2]

/-- A later block: the carried row plus the block's column sums of Z. -/
theorem out2_B_5_eq (c : Dev nD) (i : grid2.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : ¬cond2_0 i) (x0 x1 : Vec F S5000x64 .f32) (x2 : Vec F S5000x1 .f32) (x3 xo5 xo6 : Vec F S1x64 .f32) :
    out2_B_5 c i a1 h1 a2 h2 a3 h3 a4 h4 a5 h5 a6 h6 a7 h7 hc x0 x1 x2 x3 xo5 xo6 = k2_pay4 x0 x2 x1 x3 xo5 := by
  unfold out2_B_5
  rw [View.read_writes_eq_canon _ _ _ (cover2_B_5 c i a1 h1 a2 h2 a3 h3 a4 h4 a5 h5 a6 h6 a7 h7 hc x0 x1 x2 x3 xo5 xo6)]
  unfold kernelRun2_B
  dsimp only
  sl_unfold_words
  rw [View.canon_unit_zero statsZeroOff2]
  simp only [View.readAt_eq_ld, h1.read_unread, h2.read_unread, h3.read_unread, h4.read_unread, h6.read_unread, h7.read_unread,
    View.ld_unit_zero (S := S5000x64) statsZeroOff2, View.ld_unit_zero (S := S5000x1) statsZeroOff2, View.ld_unit_zero (S := S1x64) statsZeroOff2]

/-- A later block: the carried row plus the block's column sums of Z * Z. -/
theorem out2_B_6_eq (c : Dev nD) (i : grid2.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : ¬cond2_0 i) (x0 x1 : Vec F S5000x64 .f32) (x2 : Vec F S5000x1 .f32) (x3 xo5 xo6 : Vec F S1x64 .f32) :
    out2_B_6 c i a1 h1 a2 h2 a3 h3 a4 h4 a5 h5 a6 h6 a7 h7 hc x0 x1 x2 x3 xo5 xo6 = k2_pay5 x0 x2 x1 x3 xo6 := by
  unfold out2_B_6
  rw [View.read_writes_eq_canon _ _ _ (cover2_B_6 c i a1 h1 a2 h2 a3 h3 a4 h4 a5 h5 a6 h6 a7 h7 hc x0 x1 x2 x3 xo5 xo6)]
  unfold kernelRun2_B
  dsimp only
  sl_unfold_words
  rw [View.canon_unit_zero statsZeroOff2]
  simp only [View.readAt_eq_ld, h1.read_unread, h2.read_unread, h3.read_unread, h4.read_unread, h6.read_unread, h7.read_unread,
    View.ld_unit_zero (S := S5000x64) statsZeroOff2, View.ld_unit_zero (S := S5000x1) statsZeroOff2, View.ld_unit_zero (S := S1x64) statsZeroOff2]

end Pieces

/-! ## The body's arithmetic read at an index, over the extended reals -/

/-- The body's relu'd affine block at row r, lane q. -/
theorem pay2_3_apply (v3 v7 : Vec Ideal S5000x64 .f32) (v5 : Vec Ideal S5000x1 .f32) (v12 : Vec Ideal S1x64 .f32)
    (r : Fin 5000) (q : Fin 64) :
    k2_pay3 (F := Ideal) v3 v5 v7 v12 (ix2 r q)
      = max (v3 (ix2 r q) + v5 (ix2 r (0 : Fin 1)) * v7 (ix2 r q) + v12 (ix2 (0 : Fin 1) q)) (Ideal.ofBits .f32 0x00000000#32) := by
  have e1 : broadcastTo S5000x64 (shapeCast S5000x1 v5 shapeCasts_S5000x1_S5000x1) broadcasts_S5000x1_S5000x64 (ix2 r q)
      = v5 (ix2 r (0 : Fin 1)) := by
    rw [shapeCast_self]; exact broadcastTo_a1_ab_apply v5 _ r q
  have e2 : broadcastTo S5000x64 (shapeCast S1x64 v12 shapeCasts_S1x64_S1x64) broadcasts_S1x64_S5000x64 (ix2 r q)
      = v12 (ix2 (0 : Fin 1) q) := by
    rw [shapeCast_self]; exact broadcastTo_1b_ab_apply v12 _ r q
  unfold k2_pay3
  show max (shapeCast S5000x64 v3 shapeCasts_S5000x64_S5000x64 (ix2 r q)
      + broadcastTo S5000x64 (shapeCast S5000x1 v5 shapeCasts_S5000x1_S5000x1) broadcasts_S5000x1_S5000x64 (ix2 r q)
        * shapeCast S5000x64 v7 shapeCasts_S5000x64_S5000x64 (ix2 r q)
      + broadcastTo S5000x64 (shapeCast S1x64 v12 shapeCasts_S1x64_S1x64) broadcasts_S1x64_S5000x64 (ix2 r q))
      (Ideal.ofBits .f32 0x00000000#32) = _
  rw [e1, e2, shapeCast_self, shapeCast_self]

/-- The running column sum after the body: the carried value plus the block's column sum. -/
theorem pay2_4_apply (v3 v7 : Vec Ideal S5000x64 .f32) (v5 : Vec Ideal S5000x1 .f32) (v12 v19 : Vec Ideal S1x64 .f32)
    (u : Fin 1) (q : Fin 64) :
    k2_pay4 (F := Ideal) v3 v5 v7 v12 v19 (ix2 u q)
      = v19 (ix2 u q) + ∑ k : Fin 5000, k2_pay3 (F := Ideal) v3 v5 v7 v12 (ix2 k q) := by
  unfold k2_pay4
  show shapeCast S1x64 v19 shapeCasts_S1x64_S1x64 (ix2 u q)
      + shapeCast S1x64 (multiReduction .add [0] S64 (k2_pay3 (F := Ideal) v3 v5 v7 v12) 0x00000000#32 reduces_S5000x64_S64 (.inl rfl) rfl)
          shapeCasts_S64_S1x64 (ix2 u q) = _
  rw [shapeCast_self]
  refine congrArg (v19 (ix2 u q) + ·) ?_
  refine (shapeCast_a_1a_apply _ shapeCasts_S64_S1x64 u q).trans ?_
  exact multiReduction_add_rows (k2_pay3 (F := Ideal) v3 v5 v7 v12) 0x00000000#32 reduces_S5000x64_S64 (.inl rfl) rfl q

/-- The running column sum of squares after the body. -/
theorem pay2_5_apply (v3 v7 : Vec Ideal S5000x64 .f32) (v5 : Vec Ideal S5000x1 .f32) (v12 v25 : Vec Ideal S1x64 .f32)
    (u : Fin 1) (q : Fin 64) :
    k2_pay5 (F := Ideal) v3 v5 v7 v12 v25 (ix2 u q)
      = v25 (ix2 u q) + ∑ k : Fin 5000, k2_pay3 (F := Ideal) v3 v5 v7 v12 (ix2 k q) * k2_pay3 (F := Ideal) v3 v5 v7 v12 (ix2 k q) := by
  unfold k2_pay5
  show shapeCast S1x64 v25 shapeCasts_S1x64_S1x64 (ix2 u q)
      + shapeCast S1x64 (multiReduction .add [0] S64 (mulf (k2_pay3 (F := Ideal) v3 v5 v7 v12) (k2_pay3 (F := Ideal) v3 v5 v7 v12)) 0x00000000#32 reduces_S5000x64_S64 (.inl rfl) rfl)
          shapeCasts_S64_S1x64 (ix2 u q) = _
  rw [shapeCast_self]
  refine congrArg (v25 (ix2 u q) + ·) ?_
  refine (shapeCast_a_1a_apply _ shapeCasts_S64_S1x64 u q).trans ?_
  exact multiReduction_add_rows (mulf (k2_pay3 (F := Ideal) v3 v5 v7 v12) (k2_pay3 (F := Ideal) v3 v5 v7 v12)) 0x00000000#32 reduces_S5000x64_S64 (.inl rfl) rfl q

/-- The zero rows the first block stores read 0. -/
theorem pay2_1_apply (j : S1x64.Idx) : k2_pay1 (F := Ideal) j = 0 := Ideal.ofBits_zero_f32
theorem pay2_2_apply (j : S1x64.Idx) : k2_pay2 (F := Ideal) j = 0 := Ideal.ofBits_zero_f32

/-! ## The blocks the body loads, read off the arrays as the region finds them -/

variable (V : (c : Dev nD) → (b : Ref sig .tc) → Buf (Elt Ideal) ((c : Thread nD τ).loc b))

/-- Where each window's block sits at each of the 20 points: row block t for the three row-blocked inputs and the
    first result, block (0, 0) for the row b and the two accumulators — decided over the grid. -/
theorem statsIdx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem N2 : cfg2.N = 20 := N_2

/-- The windows' arrays by name: windows 0-3 are agg, h, dinv2, b; windows 4-6 the three results. -/
theorem arrRef2_0 : Pipeline.arrRef spec2 0 = main_v40 := rfl
theorem arrRef2_1 : Pipeline.arrRef spec2 1 = main_v13 := rfl
theorem arrRef2_2 : Pipeline.arrRef spec2 2 = main_v12 := rfl
theorem arrRef2_3 : Pipeline.arrRef spec2 3 = main_v41 := rfl
theorem arrRef2_4 : Pipeline.arrRef spec2 4 = main_v42_0 := rfl
theorem arrRef2_5 : Pipeline.arrRef spec2 5 = main_v42_1 := rfl
theorem arrRef2_6 : Pipeline.arrRef spec2 6 = main_v42_2 := rfl

/-- Row 5000 t + r of the arrays, for a row r of block t. -/
def statsRow2 (t : Fin cfg2.N) (r : Fin 5000) : Fin 100000 :=
  ⟨5000 * t.val + r.val, by have hN : cfg2.N = 20 := N2; have := t.isLt; have := r.isLt; omega⟩

theorem iblk2_0_at (c : Dev nD) (t : Fin cfg2.N) (r : Fin 5000) (q : Fin 64) :
    iblk2 V c 0 t (ix2 r q) = V c main_v40 (ix2 (statsRow2 t r) q) := by
  show V c main_v40 (((cfg2.win 0).blk t).view.emb (ix2 r q)) = V c main_v40 (ix2 (statsRow2 t r) q)
  refine congrArg (V c main_v40) (funext fun a => Fin.ext ?_)
  obtain ⟨e0, e1, -⟩ := statsIdx2 t
  match a with
  | ⟨0, _⟩ => show win2_0.index t (0 : Fin 2) * 5000 + 1 * r.val = 5000 * t.val + r.val; rw [e0]; omega
  | ⟨1, _⟩ => show win2_0.index t (1 : Fin 2) * 64 + 1 * q.val = q.val; rw [e1]; omega

theorem iblk2_1_at (c : Dev nD) (t : Fin cfg2.N) (r : Fin 5000) (q : Fin 64) :
    iblk2 V c 1 t (ix2 r q) = V c main_v13 (ix2 (statsRow2 t r) q) := by
  show V c main_v13 (((cfg2.win 1).blk t).view.emb (ix2 r q)) = V c main_v13 (ix2 (statsRow2 t r) q)
  refine congrArg (V c main_v13) (funext fun a => Fin.ext ?_)
  obtain ⟨-, -, e0, e1, -⟩ := statsIdx2 t
  match a with
  | ⟨0, _⟩ => show win2_1.index t (0 : Fin 2) * 5000 + 1 * r.val = 5000 * t.val + r.val; rw [e0]; omega
  | ⟨1, _⟩ => show win2_1.index t (1 : Fin 2) * 64 + 1 * q.val = q.val; rw [e1]; omega

theorem iblk2_2_at (c : Dev nD) (t : Fin cfg2.N) (r : Fin 5000) (u : Fin 1) :
    iblk2 V c 2 t (ix2 r u) = V c main_v12 (ix2 (statsRow2 t r) u) := by
  show V c main_v12 (((cfg2.win 2).blk t).view.emb (ix2 r u)) = V c main_v12 (ix2 (statsRow2 t r) u)
  refine congrArg (V c main_v12) (funext fun a => Fin.ext ?_)
  obtain ⟨-, -, -, -, e0, e1, -⟩ := statsIdx2 t
  match a with
  | ⟨0, _⟩ => show win2_2.index t (0 : Fin 2) * 5000 + 1 * r.val = 5000 * t.val + r.val; rw [e0]; omega
  | ⟨1, _⟩ => show win2_2.index t (1 : Fin 2) * 1 + 1 * u.val = u.val; rw [e1]; omega

theorem iblk2_3_at (c : Dev nD) (t : Fin cfg2.N) (u : Fin 1) (q : Fin 64) :
    iblk2 V c 3 t (ix2 u q) = V c main_v41 (ix2 u q) := by
  show V c main_v41 (((cfg2.win 3).blk t).view.emb (ix2 u q)) = V c main_v41 (ix2 u q)
  refine congrArg (V c main_v41) (funext fun a => Fin.ext ?_)
  obtain ⟨-, -, -, -, -, -, e0, e1, -⟩ := statsIdx2 t
  match a with
  | ⟨0, _⟩ => show win2_3.index t (0 : Fin 2) * 1 + 1 * u.val = u.val; rw [e0]; omega
  | ⟨1, _⟩ => show win2_3.index t (1 : Fin 2) * 64 + 1 * q.val = q.val; rw [e1]; omega

/-- The block of Z the body computes at point t is block t of the array Z of the entry contents. -/
theorem zblock2_at (c : Dev nD) (t : Fin cfg2.N) (r : Fin 5000) (q : Fin 64) :
    k2_pay3 (F := Ideal) (iblk2 V c 0 t) (iblk2 V c 2 t) (iblk2 V c 1 t) (iblk2 V c 3 t) (ix2 r q)
      = Zat (V c main_v40) (V c main_v13) (V c main_v12) (V c main_v41) (statsRow2 t r) q := by
  refine (pay2_3_apply (iblk2 V c 0 t) (iblk2 V c 1 t) (iblk2 V c 2 t) (iblk2 V c 3 t) r q).trans ?_
  rw [iblk2_0_at V c t r q, iblk2_1_at V c t r q, iblk2_2_at V c t r 0, iblk2_3_at V c t 0 q]
  rfl

/-! ## What each point leaves in the three buffers, as the body's arithmetic -/

section Outs

variable {F : FTy → Type} [FloatOps F]
variable (W : (c : Dev nD) → (b : Ref sig .tc) → Buf (Elt F) ((c : Thread nD τ).loc b))

/-- At the first point: the block of Z, and the zero rows plus the block's column sums. -/
theorem outs2_A (c : Dev nD) (t : Fin cfg2.N) (h0 : t.val % 20 = 0) :
    outsAt2 W c t.val t.isLt
      = (k2_pay3 (iblk2 W c 0 t) (iblk2 W c 2 t) (iblk2 W c 1 t) (iblk2 W c 3 t),
         k2_pay4 (iblk2 W c 0 t) (iblk2 W c 2 t) (iblk2 W c 1 t) (iblk2 W c 3 t) (k2_pay1 (F := F)),
         k2_pay5 (iblk2 W c 0 t) (iblk2 W c 2 t) (iblk2 W c 1 t) (iblk2 W c 3 t) (k2_pay2 (F := F))) := by
  rw [outsAt2_A W c t h0, out2_A_4_eq, out2_A_5_eq, out2_A_6_eq]

/-- At a later point: the block of Z, and the rows the point before left plus the block's column sums. -/
theorem outs2_B (c : Dev nD) (t : Fin cfg2.N) (h0 : ¬t.val % 20 = 0) :
    outsAt2 W c t.val t.isLt
      = (k2_pay3 (iblk2 W c 0 t) (iblk2 W c 2 t) (iblk2 W c 1 t) (iblk2 W c 3 t),
         k2_pay4 (iblk2 W c 0 t) (iblk2 W c 2 t) (iblk2 W c 1 t) (iblk2 W c 3 t)
           (outsAt2 W c (t.val - 1) (Nat.lt_of_le_of_lt (Nat.sub_le _ _) t.isLt)).2.1,
         k2_pay5 (iblk2 W c 0 t) (iblk2 W c 2 t) (iblk2 W c 1 t) (iblk2 W c 3 t)
           (outsAt2 W c (t.val - 1) (Nat.lt_of_le_of_lt (Nat.sub_le _ _) t.isLt)).2.2) := by
  rw [outsAt2_B W c t h0, out2_B_4_eq, out2_B_5_eq, out2_B_6_eq]

end Outs

/-! ## The accumulators after each point: the sums over the rows seen so far -/

/-- After point n the accumulators hold, at lane q, the sums of Z and of Z * Z over the rows below 5000 (n + 1)
    (written as sums over the naturals, the entries extended by zero past the last row). -/
theorem acc2_inv (c : Dev nD) : ∀ (n : ℕ) (hn : n < cfg2.N) (u : Fin 1) (q : Fin 64),
    (outsAt2 (F := Ideal) V c n hn).2.1 (ix2 u q)
        = ∑ s ∈ Finset.range (5000 * (n + 1)), extend0 (fun r => Zat (V c main_v40) (V c main_v13) (V c main_v12) (V c main_v41) r q) s
    ∧ (outsAt2 (F := Ideal) V c n hn).2.2 (ix2 u q)
        = ∑ s ∈ Finset.range (5000 * (n + 1)), extend0 (fun r => Zat (V c main_v40) (V c main_v13) (V c main_v12) (V c main_v41) r q * Zat (V c main_v40) (V c main_v13) (V c main_v12) (V c main_v41) r q) s
  | 0, hn, u, q => by
    have hA := outs2_A (F := Ideal) V c ⟨0, hn⟩ rfl
    have hlt : ∀ k : Fin 5000, 5000 * 0 + k.val < 100000 := fun k => by have := k.isLt; omega
    have h5 : (outsAt2 (F := Ideal) V c 0 hn).2.1
        = k2_pay4 (F := Ideal) (iblk2 V c 0 ⟨0, hn⟩) (iblk2 V c 2 ⟨0, hn⟩) (iblk2 V c 1 ⟨0, hn⟩) (iblk2 V c 3 ⟨0, hn⟩) (k2_pay1 (F := Ideal)) := congrArg (fun p => p.2.1) hA
    have h6 : (outsAt2 (F := Ideal) V c 0 hn).2.2
        = k2_pay5 (F := Ideal) (iblk2 V c 0 ⟨0, hn⟩) (iblk2 V c 2 ⟨0, hn⟩) (iblk2 V c 1 ⟨0, hn⟩) (iblk2 V c 3 ⟨0, hn⟩) (k2_pay2 (F := Ideal)) := congrArg (fun p => p.2.2) hA
    constructor
    · rw [h5, pay2_4_apply, pay2_1_apply, sum_range_succ_block _ 5000 0]
      refine congrArg₂ (· + ·) ?_ (Finset.sum_congr rfl fun k _ => ?_)
      · rw [Nat.mul_zero, Finset.range_zero, Finset.sum_empty]
      · rw [zblock2_at V c ⟨0, hn⟩ k q, extend0_of_lt _ _ (hlt k)]
        rfl
    · rw [h6, pay2_5_apply, pay2_2_apply, sum_range_succ_block _ 5000 0]
      refine congrArg₂ (· + ·) ?_ (Finset.sum_congr rfl fun k _ => ?_)
      · rw [Nat.mul_zero, Finset.range_zero, Finset.sum_empty]
      · rw [zblock2_at V c ⟨0, hn⟩ k q, extend0_of_lt _ _ (hlt k)]
        rfl
  | n + 1, hn, u, q => by
    have hN : cfg2.N = 20 := N2
    have hB : ¬(⟨n + 1, hn⟩ : Fin cfg2.N).val % 20 = 0 := by dsimp only; omega
    have hBeq := outs2_B (F := Ideal) V c ⟨n + 1, hn⟩ hB
    have ih := acc2_inv c n (Nat.lt_of_succ_lt hn) u q
    have hlt : ∀ k : Fin 5000, 5000 * (n + 1) + k.val < 100000 := fun k => by have := k.isLt; omega
    have h5 : (outsAt2 (F := Ideal) V c (n + 1) hn).2.1
        = k2_pay4 (F := Ideal) (iblk2 V c 0 ⟨n + 1, hn⟩) (iblk2 V c 2 ⟨n + 1, hn⟩) (iblk2 V c 1 ⟨n + 1, hn⟩) (iblk2 V c 3 ⟨n + 1, hn⟩) (outsAt2 (F := Ideal) V c n (Nat.lt_of_succ_lt hn)).2.1 :=
      congrArg (fun p => p.2.1) hBeq
    have h6 : (outsAt2 (F := Ideal) V c (n + 1) hn).2.2
        = k2_pay5 (F := Ideal) (iblk2 V c 0 ⟨n + 1, hn⟩) (iblk2 V c 2 ⟨n + 1, hn⟩) (iblk2 V c 1 ⟨n + 1, hn⟩) (iblk2 V c 3 ⟨n + 1, hn⟩) (outsAt2 (F := Ideal) V c n (Nat.lt_of_succ_lt hn)).2.2 :=
      congrArg (fun p => p.2.2) hBeq
    constructor
    · rw [h5, pay2_4_apply, ih.1, sum_range_succ_block _ 5000 (n + 1)]
      refine congrArg (_ + ·) (Finset.sum_congr rfl fun k _ => ?_)
      rw [zblock2_at V c ⟨n + 1, hn⟩ k q, extend0_of_lt _ _ (hlt k)]
      rfl
    · rw [h6, pay2_5_apply, ih.2, sum_range_succ_block _ 5000 (n + 1)]
      refine congrArg (_ + ·) (Finset.sum_congr rfl fun k _ => ?_)
      rw [zblock2_at V c ⟨n + 1, hn⟩ k q, extend0_of_lt _ _ (hlt k)]
      rfl

/-- What each point leaves in the first result's buffer: its block of Z. -/
theorem zout2 (c : Dev nD) (t : Fin cfg2.N) :
    (outsAt2 (F := Ideal) V c t.val t.isLt).1 = k2_pay3 (F := Ideal) (iblk2 V c 0 t) (iblk2 V c 2 t) (iblk2 V c 1 t) (iblk2 V c 3 t) := by
  by_cases h0 : t.val % 20 = 0
  · exact congrArg (fun p => p.1) (outs2_A (F := Ideal) V c t h0)
  · exact congrArg (fun p => p.1) (outs2_B (F := Ideal) V c t h0)

/-! ## The result arrays after the region -/

/-- What point t writes back to the first result is block t of Z. -/
theorem flushed2_4 (c : Dev nD) (t : Fin cfg2.N) :
    (dat2 (F := Ideal) V c).flushed 4 t
      = ((cfg2.win 4).blk t).view.read (Elt Ideal) (Zarr (V c main_v40) (V c main_v13) (V c main_v12) (V c main_v41)) := by
  show (cfg2.win 4).cut (grid2.coords t) ((dat2 (F := Ideal) V c).after 4 t) = _
  rw [after2_4, zout2]
  funext j
  obtain ⟨r, q, rfl⟩ : ∃ (r : Fin 5000) (q : Fin 64), j = ix2 r q := ⟨j 0, j 1, eq_ix2 j⟩
  refine (zblock2_at V c t r q).trans ?_
  show _ = Zarr (V c main_v40) (V c main_v13) (V c main_v12) (V c main_v41) (((cfg2.win 4).blk t).view.emb (ix2 r q))
  have e : ((cfg2.win 4).blk t).view.emb (ix2 r q) = ix2 (statsRow2 t r) q := by
    funext a; apply Fin.ext
    obtain ⟨-, -, -, -, -, -, -, -, e0, e1, -⟩ := statsIdx2 t
    match a with
    | ⟨0, _⟩ => show win2_4.index t (0 : Fin 2) * 5000 + 1 * r.val = 5000 * t.val + r.val; rw [e0]; omega
    | ⟨1, _⟩ => show win2_4.index t (1 : Fin 2) * 64 + 1 * q.val = q.val; rw [e1]; omega
  rw [e]
  rfl

/-- An index of the first result is in point t's block iff its row is in row block t. -/
theorem mem_blk2_4 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v42_0).slice (win2_4.rect t)).set ↔ _
  rw [View.set_slice_whole, Rect.mem_set_unit]
  exact Iff.rfl

/-- THE FIRST RESULT after the region: the array Z of the entry contents. -/
theorem final2_z (c : Dev nD) :
    (dat2 (F := Ideal) V c).arrAt 4 cfg2.N = Zarr (V c main_v40) (V c main_v13) (V c main_v12) (V c main_v41) :=
  (dat2 (F := Ideal) V c).arrAt_eq_of_cover 4 _ (fun t _ => flushed2_4 V c t) fun i => by
    have hi0 : (i 0).val < 100000 := (i 0).isLt
    have hi1 : (i 1).val < 64 := (i 1).isLt
    have hN : cfg2.N = 20 := N2
    have hq : (i 0).val / 5000 < cfg2.N := by rw [hN]; omega
    refine ⟨⟨(i 0).val / 5000, hq⟩, flush2_4 _, ?_⟩
    rw [mem_blk2_4]
    obtain ⟨-, -, -, -, -, -, -, -, e0, e1, -⟩ := statsIdx2 ⟨(i 0).val / 5000, hq⟩
    intro a
    match a with
    | ⟨0, _⟩ =>
      show win2_4.index ⟨(i 0).val / 5000, hq⟩ (0 : Fin 2) * 5000 ≤ (i 0).val ∧ (i 0).val < win2_4.index ⟨(i 0).val / 5000, hq⟩ (0 : Fin 2) * 5000 + 5000
      rw [e0]; dsimp only; omega
    | ⟨1, _⟩ =>
      show win2_4.index ⟨(i 0).val / 5000, hq⟩ (1 : Fin 2) * 64 ≤ (i 1).val ∧ (i 1).val < win2_4.index ⟨(i 0).val / 5000, hq⟩ (1 : Fin 2) * 64 + 64
      rw [e1]; omega

/-- The accumulators' one block is their whole array: its element (u, q) sits at (u, q). -/
theorem emb2_5 (t : Fin cfg2.N) (u : Fin 1) (q : Fin 64) : ((cfg2.win 5).blk t).view.emb (ix2 u q) = ix2 u q := by
  funext a; apply Fin.ext
  obtain ⟨-, -, -, -, -, -, -, -, -, -, e0, e1, -⟩ := statsIdx2 t
  match a with
  | ⟨0, _⟩ => show win2_5.index t (0 : Fin 2) * 1 + 1 * u.val = u.val; rw [e0]; omega
  | ⟨1, _⟩ => show win2_5.index t (1 : Fin 2) * 64 + 1 * q.val = q.val; rw [e1]; omega

theorem emb2_6 (t : Fin cfg2.N) (u : Fin 1) (q : Fin 64) : ((cfg2.win 6).blk t).view.emb (ix2 u q) = ix2 u q := by
  funext a; apply Fin.ext
  obtain ⟨-, -, -, -, -, -, -, -, -, -, -, -, e0, e1⟩ := statsIdx2 t
  match a with
  | ⟨0, _⟩ => show win2_6.index t (0 : Fin 2) * 1 + 1 * u.val = u.val; rw [e0]; omega
  | ⟨1, _⟩ => show win2_6.index t (1 : Fin 2) * 64 + 1 * q.val = q.val; rw [e1]; omega

/-- Reading any [1, 64] array through the accumulators' block reads it in place. -/
theorem read2_5 (t : Fin cfg2.N) (G : S1x64.Idx → Ideal .f32) (u : Fin 1) (q : Fin 64) :
    ((cfg2.win 5).blk t).view.read (Elt Ideal) G (ix2 u q) = G (ix2 u q) := by
  show G (((cfg2.win 5).blk t).view.emb (ix2 u q)) = _
  rw [emb2_5]

theorem read2_6 (t : Fin cfg2.N) (G : S1x64.Idx → Ideal .f32) (u : Fin 1) (q : Fin 64) :
    ((cfg2.win 6).blk t).view.read (Elt Ideal) G (ix2 u q) = G (ix2 u q) := by
  show G (((cfg2.win 6).blk t).view.emb (ix2 u q)) = _
  rw [emb2_6]

/-- The one write-back of the sum accumulator, after the last point, writes the column sums of Z. -/
theorem flushed2_5 (c : Dev nD) (t : Fin cfg2.N) (hf : (cfg2.win 5).flush t = true) :
    (dat2 (F := Ideal) V c).flushed 5 t
      = ((cfg2.win 5).blk t).view.read (Elt Ideal) (Zsum (V c main_v40) (V c main_v13) (V c main_v12) (V c main_v41)) := by
  have hN : cfg2.N = 20 := N2
  have h19 : t.val = 19 := by have := (flush2_5 t).mp hf; have := t.isLt; omega
  show (cfg2.win 5).cut (grid2.coords t) ((dat2 (F := Ideal) V c).after 5 t) = _
  rw [after2_5]
  funext j
  obtain ⟨u, q, rfl⟩ : ∃ (u : Fin 1) (q : Fin 64), j = ix2 u q := ⟨j 0, j 1, eq_ix2 j⟩
  refine ((acc2_inv V c t.val t.isLt u q).1).trans ?_
  rw [read2_5 t _ u q, h19]
  have hz : Zsum (V c main_v40) (V c main_v13) (V c main_v12) (V c main_v41) (ix2 u q) = ∑ r : Fin 100000, Zat (V c main_v40) (V c main_v13) (V c main_v12) (V c main_v41) r q := rfl
  rw [hz]
  show ∑ s ∈ Finset.range 100000, _ = _
  exact (sum_univ_eq_range_extend0 (N := 100000) fun r => Zat (V c main_v40) (V c main_v13) (V c main_v12) (V c main_v41) r q).symm

/-- The one write-back of the sum-of-squares accumulator writes the column sums of Z * Z. -/
theorem flushed2_6 (c : Dev nD) (t : Fin cfg2.N) (hf : (cfg2.win 6).flush t = true) :
    (dat2 (F := Ideal) V c).flushed 6 t
      = ((cfg2.win 6).blk t).view.read (Elt Ideal) (Zsumsq (V c main_v40) (V c main_v13) (V c main_v12) (V c main_v41)) := by
  have hN : cfg2.N = 20 := N2
  have h19 : t.val = 19 := by have := (flush2_6 t).mp hf; have := t.isLt; omega
  show (cfg2.win 6).cut (grid2.coords t) ((dat2 (F := Ideal) V c).after 6 t) = _
  rw [after2_6]
  funext j
  obtain ⟨u, q, rfl⟩ : ∃ (u : Fin 1) (q : Fin 64), j = ix2 u q := ⟨j 0, j 1, eq_ix2 j⟩
  refine ((acc2_inv V c t.val t.isLt u q).2).trans ?_
  rw [read2_6 t _ u q, h19]
  have hz : Zsumsq (V c main_v40) (V c main_v13) (V c main_v12) (V c main_v41) (ix2 u q) = ∑ r : Fin 100000, Zat (V c main_v40) (V c main_v13) (V c main_v12) (V c main_v41) r q * Zat (V c main_v40) (V c main_v13) (V c main_v12) (V c main_v41) r q := rfl
  rw [hz]
  show ∑ s ∈ Finset.range 100000, _ = _
  exact (sum_univ_eq_range_extend0 (N := 100000) fun r => Zat (V c main_v40) (V c main_v13) (V c main_v12) (V c main_v41) r q * Zat (V c main_v40) (V c main_v13) (V c main_v12) (V c main_v41) r q).symm

/-- The last point, whose write-back covers the accumulators' arrays. -/
def statsLast2 : Fin cfg2.N := ⟨19, by have hN : cfg2.N = 20 := N2; omega⟩

/-- THE SECOND RESULT after the region: the column sums of Z over all 100000 rows. -/
theorem final2_sum (c : Dev nD) :
    (dat2 (F := Ideal) V c).arrAt 5 cfg2.N = Zsum (V c main_v40) (V c main_v13) (V c main_v12) (V c main_v41) :=
  (dat2 (F := Ideal) V c).arrAt_eq_of_cover 5 _ (flushed2_5 V c) fun i =>
    ⟨statsLast2, (flush2_5 statsLast2).mpr rfl, by
      show i ∈ ((View.whole main_v42_1).slice (win2_5.rect statsLast2)).set
      rw [View.set_slice_whole, Rect.mem_set_unit]
      have hi0 : (i 0).val < 1 := (i 0).isLt
      have hi1 : (i 1).val < 64 := (i 1).isLt
      obtain ⟨-, -, -, -, -, -, -, -, -, -, e0, e1, -⟩ := statsIdx2 statsLast2
      intro a
      match a with
      | ⟨0, _⟩ =>
        show win2_5.index statsLast2 (0 : Fin 2) * 1 ≤ (i 0).val ∧ (i 0).val < win2_5.index statsLast2 (0 : Fin 2) * 1 + 1
        rw [e0]; omega
      | ⟨1, _⟩ =>
        show win2_5.index statsLast2 (1 : Fin 2) * 64 ≤ (i 1).val ∧ (i 1).val < win2_5.index statsLast2 (1 : Fin 2) * 64 + 64
        rw [e1]; omega⟩

/-- THE THIRD RESULT after the region: the column sums of Z * Z over all 100000 rows. -/
theorem final2_sumsq (c : Dev nD) :
    (dat2 (F := Ideal) V c).arrAt 6 cfg2.N = Zsumsq (V c main_v40) (V c main_v13) (V c main_v12) (V c main_v41) :=
  (dat2 (F := Ideal) V c).arrAt_eq_of_cover 6 _ (flushed2_6 V c) fun i =>
    ⟨statsLast2, (flush2_6 statsLast2).mpr rfl, by
      show i ∈ ((View.whole main_v42_2).slice (win2_6.rect statsLast2)).set
      rw [View.set_slice_whole, Rect.mem_set_unit]
      have hi0 : (i 0).val < 1 := (i 0).isLt
      have hi1 : (i 1).val < 64 := (i 1).isLt
      obtain ⟨-, -, -, -, -, -, -, -, -, -, -, -, e0, e1⟩ := statsIdx2 statsLast2
      intro a
      match a with
      | ⟨0, _⟩ =>
        show win2_6.index statsLast2 (0 : Fin 2) * 1 ≤ (i 0).val ∧ (i 0).val < win2_6.index statsLast2 (0 : Fin 2) * 1 + 1
        rw [e0]; omega
      | ⟨1, _⟩ =>
        show win2_6.index statsLast2 (1 : Fin 2) * 64 ≤ (i 1).val ∧ (i 1).val < win2_6.index statsLast2 (1 : Fin 2) * 64 + 64
        rw [e1]; omega⟩

end Cert.KernelIdeal.HandValue

end
-- ==== Proof.RegionBn.lean ====
/- The normalisation stage of graph-convolution layer 1. The activations z form a 100000 × 64 matrix; for each of the 64
   columns the stage is given the column's mean m, variance v, scale g and shift b (four 1 × 64 rows) and sends entry
   (r, q) to g(q)·(z(r, q) − m(q))·rsqrt(v(q) + ε) + b(q), ε the single-precision word 0x3727C5AC, in this order of
   operations. It works in twenty row blocks of 5000 rows, the four rows broadcast down each block. Proved here: the
   array the stage leaves is that function of the five operand arrays at every entry, whatever they hold when the
   stage is entered. The windows, in order: 0 the activations, 1 the means, 2 the variances, 3 the scales, 4 the
   shifts, 5 the result. -/
import proofs.«145301_j17463337025613_1_alg».proof.Proof.Gen.KernelIdeal.Frame
import proofs.«145301_j17463337025613_1_alg».proof.Proof.RegionDefs

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- One block of the normalisation at an entry; the body's five loads are, in its own order, the variances, the
    scales, the activations, the means and the shifts. -/
theorem blockBn3_apply (xv xg : Vec Ideal S1x64 .f32) (xz : Vec Ideal S5000x64 .f32) (xm xb : Vec Ideal S1x64 .f32) (p : Fin 5000) (q : Fin 64) :
    k3_pay1 xv xg xz xm xb (ix2 p q)
      = xg (ix2 (0 : Fin 1) q) * (xz (ix2 p q) - xm (ix2 (0 : Fin 1) q))
          * Ideal.rsqrt (xv (ix2 (0 : Fin 1) q) + Ideal.ofBits .f32 0x3727C5AC#32) + xb (ix2 (0 : Fin 1) q) := by
  unfold k3_pay1
  simp only [shapeCast_self]
  refine (addf_apply _ _ (ix2 p q)).trans ?_
  rw [broadcastTo_1b_ab_apply xb broadcasts_S1x64_S5000x64 p q]
  refine congrArg (· + xb (ix2 (0 : Fin 1) q)) ?_
  refine (mulf_apply _ _ (ix2 p q)).trans ?_
  rw [broadcastTo_1b_ab_apply _ broadcasts_S1x64_S5000x64 p q]
  refine congrArg₂ (· * ·) ?_ rfl
  refine (mulf_apply _ _ (ix2 p q)).trans ?_
  rw [broadcastTo_1b_ab_apply xg broadcasts_S1x64_S5000x64 p q]
  refine congrArg (xg (ix2 (0 : Fin 1) q) * ·) ?_
  refine (subf_apply _ _ (ix2 p q)).trans ?_
  rw [broadcastTo_1b_ab_apply xm broadcasts_S1x64_S5000x64 p q]

/-- Where the windows' blocks sit, decided once over the twenty grid points: the activations and the result are at
    block row t, column block 0; each of the four row windows is always its whole array. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 1000000 in
/-- Where an entry of the activations' block at point t sits in its array: where the result's entry sits in the result. -/
theorem embAct3 (t : Fin cfg3.N) (p : Fin 5000) (q : Fin 64) :
    ((cfg3.win 0).blk t).view.emb (ix2 p q) = ix2 ((((cfg3.win 5).blk t).view.emb (ix2 p q)) 0) ((((cfg3.win 5).blk t).view.emb (ix2 p q)) 1) := by
  obtain ⟨e0, e1, e2, e3, e4, e5, e6, e7, e8, e9, e10, e11⟩ := blockIndex3 t
  funext a; apply Fin.ext
  match a with
  | ⟨0, _⟩ => show win3_0.index t (0 : Fin 2) * 5000 + 1 * p.val = win3_5.index t (0 : Fin 2) * 5000 + 1 * p.val; omega
  | ⟨1, _⟩ => show win3_0.index t (1 : Fin 2) * 64 + 1 * q.val = win3_5.index t (1 : Fin 2) * 64 + 1 * q.val; omega

set_option maxHeartbeats 1000000 in
/-- Where an entry of the one-row block of the means sits in its array: in row 0, in the column the result's entry has. -/
theorem embRow3_1 (t : Fin cfg3.N) (p : Fin 5000) (q : Fin 64) :
    ((cfg3.win 1).blk t).view.emb (ix2 (0 : Fin 1) q) = ix2 (0 : Fin 1) ((((cfg3.win 5).blk t).view.emb (ix2 p q)) 1) := by
  obtain ⟨e0, e1, e2, e3, e4, e5, e6, e7, e8, e9, e10, e11⟩ := blockIndex3 t
  funext a; apply Fin.ext
  match a with
  | ⟨0, _⟩ => show win3_1.index t (0 : Fin 2) * 1 + 1 * 0 = 0; omega
  | ⟨1, _⟩ => show win3_1.index t (1 : Fin 2) * 64 + 1 * q.val = win3_5.index t (1 : Fin 2) * 64 + 1 * q.val; omega

set_option maxHeartbeats 1000000 in
/-- Where an entry of the one-row block of the variances sits in its array: in row 0, in the column the result's entry has. -/
theorem embRow3_2 (t : Fin cfg3.N) (p : Fin 5000) (q : Fin 64) :
    ((cfg3.win 2).blk t).view.emb (ix2 (0 : Fin 1) q) = ix2 (0 : Fin 1) ((((cfg3.win 5).blk t).view.emb (ix2 p q)) 1) := by
  obtain ⟨e0, e1, e2, e3, e4, e5, e6, e7, e8, e9, e10, e11⟩ := blockIndex3 t
  funext a; apply Fin.ext
  match a with
  | ⟨0, _⟩ => show win3_2.index t (0 : Fin 2) * 1 + 1 * 0 = 0; omega
  | ⟨1, _⟩ => show win3_2.index t (1 : Fin 2) * 64 + 1 * q.val = win3_5.index t (1 : Fin 2) * 64 + 1 * q.val; omega

set_option maxHeartbeats 1000000 in
/-- Where an entry of the one-row block of the scales sits in its array: in row 0, in the column the result's entry has. -/
theorem embRow3_3 (t : Fin cfg3.N) (p : Fin 5000) (q : Fin 64) :
    ((cfg3.win 3).blk t).view.emb (ix2 (0 : Fin 1) q) = ix2 (0 : Fin 1) ((((cfg3.win 5).blk t).view.emb (ix2 p q)) 1) := by
  obtain ⟨e0, e1, e2, e3, e4, e5, e6, e7, e8, e9, e10, e11⟩ := blockIndex3 t
  funext a; apply Fin.ext
  match a with
  | ⟨0, _⟩ => show win3_3.index t (0 : Fin 2) * 1 + 1 * 0 = 0; omega
  | ⟨1, _⟩ => show win3_3.index t (1 : Fin 2) * 64 + 1 * q.val = win3_5.index t (1 : Fin 2) * 64 + 1 * q.val; omega

set_option maxHeartbeats 1000000 in
/-- Where an entry of the one-row block of the shifts sits in its array: in row 0, in the column the result's entry has. -/
theorem embRow3_4 (t : Fin cfg3.N) (p : Fin 5000) (q : Fin 64) :
    ((cfg3.win 4).blk t).view.emb (ix2 (0 : Fin 1) q) = ix2 (0 : Fin 1) ((((cfg3.win 5).blk t).view.emb (ix2 p q)) 1) := by
  obtain ⟨e0, e1, e2, e3, e4, e5, e6, e7, e8, e9, e10, e11⟩ := blockIndex3 t
  funext a; apply Fin.ext
  match a with
  | ⟨0, _⟩ => show win3_4.index t (0 : Fin 2) * 1 + 1 * 0 = 0; omega
  | ⟨1, _⟩ => show win3_4.index t (1 : Fin 2) * 64 + 1 * q.val = win3_5.index t (1 : Fin 2) * 64 + 1 * q.val; omega

set_option maxHeartbeats 1000000 in
/-- What grid point t writes back is block t of the whole normalised array. -/
theorem flushed3_eq (c : Dev nD) (t : Fin cfg3.N) :
    (dat3 (F := Ideal) V c).flushed 5 t
      = ((cfg3.win 5).blk t).view.read (Elt Ideal) (bnArr (V c (Pipeline.arrRef spec3 0)) (V c (Pipeline.arrRef spec3 1))
          (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero offsetsZero2]
  simp only [View.ld_unit_zero (S := S5000x64) offsetsZero2, View.ld_unit_zero (S := S1x64) offsetsZero2]
  funext j
  obtain ⟨p, q, rfl⟩ : ∃ (p : Fin 5000) (q : Fin 64), j = ix2 p q := ⟨j 0, j 1, eq_ix2 j⟩
  show k3_pay1 (iblk3 V c 2 t) (iblk3 V c 3 t) (iblk3 V c 0 t) (iblk3 V c 1 t) (iblk3 V c 4 t) (ix2 p q)
    = bnArr (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb (ix2 p q))
  refine (blockBn3_apply _ _ _ _ _ p q).trans ?_
  unfold bnArr bnAt
  have h0 := embAct3 t p q
  have h1 := embRow3_1 t p q
  have h2 := embRow3_2 t p q
  have h3 := embRow3_3 t p q
  have h4 := embRow3_4 t p q
  have r0 : iblk3 V c 0 t (ix2 p q) = V c (Pipeline.arrRef spec3 0) (ix2 ((((cfg3.win 5).blk t).view.emb (ix2 p q)) 0) ((((cfg3.win 5).blk t).view.emb (ix2 p q)) 1)) :=
    congrArg (V c (Pipeline.arrRef spec3 0)) h0
  have r1 : iblk3 V c 1 t (ix2 (0 : Fin 1) q) = V c (Pipeline.arrRef spec3 1) (ix2 (0 : Fin 1) ((((cfg3.win 5).blk t).view.emb (ix2 p q)) 1)) :=
    congrArg (V c (Pipeline.arrRef spec3 1)) h1
  have r2 : iblk3 V c 2 t (ix2 (0 : Fin 1) q) = V c (Pipeline.arrRef spec3 2) (ix2 (0 : Fin 1) ((((cfg3.win 5).blk t).view.emb (ix2 p q)) 1)) :=
    congrArg (V c (Pipeline.arrRef spec3 2)) h2
  have r3 : iblk3 V c 3 t (ix2 (0 : Fin 1) q) = V c (Pipeline.arrRef spec3 3) (ix2 (0 : Fin 1) ((((cfg3.win 5).blk t).view.emb (ix2 p q)) 1)) :=
    congrArg (V c (Pipeline.arrRef spec3 3)) h3
  have r4 : iblk3 V c 4 t (ix2 (0 : Fin 1) q) = V c (Pipeline.arrRef spec3 4) (ix2 (0 : Fin 1) ((((cfg3.win 5).blk t).view.emb (ix2 p q)) 1)) :=
    congrArg (V c (Pipeline.arrRef spec3 4)) h4
  rw [r0, r1, r2, r3, r4]

/-- An index of the result array lies in point t's block iff each coordinate lies in the block's range on its axis. -/
theorem mem_block3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v53).slice (win3_5.rect t)).set ↔ _
  rw [View.set_slice_whole, Rect.mem_set_unit]
  exact Iff.rfl

/-- The twenty row blocks cover the result array: row r lies in block r / 5000. -/
theorem cover3 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  have ht : (i 0).val / 5000 < cfg3.N := by rw [hN]; omega
  obtain ⟨e0, e1, e2, e3, e4, e5, e6, e7, e8, e9, e10, e11⟩ := blockIndex3 ⟨(i 0).val / 5000, ht⟩
  refine ⟨⟨(i 0).val / 5000, ht⟩, flush3_5 _, ?_⟩
  rw [mem_block3]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win3_5.index ⟨(i 0).val / 5000, ht⟩ (1 : Fin 2) * 64 ≤ (i 1).val ∧ (i 1).val < win3_5.index ⟨(i 0).val / 5000, ht⟩ (1 : Fin 2) * 64 + 64
    rw [e11]; omega

/-- The array the stage leaves: at index i, with r and q the two coordinates of i,
    g(0, q)·(z(r, q) − m(0, q))·rsqrt(v(0, q) + ε) + b(0, q), where z, m, v, g, b are the arrays of windows 0 to 4. -/
theorem final3 (c : Dev nD) :
    (dat3 (F := Ideal) V c).arrAt 5 cfg3.N
      = bnArr (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 _ (fun t _ => flushed3_eq V c t) cover3

end Cert.KernelIdeal.HandValue

end
-- ==== Proof.KLayer1.lean ====
/-
  Layer 1 of the idealized kernel program, read off the segment-by-segment fold: each region's output array is
  the region's closed form of its input arrays; each host stretch's results are its operations of the arrays it reads;
  the long-lived arrays are what the first stretch left.  Chained, the layer's output buffer holds `kLayer` of the
  layer's input, the layer's parameters, the two rows of the edge list and the degrees' reciprocal square roots.
-/
import proofs.«145301_j17463337025613_1_alg».proof.Proof.KFoldA
import proofs.«145301_j17463337025613_1_alg».proof.Proof.KStretch1
import proofs.«145301_j17463337025613_1_alg».proof.Proof.KKeepP2
import proofs.«145301_j17463337025613_1_alg».proof.Proof.KKeepA1
import proofs.«145301_j17463337025613_1_alg».proof.Proof.KTerms
import proofs.«145301_j17463337025613_1_alg».proof.Proof.RegionMatmul
import proofs.«145301_j17463337025613_1_alg».proof.Proof.RegionMessage
import proofs.«145301_j17463337025613_1_alg».proof.Proof.RegionStats
import proofs.«145301_j17463337025613_1_alg».proof.Proof.RegionBn

noncomputable section

namespace Cert.KernelIdeal.HandFold

open Cert.KernelIdeal Cert.KernelIdeal.Gen Idealize.ShloMosaic Idealize.ShloMosaic.TcCoe Idealize.SL.Sem
open Idealize.ShloMosaic.StableHlo Cert.Gcn.RefSpec

open Cert.KernelIdeal.HandValue

variable (m : (ℓ : Loc nD τ sig) → Buf (Elt Ideal) ℓ) (ρ : Dev nD → PrngReg) (c : Dev nD)
variable (hd : ∀ i, IntOp.cmpi .sge (refDst (edges m c) i) (0#32) = 1#1)
variable (X : FVec Ideal S100000x64 .f32)
variable (hin : @Eq (FVec Ideal S100000x64 .f32) (W1 m ρ c (Proc.devRef .tc main_arg1)) X)

include hin in
/-- The matmul region leaves h = x·W. -/
theorem L0_H : @Eq (FVec Ideal S100000x64 .f32) (W2 m ρ c (Proc.devRef .tc main_v13)) (prodArr X (m ((c.tc : Thread nD τ).loc main_arg3))) := by
  have e := (W2_arr m ρ c 2).trans (final0 (V1 m ρ) c)
  have hx : @Eq (FVec Ideal S100000x64 .f32) (V1 m ρ c (Pipeline.arrRef spec0 0)) X := hin
  have hw : @Eq (FVec Ideal S64x64 .f32) (V1 m ρ c (Pipeline.arrRef spec0 1)) (m ((c.tc : Thread nD τ).loc main_arg3)) := walk_arg3_1_0 m ρ c
  rw [hx, hw] at e
  exact e

include hin in
/-- The gathered rows of h. -/
theorem L0_HS : @Eq (FVec Ideal S1600000x64 .f32) (W3 m ρ c (Proc.devRef .tc main_v20)) (tHS (prodArr X (m ((c.tc : Thread nD τ).loc main_arg3))) (refSrc (edges m c))) := by
  have e := st0_hsrc (W2 m ρ c)
  rw [L0_H m ρ c X hin, (pers_v1_2 m ρ c).trans (s0_src m ρ c)] at e
  exact e

include hd in
/-- The edge weights as a column. -/
theorem L0_NR : @Eq (FVec Ideal S1600000x1 .f32) (W3 m ρ c (Proc.devRef .tc main_v36)) (tNR (refDinv (F := Ideal) (refDst (edges m c))) (refSrc (edges m c)) (refDst (edges m c))) := by
  have e := st0_norm (W2 m ρ c)
  rw [(pers_v1_2 m ρ c).trans (s0_src m ρ c), (pers_v3_2 m ρ c).trans (s0_dst m ρ c),
    (pers_v10_2 m ρ c).trans (s0_dinv m ρ c hd)] at e
  exact e

include hd hin in
/-- The message region leaves each gathered row times its edge weight. -/
theorem L0_M : @Eq (FVec Ideal S1600000x64 .f32) (W4 m ρ c (Proc.devRef .tc main_v37))
    (msgArr (tHS (prodArr X (m ((c.tc : Thread nD τ).loc main_arg3))) (refSrc (edges m c))) (tNR (refDinv (F := Ideal) (refDst (edges m c))) (refSrc (edges m c)) (refDst (edges m c)))) := by
  have e := (W4_arr m ρ c 2).trans (final1 (V3 m ρ) c)
  have h0 : @Eq (FVec Ideal S1600000x64 .f32) (V3 m ρ c (Pipeline.arrRef spec1 0)) _ := L0_HS m ρ c X hin
  have h1 : @Eq (FVec Ideal S1600000x1 .f32) (V3 m ρ c (Pipeline.arrRef spec1 1)) _ := L0_NR m ρ c hd
  rw [h0, h1] at e
  exact e

include hd hin in
/-- The messages summed into destination rows. -/
theorem L0_A : @Eq (FVec Ideal S100000x64 .f32) (W5 m ρ c (Proc.devRef .tc main_v40))
    (tA (refDst (edges m c)) (msgArr (tHS (prodArr X (m ((c.tc : Thread nD τ).loc main_arg3))) (refSrc (edges m c))) (tNR (refDinv (F := Ideal) (refDst (edges m c))) (refSrc (edges m c)) (refDst (edges m c))))) := by
  have e := st0_agg (W4 m ρ c)
  rw [L0_M m ρ c hd X hin, (pers_v3_4 m ρ c).trans (s0_dst m ρ c)] at e
  exact e

/-- The bias as a row. -/
theorem L0_BB : @Eq (FVec Ideal S1x64 .f32) (W5 m ρ c (Proc.devRef .tc main_v41)) (tRow (m ((c.tc : Thread nD τ).loc main_arg4))) := by
  have e := st0_bias (W4 m ρ c)
  rw [show W4 m ρ c (Proc.devRef .tc main_arg4) = m ((c.tc : Thread nD τ).loc main_arg4) from walk_arg4_4_0 m ρ c] at e
  exact e

/-! ### The statistics region: z and its column sums -/

include hd hin in
theorem L0_Z : @Eq (FVec Ideal S100000x64 .f32) (W6 m ρ c (Proc.devRef .tc main_v42_0)) (Zarr (tA (refDst (edges m c)) (msgArr (tHS (prodArr X (m ((c.tc : Thread nD τ).loc main_arg3))) (refSrc (edges m c))) (tNR (refDinv (F := Ideal) (refDst (edges m c))) (refSrc (edges m c)) (refDst (edges m c))))) (prodArr X (m ((c.tc : Thread nD τ).loc main_arg3))) (tD2 (refDinv (F := Ideal) (refDst (edges m c)))) (tRow (m ((c.tc : Thread nD τ).loc main_arg4)))) := by
  have e := (W6_arr m ρ c 4).trans (final2_z (V5 m ρ) c)
  have h0 : @Eq (FVec Ideal S100000x64 .f32) (V5 m ρ c main_v40) _ := L0_A m ρ c hd X hin
  have h1 : @Eq (FVec Ideal S100000x64 .f32) (V5 m ρ c main_v13) _ := (walk_v13_5_2 m ρ c).trans (L0_H m ρ c X hin)
  have h2 : @Eq (FVec Ideal S100000x1 .f32) (V5 m ρ c main_v12) _ := (pers_v12_5 m ρ c).trans (s0_dinv2 m ρ c hd)
  have h3 : @Eq (FVec Ideal S1x64 .f32) (V5 m ρ c main_v41) _ := L0_BB m ρ c
  rw [h0, h1, h2, h3] at e
  exact e

include hd hin in
theorem L0_S : @Eq (FVec Ideal S1x64 .f32) (W6 m ρ c (Proc.devRef .tc main_v42_1)) (Zsum (tA (refDst (edges m c)) (msgArr (tHS (prodArr X (m ((c.tc : Thread nD τ).loc main_arg3))) (refSrc (edges m c))) (tNR (refDinv (F := Ideal) (refDst (edges m c))) (refSrc (edges m c)) (refDst (edges m c))))) (prodArr X (m ((c.tc : Thread nD τ).loc main_arg3))) (tD2 (refDinv (F := Ideal) (refDst (edges m c)))) (tRow (m ((c.tc : Thread nD τ).loc main_arg4)))) := by
  have e := (W6_arr m ρ c 5).trans (final2_sum (V5 m ρ) c)
  have h0 : @Eq (FVec Ideal S100000x64 .f32) (V5 m ρ c main_v40) _ := L0_A m ρ c hd X hin
  have h1 : @Eq (FVec Ideal S100000x64 .f32) (V5 m ρ c main_v13) _ := (walk_v13_5_2 m ρ c).trans (L0_H m ρ c X hin)
  have h2 : @Eq (FVec Ideal S100000x1 .f32) (V5 m ρ c main_v12) _ := (pers_v12_5 m ρ c).trans (s0_dinv2 m ρ c hd)
  have h3 : @Eq (FVec Ideal S1x64 .f32) (V5 m ρ c main_v41) _ := L0_BB m ρ c
  rw [h0, h1, h2, h3] at e
  exact e

include hd hin in
theorem L0_SS : @Eq (FVec Ideal S1x64 .f32) (W6 m ρ c (Proc.devRef .tc main_v42_2)) (Zsumsq (tA (refDst (edges m c)) (msgArr (tHS (prodArr X (m ((c.tc : Thread nD τ).loc main_arg3))) (refSrc (edges m c))) (tNR (refDinv (F := Ideal) (refDst (edges m c))) (refSrc (edges m c)) (refDst (edges m c))))) (prodArr X (m ((c.tc : Thread nD τ).loc main_arg3))) (tD2 (refDinv (F := Ideal) (refDst (edges m c)))) (tRow (m ((c.tc : Thread nD τ).loc main_arg4)))) := by
  have e := (W6_arr m ρ c 6).trans (final2_sumsq (V5 m ρ) c)
  have h0 : @Eq (FVec Ideal S100000x64 .f32) (V5 m ρ c main_v40) _ := L0_A m ρ c hd X hin
  have h1 : @Eq (FVec Ideal S100000x64 .f32) (V5 m ρ c main_v13) _ := (walk_v13_5_2 m ρ c).trans (L0_H m ρ c X hin)
  have h2 : @Eq (FVec Ideal S100000x1 .f32) (V5 m ρ c main_v12) _ := (pers_v12_5 m ρ c).trans (s0_dinv2 m ρ c hd)
  have h3 : @Eq (FVec Ideal S1x64 .f32) (V5 m ρ c main_v41) _ := L0_BB m ρ c
  rw [h0, h1, h2, h3] at e
  exact e

/-! ### Means, clamped raw variances, scale and shift rows -/

include hd hin in
theorem L0_MEAN : @Eq (FVec Ideal S1x64 .f32) (W7 m ρ c (Proc.devRef .tc main_v44)) (tMean (Zsum (tA (refDst (edges m c)) (msgArr (tHS (prodArr X (m ((c.tc : Thread nD τ).loc main_arg3))) (refSrc (edges m c))) (tNR (refDinv (F := Ideal) (refDst (edges m c))) (refSrc (edges m c)) (refDst (edges m c))))) (prodArr X (m ((c.tc : Thread nD τ).loc main_arg3))) (tD2 (refDinv (F := Ideal) (refDst (edges m c)))) (tRow (m ((c.tc : Thread nD τ).loc main_arg4))))) := by
  have e := st0_mean (W6 m ρ c)
  rw [L0_S m ρ c hd X hin] at e
  exact e

include hd hin in
theorem L0_VAR : @Eq (FVec Ideal S1x64 .f32) (W7 m ρ c (Proc.devRef .tc main_v50)) (tVar (Zsum (tA (refDst (edges m c)) (msgArr (tHS (prodArr X (m ((c.tc : Thread nD τ).loc main_arg3))) (refSrc (edges m c))) (tNR (refDinv (F := Ideal) (refDst (edges m c))) (refSrc (edges m c)) (refDst (edges m c))))) (prodArr X (m ((c.tc : Thread nD τ).loc main_arg3))) (tD2 (refDinv (F := Ideal) (refDst (edges m c)))) (tRow (m ((c.tc : Thread nD τ).loc main_arg4)))) (Zsumsq (tA (refDst (edges m c)) (msgArr (tHS (prodArr X (m ((c.tc : Thread nD τ).loc main_arg3))) (refSrc (edges m c))) (tNR (refDinv (F := Ideal) (refDst (edges m c))) (refSrc (edges m c)) (refDst (edges m c))))) (prodArr X (m ((c.tc : Thread nD τ).loc main_arg3))) (tD2 (refDinv (F := Ideal) (refDst (edges m c)))) (tRow (m ((c.tc : Thread nD τ).loc main_arg4))))) := by
  have e := st0_var (W6 m ρ c)
  rw [L0_SS m ρ c hd X hin, L0_S m ρ c hd X hin] at e
  exact e

theorem L0_GG : @Eq (FVec Ideal S1x64 .f32) (W7 m ρ c (Proc.devRef .tc main_v51)) (tRow (m ((c.tc : Thread nD τ).loc main_arg5))) := by
  have e := st0_gamma (W6 m ρ c)
  rw [show W6 m ρ c (Proc.devRef .tc main_arg5) = m ((c.tc : Thread nD τ).loc main_arg5) from walk_arg5_6_0 m ρ c] at e
  exact e

theorem L0_BE : @Eq (FVec Ideal S1x64 .f32) (W7 m ρ c (Proc.devRef .tc main_v52)) (tRow (m ((c.tc : Thread nD τ).loc main_arg6))) := by
  have e := st0_beta (W6 m ρ c)
  rw [show W6 m ρ c (Proc.devRef .tc main_arg6) = m ((c.tc : Thread nD τ).loc main_arg6) from walk_arg6_6_0 m ρ c] at e
  exact e

/-! ### The batch-norm region, and the layer -/

include hd hin in
/-- After the layer's last region its output buffer holds the kernel program's layer of the layer's input. -/
theorem L0_O : @Eq (FVec Ideal S100000x64 .f32) (W8 m ρ c (Proc.devRef .tc main_v53))
    (kLayer X (m ((c.tc : Thread nD τ).loc main_arg3)) (m ((c.tc : Thread nD τ).loc main_arg4)) (m ((c.tc : Thread nD τ).loc main_arg5)) (m ((c.tc : Thread nD τ).loc main_arg6)) (refSrc (edges m c)) (refDst (edges m c)) (refDinv (F := Ideal) (refDst (edges m c)))) := by
  have e := (W8_arr m ρ c 5).trans (final3 (V7 m ρ) c)
  have h0 : @Eq (FVec Ideal S100000x64 .f32) (V7 m ρ c (Pipeline.arrRef spec3 0)) _ :=
    (walk_v42_0_7_6 m ρ c).trans (L0_Z m ρ c hd X hin)
  have h1 : @Eq (FVec Ideal S1x64 .f32) (V7 m ρ c (Pipeline.arrRef spec3 1)) _ := L0_MEAN m ρ c hd X hin
  have h2 : @Eq (FVec Ideal S1x64 .f32) (V7 m ρ c (Pipeline.arrRef spec3 2)) _ := L0_VAR m ρ c hd X hin
  have h3 : @Eq (FVec Ideal S1x64 .f32) (V7 m ρ c (Pipeline.arrRef spec3 3)) _ := L0_GG m ρ c
  have h4 : @Eq (FVec Ideal S1x64 .f32) (V7 m ρ c (Pipeline.arrRef spec3 4)) _ := L0_BE m ρ c
  rw [h0, h1, h2, h3, h4] at e
  unfold kLayer
  exact e

end Cert.KernelIdeal.HandFold

end
-- ==== Proof.KStretch2.lean ====
/-
  Layer 2 of the idealized kernel program: what its three host stretches (the gathers and edge weights; the
  scatter of the messages and the bias row; the means, raw variances and the scale/shift rows) leave in their
  result buffers, as functions of the contents they start from.
-/
import proofs.«145301_j17463337025613_1_alg».proof.Proof.Gen.KernelIdeal.Frame
import proofs.«145301_j17463337025613_1_alg».proof.Proof.Gen.ReferenceIdeal
import proofs.«145301_j17463337025613_1_alg».proof.Proof.RefSpec
import Idealize.ShloMosaic.PureOps.Ideal

noncomputable section

namespace Cert.KernelIdeal.HandFold

open Cert.KernelIdeal Cert.KernelIdeal.Gen Idealize.ShloMosaic Idealize.ShloMosaic.TcCoe Idealize.SL.Sem
open Idealize.ShloMosaic.StableHlo Cert.Gcn.RefSpec

/-! ## Layer 2: the host stretches between its regions, read back at any incoming contents `V` -/

/-- The gathered rows of h at the wrapped source ids. -/
theorem st1_hsrc (V : Valuation τ sig (Elt Ideal)) :
    StableHlo.after hostOps5 V (Proc.devRef .tc main_v61)
      = Host.gather gather_S100000x64_S1600000x1_S1600000x64_1_0_n_n_0_1_164 (V (Proc.devRef .tc main_v54))
          (broadcastInDim S1600000x1 ![0] bcast_S1600000_S1600000x1_0 (refWrap (V (Proc.devRef .tc main_v1)))) := by
  after_results_simp <;> rfl

/-- The edge weights dinv[src]·dinv[dst], as a column. -/
theorem st1_norm (V : Valuation τ sig (Elt Ideal)) :
    @Eq (FVec Ideal S1600000x1 .f32) (StableHlo.after hostOps5 V (Proc.devRef .tc main_v77)) <|
        shapeCast S1600000x1
          (mulf (Host.gather gather_S100000_S1600000x1_S1600000_n_0_n_n_0_1_1 (V (Proc.devRef .tc main_v10))
                  (broadcastInDim S1600000x1 ![0] bcast_S1600000_S1600000x1_0 (refWrap (V (Proc.devRef .tc main_v1)))))
                (Host.gather gather_S100000_S1600000x1_S1600000_n_0_n_n_0_1_1 (V (Proc.devRef .tc main_v10))
                  (broadcastInDim S1600000x1 ![0] bcast_S1600000_S1600000x1_0 (refWrap (V (Proc.devRef .tc main_v3))))))
          shapeCasts_S1600000_S1600000x1 := by
  after_results_simp <;> rfl

/-- The messages summed into their destination rows. -/
theorem st1_agg (V : Valuation τ sig (Elt Ideal)) :
    @Eq (FVec Ideal S100000x64 .f32) (StableHlo.after hostOps6 V (Proc.devRef .tc main_v81)) <|
        Host.scatterAdd scatter_S100000x64_S1600000x1_S1600000x64_1_0_0_1
          (broadcastInDim S100000x64 ![] bcast_S_S100000x64 (constant S_ .f32 0x00000000#32))
          (broadcastInDim S1600000x1 ![0] bcast_S1600000_S1600000x1_0 (V (Proc.devRef .tc main_v3)))
          (V (Proc.devRef .tc main_v78)) := by
  after_results <;> rfl

/-- The bias as a row. -/
theorem st1_bias (V : Valuation τ sig (Elt Ideal)) :
    StableHlo.after hostOps6 V (Proc.devRef .tc main_v82)
      = shapeCast S1x64 (V (Proc.devRef .tc main_arg8)) shapeCasts_S64_S1x64 := by
  after_results <;> rfl

/-- The column means: the column sums over 100000. -/
theorem st1_mean (V : Valuation τ sig (Elt Ideal)) :
    @Eq (FVec Ideal S1x64 .f32) (StableHlo.after hostOps7 V (Proc.devRef .tc main_v85)) <|
        Host.divf (V (Proc.devRef .tc main_v83_1)) (broadcastInDim S1x64 ![] bcast_S_S1x64 (constant S_ .f32 0x47C35000#32)) := by
  after_results <;> rfl

/-- The raw variances, clamped at zero: the sums of squares over 100000 minus the squared means. -/
theorem st1_var (V : Valuation τ sig (Elt Ideal)) :
    @Eq (FVec Ideal S1x64 .f32) (StableHlo.after hostOps7 V (Proc.devRef .tc main_v91)) <|
        maximumf
          (subf (Host.divf (V (Proc.devRef .tc main_v83_2)) (broadcastInDim S1x64 ![] bcast_S_S1x64 (constant S_ .f32 0x47C35000#32)))
                (mulf (Host.divf (V (Proc.devRef .tc main_v83_1)) (broadcastInDim S1x64 ![] bcast_S_S1x64 (constant S_ .f32 0x47C35000#32)))
                      (Host.divf (V (Proc.devRef .tc main_v83_1)) (broadcastInDim S1x64 ![] bcast_S_S1x64 (constant S_ .f32 0x47C35000#32)))))
          (broadcastInDim S1x64 ![] bcast_S_S1x64 (constant S_ .f32 0x00000000#32)) := by
  after_results <;> rfl

/-- The scale and the shift as rows. -/
theorem st1_gamma (V : Valuation τ sig (Elt Ideal)) :
    StableHlo.after hostOps7 V (Proc.devRef .tc main_v92)
      = shapeCast S1x64 (V (Proc.devRef .tc main_arg9)) shapeCasts_S64_S1x64 := by
  after_results <;> rfl

theorem st1_beta (V : Valuation τ sig (Elt Ideal)) :
    StableHlo.after hostOps7 V (Proc.devRef .tc main_v93)
      = shapeCast S1x64 (V (Proc.devRef .tc main_arg10)) shapeCasts_S64_S1x64 := by
  after_results <;> rfl

end Cert.KernelIdeal.HandFold

end
-- ==== Proof.KKeepA2.lean ====
/-
  Which buffers the segments of the idealized kernel program leave alone: a buffer that a host stretch does not
  write, and that is no array of a region (or is only an INPUT array of it), holds after the segment what it held
  before.  Chained over consecutive segments this carries the long-lived values (the two rows of the edge list, the
  degrees' reciprocal square roots and their squares, the layer's matmul result, the parameters) from where they are
  made to where they are read.
-/
import proofs.«145301_j17463337025613_1_alg».proof.Proof.KFoldA

noncomputable section

namespace Cert.KernelIdeal.HandFold

open Cert.KernelIdeal Cert.KernelIdeal.Gen Idealize.ShloMosaic Idealize.ShloMosaic.TcCoe Idealize.SL.Sem
open Idealize.ShloMosaic.StableHlo Cert.Gcn.RefSpec

variable (m : (ℓ : Loc nD τ sig) → Buf (Elt Ideal) ℓ) (ρ : Dev nD → PrngReg) (c : Dev nD)

theorem keep_arg7_8 : W8 m ρ c (Proc.devRef .tc main_arg7) = W7 m ρ c (Proc.devRef .tc main_arg7) := W8_of_ne m ρ c main_arg7 (by decide)
theorem keep_arg7_7 : W7 m ρ c (Proc.devRef .tc main_arg7) = W6 m ρ c (Proc.devRef .tc main_arg7) := by
  show StableHlo.after hostOps3 (W6 m ρ c) (Proc.devRef .tc main_arg7) = _
  keep_host hostOps3
theorem keep_arg7_6 : W6 m ρ c (Proc.devRef .tc main_arg7) = W5 m ρ c (Proc.devRef .tc main_arg7) := W6_of_ne m ρ c main_arg7 (by decide)
theorem keep_arg7_5 : W5 m ρ c (Proc.devRef .tc main_arg7) = W4 m ρ c (Proc.devRef .tc main_arg7) := by
  show StableHlo.after hostOps2 (W4 m ρ c) (Proc.devRef .tc main_arg7) = _
  keep_host hostOps2
theorem keep_arg7_4 : W4 m ρ c (Proc.devRef .tc main_arg7) = W3 m ρ c (Proc.devRef .tc main_arg7) := W4_of_ne m ρ c main_arg7 (by decide)
theorem keep_arg7_3 : W3 m ρ c (Proc.devRef .tc main_arg7) = W2 m ρ c (Proc.devRef .tc main_arg7) := by
  show StableHlo.after hostOps1 (W2 m ρ c) (Proc.devRef .tc main_arg7) = _
  keep_host hostOps1
theorem keep_arg7_2 : W2 m ρ c (Proc.devRef .tc main_arg7) = W1 m ρ c (Proc.devRef .tc main_arg7) := W2_of_ne m ρ c main_arg7 (by decide)
theorem keep_arg7_1 : W1 m ρ c (Proc.devRef .tc main_arg7) = W0 m ρ c (Proc.devRef .tc main_arg7) := by
  show StableHlo.after hostOps0 (W0 m ρ c) (Proc.devRef .tc main_arg7) = _
  keep_host hostOps0
/-- `main_arg7` is written by none of the segments 1–8. -/
theorem walk_arg7_8_0 : W8 m ρ c (Proc.devRef .tc main_arg7) = W0 m ρ c (Proc.devRef .tc main_arg7) :=
  (keep_arg7_8 m ρ c).trans ((keep_arg7_7 m ρ c).trans ((keep_arg7_6 m ρ c).trans ((keep_arg7_5 m ρ c).trans ((keep_arg7_4 m ρ c).trans ((keep_arg7_3 m ρ c).trans ((keep_arg7_2 m ρ c).trans (keep_arg7_1 m ρ c)))))))

theorem keep_arg8_11 : W11 m ρ c (Proc.devRef .tc main_arg8) = W10 m ρ c (Proc.devRef .tc main_arg8) := W11_of_ne m ρ c main_arg8 (by decide)
theorem keep_arg8_10 : W10 m ρ c (Proc.devRef .tc main_arg8) = W9 m ρ c (Proc.devRef .tc main_arg8) := by
  show StableHlo.after hostOps5 (W9 m ρ c) (Proc.devRef .tc main_arg8) = _
  keep_host hostOps5
theorem keep_arg8_9 : W9 m ρ c (Proc.devRef .tc main_arg8) = W8 m ρ c (Proc.devRef .tc main_arg8) := W9_of_ne m ρ c main_arg8 (by decide)
theorem keep_arg8_8 : W8 m ρ c (Proc.devRef .tc main_arg8) = W7 m ρ c (Proc.devRef .tc main_arg8) := W8_of_ne m ρ c main_arg8 (by decide)
theorem keep_arg8_7 : W7 m ρ c (Proc.devRef .tc main_arg8) = W6 m ρ c (Proc.devRef .tc main_arg8) := by
  show StableHlo.after hostOps3 (W6 m ρ c) (Proc.devRef .tc main_arg8) = _
  keep_host hostOps3
theorem keep_arg8_6 : W6 m ρ c (Proc.devRef .tc main_arg8) = W5 m ρ c (Proc.devRef .tc main_arg8) := W6_of_ne m ρ c main_arg8 (by decide)
theorem keep_arg8_5 : W5 m ρ c (Proc.devRef .tc main_arg8) = W4 m ρ c (Proc.devRef .tc main_arg8) := by
  show StableHlo.after hostOps2 (W4 m ρ c) (Proc.devRef .tc main_arg8) = _
  keep_host hostOps2
theorem keep_arg8_4 : W4 m ρ c (Proc.devRef .tc main_arg8) = W3 m ρ c (Proc.devRef .tc main_arg8) := W4_of_ne m ρ c main_arg8 (by decide)
theorem keep_arg8_3 : W3 m ρ c (Proc.devRef .tc main_arg8) = W2 m ρ c (Proc.devRef .tc main_arg8) := by
  show StableHlo.after hostOps1 (W2 m ρ c) (Proc.devRef .tc main_arg8) = _
  keep_host hostOps1
theorem keep_arg8_2 : W2 m ρ c (Proc.devRef .tc main_arg8) = W1 m ρ c (Proc.devRef .tc main_arg8) := W2_of_ne m ρ c main_arg8 (by decide)
theorem keep_arg8_1 : W1 m ρ c (Proc.devRef .tc main_arg8) = W0 m ρ c (Proc.devRef .tc main_arg8) := by
  show StableHlo.after hostOps0 (W0 m ρ c) (Proc.devRef .tc main_arg8) = _
  keep_host hostOps0
/-- `main_arg8` is written by none of the segments 1–11. -/
theorem walk_arg8_11_0 : W11 m ρ c (Proc.devRef .tc main_arg8) = W0 m ρ c (Proc.devRef .tc main_arg8) :=
  (keep_arg8_11 m ρ c).trans ((keep_arg8_10 m ρ c).trans ((keep_arg8_9 m ρ c).trans ((keep_arg8_8 m ρ c).trans ((keep_arg8_7 m ρ c).trans ((keep_arg8_6 m ρ c).trans ((keep_arg8_5 m ρ c).trans ((keep_arg8_4 m ρ c).trans ((keep_arg8_3 m ρ c).trans ((keep_arg8_2 m ρ c).trans (keep_arg8_1 m ρ c))))))))))

theorem keep_arg9_13 : W13 m ρ c (Proc.devRef .tc main_arg9) = W12 m ρ c (Proc.devRef .tc main_arg9) := W13_of_ne m ρ c main_arg9 (by decide)
theorem keep_arg9_12 : W12 m ρ c (Proc.devRef .tc main_arg9) = W11 m ρ c (Proc.devRef .tc main_arg9) := by
  show StableHlo.after hostOps6 (W11 m ρ c) (Proc.devRef .tc main_arg9) = _
  keep_host hostOps6
theorem keep_arg9_11 : W11 m ρ c (Proc.devRef .tc main_arg9) = W10 m ρ c (Proc.devRef .tc main_arg9) := W11_of_ne m ρ c main_arg9 (by decide)
theorem keep_arg9_10 : W10 m ρ c (Proc.devRef .tc main_arg9) = W9 m ρ c (Proc.devRef .tc main_arg9) := by
  show StableHlo.after hostOps5 (W9 m ρ c) (Proc.devRef .tc main_arg9) = _
  keep_host hostOps5
theorem keep_arg9_9 : W9 m ρ c (Proc.devRef .tc main_arg9) = W8 m ρ c (Proc.devRef .tc main_arg9) := W9_of_ne m ρ c main_arg9 (by decide)
theorem keep_arg9_8 : W8 m ρ c (Proc.devRef .tc main_arg9) = W7 m ρ c (Proc.devRef .tc main_arg9) := W8_of_ne m ρ c main_arg9 (by decide)
theorem keep_arg9_7 : W7 m ρ c (Proc.devRef .tc main_arg9) = W6 m ρ c (Proc.devRef .tc main_arg9) := by
  show StableHlo.after hostOps3 (W6 m ρ c) (Proc.devRef .tc main_arg9) = _
  keep_host hostOps3
theorem keep_arg9_6 : W6 m ρ c (Proc.devRef .tc main_arg9) = W5 m ρ c (Proc.devRef .tc main_arg9) := W6_of_ne m ρ c main_arg9 (by decide)
theorem keep_arg9_5 : W5 m ρ c (Proc.devRef .tc main_arg9) = W4 m ρ c (Proc.devRef .tc main_arg9) := by
  show StableHlo.after hostOps2 (W4 m ρ c) (Proc.devRef .tc main_arg9) = _
  keep_host hostOps2
theorem keep_arg9_4 : W4 m ρ c (Proc.devRef .tc main_arg9) = W3 m ρ c (Proc.devRef .tc main_arg9) := W4_of_ne m ρ c main_arg9 (by decide)
theorem keep_arg9_3 : W3 m ρ c (Proc.devRef .tc main_arg9) = W2 m ρ c (Proc.devRef .tc main_arg9) := by
  show StableHlo.after hostOps1 (W2 m ρ c) (Proc.devRef .tc main_arg9) = _
  keep_host hostOps1
theorem keep_arg9_2 : W2 m ρ c (Proc.devRef .tc main_arg9) = W1 m ρ c (Proc.devRef .tc main_arg9) := W2_of_ne m ρ c main_arg9 (by decide)
theorem keep_arg9_1 : W1 m ρ c (Proc.devRef .tc main_arg9) = W0 m ρ c (Proc.devRef .tc main_arg9) := by
  show StableHlo.after hostOps0 (W0 m ρ c) (Proc.devRef .tc main_arg9) = _
  keep_host hostOps0
/-- `main_arg9` is written by none of the segments 1–13. -/
theorem walk_arg9_13_0 : W13 m ρ c (Proc.devRef .tc main_arg9) = W0 m ρ c (Proc.devRef .tc main_arg9) :=
  (keep_arg9_13 m ρ c).trans ((keep_arg9_12 m ρ c).trans ((keep_arg9_11 m ρ c).trans ((keep_arg9_10 m ρ c).trans ((keep_arg9_9 m ρ c).trans ((keep_arg9_8 m ρ c).trans ((keep_arg9_7 m ρ c).trans ((keep_arg9_6 m ρ c).trans ((keep_arg9_5 m ρ c).trans ((keep_arg9_4 m ρ c).trans ((keep_arg9_3 m ρ c).trans ((keep_arg9_2 m ρ c).trans (keep_arg9_1 m ρ c))))))))))))

theorem keep_arg10_13 : W13 m ρ c (Proc.devRef .tc main_arg10) = W12 m ρ c (Proc.devRef .tc main_arg10) := W13_of_ne m ρ c main_arg10 (by decide)
theorem keep_arg10_12 : W12 m ρ c (Proc.devRef .tc main_arg10) = W11 m ρ c (Proc.devRef .tc main_arg10) := by
  show StableHlo.after hostOps6 (W11 m ρ c) (Proc.devRef .tc main_arg10) = _
  keep_host hostOps6
theorem keep_arg10_11 : W11 m ρ c (Proc.devRef .tc main_arg10) = W10 m ρ c (Proc.devRef .tc main_arg10) := W11_of_ne m ρ c main_arg10 (by decide)
theorem keep_arg10_10 : W10 m ρ c (Proc.devRef .tc main_arg10) = W9 m ρ c (Proc.devRef .tc main_arg10) := by
  show StableHlo.after hostOps5 (W9 m ρ c) (Proc.devRef .tc main_arg10) = _
  keep_host hostOps5
theorem keep_arg10_9 : W9 m ρ c (Proc.devRef .tc main_arg10) = W8 m ρ c (Proc.devRef .tc main_arg10) := W9_of_ne m ρ c main_arg10 (by decide)
theorem keep_arg10_8 : W8 m ρ c (Proc.devRef .tc main_arg10) = W7 m ρ c (Proc.devRef .tc main_arg10) := W8_of_ne m ρ c main_arg10 (by decide)
theorem keep_arg10_7 : W7 m ρ c (Proc.devRef .tc main_arg10) = W6 m ρ c (Proc.devRef .tc main_arg10) := by
  show StableHlo.after hostOps3 (W6 m ρ c) (Proc.devRef .tc main_arg10) = _
  keep_host hostOps3
theorem keep_arg10_6 : W6 m ρ c (Proc.devRef .tc main_arg10) = W5 m ρ c (Proc.devRef .tc main_arg10) := W6_of_ne m ρ c main_arg10 (by decide)
theorem keep_arg10_5 : W5 m ρ c (Proc.devRef .tc main_arg10) = W4 m ρ c (Proc.devRef .tc main_arg10) := by
  show StableHlo.after hostOps2 (W4 m ρ c) (Proc.devRef .tc main_arg10) = _
  keep_host hostOps2
theorem keep_arg10_4 : W4 m ρ c (Proc.devRef .tc main_arg10) = W3 m ρ c (Proc.devRef .tc main_arg10) := W4_of_ne m ρ c main_arg10 (by decide)
theorem keep_arg10_3 : W3 m ρ c (Proc.devRef .tc main_arg10) = W2 m ρ c (Proc.devRef .tc main_arg10) := by
  show StableHlo.after hostOps1 (W2 m ρ c) (Proc.devRef .tc main_arg10) = _
  keep_host hostOps1
theorem keep_arg10_2 : W2 m ρ c (Proc.devRef .tc main_arg10) = W1 m ρ c (Proc.devRef .tc main_arg10) := W2_of_ne m ρ c main_arg10 (by decide)
theorem keep_arg10_1 : W1 m ρ c (Proc.devRef .tc main_arg10) = W0 m ρ c (Proc.devRef .tc main_arg10) := by
  show StableHlo.after hostOps0 (W0 m ρ c) (Proc.devRef .tc main_arg10) = _
  keep_host hostOps0
/-- `main_arg10` is written by none of the segments 1–13. -/
theorem walk_arg10_13_0 : W13 m ρ c (Proc.devRef .tc main_arg10) = W0 m ρ c (Proc.devRef .tc main_arg10) :=
  (keep_arg10_13 m ρ c).trans ((keep_arg10_12 m ρ c).trans ((keep_arg10_11 m ρ c).trans ((keep_arg10_10 m ρ c).trans ((keep_arg10_9 m ρ c).trans ((keep_arg10_8 m ρ c).trans ((keep_arg10_7 m ρ c).trans ((keep_arg10_6 m ρ c).trans ((keep_arg10_5 m ρ c).trans ((keep_arg10_4 m ρ c).trans ((keep_arg10_3 m ρ c).trans ((keep_arg10_2 m ρ c).trans (keep_arg10_1 m ρ c))))))))))))

theorem keep_v54_12 : W12 m ρ c (Proc.devRef .tc main_v54) = W11 m ρ c (Proc.devRef .tc main_v54) := by
  show StableHlo.after hostOps6 (W11 m ρ c) (Proc.devRef .tc main_v54) = _
  keep_host hostOps6
theorem keep_v54_11 : W11 m ρ c (Proc.devRef .tc main_v54) = W10 m ρ c (Proc.devRef .tc main_v54) := W11_of_ne m ρ c main_v54 (by decide)
theorem keep_v54_10 : W10 m ρ c (Proc.devRef .tc main_v54) = W9 m ρ c (Proc.devRef .tc main_v54) := by
  show StableHlo.after hostOps5 (W9 m ρ c) (Proc.devRef .tc main_v54) = _
  keep_host hostOps5
/-- `main_v54` is written by none of the segments 10–12. -/
theorem walk_v54_12_9 : W12 m ρ c (Proc.devRef .tc main_v54) = W9 m ρ c (Proc.devRef .tc main_v54) :=
  (keep_v54_12 m ρ c).trans ((keep_v54_11 m ρ c).trans (keep_v54_10 m ρ c))

theorem keep_v83_0_14 : W14 m ρ c (Proc.devRef .tc main_v83_0) = W13 m ρ c (Proc.devRef .tc main_v83_0) := by
  show StableHlo.after hostOps7 (W13 m ρ c) (Proc.devRef .tc main_v83_0) = _
  keep_host hostOps7
/-- `main_v83_0` is written by none of the segments 14–14. -/
theorem walk_v83_0_14_13 : W14 m ρ c (Proc.devRef .tc main_v83_0) = W13 m ρ c (Proc.devRef .tc main_v83_0) :=
  keep_v83_0_14 m ρ c

end Cert.KernelIdeal.HandFold

end
-- ==== Proof.RegionMatmul4.lean ====
/- The dense product stage of graph-convolution layer 2. The node features form a 100000 × 64 matrix A and the
   layer's weights a 64 × 64 matrix W; the stage computes A·W in twenty row blocks of 5000 rows, each block the product
   of the corresponding 5000 rows of A with the whole of W. Over the extended reals the change of float format before
   the product is the identity and the product accumulates into zero, so entry (r, q) of a block is the plain sum over
   k of A(r, k)·W(k, q). Proved here: the array the stage leaves is the whole product, entry by entry, whatever the
   two operand arrays hold when the stage is entered. -/
import proofs.«145301_j17463337025613_1_alg».proof.Proof.Gen.KernelIdeal.Frame
import proofs.«145301_j17463337025613_1_alg».proof.Proof.RegionDefs

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- One block's product at an entry: the sum over the contracted coordinate of the products of the entries. -/
theorem blockProd4_apply (x0 : Vec Ideal S5000x64 .f32) (x1 : Vec Ideal S64x64 .f32) (p : Fin 5000) (q : Fin 64) :
    k4_pay1 x0 x1 (ix2 p q) = ∑ k : Fin 64, x0 (ix2 p k) * x1 (ix2 k q) := by
  unfold k4_pay1
  try simp only [shapeCast_self]
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have c2 := contrEquiv1_symm_val dot_S5000x64_S64x64_S5000x64_1_0_0_1_n_n 64 rfl rfl k
  have l2 : (dot_S5000x64_S64x64_S5000x64_1_0_0_1_n_n).lhsIdx (ix2 p q) ((contrEquiv1 _ 64 rfl rfl).symm k) = ix2 p k := by
    funext ax; apply Fin.ext
    match ax with
    | ⟨0, _⟩ => simp [DotDims.lhsIdx, dot_S5000x64_S64x64_S5000x64_1_0_0_1_n_n]; rfl
    | ⟨1, _⟩ => simp [DotDims.lhsIdx, dot_S5000x64_S64x64_S5000x64_1_0_0_1_n_n]; exact c2
  have r2 : (dot_S5000x64_S64x64_S5000x64_1_0_0_1_n_n).rhsIdx (ix2 p q) ((contrEquiv1 _ 64 rfl rfl).symm k) = ix2 k q := by
    funext ax; apply Fin.ext
    match ax with
    | ⟨0, _⟩ => simp [DotDims.rhsIdx, dot_S5000x64_S64x64_S5000x64_1_0_0_1_n_n]; exact c2
    | ⟨1, _⟩ => simp [DotDims.rhsIdx, dot_S5000x64_S64x64_S5000x64_1_0_0_1_n_n]; rfl
  rw [l2, r2]
  rfl

/-- Where the windows' blocks sit, decided once over the twenty grid points: the two row-blocked windows (the feature
    matrix and the result) are at block row t, column block 0; the weight window is always the whole matrix. -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point t writes back is block t of the whole product of the two operand arrays. -/
theorem flushed4_eq (c : Dev nD) (t : Fin cfg4.N) :
    (dat4 (F := Ideal) V c).flushed 2 t
      = ((cfg4.win 2).blk t).view.read (Elt Ideal) (prodArr (V c (Pipeline.arrRef spec4 0)) (V c (Pipeline.arrRef spec4 1))) := by
  show (cfg4.win 2).cut (grid4.coords t) ((dat4 V c).after 2 t) = _
  rw [after4_2]
  unfold out4_2
  rw [View.canon_unit_zero offsetsZero2]
  simp only [View.ld_unit_zero (S := S5000x64) offsetsZero2, View.ld_unit_zero (S := S64x64) offsetsZero2]
  obtain ⟨e0, e1, e2, e3, e4, e5⟩ := blockIndex4 t
  funext j
  obtain ⟨p, q, rfl⟩ : ∃ (p : Fin 5000) (q : Fin 64), j = ix2 p q := ⟨j 0, j 1, eq_ix2 j⟩
  show k4_pay1 (iblk4 V c 0 t) (iblk4 V c 1 t) (ix2 p q)
    = prodArr (V c (Pipeline.arrRef spec4 0)) (V c (Pipeline.arrRef spec4 1)) (((cfg4.win 2).blk t).view.emb (ix2 p q))
  refine (blockProd4_apply _ _ p q).trans ?_
  unfold prodArr prodAt
  refine Finset.sum_congr rfl fun k _ => ?_
  have h0 : ((cfg4.win 0).blk t).view.emb (ix2 p k) = ix2 ((((cfg4.win 2).blk t).view.emb (ix2 p q)) 0) k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 64 + 1 * k.val = k.val; omega
  have h1 : ((cfg4.win 1).blk t).view.emb (ix2 k q) = ix2 k ((((cfg4.win 2).blk t).view.emb (ix2 p q)) 1) := by
    funext a; apply Fin.ext
    match a with
    | ⟨0, _⟩ => show win4_1.index t (0 : Fin 2) * 64 + 1 * k.val = k.val; omega
    | ⟨1, _⟩ => show win4_1.index t (1 : Fin 2) * 64 + 1 * q.val = win4_2.index t (1 : Fin 2) * 64 + 1 * q.val; omega
  exact congrArg₂ (fun a b : EReal => a * b) (congrArg (V c (Pipeline.arrRef spec4 0)) h0) (congrArg (V c (Pipeline.arrRef spec4 1)) h1)

/-- An index of the result array lies in point t's block iff each coordinate lies in the block's range on its axis. -/
theorem mem_block4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v54).slice (win4_2.rect t)).set ↔ _
  rw [View.set_slice_whole, Rect.mem_set_unit]
  exact Iff.rfl

/-- The twenty row blocks cover the result array: row r lies in block r / 5000. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  have ht : (i 0).val / 5000 < cfg4.N := by rw [hN]; omega
  obtain ⟨e0, e1, e2, e3, e4, e5⟩ := blockIndex4 ⟨(i 0).val / 5000, ht⟩
  refine ⟨⟨(i 0).val / 5000, ht⟩, flush4_2 _, ?_⟩
  rw [mem_block4]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 64 ≤ (i 1).val ∧ (i 1).val < win4_2.index ⟨(i 0).val / 5000, ht⟩ (1 : Fin 2) * 64 + 64
    rw [e5]; omega

/-- The array the stage leaves is the product of the two operand arrays it found: at index i, with r and q the two
    coordinates of i, the sum over k of A(r, k)·W(k, q), A the array of window 0 and W the array of window 1. -/
theorem final4 (c : Dev nD) :
    (dat4 (F := Ideal) V c).arrAt 2 cfg4.N
      = prodArr (V c (Pipeline.arrRef spec4 0)) (V c (Pipeline.arrRef spec4 1)) :=
  (dat4 (F := Ideal) V c).arrAt_eq_of_cover 2 _ (fun t _ => flushed4_eq V c t) cover4

end Cert.KernelIdeal.HandValue

end
-- ==== Proof.RegionMessage5.lean ====
/- The edge-message stage of graph-convolution layer 2. For each of the 1600000 edges the feature row gathered at the
   edge's source (a row of a 1600000 × 64 array H) is scaled by the edge's normalisation weight (a 1600000 × 1 column
   Nrm): entry (e, q) is H(e, q)·Nrm(e, 0). The stage works in two hundred blocks of 8000 edges; within a block the
   weight column is broadcast across the 64 features and multiplied entry by entry. Proved here: the array the stage
   leaves is that product at every entry, whatever the two operand arrays hold when the stage is entered. -/
import proofs.«145301_j17463337025613_1_alg».proof.Proof.Gen.KernelIdeal.Frame
import proofs.«145301_j17463337025613_1_alg».proof.Proof.RegionDefs

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- One block of messages at an entry: the gathered feature times the edge's weight. -/
theorem blockMsg5_apply (x0 : Vec Ideal S8000x64 .f32) (x1 : Vec Ideal S8000x1 .f32) (p : Fin 8000) (q : Fin 64) :
    k5_pay1 x0 x1 (ix2 p q) = x0 (ix2 p q) * x1 (ix2 p (0 : Fin 1)) := by
  unfold k5_pay1
  simp only [shapeCast_self]
  refine (mulf_apply _ _ (ix2 p q)).trans ?_
  exact congrArg (x0 (ix2 p q) * ·) (colBroadcast_apply x1 broadcasts_S8000x1_S8000x64 p q)

/-- Where the windows' blocks sit, decided once over the two hundred grid points: all three windows are at block
    row t, column block 0. -/
theorem blockIndex5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

set_option maxHeartbeats 400000 in
/-- What grid point t writes back is block t of the whole array of messages. -/
theorem flushed5_eq (c : Dev nD) (t : Fin cfg5.N) :
    (dat5 (F := Ideal) V c).flushed 2 t
      = ((cfg5.win 2).blk t).view.read (Elt Ideal) (msgArr (V c (Pipeline.arrRef spec5 0)) (V c (Pipeline.arrRef spec5 1))) := by
  show (cfg5.win 2).cut (grid5.coords t) ((dat5 V c).after 2 t) = _
  rw [after5_2]
  unfold out5_2
  rw [View.canon_unit_zero offsetsZero2]
  simp only [View.ld_unit_zero (S := S8000x64) offsetsZero2, View.ld_unit_zero (S := S8000x1) offsetsZero2]
  obtain ⟨e0, e1, e2, e3, e4, e5⟩ := blockIndex5 t
  funext j
  obtain ⟨p, q, rfl⟩ : ∃ (p : Fin 8000) (q : Fin 64), j = ix2 p q := ⟨j 0, j 1, eq_ix2 j⟩
  show k5_pay1 (iblk5 V c 0 t) (iblk5 V c 1 t) (ix2 p q)
    = msgArr (V c (Pipeline.arrRef spec5 0)) (V c (Pipeline.arrRef spec5 1)) (((cfg5.win 2).blk t).view.emb (ix2 p q))
  refine (blockMsg5_apply _ _ p q).trans ?_
  unfold msgArr msgAt
  have h0 : ((cfg5.win 0).blk t).view.emb (ix2 p q)
      = ix2 ((((cfg5.win 2).blk t).view.emb (ix2 p q)) 0) ((((cfg5.win 2).blk t).view.emb (ix2 p q)) 1) := by
    funext a; apply Fin.ext
    match a with
    | ⟨0, _⟩ => show win5_0.index t (0 : Fin 2) * 8000 + 1 * p.val = win5_2.index t (0 : Fin 2) * 8000 + 1 * p.val; omega
    | ⟨1, _⟩ => show win5_0.index t (1 : Fin 2) * 64 + 1 * q.val = win5_2.index t (1 : Fin 2) * 64 + 1 * q.val; omega
  have h1 : ((cfg5.win 1).blk t).view.emb (ix2 p (0 : Fin 1)) = ix2 ((((cfg5.win 2).blk t).view.emb (ix2 p q)) 0) (0 : Fin 1) := by
    funext a; apply Fin.ext
    match a with
    | ⟨0, _⟩ => show win5_1.index t (0 : Fin 2) * 8000 + 1 * p.val = win5_2.index t (0 : Fin 2) * 8000 + 1 * p.val; omega
    | ⟨1, _⟩ => show win5_1.index t (1 : Fin 2) * 1 + 1 * 0 = 0; omega
  exact congrArg₂ (fun a b : EReal => a * b) (congrArg (V c (Pipeline.arrRef spec5 0)) h0) (congrArg (V c (Pipeline.arrRef spec5 1)) h1)

/-- An index of the result array lies in point t's block iff each coordinate lies in the block's range on its axis. -/
theorem mem_block5 (t : Fin cfg5.N) (i : S1600000x64.Idx) :
    i ∈ ((cfg5.win 2).blk t).view.set ↔ ∀ a : Fin 2, win5_2.index t a * S8000x64.size a ≤ (i a).val ∧ (i a).val < win5_2.index t a * S8000x64.size a + S8000x64.size a := by
  show i ∈ ((View.whole main_v78).slice (win5_2.rect t)).set ↔ _
  rw [View.set_slice_whole, Rect.mem_set_unit]
  exact Iff.rfl

/-- The two hundred blocks cover the result array: edge e lies in block e / 8000. -/
theorem cover5 (i : S1600000x64.Idx) : ∃ t : Fin cfg5.N, (cfg5.win 2).flush t = true ∧ i ∈ ((cfg5.win 2).blk t).view.set := by
  have hi0 : (i 0).val < 1600000 := (i 0).isLt
  have hi1 : (i 1).val < 64 := (i 1).isLt
  have hN : cfg5.N = 200 := N_5
  have ht : (i 0).val / 8000 < cfg5.N := by rw [hN]; omega
  obtain ⟨e0, e1, e2, e3, e4, e5⟩ := blockIndex5 ⟨(i 0).val / 8000, ht⟩
  refine ⟨⟨(i 0).val / 8000, ht⟩, flush5_2 _, ?_⟩
  rw [mem_block5]
  intro a
  match a with
  | ⟨0, _⟩ =>
    show win5_2.index ⟨(i 0).val / 8000, ht⟩ (0 : Fin 2) * 8000 ≤ (i 0).val ∧ (i 0).val < win5_2.index ⟨(i 0).val / 8000, ht⟩ (0 : Fin 2) * 8000 + 8000
    rw [e4]; show (i 0).val / 8000 * 8000 ≤ (i 0).val ∧ (i 0).val < (i 0).val / 8000 * 8000 + 8000; omega
  | ⟨1, _⟩ =>
    show win5_2.index ⟨(i 0).val / 8000, ht⟩ (1 : Fin 2) * 64 ≤ (i 1).val ∧ (i 1).val < win5_2.index ⟨(i 0).val / 8000, ht⟩ (1 : Fin 2) * 64 + 64
    rw [e5]; omega

/-- The array the stage leaves: at index i, with e and q the two coordinates of i, H(e, q)·Nrm(e, 0), H the array of
    window 0 (the gathered features) and Nrm the array of window 1 (the edge weights). -/
theorem final5 (c : Dev nD) :
    (dat5 (F := Ideal) V c).arrAt 2 cfg5.N
      = msgArr (V c (Pipeline.arrRef spec5 0)) (V c (Pipeline.arrRef spec5 1)) :=
  (dat5 (F := Ideal) V c).arrAt_eq_of_cover 2 _ (fun t _ => flushed5_eq V c t) cover5

end Cert.KernelIdeal.HandValue

end
-- ==== Proof.RegionStats6.lean ====
/-
  The values the relu-and-statistics region 6 leaves in its three result arrays, over the extended reals.

  The region walks 20 row blocks of 5000 rows of the [100000, 64] arrays agg and h, the [100000, 1] column dinv2
  and the [1, 64] row b.  At block t it computes, for each row r of the block and lane q,
      Z(5000 t + r, q) = max (agg + dinv2 * h + b) 0,
  stores that block of Z, and adds the block's column sums of Z and of Z * Z into two [1, 64] accumulators that
  it zeroes at block 0 and carries from block to block; the accumulators are written back after block 19.

  Proved here, for any contents of the arrays at the region's entry:
    * each case of the body leaves the block of Z in the first result's buffer and accumulator + block column sum
      (of Z, of Z * Z) in the other two — the accumulator being the zero row in the first block's case;
    * by induction on the block, after block n the accumulators hold the sums over the rows below 5000 (n + 1);
    * hence the first result array ends as Z, and the other two as the column sums of Z and of Z * Z over all
      100000 rows (regrouping 20 blocks of 5000 into one sum needs only commutative-monoid laws).
-/
import proofs.«145301_j17463337025613_1_alg».proof.Proof.Gen.KernelIdeal.Frame
import proofs.«145301_j17463337025613_1_alg».proof.Proof.StatsSum
import Idealize.ShloMosaic.Lib.Pipeline.Value
import Idealize.ShloMosaic.Lib.Tactic

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen

theorem statsZeroOff6 : (![0, 0] : Fin 2 → Nat) = fun _ => 0 := funext fun a => by fin_cases a <;> rfl

/-! ## What each case of the body leaves, as the body's arithmetic of the blocks it loads -/

section Pieces

variable {F : FTy → Type} [FloatOps F]

/-- First block: the block of Z. -/
theorem out6_A_4_eq (c : Dev nD) (i : grid6.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : cond6_0 i) (x0 x1 : Vec F S5000x64 .f32) (x2 : Vec F S5000x1 .f32) (x3 : Vec F S1x64 .f32) :
    out6_A_4 c i a1 h1 a2 h2 a3 h3 a4 h4 a5 h5 a6 h6 a7 h7 hc x0 x1 x2 x3 = k6_pay3 x0 x2 x1 x3 := by
  unfold out6_A_4
  rw [View.read_writes_eq_canon _ _ _ (cover6_A_4 c i a1 h1 a2 h2 a3 h3 a4 h4 a5 h5 a6 h6 a7 h7 hc x0 x1 x2 x3)]
  unfold kernelRun6_A
  dsimp only
  sl_unfold_words
  rw [View.canon_unit_zero statsZeroOff6]
  simp only [View.readAt_eq_ld, h1.read_unread, h2.read_unread, h3.read_unread, h4.read_unread,
    View.ld_unit_zero (S := S5000x64) statsZeroOff6, View.ld_unit_zero (S := S5000x1) statsZeroOff6, View.ld_unit_zero (S := S1x64) statsZeroOff6]

/-- First block: the zero row plus the block's column sums of Z. -/
theorem out6_A_5_eq (c : Dev nD) (i : grid6.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : cond6_0 i) (x0 x1 : Vec F S5000x64 .f32) (x2 : Vec F S5000x1 .f32) (x3 : Vec F S1x64 .f32) :
    out6_A_5 c i a1 h1 a2 h2 a3 h3 a4 h4 a5 h5 a6 h6 a7 h7 hc x0 x1 x2 x3 = k6_pay4 x0 x2 x1 x3 k6_pay1 := by
  unfold out6_A_5
  rw [View.read_writes_eq_canon _ _ _ (cover6_A_5 c i a1 h1 a2 h2 a3 h3 a4 h4 a5 h5 a6 h6 a7 h7 hc x0 x1 x2 x3)]
  unfold kernelRun6_A
  dsimp only
  sl_unfold_words
  rw [View.canon_cons_unit_zero (S := S1x64) statsZeroOff6, View.readCov_unit_zero (S := S1x64) _ statsZeroOff6]
  simp only [View.readAt_eq_ld, h1.read_unread, h2.read_unread, h3.read_unread, h4.read_unread,
    View.ld_unit_zero (S := S5000x64) statsZeroOff6, View.ld_unit_zero (S := S5000x1) statsZeroOff6, View.ld_unit_zero (S := S1x64) statsZeroOff6]

/-- First block: the zero row plus the block's column sums of Z * Z. -/
theorem out6_A_6_eq (c : Dev nD) (i : grid6.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : cond6_0 i) (x0 x1 : Vec F S5000x64 .f32) (x2 : Vec F S5000x1 .f32) (x3 : Vec F S1x64 .f32) :
    out6_A_6 c i a1 h1 a2 h2 a3 h3 a4 h4 a5 h5 a6 h6 a7 h7 hc x0 x1 x2 x3 = k6_pay5 x0 x2 x1 x3 k6_pay2 := by
  unfold out6_A_6
  rw [View.read_writes_eq_canon _ _ _ (cover6_A_6 c i a1 h1 a2 h2 a3 h3 a4 h4 a5 h5 a6 h6 a7 h7 hc x0 x1 x2 x3)]
  unfold kernelRun6_A
  dsimp only
  sl_unfold_words
  rw [View.canon_cons_unit_zero (S := S1x64) statsZeroOff6, View.readCov_unit_zero (S := S1x64) _ statsZeroOff6]
  simp only [View.readAt_eq_ld, h1.read_unread, h2.read_unread, h3.read_unread, h4.read_unread,
    View.ld_unit_zero (S := S5000x64) statsZeroOff6, View.ld_unit_zero (S := S5000x1) statsZeroOff6, View.ld_unit_zero (S := S1x64) statsZeroOff6]

/-- A later block: the block of Z. -/
theorem out6_B_4_eq (c : Dev nD) (i : grid6.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : ¬cond6_0 i) (x0 x1 : Vec F S5000x64 .f32) (x2 : Vec F S5000x1 .f32) (x3 xo5 xo6 : Vec F S1x64 .f32) :
    out6_B_4 c i a1 h1 a2 h2 a3 h3 a4 h4 a5 h5 a6 h6 a7 h7 hc x0 x1 x2 x3 xo5 xo6 = k6_pay3 x0 x2 x1 x3 := by
  unfold out6_B_4
  rw [View.read_writes_eq_canon _ _ _ (cover6_B_4 c i a1 h1 a2 h2 a3 h3 a4 h4 a5 h5 a6 h6 a7 h7 hc x0 x1 x2 x3 xo5 xo6)]
  unfold kernelRun6_B
  dsimp only
  sl_unfold_words
  rw [View.canon_unit_zero statsZeroOff6]
  simp only [View.readAt_eq_ld, h1.read_unread, h2.read_unread, h3.read_unread, h4.read_unread, h6.read_unread, h7.read_unread,
    View.ld_unit_zero (S := S5000x64) statsZeroOff6, View.ld_unit_zero (S := S5000x1) statsZeroOff6, View.ld_unit_zero (S := S1x64) statsZeroOff6]

/-- A later block: the carried row plus the block's column sums of Z. -/
theorem out6_B_5_eq (c : Dev nD) (i : grid6.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : ¬cond6_0 i) (x0 x1 : Vec F S5000x64 .f32) (x2 : Vec F S5000x1 .f32) (x3 xo5 xo6 : Vec F S1x64 .f32) :
    out6_B_5 c i a1 h1 a2 h2 a3 h3 a4 h4 a5 h5 a6 h6 a7 h7 hc x0 x1 x2 x3 xo5 xo6 = k6_pay4 x0 x2 x1 x3 xo5 := by
  unfold out6_B_5
  rw [View.read_writes_eq_canon _ _ _ (cover6_B_5 c i a1 h1 a2 h2 a3 h3 a4 h4 a5 h5 a6 h6 a7 h7 hc x0 x1 x2 x3 xo5 xo6)]
  unfold kernelRun6_B
  dsimp only
  sl_unfold_words
  rw [View.canon_unit_zero statsZeroOff6]
  simp only [View.readAt_eq_ld, h1.read_unread, h2.read_unread, h3.read_unread, h4.read_unread, h6.read_unread, h7.read_unread,
    View.ld_unit_zero (S := S5000x64) statsZeroOff6, View.ld_unit_zero (S := S5000x1) statsZeroOff6, View.ld_unit_zero (S := S1x64) statsZeroOff6]

/-- A later block: the carried row plus the block's column sums of Z * Z. -/
theorem out6_B_6_eq (c : Dev nD) (i : grid6.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : ¬cond6_0 i) (x0 x1 : Vec F S5000x64 .f32) (x2 : Vec F S5000x1 .f32) (x3 xo5 xo6 : Vec F S1x64 .f32) :
    out6_B_6 c i a1 h1 a2 h2 a3 h3 a4 h4 a5 h5 a6 h6 a7 h7 hc x0 x1 x2 x3 xo5 xo6 = k6_pay5 x0 x2 x1 x3 xo6 := by
  unfold out6_B_6
  rw [View.read_writes_eq_canon _ _ _ (cover6_B_6 c i a1 h1 a2 h2 a3 h3 a4 h4 a5 h5 a6 h6 a7 h7 hc x0 x1 x2 x3 xo5 xo6)]
  unfold kernelRun6_B
  dsimp only
  sl_unfold_words
  rw [View.canon_unit_zero statsZeroOff6]
  simp only [View.readAt_eq_ld, h1.read_unread, h2.read_unread, h3.read_unread, h4.read_unread, h6.read_unread, h7.read_unread,
    View.ld_unit_zero (S := S5000x64) statsZeroOff6, View.ld_unit_zero (S := S5000x1) statsZeroOff6, View.ld_unit_zero (S := S1x64) statsZeroOff6]

end Pieces

/-! ## The body's arithmetic read at an index, over the extended reals -/

/-- The body's relu'd affine block at row r, lane q. -/
theorem pay6_3_apply (v3 v7 : Vec Ideal S5000x64 .f32) (v5 : Vec Ideal S5000x1 .f32) (v12 : Vec Ideal S1x64 .f32)
    (r : Fin 5000) (q : Fin 64) :
    k6_pay3 (F := Ideal) v3 v5 v7 v12 (ix2 r q)
      = max (v3 (ix2 r q) + v5 (ix2 r (0 : Fin 1)) * v7 (ix2 r q) + v12 (ix2 (0 : Fin 1) q)) (Ideal.ofBits .f32 0x00000000#32) := by
  have e1 : broadcastTo S5000x64 (shapeCast S5000x1 v5 shapeCasts_S5000x1_S5000x1) broadcasts_S5000x1_S5000x64 (ix2 r q)
      = v5 (ix2 r (0 : Fin 1)) := by
    rw [shapeCast_self]; exact broadcastTo_a1_ab_apply v5 _ r q
  have e2 : broadcastTo S5000x64 (shapeCast S1x64 v12 shapeCasts_S1x64_S1x64) broadcasts_S1x64_S5000x64 (ix2 r q)
      = v12 (ix2 (0 : Fin 1) q) := by
    rw [shapeCast_self]; exact broadcastTo_1b_ab_apply v12 _ r q
  unfold k6_pay3
  show max (shapeCast S5000x64 v3 shapeCasts_S5000x64_S5000x64 (ix2 r q)
      + broadcastTo S5000x64 (shapeCast S5000x1 v5 shapeCasts_S5000x1_S5000x1) broadcasts_S5000x1_S5000x64 (ix2 r q)
        * shapeCast S5000x64 v7 shapeCasts_S5000x64_S5000x64 (ix2 r q)
      + broadcastTo S5000x64 (shapeCast S1x64 v12 shapeCasts_S1x64_S1x64) broadcasts_S1x64_S5000x64 (ix2 r q))
      (Ideal.ofBits .f32 0x00000000#32) = _
  rw [e1, e2, shapeCast_self, shapeCast_self]

/-- The running column sum after the body: the carried value plus the block's column sum. -/
theorem pay6_4_apply (v3 v7 : Vec Ideal S5000x64 .f32) (v5 : Vec Ideal S5000x1 .f32) (v12 v19 : Vec Ideal S1x64 .f32)
    (u : Fin 1) (q : Fin 64) :
    k6_pay4 (F := Ideal) v3 v5 v7 v12 v19 (ix2 u q)
      = v19 (ix2 u q) + ∑ k : Fin 5000, k6_pay3 (F := Ideal) v3 v5 v7 v12 (ix2 k q) := by
  unfold k6_pay4
  show shapeCast S1x64 v19 shapeCasts_S1x64_S1x64 (ix2 u q)
      + shapeCast S1x64 (multiReduction .add [0] S64 (k6_pay3 (F := Ideal) v3 v5 v7 v12) 0x00000000#32 reduces_S5000x64_S64 (.inl rfl) rfl)
          shapeCasts_S64_S1x64 (ix2 u q) = _
  rw [shapeCast_self]
  refine congrArg (v19 (ix2 u q) + ·) ?_
  refine (shapeCast_a_1a_apply _ shapeCasts_S64_S1x64 u q).trans ?_
  exact multiReduction_add_rows (k6_pay3 (F := Ideal) v3 v5 v7 v12) 0x00000000#32 reduces_S5000x64_S64 (.inl rfl) rfl q

/-- The running column sum of squares after the body. -/
theorem pay6_5_apply (v3 v7 : Vec Ideal S5000x64 .f32) (v5 : Vec Ideal S5000x1 .f32) (v12 v25 : Vec Ideal S1x64 .f32)
    (u : Fin 1) (q : Fin 64) :
    k6_pay5 (F := Ideal) v3 v5 v7 v12 v25 (ix2 u q)
      = v25 (ix2 u q) + ∑ k : Fin 5000, k6_pay3 (F := Ideal) v3 v5 v7 v12 (ix2 k q) * k6_pay3 (F := Ideal) v3 v5 v7 v12 (ix2 k q) := by
  unfold k6_pay5
  show shapeCast S1x64 v25 shapeCasts_S1x64_S1x64 (ix2 u q)
      + shapeCast S1x64 (multiReduction .add [0] S64 (mulf (k6_pay3 (F := Ideal) v3 v5 v7 v12) (k6_pay3 (F := Ideal) v3 v5 v7 v12)) 0x00000000#32 reduces_S5000x64_S64 (.inl rfl) rfl)
          shapeCasts_S64_S1x64 (ix2 u q) = _
  rw [shapeCast_self]
  refine congrArg (v25 (ix2 u q) + ·) ?_
  refine (shapeCast_a_1a_apply _ shapeCasts_S64_S1x64 u q).trans ?_
  exact multiReduction_add_rows (mulf (k6_pay3 (F := Ideal) v3 v5 v7 v12) (k6_pay3 (F := Ideal) v3 v5 v7 v12)) 0x00000000#32 reduces_S5000x64_S64 (.inl rfl) rfl q

/-- The zero rows the first block stores read 0. -/
theorem pay6_1_apply (j : S1x64.Idx) : k6_pay1 (F := Ideal) j = 0 := Ideal.ofBits_zero_f32
theorem pay6_2_apply (j : S1x64.Idx) : k6_pay2 (F := Ideal) j = 0 := Ideal.ofBits_zero_f32

/-! ## The blocks the body loads, read off the arrays as the region finds them -/

variable (V : (c : Dev nD) → (b : Ref sig .tc) → Buf (Elt Ideal) ((c : Thread nD τ).loc b))

/-- Where each window's block sits at each of the 20 points: row block t for the three row-blocked inputs and the
    first result, block (0, 0) for the row b and the two accumulators — decided over the grid. -/
theorem statsIdx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

theorem N6 : cfg6.N = 20 := N_6

/-- The windows' arrays by name: windows 0-3 are agg, h, dinv2, b; windows 4-6 the three results. -/
theorem arrRef6_0 : Pipeline.arrRef spec6 0 = main_v81 := rfl
theorem arrRef6_1 : Pipeline.arrRef spec6 1 = main_v54 := rfl
theorem arrRef6_2 : Pipeline.arrRef spec6 2 = main_v12 := rfl
theorem arrRef6_3 : Pipeline.arrRef spec6 3 = main_v82 := rfl
theorem arrRef6_4 : Pipeline.arrRef spec6 4 = main_v83_0 := rfl
theorem arrRef6_5 : Pipeline.arrRef spec6 5 = main_v83_1 := rfl
theorem arrRef6_6 : Pipeline.arrRef spec6 6 = main_v83_2 := rfl

/-- Row 5000 t + r of the arrays, for a row r of block t. -/
def statsRow6 (t : Fin cfg6.N) (r : Fin 5000) : Fin 100000 :=
  ⟨5000 * t.val + r.val, by have hN : cfg6.N = 20 := N6; have := t.isLt; have := r.isLt; omega⟩

theorem iblk6_0_at (c : Dev nD) (t : Fin cfg6.N) (r : Fin 5000) (q : Fin 64) :
    iblk6 V c 0 t (ix2 r q) = V c main_v81 (ix2 (statsRow6 t r) q) := by
  show V c main_v81 (((cfg6.win 0).blk t).view.emb (ix2 r q)) = V c main_v81 (ix2 (statsRow6 t r) q)
  refine congrArg (V c main_v81) (funext fun a => Fin.ext ?_)
  obtain ⟨e0, e1, -⟩ := statsIdx6 t
  match a with
  | ⟨0, _⟩ => show win6_0.index t (0 : Fin 2) * 5000 + 1 * r.val = 5000 * t.val + r.val; rw [e0]; omega
  | ⟨1, _⟩ => show win6_0.index t (1 : Fin 2) * 64 + 1 * q.val = q.val; rw [e1]; omega

theorem iblk6_1_at (c : Dev nD) (t : Fin cfg6.N) (r : Fin 5000) (q : Fin 64) :
    iblk6 V c 1 t (ix2 r q) = V c main_v54 (ix2 (statsRow6 t r) q) := by
  show V c main_v54 (((cfg6.win 1).blk t).view.emb (ix2 r q)) = V c main_v54 (ix2 (statsRow6 t r) q)
  refine congrArg (V c main_v54) (funext fun a => Fin.ext ?_)
  obtain ⟨-, -, e0, e1, -⟩ := statsIdx6 t
  match a with
  | ⟨0, _⟩ => show win6_1.index t (0 : Fin 2) * 5000 + 1 * r.val = 5000 * t.val + r.val; rw [e0]; omega
  | ⟨1, _⟩ => show win6_1.index t (1 : Fin 2) * 64 + 1 * q.val = q.val; rw [e1]; omega

theorem iblk6_2_at (c : Dev nD) (t : Fin cfg6.N) (r : Fin 5000) (u : Fin 1) :
    iblk6 V c 2 t (ix2 r u) = V c main_v12 (ix2 (statsRow6 t r) u) := by
  show V c main_v12 (((cfg6.win 2).blk t).view.emb (ix2 r u)) = V c main_v12 (ix2 (statsRow6 t r) u)
  refine congrArg (V c main_v12) (funext fun a => Fin.ext ?_)
  obtain ⟨-, -, -, -, e0, e1, -⟩ := statsIdx6 t
  match a with
  | ⟨0, _⟩ => show win6_2.index t (0 : Fin 2) * 5000 + 1 * r.val = 5000 * t.val + r.val; rw [e0]; omega
  | ⟨1, _⟩ => show win6_2.index t (1 : Fin 2) * 1 + 1 * u.val = u.val; rw [e1]; omega

theorem iblk6_3_at (c : Dev nD) (t : Fin cfg6.N) (u : Fin 1) (q : Fin 64) :
    iblk6 V c 3 t (ix2 u q) = V c main_v82 (ix2 u q) := by
  show V c main_v82 (((cfg6.win 3).blk t).view.emb (ix2 u q)) = V c main_v82 (ix2 u q)
  refine congrArg (V c main_v82) (funext fun a => Fin.ext ?_)
  obtain ⟨-, -, -, -, -, -, e0, e1, -⟩ := statsIdx6 t
  match a with
  | ⟨0, _⟩ => show win6_3.index t (0 : Fin 2) * 1 + 1 * u.val = u.val; rw [e0]; omega
  | ⟨1, _⟩ => show win6_3.index t (1 : Fin 2) * 64 + 1 * q.val = q.val; rw [e1]; omega

/-- The block of Z the body computes at point t is block t of the array Z of the entry contents. -/
theorem zblock6_at (c : Dev nD) (t : Fin cfg6.N) (r : Fin 5000) (q : Fin 64) :
    k6_pay3 (F := Ideal) (iblk6 V c 0 t) (iblk6 V c 2 t) (iblk6 V c 1 t) (iblk6 V c 3 t) (ix2 r q)
      = Zat (V c main_v81) (V c main_v54) (V c main_v12) (V c main_v82) (statsRow6 t r) q := by
  refine (pay6_3_apply (iblk6 V c 0 t) (iblk6 V c 1 t) (iblk6 V c 2 t) (iblk6 V c 3 t) r q).trans ?_
  rw [iblk6_0_at V c t r q, iblk6_1_at V c t r q, iblk6_2_at V c t r 0, iblk6_3_at V c t 0 q]
  rfl

/-! ## What each point leaves in the three buffers, as the body's arithmetic -/

section Outs

variable {F : FTy → Type} [FloatOps F]
variable (W : (c : Dev nD) → (b : Ref sig .tc) → Buf (Elt F) ((c : Thread nD τ).loc b))

/-- At the first point: the block of Z, and the zero rows plus the block's column sums. -/
theorem outs6_A (c : Dev nD) (t : Fin cfg6.N) (h0 : t.val % 20 = 0) :
    outsAt6 W c t.val t.isLt
      = (k6_pay3 (iblk6 W c 0 t) (iblk6 W c 2 t) (iblk6 W c 1 t) (iblk6 W c 3 t),
         k6_pay4 (iblk6 W c 0 t) (iblk6 W c 2 t) (iblk6 W c 1 t) (iblk6 W c 3 t) (k6_pay1 (F := F)),
         k6_pay5 (iblk6 W c 0 t) (iblk6 W c 2 t) (iblk6 W c 1 t) (iblk6 W c 3 t) (k6_pay2 (F := F))) := by
  rw [outsAt6_A W c t h0, out6_A_4_eq, out6_A_5_eq, out6_A_6_eq]

/-- At a later point: the block of Z, and the rows the point before left plus the block's column sums. -/
theorem outs6_B (c : Dev nD) (t : Fin cfg6.N) (h0 : ¬t.val % 20 = 0) :
    outsAt6 W c t.val t.isLt
      = (k6_pay3 (iblk6 W c 0 t) (iblk6 W c 2 t) (iblk6 W c 1 t) (iblk6 W c 3 t),
         k6_pay4 (iblk6 W c 0 t) (iblk6 W c 2 t) (iblk6 W c 1 t) (iblk6 W c 3 t)
           (outsAt6 W c (t.val - 1) (Nat.lt_of_le_of_lt (Nat.sub_le _ _) t.isLt)).2.1,
         k6_pay5 (iblk6 W c 0 t) (iblk6 W c 2 t) (iblk6 W c 1 t) (iblk6 W c 3 t)
           (outsAt6 W c (t.val - 1) (Nat.lt_of_le_of_lt (Nat.sub_le _ _) t.isLt)).2.2) := by
  rw [outsAt6_B W c t h0, out6_B_4_eq, out6_B_5_eq, out6_B_6_eq]

end Outs

/-! ## The accumulators after each point: the sums over the rows seen so far -/

/-- After point n the accumulators hold, at lane q, the sums of Z and of Z * Z over the rows below 5000 (n + 1)
    (written as sums over the naturals, the entries extended by zero past the last row). -/
theorem acc6_inv (c : Dev nD) : ∀ (n : ℕ) (hn : n < cfg6.N) (u : Fin 1) (q : Fin 64),
    (outsAt6 (F := Ideal) V c n hn).2.1 (ix2 u q)
        = ∑ s ∈ Finset.range (5000 * (n + 1)), extend0 (fun r => Zat (V c main_v81) (V c main_v54) (V c main_v12) (V c main_v82) r q) s
    ∧ (outsAt6 (F := Ideal) V c n hn).2.2 (ix2 u q)
        = ∑ s ∈ Finset.range (5000 * (n + 1)), extend0 (fun r => Zat (V c main_v81) (V c main_v54) (V c main_v12) (V c main_v82) r q * Zat (V c main_v81) (V c main_v54) (V c main_v12) (V c main_v82) r q) s
  | 0, hn, u, q => by
    have hA := outs6_A (F := Ideal) V c ⟨0, hn⟩ rfl
    have hlt : ∀ k : Fin 5000, 5000 * 0 + k.val < 100000 := fun k => by have := k.isLt; omega
    have h5 : (outsAt6 (F := Ideal) V c 0 hn).2.1
        = k6_pay4 (F := Ideal) (iblk6 V c 0 ⟨0, hn⟩) (iblk6 V c 2 ⟨0, hn⟩) (iblk6 V c 1 ⟨0, hn⟩) (iblk6 V c 3 ⟨0, hn⟩) (k6_pay1 (F := Ideal)) := congrArg (fun p => p.2.1) hA
    have h6 : (outsAt6 (F := Ideal) V c 0 hn).2.2
        = k6_pay5 (F := Ideal) (iblk6 V c 0 ⟨0, hn⟩) (iblk6 V c 2 ⟨0, hn⟩) (iblk6 V c 1 ⟨0, hn⟩) (iblk6 V c 3 ⟨0, hn⟩) (k6_pay2 (F := Ideal)) := congrArg (fun p => p.2.2) hA
    constructor
    · rw [h5, pay6_4_apply, pay6_1_apply, sum_range_succ_block _ 5000 0]
      refine congrArg₂ (· + ·) ?_ (Finset.sum_congr rfl fun k _ => ?_)
      · rw [Nat.mul_zero, Finset.range_zero, Finset.sum_empty]
      · rw [zblock6_at V c ⟨0, hn⟩ k q, extend0_of_lt _ _ (hlt k)]
        rfl
    · rw [h6, pay6_5_apply, pay6_2_apply, sum_range_succ_block _ 5000 0]
      refine congrArg₂ (· + ·) ?_ (Finset.sum_congr rfl fun k _ => ?_)
      · rw [Nat.mul_zero, Finset.range_zero, Finset.sum_empty]
      · rw [zblock6_at V c ⟨0, hn⟩ k q, extend0_of_lt _ _ (hlt k)]
        rfl
  | n + 1, hn, u, q => by
    have hN : cfg6.N = 20 := N6
    have hB : ¬(⟨n + 1, hn⟩ : Fin cfg6.N).val % 20 = 0 := by dsimp only; omega
    have hBeq := outs6_B (F := Ideal) V c ⟨n + 1, hn⟩ hB
    have ih := acc6_inv c n (Nat.lt_of_succ_lt hn) u q
    have hlt : ∀ k : Fin 5000, 5000 * (n + 1) + k.val < 100000 := fun k => by have := k.isLt; omega
    have h5 : (outsAt6 (F := Ideal) V c (n + 1) hn).2.1
        = k6_pay4 (F := Ideal) (iblk6 V c 0 ⟨n + 1, hn⟩) (iblk6 V c 2 ⟨n + 1, hn⟩) (iblk6 V c 1 ⟨n + 1, hn⟩) (iblk6 V c 3 ⟨n + 1, hn⟩) (outsAt6 (F := Ideal) V c n (Nat.lt_of_succ_lt hn)).2.1 :=
      congrArg (fun p => p.2.1) hBeq
    have h6 : (outsAt6 (F := Ideal) V c (n + 1) hn).2.2
        = k6_pay5 (F := Ideal) (iblk6 V c 0 ⟨n + 1, hn⟩) (iblk6 V c 2 ⟨n + 1, hn⟩) (iblk6 V c 1 ⟨n + 1, hn⟩) (iblk6 V c 3 ⟨n + 1, hn⟩) (outsAt6 (F := Ideal) V c n (Nat.lt_of_succ_lt hn)).2.2 :=
      congrArg (fun p => p.2.2) hBeq
    constructor
    · rw [h5, pay6_4_apply, ih.1, sum_range_succ_block _ 5000 (n + 1)]
      refine congrArg (_ + ·) (Finset.sum_congr rfl fun k _ => ?_)
      rw [zblock6_at V c ⟨n + 1, hn⟩ k q, extend0_of_lt _ _ (hlt k)]
      rfl
    · rw [h6, pay6_5_apply, ih.2, sum_range_succ_block _ 5000 (n + 1)]
      refine congrArg (_ + ·) (Finset.sum_congr rfl fun k _ => ?_)
      rw [zblock6_at V c ⟨n + 1, hn⟩ k q, extend0_of_lt _ _ (hlt k)]
      rfl

/-- What each point leaves in the first result's buffer: its block of Z. -/
theorem zout6 (c : Dev nD) (t : Fin cfg6.N) :
    (outsAt6 (F := Ideal) V c t.val t.isLt).1 = k6_pay3 (F := Ideal) (iblk6 V c 0 t) (iblk6 V c 2 t) (iblk6 V c 1 t) (iblk6 V c 3 t) := by
  by_cases h0 : t.val % 20 = 0
  · exact congrArg (fun p => p.1) (outs6_A (F := Ideal) V c t h0)
  · exact congrArg (fun p => p.1) (outs6_B (F := Ideal) V c t h0)

/-! ## The result arrays after the region -/

/-- What point t writes back to the first result is block t of Z. -/
theorem flushed6_4 (c : Dev nD) (t : Fin cfg6.N) :
    (dat6 (F := Ideal) V c).flushed 4 t
      = ((cfg6.win 4).blk t).view.read (Elt Ideal) (Zarr (V c main_v81) (V c main_v54) (V c main_v12) (V c main_v82)) := by
  show (cfg6.win 4).cut (grid6.coords t) ((dat6 (F := Ideal) V c).after 4 t) = _
  rw [after6_4, zout6]
  funext j
  obtain ⟨r, q, rfl⟩ : ∃ (r : Fin 5000) (q : Fin 64), j = ix2 r q := ⟨j 0, j 1, eq_ix2 j⟩
  refine (zblock6_at V c t r q).trans ?_
  show _ = Zarr (V c main_v81) (V c main_v54) (V c main_v12) (V c main_v82) (((cfg6.win 4).blk t).view.emb (ix2 r q))
  have e : ((cfg6.win 4).blk t).view.emb (ix2 r q) = ix2 (statsRow6 t r) q := by
    funext a; apply Fin.ext
    obtain ⟨-, -, -, -, -, -, -, -, e0, e1, -⟩ := statsIdx6 t
    match a with
    | ⟨0, _⟩ => show win6_4.index t (0 : Fin 2) * 5000 + 1 * r.val = 5000 * t.val + r.val; rw [e0]; omega
    | ⟨1, _⟩ => show win6_4.index t (1 : Fin 2) * 64 + 1 * q.val = q.val; rw [e1]; omega
  rw [e]
  rfl

/-- An index of the first result is in point t's block iff its row is in row block t. -/
theorem mem_blk6_4 (t : Fin cfg6.N) (i : S100000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v83_0).slice (win6_4.rect t)).set ↔ _
  rw [View.set_slice_whole, Rect.mem_set_unit]
  exact Iff.rfl

/-- THE FIRST RESULT after the region: the array Z of the entry contents. -/
theorem final6_z (c : Dev nD) :
    (dat6 (F := Ideal) V c).arrAt 4 cfg6.N = Zarr (V c main_v81) (V c main_v54) (V c main_v12) (V c main_v82) :=
  (dat6 (F := Ideal) V c).arrAt_eq_of_cover 4 _ (fun t _ => flushed6_4 V c t) fun i => by
    have hi0 : (i 0).val < 100000 := (i 0).isLt
    have hi1 : (i 1).val < 64 := (i 1).isLt
    have hN : cfg6.N = 20 := N6
    have hq : (i 0).val / 5000 < cfg6.N := by rw [hN]; omega
    refine ⟨⟨(i 0).val / 5000, hq⟩, flush6_4 _, ?_⟩
    rw [mem_blk6_4]
    obtain ⟨-, -, -, -, -, -, -, -, e0, e1, -⟩ := statsIdx6 ⟨(i 0).val / 5000, hq⟩
    intro a
    match a with
    | ⟨0, _⟩ =>
      show win6_4.index ⟨(i 0).val / 5000, hq⟩ (0 : Fin 2) * 5000 ≤ (i 0).val ∧ (i 0).val < win6_4.index ⟨(i 0).val / 5000, hq⟩ (0 : Fin 2) * 5000 + 5000
      rw [e0]; dsimp only; omega
    | ⟨1, _⟩ =>
      show win6_4.index ⟨(i 0).val / 5000, hq⟩ (1 : Fin 2) * 64 ≤ (i 1).val ∧ (i 1).val < win6_4.index ⟨(i 0).val / 5000, hq⟩ (1 : Fin 2) * 64 + 64
      rw [e1]; omega

/-- The accumulators' one block is their whole array: its element (u, q) sits at (u, q). -/
theorem emb6_5 (t : Fin cfg6.N) (u : Fin 1) (q : Fin 64) : ((cfg6.win 5).blk t).view.emb (ix2 u q) = ix2 u q := by
  funext a; apply Fin.ext
  obtain ⟨-, -, -, -, -, -, -, -, -, -, e0, e1, -⟩ := statsIdx6 t
  match a with
  | ⟨0, _⟩ => show win6_5.index t (0 : Fin 2) * 1 + 1 * u.val = u.val; rw [e0]; omega
  | ⟨1, _⟩ => show win6_5.index t (1 : Fin 2) * 64 + 1 * q.val = q.val; rw [e1]; omega

theorem emb6_6 (t : Fin cfg6.N) (u : Fin 1) (q : Fin 64) : ((cfg6.win 6).blk t).view.emb (ix2 u q) = ix2 u q := by
  funext a; apply Fin.ext
  obtain ⟨-, -, -, -, -, -, -, -, -, -, -, -, e0, e1⟩ := statsIdx6 t
  match a with
  | ⟨0, _⟩ => show win6_6.index t (0 : Fin 2) * 1 + 1 * u.val = u.val; rw [e0]; omega
  | ⟨1, _⟩ => show win6_6.index t (1 : Fin 2) * 64 + 1 * q.val = q.val; rw [e1]; omega

/-- Reading any [1, 64] array through the accumulators' block reads it in place. -/
theorem read6_5 (t : Fin cfg6.N) (G : S1x64.Idx → Ideal .f32) (u : Fin 1) (q : Fin 64) :
    ((cfg6.win 5).blk t).view.read (Elt Ideal) G (ix2 u q) = G (ix2 u q) := by
  show G (((cfg6.win 5).blk t).view.emb (ix2 u q)) = _
  rw [emb6_5]

theorem read6_6 (t : Fin cfg6.N) (G : S1x64.Idx → Ideal .f32) (u : Fin 1) (q : Fin 64) :
    ((cfg6.win 6).blk t).view.read (Elt Ideal) G (ix2 u q) = G (ix2 u q) := by
  show G (((cfg6.win 6).blk t).view.emb (ix2 u q)) = _
  rw [emb6_6]

/-- The one write-back of the sum accumulator, after the last point, writes the column sums of Z. -/
theorem flushed6_5 (c : Dev nD) (t : Fin cfg6.N) (hf : (cfg6.win 5).flush t = true) :
    (dat6 (F := Ideal) V c).flushed 5 t
      = ((cfg6.win 5).blk t).view.read (Elt Ideal) (Zsum (V c main_v81) (V c main_v54) (V c main_v12) (V c main_v82)) := by
  have hN : cfg6.N = 20 := N6
  have h19 : t.val = 19 := by have := (flush6_5 t).mp hf; have := t.isLt; omega
  show (cfg6.win 5).cut (grid6.coords t) ((dat6 (F := Ideal) V c).after 5 t) = _
  rw [after6_5]
  funext j
  obtain ⟨u, q, rfl⟩ : ∃ (u : Fin 1) (q : Fin 64), j = ix2 u q := ⟨j 0, j 1, eq_ix2 j⟩
  refine ((acc6_inv V c t.val t.isLt u q).1).trans ?_
  rw [read6_5 t _ u q, h19]
  have hz : Zsum (V c main_v81) (V c main_v54) (V c main_v12) (V c main_v82) (ix2 u q) = ∑ r : Fin 100000, Zat (V c main_v81) (V c main_v54) (V c main_v12) (V c main_v82) r q := rfl
  rw [hz]
  show ∑ s ∈ Finset.range 100000, _ = _
  exact (sum_univ_eq_range_extend0 (N := 100000) fun r => Zat (V c main_v81) (V c main_v54) (V c main_v12) (V c main_v82) r q).symm

/-- The one write-back of the sum-of-squares accumulator writes the column sums of Z * Z. -/
theorem flushed6_6 (c : Dev nD) (t : Fin cfg6.N) (hf : (cfg6.win 6).flush t = true) :
    (dat6 (F := Ideal) V c).flushed 6 t
      = ((cfg6.win 6).blk t).view.read (Elt Ideal) (Zsumsq (V c main_v81) (V c main_v54) (V c main_v12) (V c main_v82)) := by
  have hN : cfg6.N = 20 := N6
  have h19 : t.val = 19 := by have := (flush6_6 t).mp hf; have := t.isLt; omega
  show (cfg6.win 6).cut (grid6.coords t) ((dat6 (F := Ideal) V c).after 6 t) = _
  rw [after6_6]
  funext j
  obtain ⟨u, q, rfl⟩ : ∃ (u : Fin 1) (q : Fin 64), j = ix2 u q := ⟨j 0, j 1, eq_ix2 j⟩
  refine ((acc6_inv V c t.val t.isLt u q).2).trans ?_
  rw [read6_6 t _ u q, h19]
  have hz : Zsumsq (V c main_v81) (V c main_v54) (V c main_v12) (V c main_v82) (ix2 u q) = ∑ r : Fin 100000, Zat (V c main_v81) (V c main_v54) (V c main_v12) (V c main_v82) r q * Zat (V c main_v81) (V c main_v54) (V c main_v12) (V c main_v82) r q := rfl
  rw [hz]
  show ∑ s ∈ Finset.range 100000, _ = _
  exact (sum_univ_eq_range_extend0 (N := 100000) fun r => Zat (V c main_v81) (V c main_v54) (V c main_v12) (V c main_v82) r q * Zat (V c main_v81) (V c main_v54) (V c main_v12) (V c main_v82) r q).symm

/-- The last point, whose write-back covers the accumulators' arrays. -/
def statsLast6 : Fin cfg6.N := ⟨19, by have hN : cfg6.N = 20 := N6; omega⟩

/-- THE SECOND RESULT after the region: the column sums of Z over all 100000 rows. -/
theorem final6_sum (c : Dev nD) :
    (dat6 (F := Ideal) V c).arrAt 5 cfg6.N = Zsum (V c main_v81) (V c main_v54) (V c main_v12) (V c main_v82) :=
  (dat6 (F := Ideal) V c).arrAt_eq_of_cover 5 _ (flushed6_5 V c) fun i =>
    ⟨statsLast6, (flush6_5 statsLast6).mpr rfl, by
      show i ∈ ((View.whole main_v83_1).slice (win6_5.rect statsLast6)).set
      rw [View.set_slice_whole, Rect.mem_set_unit]
      have hi0 : (i 0).val < 1 := (i 0).isLt
      have hi1 : (i 1).val < 64 := (i 1).isLt
      obtain ⟨-, -, -, -, -, -, -, -, -, -, e0, e1, -⟩ := statsIdx6 statsLast6
      intro a
      match a with
      | ⟨0, _⟩ =>
        show win6_5.index statsLast6 (0 : Fin 2) * 1 ≤ (i 0).val ∧ (i 0).val < win6_5.index statsLast6 (0 : Fin 2) * 1 + 1
        rw [e0]; omega
      | ⟨1, _⟩ =>
        show win6_5.index statsLast6 (1 : Fin 2) * 64 ≤ (i 1).val ∧ (i 1).val < win6_5.index statsLast6 (1 : Fin 2) * 64 + 64
        rw [e1]; omega⟩

/-- THE THIRD RESULT after the region: the column sums of Z * Z over all 100000 rows. -/
theorem final6_sumsq (c : Dev nD) :
    (dat6 (F := Ideal) V c).arrAt 6 cfg6.N = Zsumsq (V c main_v81) (V c main_v54) (V c main_v12) (V c main_v82) :=
  (dat6 (F := Ideal) V c).arrAt_eq_of_cover 6 _ (flushed6_6 V c) fun i =>
    ⟨statsLast6, (flush6_6 statsLast6).mpr rfl, by
      show i ∈ ((View.whole main_v83_2).slice (win6_6.rect statsLast6)).set
      rw [View.set_slice_whole, Rect.mem_set_unit]
      have hi0 : (i 0).val < 1 := (i 0).isLt
      have hi1 : (i 1).val < 64 := (i 1).isLt
      obtain ⟨-, -, -, -, -, -, -, -, -, -, -, -, e0, e1⟩ := statsIdx6 statsLast6
      intro a
      match a with
      | ⟨0, _⟩ =>
        show win6_6.index statsLast6 (0 : Fin 2) * 1 ≤ (i 0).val ∧ (i 0).val < win6_6.index statsLast6 (0 : Fin 2) * 1 + 1
        rw [e0]; omega
      | ⟨1, _⟩ =>
        show win6_6.index statsLast6 (1 : Fin 2) * 64 ≤ (i 1).val ∧ (i 1).val < win6_6.index statsLast6 (1 : Fin 2) * 64 + 64
        rw [e1]; omega⟩

end Cert.KernelIdeal.HandValue

end
-- ==== Proof.RegionBn7.lean ====
/- The normalisation stage of graph-convolution layer 2. The activations z form a 100000 × 64 matrix; for each of the 64
   columns the stage is given the column's mean m, variance v, scale g and shift b (four 1 × 64 rows) and sends entry
   (r, q) to g(q)·(z(r, q) − m(q))·rsqrt(v(q) + ε) + b(q), ε the single-precision word 0x3727C5AC, in this order of
   operations. It works in twenty row blocks of 5000 rows, the four rows broadcast down each block. Proved here: the
   array the stage leaves is that function of the five operand arrays at every entry, whatever they hold when the
   stage is entered. The windows, in order: 0 the activations, 1 the means, 2 the variances, 3 the scales, 4 the
   shifts, 5 the result. -/
import proofs.«145301_j17463337025613_1_alg».proof.Proof.Gen.KernelIdeal.Frame
import proofs.«145301_j17463337025613_1_alg».proof.Proof.RegionDefs

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- One block of the normalisation at an entry; the body's five loads are, in its own order, the variances, the
    scales, the activations, the means and the shifts. -/
theorem blockBn7_apply (xv xg : Vec Ideal S1x64 .f32) (xz : Vec Ideal S5000x64 .f32) (xm xb : Vec Ideal S1x64 .f32) (p : Fin 5000) (q : Fin 64) :
    k7_pay1 xv xg xz xm xb (ix2 p q)
      = xg (ix2 (0 : Fin 1) q) * (xz (ix2 p q) - xm (ix2 (0 : Fin 1) q))
          * Ideal.rsqrt (xv (ix2 (0 : Fin 1) q) + Ideal.ofBits .f32 0x3727C5AC#32) + xb (ix2 (0 : Fin 1) q) := by
  unfold k7_pay1
  simp only [shapeCast_self]
  refine (addf_apply _ _ (ix2 p q)).trans ?_
  rw [broadcastTo_1b_ab_apply xb broadcasts_S1x64_S5000x64 p q]
  refine congrArg (· + xb (ix2 (0 : Fin 1) q)) ?_
  refine (mulf_apply _ _ (ix2 p q)).trans ?_
  rw [broadcastTo_1b_ab_apply _ broadcasts_S1x64_S5000x64 p q]
  refine congrArg₂ (· * ·) ?_ rfl
  refine (mulf_apply _ _ (ix2 p q)).trans ?_
  rw [broadcastTo_1b_ab_apply xg broadcasts_S1x64_S5000x64 p q]
  refine congrArg (xg (ix2 (0 : Fin 1) q) * ·) ?_
  refine (subf_apply _ _ (ix2 p q)).trans ?_
  rw [broadcastTo_1b_ab_apply xm broadcasts_S1x64_S5000x64 p q]

/-- Where the windows' blocks sit, decided once over the twenty grid points: the activations and the result are at
    block row t, column block 0; each of the four row windows is always its whole array. -/
theorem blockIndex7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

set_option maxHeartbeats 1000000 in
/-- Where an entry of the activations' block at point t sits in its array: where the result's entry sits in the result. -/
theorem embAct7 (t : Fin cfg7.N) (p : Fin 5000) (q : Fin 64) :
    ((cfg7.win 0).blk t).view.emb (ix2 p q) = ix2 ((((cfg7.win 5).blk t).view.emb (ix2 p q)) 0) ((((cfg7.win 5).blk t).view.emb (ix2 p q)) 1) := by
  obtain ⟨e0, e1, e2, e3, e4, e5, e6, e7, e8, e9, e10, e11⟩ := blockIndex7 t
  funext a; apply Fin.ext
  match a with
  | ⟨0, _⟩ => show win7_0.index t (0 : Fin 2) * 5000 + 1 * p.val = win7_5.index t (0 : Fin 2) * 5000 + 1 * p.val; omega
  | ⟨1, _⟩ => show win7_0.index t (1 : Fin 2) * 64 + 1 * q.val = win7_5.index t (1 : Fin 2) * 64 + 1 * q.val; omega

set_option maxHeartbeats 1000000 in
/-- Where an entry of the one-row block of the means sits in its array: in row 0, in the column the result's entry has. -/
theorem embRow7_1 (t : Fin cfg7.N) (p : Fin 5000) (q : Fin 64) :
    ((cfg7.win 1).blk t).view.emb (ix2 (0 : Fin 1) q) = ix2 (0 : Fin 1) ((((cfg7.win 5).blk t).view.emb (ix2 p q)) 1) := by
  obtain ⟨e0, e1, e2, e3, e4, e5, e6, e7, e8, e9, e10, e11⟩ := blockIndex7 t
  funext a; apply Fin.ext
  match a with
  | ⟨0, _⟩ => show win7_1.index t (0 : Fin 2) * 1 + 1 * 0 = 0; omega
  | ⟨1, _⟩ => show win7_1.index t (1 : Fin 2) * 64 + 1 * q.val = win7_5.index t (1 : Fin 2) * 64 + 1 * q.val; omega

set_option maxHeartbeats 1000000 in
/-- Where an entry of the one-row block of the variances sits in its array: in row 0, in the column the result's entry has. -/
theorem embRow7_2 (t : Fin cfg7.N) (p : Fin 5000) (q : Fin 64) :
    ((cfg7.win 2).blk t).view.emb (ix2 (0 : Fin 1) q) = ix2 (0 : Fin 1) ((((cfg7.win 5).blk t).view.emb (ix2 p q)) 1) := by
  obtain ⟨e0, e1, e2, e3, e4, e5, e6, e7, e8, e9, e10, e11⟩ := blockIndex7 t
  funext a; apply Fin.ext
  match a with
  | ⟨0, _⟩ => show win7_2.index t (0 : Fin 2) * 1 + 1 * 0 = 0; omega
  | ⟨1, _⟩ => show win7_2.index t (1 : Fin 2) * 64 + 1 * q.val = win7_5.index t (1 : Fin 2) * 64 + 1 * q.val; omega

set_option maxHeartbeats 1000000 in
/-- Where an entry of the one-row block of the scales sits in its array: in row 0, in the column the result's entry has. -/
theorem embRow7_3 (t : Fin cfg7.N) (p : Fin 5000) (q : Fin 64) :
    ((cfg7.win 3).blk t).view.emb (ix2 (0 : Fin 1) q) = ix2 (0 : Fin 1) ((((cfg7.win 5).blk t).view.emb (ix2 p q)) 1) := by
  obtain ⟨e0, e1, e2, e3, e4, e5, e6, e7, e8, e9, e10, e11⟩ := blockIndex7 t
  funext a; apply Fin.ext
  match a with
  | ⟨0, _⟩ => show win7_3.index t (0 : Fin 2) * 1 + 1 * 0 = 0; omega
  | ⟨1, _⟩ => show win7_3.index t (1 : Fin 2) * 64 + 1 * q.val = win7_5.index t (1 : Fin 2) * 64 + 1 * q.val; omega

set_option maxHeartbeats 1000000 in
/-- Where an entry of the one-row block of the shifts sits in its array: in row 0, in the column the result's entry has. -/
theorem embRow7_4 (t : Fin cfg7.N) (p : Fin 5000) (q : Fin 64) :
    ((cfg7.win 4).blk t).view.emb (ix2 (0 : Fin 1) q) = ix2 (0 : Fin 1) ((((cfg7.win 5).blk t).view.emb (ix2 p q)) 1) := by
  obtain ⟨e0, e1, e2, e3, e4, e5, e6, e7, e8, e9, e10, e11⟩ := blockIndex7 t
  funext a; apply Fin.ext
  match a with
  | ⟨0, _⟩ => show win7_4.index t (0 : Fin 2) * 1 + 1 * 0 = 0; omega
  | ⟨1, _⟩ => show win7_4.index t (1 : Fin 2) * 64 + 1 * q.val = win7_5.index t (1 : Fin 2) * 64 + 1 * q.val; omega

set_option maxHeartbeats 1000000 in
/-- What grid point t writes back is block t of the whole normalised array. -/
theorem flushed7_eq (c : Dev nD) (t : Fin cfg7.N) :
    (dat7 (F := Ideal) V c).flushed 5 t
      = ((cfg7.win 5).blk t).view.read (Elt Ideal) (bnArr (V c (Pipeline.arrRef spec7 0)) (V c (Pipeline.arrRef spec7 1))
          (V c (Pipeline.arrRef spec7 2)) (V c (Pipeline.arrRef spec7 3)) (V c (Pipeline.arrRef spec7 4))) := by
  show (cfg7.win 5).cut (grid7.coords t) ((dat7 V c).after 5 t) = _
  rw [after7_5]
  unfold out7_5
  rw [View.canon_unit_zero offsetsZero2]
  simp only [View.ld_unit_zero (S := S5000x64) offsetsZero2, View.ld_unit_zero (S := S1x64) offsetsZero2]
  funext j
  obtain ⟨p, q, rfl⟩ : ∃ (p : Fin 5000) (q : Fin 64), j = ix2 p q := ⟨j 0, j 1, eq_ix2 j⟩
  show k7_pay1 (iblk7 V c 2 t) (iblk7 V c 3 t) (iblk7 V c 0 t) (iblk7 V c 1 t) (iblk7 V c 4 t) (ix2 p q)
    = bnArr (V c (Pipeline.arrRef spec7 0)) (V c (Pipeline.arrRef spec7 1)) (V c (Pipeline.arrRef spec7 2))
        (V c (Pipeline.arrRef spec7 3)) (V c (Pipeline.arrRef spec7 4)) (((cfg7.win 5).blk t).view.emb (ix2 p q))
  refine (blockBn7_apply _ _ _ _ _ p q).trans ?_
  unfold bnArr bnAt
  have h0 := embAct7 t p q
  have h1 := embRow7_1 t p q
  have h2 := embRow7_2 t p q
  have h3 := embRow7_3 t p q
  have h4 := embRow7_4 t p q
  have r0 : iblk7 V c 0 t (ix2 p q) = V c (Pipeline.arrRef spec7 0) (ix2 ((((cfg7.win 5).blk t).view.emb (ix2 p q)) 0) ((((cfg7.win 5).blk t).view.emb (ix2 p q)) 1)) :=
    congrArg (V c (Pipeline.arrRef spec7 0)) h0
  have r1 : iblk7 V c 1 t (ix2 (0 : Fin 1) q) = V c (Pipeline.arrRef spec7 1) (ix2 (0 : Fin 1) ((((cfg7.win 5).blk t).view.emb (ix2 p q)) 1)) :=
    congrArg (V c (Pipeline.arrRef spec7 1)) h1
  have r2 : iblk7 V c 2 t (ix2 (0 : Fin 1) q) = V c (Pipeline.arrRef spec7 2) (ix2 (0 : Fin 1) ((((cfg7.win 5).blk t).view.emb (ix2 p q)) 1)) :=
    congrArg (V c (Pipeline.arrRef spec7 2)) h2
  have r3 : iblk7 V c 3 t (ix2 (0 : Fin 1) q) = V c (Pipeline.arrRef spec7 3) (ix2 (0 : Fin 1) ((((cfg7.win 5).blk t).view.emb (ix2 p q)) 1)) :=
    congrArg (V c (Pipeline.arrRef spec7 3)) h3
  have r4 : iblk7 V c 4 t (ix2 (0 : Fin 1) q) = V c (Pipeline.arrRef spec7 4) (ix2 (0 : Fin 1) ((((cfg7.win 5).blk t).view.emb (ix2 p q)) 1)) :=
    congrArg (V c (Pipeline.arrRef spec7 4)) h4
  rw [r0, r1, r2, r3, r4]

/-- An index of the result array lies in point t's block iff each coordinate lies in the block's range on its axis. -/
theorem mem_block7 (t : Fin cfg7.N) (i : S100000x64.Idx) :
    i ∈ ((cfg7.win 5).blk t).view.set ↔ ∀ a : Fin 2, win7_5.index t a * S5000x64.size a ≤ (i a).val ∧ (i a).val < win7_5.index t a * S5000x64.size a + S5000x64.size a := by
  show i ∈ ((View.whole main_v94).slice (win7_5.rect t)).set ↔ _
  rw [View.set_slice_whole, Rect.mem_set_unit]
  exact Iff.rfl

/-- The twenty row blocks cover the result array: row r lies in block r / 5000. -/
theorem cover7 (i : S100000x64.Idx) : ∃ t : Fin cfg7.N, (cfg7.win 5).flush t = true ∧ i ∈ ((cfg7.win 5).blk t).view.set := by
  have hi0 : (i 0).val < 100000 := (i 0).isLt
  have hi1 : (i 1).val < 64 := (i 1).isLt
  have hN : cfg7.N = 20 := N_7
  have ht : (i 0).val / 5000 < cfg7.N := by rw [hN]; omega
  obtain ⟨e0, e1, e2, e3, e4, e5, e6, e7, e8, e9, e10, e11⟩ := blockIndex7 ⟨(i 0).val / 5000, ht⟩
  refine ⟨⟨(i 0).val / 5000, ht⟩, flush7_5 _, ?_⟩
  rw [mem_block7]
  intro a
  match a with
  | ⟨0, _⟩ =>
    show win7_5.index ⟨(i 0).val / 5000, ht⟩ (0 : Fin 2) * 5000 ≤ (i 0).val ∧ (i 0).val < win7_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win7_5.index ⟨(i 0).val / 5000, ht⟩ (1 : Fin 2) * 64 ≤ (i 1).val ∧ (i 1).val < win7_5.index ⟨(i 0).val / 5000, ht⟩ (1 : Fin 2) * 64 + 64
    rw [e11]; omega

/-- The array the stage leaves: at index i, with r and q the two coordinates of i,
    g(0, q)·(z(r, q) − m(0, q))·rsqrt(v(0, q) + ε) + b(0, q), where z, m, v, g, b are the arrays of windows 0 to 4. -/
theorem final7 (c : Dev nD) :
    (dat7 (F := Ideal) V c).arrAt 5 cfg7.N
      = bnArr (V c (Pipeline.arrRef spec7 0)) (V c (Pipeline.arrRef spec7 1)) (V c (Pipeline.arrRef spec7 2))
          (V c (Pipeline.arrRef spec7 3)) (V c (Pipeline.arrRef spec7 4)) :=
  (dat7 (F := Ideal) V c).arrAt_eq_of_cover 5 _ (fun t _ => flushed7_eq V c t) cover7

end Cert.KernelIdeal.HandValue

end
-- ==== Proof.KLayer2.lean ====
/-
  Layer 2 of the idealized kernel program, read off the segment-by-segment fold: each region's output array is
  the region's closed form of its input arrays; each host stretch's results are its operations of the arrays it reads;
  the long-lived arrays are what the first stretch left.  Chained, the layer's output buffer holds `kLayer` of the
  layer's input, the layer's parameters, the two rows of the edge list and the degrees' reciprocal square roots.
-/
import proofs.«145301_j17463337025613_1_alg».proof.Proof.KFoldA
import proofs.«145301_j17463337025613_1_alg».proof.Proof.KStretch2
import proofs.«145301_j17463337025613_1_alg».proof.Proof.KKeepP2
import proofs.«145301_j17463337025613_1_alg».proof.Proof.KKeepA2
import proofs.«145301_j17463337025613_1_alg».proof.Proof.KTerms
import proofs.«145301_j17463337025613_1_alg».proof.Proof.RegionMatmul4
import proofs.«145301_j17463337025613_1_alg».proof.Proof.RegionMessage5
import proofs.«145301_j17463337025613_1_alg».proof.Proof.RegionStats6
import proofs.«145301_j17463337025613_1_alg».proof.Proof.RegionBn7

noncomputable section

namespace Cert.KernelIdeal.HandFold

open Cert.KernelIdeal Cert.KernelIdeal.Gen Idealize.ShloMosaic Idealize.ShloMosaic.TcCoe Idealize.SL.Sem
open Idealize.ShloMosaic.StableHlo Cert.Gcn.RefSpec

open Cert.KernelIdeal.HandValue

variable (m : (ℓ : Loc nD τ sig) → Buf (Elt Ideal) ℓ) (ρ : Dev nD → PrngReg) (c : Dev nD)
variable (hd : ∀ i, IntOp.cmpi .sge (refDst (edges m c) i) (0#32) = 1#1)
variable (X : FVec Ideal S100000x64 .f32)
variable (hin : @Eq (FVec Ideal S100000x64 .f32) (W8 m ρ c (Proc.devRef .tc main_v53)) X)

include hin in
/-- The matmul region leaves h = x·W. -/
theorem L1_H : @Eq (FVec Ideal S100000x64 .f32) (W9 m ρ c (Proc.devRef .tc main_v54)) (prodArr X (m ((c.tc : Thread nD τ).loc main_arg7))) := by
  have e := (W9_arr m ρ c 2).trans (final4 (V8 m ρ) c)
  have hx : @Eq (FVec Ideal S100000x64 .f32) (V8 m ρ c (Pipeline.arrRef spec4 0)) X := hin
  have hw : @Eq (FVec Ideal S64x64 .f32) (V8 m ρ c (Pipeline.arrRef spec4 1)) (m ((c.tc : Thread nD τ).loc main_arg7)) := walk_arg7_8_0 m ρ c
  rw [hx, hw] at e
  exact e

include hin in
/-- The gathered rows of h. -/
theorem L1_HS : @Eq (FVec Ideal S1600000x64 .f32) (W10 m ρ c (Proc.devRef .tc main_v61)) (tHS (prodArr X (m ((c.tc : Thread nD τ).loc main_arg7))) (refSrc (edges m c))) := by
  have e := st1_hsrc (W9 m ρ c)
  rw [L1_H m ρ c X hin, (pers_v1_9 m ρ c).trans (s0_src m ρ c)] at e
  exact e

include hd in
/-- The edge weights as a column. -/
theorem L1_NR : @Eq (FVec Ideal S1600000x1 .f32) (W10 m ρ c (Proc.devRef .tc main_v77)) (tNR (refDinv (F := Ideal) (refDst (edges m c))) (refSrc (edges m c)) (refDst (edges m c))) := by
  have e := st1_norm (W9 m ρ c)
  rw [(pers_v1_9 m ρ c).trans (s0_src m ρ c), (pers_v3_9 m ρ c).trans (s0_dst m ρ c),
    (pers_v10_9 m ρ c).trans (s0_dinv m ρ c hd)] at e
  exact e

include hd hin in
/-- The message region leaves each gathered row times its edge weight. -/
theorem L1_M : @Eq (FVec Ideal S1600000x64 .f32) (W11 m ρ c (Proc.devRef .tc main_v78))
    (msgArr (tHS (prodArr X (m ((c.tc : Thread nD τ).loc main_arg7))) (refSrc (edges m c))) (tNR (refDinv (F := Ideal) (refDst (edges m c))) (refSrc (edges m c)) (refDst (edges m c)))) := by
  have e := (W11_arr m ρ c 2).trans (final5 (V10 m ρ) c)
  have h0 : @Eq (FVec Ideal S1600000x64 .f32) (V10 m ρ c (Pipeline.arrRef spec5 0)) _ := L1_HS m ρ c X hin
  have h1 : @Eq (FVec Ideal S1600000x1 .f32) (V10 m ρ c (Pipeline.arrRef spec5 1)) _ := L1_NR m ρ c hd
  rw [h0, h1] at e
  exact e

include hd hin in
/-- The messages summed into destination rows. -/
theorem L1_A : @Eq (FVec Ideal S100000x64 .f32) (W12 m ρ c (Proc.devRef .tc main_v81))
    (tA (refDst (edges m c)) (msgArr (tHS (prodArr X (m ((c.tc : Thread nD τ).loc main_arg7))) (refSrc (edges m c))) (tNR (refDinv (F := Ideal) (refDst (edges m c))) (refSrc (edges m c)) (refDst (edges m c))))) := by
  have e := st1_agg (W11 m ρ c)
  rw [L1_M m ρ c hd X hin, (pers_v3_11 m ρ c).trans (s0_dst m ρ c)] at e
  exact e

/-- The bias as a row. -/
theorem L1_BB : @Eq (FVec Ideal S1x64 .f32) (W12 m ρ c (Proc.devRef .tc main_v82)) (tRow (m ((c.tc : Thread nD τ).loc main_arg8))) := by
  have e := st1_bias (W11 m ρ c)
  rw [show W11 m ρ c (Proc.devRef .tc main_arg8) = m ((c.tc : Thread nD τ).loc main_arg8) from walk_arg8_11_0 m ρ c] at e
  exact e

/-! ### The statistics region: z and its column sums -/

include hd hin in
theorem L1_Z : @Eq (FVec Ideal S100000x64 .f32) (W13 m ρ c (Proc.devRef .tc main_v83_0)) (Zarr (tA (refDst (edges m c)) (msgArr (tHS (prodArr X (m ((c.tc : Thread nD τ).loc main_arg7))) (refSrc (edges m c))) (tNR (refDinv (F := Ideal) (refDst (edges m c))) (refSrc (edges m c)) (refDst (edges m c))))) (prodArr X (m ((c.tc : Thread nD τ).loc main_arg7))) (tD2 (refDinv (F := Ideal) (refDst (edges m c)))) (tRow (m ((c.tc : Thread nD τ).loc main_arg8)))) := by
  have e := (W13_arr m ρ c 4).trans (final6_z (V12 m ρ) c)
  have h0 : @Eq (FVec Ideal S100000x64 .f32) (V12 m ρ c main_v81) _ := L1_A m ρ c hd X hin
  have h1 : @Eq (FVec Ideal S100000x64 .f32) (V12 m ρ c main_v54) _ := (walk_v54_12_9 m ρ c).trans (L1_H m ρ c X hin)
  have h2 : @Eq (FVec Ideal S100000x1 .f32) (V12 m ρ c main_v12) _ := (pers_v12_12 m ρ c).trans (s0_dinv2 m ρ c hd)
  have h3 : @Eq (FVec Ideal S1x64 .f32) (V12 m ρ c main_v82) _ := L1_BB m ρ c
  rw [h0, h1, h2, h3] at e
  exact e

include hd hin in
theorem L1_S : @Eq (FVec Ideal S1x64 .f32) (W13 m ρ c (Proc.devRef .tc main_v83_1)) (Zsum (tA (refDst (edges m c)) (msgArr (tHS (prodArr X (m ((c.tc : Thread nD τ).loc main_arg7))) (refSrc (edges m c))) (tNR (refDinv (F := Ideal) (refDst (edges m c))) (refSrc (edges m c)) (refDst (edges m c))))) (prodArr X (m ((c.tc : Thread nD τ).loc main_arg7))) (tD2 (refDinv (F := Ideal) (refDst (edges m c)))) (tRow (m ((c.tc : Thread nD τ).loc main_arg8)))) := by
  have e := (W13_arr m ρ c 5).trans (final6_sum (V12 m ρ) c)
  have h0 : @Eq (FVec Ideal S100000x64 .f32) (V12 m ρ c main_v81) _ := L1_A m ρ c hd X hin
  have h1 : @Eq (FVec Ideal S100000x64 .f32) (V12 m ρ c main_v54) _ := (walk_v54_12_9 m ρ c).trans (L1_H m ρ c X hin)
  have h2 : @Eq (FVec Ideal S100000x1 .f32) (V12 m ρ c main_v12) _ := (pers_v12_12 m ρ c).trans (s0_dinv2 m ρ c hd)
  have h3 : @Eq (FVec Ideal S1x64 .f32) (V12 m ρ c main_v82) _ := L1_BB m ρ c
  rw [h0, h1, h2, h3] at e
  exact e

include hd hin in
theorem L1_SS : @Eq (FVec Ideal S1x64 .f32) (W13 m ρ c (Proc.devRef .tc main_v83_2)) (Zsumsq (tA (refDst (edges m c)) (msgArr (tHS (prodArr X (m ((c.tc : Thread nD τ).loc main_arg7))) (refSrc (edges m c))) (tNR (refDinv (F := Ideal) (refDst (edges m c))) (refSrc (edges m c)) (refDst (edges m c))))) (prodArr X (m ((c.tc : Thread nD τ).loc main_arg7))) (tD2 (refDinv (F := Ideal) (refDst (edges m c)))) (tRow (m ((c.tc : Thread nD τ).loc main_arg8)))) := by
  have e := (W13_arr m ρ c 6).trans (final6_sumsq (V12 m ρ) c)
  have h0 : @Eq (FVec Ideal S100000x64 .f32) (V12 m ρ c main_v81) _ := L1_A m ρ c hd X hin
  have h1 : @Eq (FVec Ideal S100000x64 .f32) (V12 m ρ c main_v54) _ := (walk_v54_12_9 m ρ c).trans (L1_H m ρ c X hin)
  have h2 : @Eq (FVec Ideal S100000x1 .f32) (V12 m ρ c main_v12) _ := (pers_v12_12 m ρ c).trans (s0_dinv2 m ρ c hd)
  have h3 : @Eq (FVec Ideal S1x64 .f32) (V12 m ρ c main_v82) _ := L1_BB m ρ c
  rw [h0, h1, h2, h3] at e
  exact e

/-! ### Means, clamped raw variances, scale and shift rows -/

include hd hin in
theorem L1_MEAN : @Eq (FVec Ideal S1x64 .f32) (W14 m ρ c (Proc.devRef .tc main_v85)) (tMean (Zsum (tA (refDst (edges m c)) (msgArr (tHS (prodArr X (m ((c.tc : Thread nD τ).loc main_arg7))) (refSrc (edges m c))) (tNR (refDinv (F := Ideal) (refDst (edges m c))) (refSrc (edges m c)) (refDst (edges m c))))) (prodArr X (m ((c.tc : Thread nD τ).loc main_arg7))) (tD2 (refDinv (F := Ideal) (refDst (edges m c)))) (tRow (m ((c.tc : Thread nD τ).loc main_arg8))))) := by
  have e := st1_mean (W13 m ρ c)
  rw [L1_S m ρ c hd X hin] at e
  exact e

include hd hin in
theorem L1_VAR : @Eq (FVec Ideal S1x64 .f32) (W14 m ρ c (Proc.devRef .tc main_v91)) (tVar (Zsum (tA (refDst (edges m c)) (msgArr (tHS (prodArr X (m ((c.tc : Thread nD τ).loc main_arg7))) (refSrc (edges m c))) (tNR (refDinv (F := Ideal) (refDst (edges m c))) (refSrc (edges m c)) (refDst (edges m c))))) (prodArr X (m ((c.tc : Thread nD τ).loc main_arg7))) (tD2 (refDinv (F := Ideal) (refDst (edges m c)))) (tRow (m ((c.tc : Thread nD τ).loc main_arg8)))) (Zsumsq (tA (refDst (edges m c)) (msgArr (tHS (prodArr X (m ((c.tc : Thread nD τ).loc main_arg7))) (refSrc (edges m c))) (tNR (refDinv (F := Ideal) (refDst (edges m c))) (refSrc (edges m c)) (refDst (edges m c))))) (prodArr X (m ((c.tc : Thread nD τ).loc main_arg7))) (tD2 (refDinv (F := Ideal) (refDst (edges m c)))) (tRow (m ((c.tc : Thread nD τ).loc main_arg8))))) := by
  have e := st1_var (W13 m ρ c)
  rw [L1_SS m ρ c hd X hin, L1_S m ρ c hd X hin] at e
  exact e

theorem L1_GG : @Eq (FVec Ideal S1x64 .f32) (W14 m ρ c (Proc.devRef .tc main_v92)) (tRow (m ((c.tc : Thread nD τ).loc main_arg9))) := by
  have e := st1_gamma (W13 m ρ c)
  rw [show W13 m ρ c (Proc.devRef .tc main_arg9) = m ((c.tc : Thread nD τ).loc main_arg9) from walk_arg9_13_0 m ρ c] at e
  exact e

theorem L1_BE : @Eq (FVec Ideal S1x64 .f32) (W14 m ρ c (Proc.devRef .tc main_v93)) (tRow (m ((c.tc : Thread nD τ).loc main_arg10))) := by
  have e := st1_beta (W13 m ρ c)
  rw [show W13 m ρ c (Proc.devRef .tc main_arg10) = m ((c.tc : Thread nD τ).loc main_arg10) from walk_arg10_13_0 m ρ c] at e
  exact e

/-! ### The batch-norm region, and the layer -/

include hd hin in
/-- After the layer's last region its output buffer holds the kernel program's layer of the layer's input. -/
theorem L1_O : @Eq (FVec Ideal S100000x64 .f32) (W15 m ρ c (Proc.devRef .tc main_v94))
    (kLayer X (m ((c.tc : Thread nD τ).loc main_arg7)) (m ((c.tc : Thread nD τ).loc main_arg8)) (m ((c.tc : Thread nD τ).loc main_arg9)) (m ((c.tc : Thread nD τ).loc main_arg10)) (refSrc (edges m c)) (refDst (edges m c)) (refDinv (F := Ideal) (refDst (edges m c)))) := by
  have e := (W15_arr m ρ c 5).trans (final7 (V14 m ρ) c)
  have h0 : @Eq (FVec Ideal S100000x64 .f32) (V14 m ρ c (Pipeline.arrRef spec7 0)) _ :=
    (walk_v83_0_14_13 m ρ c).trans (L1_Z m ρ c hd X hin)
  have h1 : @Eq (FVec Ideal S1x64 .f32) (V14 m ρ c (Pipeline.arrRef spec7 1)) _ := L1_MEAN m ρ c hd X hin
  have h2 : @Eq (FVec Ideal S1x64 .f32) (V14 m ρ c (Pipeline.arrRef spec7 2)) _ := L1_VAR m ρ c hd X hin
  have h3 : @Eq (FVec Ideal S1x64 .f32) (V14 m ρ c (Pipeline.arrRef spec7 3)) _ := L1_GG m ρ c
  have h4 : @Eq (FVec Ideal S1x64 .f32) (V14 m ρ c (Pipeline.arrRef spec7 4)) _ := L1_BE m ρ c
  rw [h0, h1, h2, h3, h4] at e
  unfold kLayer
  exact e

end Cert.KernelIdeal.HandFold

end
-- ==== Proof.KStretch3.lean ====
/-
  Layer 3 of the idealized kernel program: what its three host stretches (the gathers and edge weights; the
  scatter of the messages and the bias row; the means, raw variances and the scale/shift rows) leave in their
  result buffers, as functions of the contents they start from.
-/
import proofs.«145301_j17463337025613_1_alg».proof.Proof.Gen.KernelIdeal.Frame
import proofs.«145301_j17463337025613_1_alg».proof.Proof.Gen.ReferenceIdeal
import proofs.«145301_j17463337025613_1_alg».proof.Proof.RefSpec
import Idealize.ShloMosaic.PureOps.Ideal

noncomputable section

namespace Cert.KernelIdeal.HandFold

open Cert.KernelIdeal Cert.KernelIdeal.Gen Idealize.ShloMosaic Idealize.ShloMosaic.TcCoe Idealize.SL.Sem
open Idealize.ShloMosaic.StableHlo Cert.Gcn.RefSpec

/-! ## Layer 3: the host stretches between its regions, read back at any incoming contents `V` -/

/-- The gathered rows of h at the wrapped source ids. -/
theorem st2_hsrc (V : Valuation τ sig (Elt Ideal)) :
    StableHlo.after hostOps9 V (Proc.devRef .tc main_v102)
      = Host.gather gather_S100000x64_S1600000x1_S1600000x64_1_0_n_n_0_1_164 (V (Proc.devRef .tc main_v95))
          (broadcastInDim S1600000x1 ![0] bcast_S1600000_S1600000x1_0 (refWrap (V (Proc.devRef .tc main_v1)))) := by
  after_results_simp <;> rfl

/-- The edge weights dinv[src]·dinv[dst], as a column. -/
theorem st2_norm (V : Valuation τ sig (Elt Ideal)) :
    @Eq (FVec Ideal S1600000x1 .f32) (StableHlo.after hostOps9 V (Proc.devRef .tc main_v118)) <|
        shapeCast S1600000x1
          (mulf (Host.gather gather_S100000_S1600000x1_S1600000_n_0_n_n_0_1_1 (V (Proc.devRef .tc main_v10))
                  (broadcastInDim S1600000x1 ![0] bcast_S1600000_S1600000x1_0 (refWrap (V (Proc.devRef .tc main_v1)))))
                (Host.gather gather_S100000_S1600000x1_S1600000_n_0_n_n_0_1_1 (V (Proc.devRef .tc main_v10))
                  (broadcastInDim S1600000x1 ![0] bcast_S1600000_S1600000x1_0 (refWrap (V (Proc.devRef .tc main_v3))))))
          shapeCasts_S1600000_S1600000x1 := by
  after_results_simp <;> rfl

/-- The messages summed into their destination rows. -/
theorem st2_agg (V : Valuation τ sig (Elt Ideal)) :
    @Eq (FVec Ideal S100000x64 .f32) (StableHlo.after hostOps10 V (Proc.devRef .tc main_v122)) <|
        Host.scatterAdd scatter_S100000x64_S1600000x1_S1600000x64_1_0_0_1
          (broadcastInDim S100000x64 ![] bcast_S_S100000x64 (constant S_ .f32 0x00000000#32))
          (broadcastInDim S1600000x1 ![0] bcast_S1600000_S1600000x1_0 (V (Proc.devRef .tc main_v3)))
          (V (Proc.devRef .tc main_v119)) := by
  after_results <;> rfl

/-- The bias as a row. -/
theorem st2_bias (V : Valuation τ sig (Elt Ideal)) :
    StableHlo.after hostOps10 V (Proc.devRef .tc main_v123)
      = shapeCast S1x64 (V (Proc.devRef .tc main_arg12)) shapeCasts_S64_S1x64 := by
  after_results <;> rfl

/-- The column means: the column sums over 100000. -/
theorem st2_mean (V : Valuation τ sig (Elt Ideal)) :
    @Eq (FVec Ideal S1x64 .f32) (StableHlo.after hostOps11 V (Proc.devRef .tc main_v126)) <|
        Host.divf (V (Proc.devRef .tc main_v124_1)) (broadcastInDim S1x64 ![] bcast_S_S1x64 (constant S_ .f32 0x47C35000#32)) := by
  after_results <;> rfl

/-- The raw variances, clamped at zero: the sums of squares over 100000 minus the squared means. -/
theorem st2_var (V : Valuation τ sig (Elt Ideal)) :
    @Eq (FVec Ideal S1x64 .f32) (StableHlo.after hostOps11 V (Proc.devRef .tc main_v132)) <|
        maximumf
          (subf (Host.divf (V (Proc.devRef .tc main_v124_2)) (broadcastInDim S1x64 ![] bcast_S_S1x64 (constant S_ .f32 0x47C35000#32)))
                (mulf (Host.divf (V (Proc.devRef .tc main_v124_1)) (broadcastInDim S1x64 ![] bcast_S_S1x64 (constant S_ .f32 0x47C35000#32)))
                      (Host.divf (V (Proc.devRef .tc main_v124_1)) (broadcastInDim S1x64 ![] bcast_S_S1x64 (constant S_ .f32 0x47C35000#32)))))
          (broadcastInDim S1x64 ![] bcast_S_S1x64 (constant S_ .f32 0x00000000#32)) := by
  after_results <;> rfl

/-- The scale and the shift as rows. -/
theorem st2_gamma (V : Valuation τ sig (Elt Ideal)) :
    StableHlo.after hostOps11 V (Proc.devRef .tc main_v133)
      = shapeCast S1x64 (V (Proc.devRef .tc main_arg13)) shapeCasts_S64_S1x64 := by
  after_results <;> rfl

theorem st2_beta (V : Valuation τ sig (Elt Ideal)) :
    StableHlo.after hostOps11 V (Proc.devRef .tc main_v134)
      = shapeCast S1x64 (V (Proc.devRef .tc main_arg14)) shapeCasts_S64_S1x64 := by
  after_results <;> rfl

end Cert.KernelIdeal.HandFold

end
-- ==== Proof.KKeepA3.lean ====
/-
  Which buffers the segments of the idealized kernel program leave alone: a buffer that a host stretch does not
  write, and that is no array of a region (or is only an INPUT array of it), holds after the segment what it held
  before.  Chained over consecutive segments this carries the long-lived values (the two rows of the edge list, the
  degrees' reciprocal square roots and their squares, the layer's matmul result, the parameters) from where they are
  made to where they are read.
-/
import proofs.«145301_j17463337025613_1_alg».proof.Proof.KFoldA

noncomputable section

namespace Cert.KernelIdeal.HandFold

open Cert.KernelIdeal Cert.KernelIdeal.Gen Idealize.ShloMosaic Idealize.ShloMosaic.TcCoe Idealize.SL.Sem
open Idealize.ShloMosaic.StableHlo Cert.Gcn.RefSpec

variable (m : (ℓ : Loc nD τ sig) → Buf (Elt Ideal) ℓ) (ρ : Dev nD → PrngReg) (c : Dev nD)

theorem keep_arg11_15 : W15 m ρ c (Proc.devRef .tc main_arg11) = W14 m ρ c (Proc.devRef .tc main_arg11) := W15_of_ne m ρ c main_arg11 (by decide)
theorem keep_arg11_14 : W14 m ρ c (Proc.devRef .tc main_arg11) = W13 m ρ c (Proc.devRef .tc main_arg11) := by
  show StableHlo.after hostOps7 (W13 m ρ c) (Proc.devRef .tc main_arg11) = _
  keep_host hostOps7
theorem keep_arg11_13 : W13 m ρ c (Proc.devRef .tc main_arg11) = W12 m ρ c (Proc.devRef .tc main_arg11) := W13_of_ne m ρ c main_arg11 (by decide)
theorem keep_arg11_12 : W12 m ρ c (Proc.devRef .tc main_arg11) = W11 m ρ c (Proc.devRef .tc main_arg11) := by
  show StableHlo.after hostOps6 (W11 m ρ c) (Proc.devRef .tc main_arg11) = _
  keep_host hostOps6
theorem keep_arg11_11 : W11 m ρ c (Proc.devRef .tc main_arg11) = W10 m ρ c (Proc.devRef .tc main_arg11) := W11_of_ne m ρ c main_arg11 (by decide)
theorem keep_arg11_10 : W10 m ρ c (Proc.devRef .tc main_arg11) = W9 m ρ c (Proc.devRef .tc main_arg11) := by
  show StableHlo.after hostOps5 (W9 m ρ c) (Proc.devRef .tc main_arg11) = _
  keep_host hostOps5
theorem keep_arg11_9 : W9 m ρ c (Proc.devRef .tc main_arg11) = W8 m ρ c (Proc.devRef .tc main_arg11) := W9_of_ne m ρ c main_arg11 (by decide)
theorem keep_arg11_8 : W8 m ρ c (Proc.devRef .tc main_arg11) = W7 m ρ c (Proc.devRef .tc main_arg11) := W8_of_ne m ρ c main_arg11 (by decide)
theorem keep_arg11_7 : W7 m ρ c (Proc.devRef .tc main_arg11) = W6 m ρ c (Proc.devRef .tc main_arg11) := by
  show StableHlo.after hostOps3 (W6 m ρ c) (Proc.devRef .tc main_arg11) = _
  keep_host hostOps3
theorem keep_arg11_6 : W6 m ρ c (Proc.devRef .tc main_arg11) = W5 m ρ c (Proc.devRef .tc main_arg11) := W6_of_ne m ρ c main_arg11 (by decide)
theorem keep_arg11_5 : W5 m ρ c (Proc.devRef .tc main_arg11) = W4 m ρ c (Proc.devRef .tc main_arg11) := by
  show StableHlo.after hostOps2 (W4 m ρ c) (Proc.devRef .tc main_arg11) = _
  keep_host hostOps2
theorem keep_arg11_4 : W4 m ρ c (Proc.devRef .tc main_arg11) = W3 m ρ c (Proc.devRef .tc main_arg11) := W4_of_ne m ρ c main_arg11 (by decide)
theorem keep_arg11_3 : W3 m ρ c (Proc.devRef .tc main_arg11) = W2 m ρ c (Proc.devRef .tc main_arg11) := by
  show StableHlo.after hostOps1 (W2 m ρ c) (Proc.devRef .tc main_arg11) = _
  keep_host hostOps1
theorem keep_arg11_2 : W2 m ρ c (Proc.devRef .tc main_arg11) = W1 m ρ c (Proc.devRef .tc main_arg11) := W2_of_ne m ρ c main_arg11 (by decide)
theorem keep_arg11_1 : W1 m ρ c (Proc.devRef .tc main_arg11) = W0 m ρ c (Proc.devRef .tc main_arg11) := by
  show StableHlo.after hostOps0 (W0 m ρ c) (Proc.devRef .tc main_arg11) = _
  keep_host hostOps0
/-- `main_arg11` is written by none of the segments 1–15. -/
theorem walk_arg11_15_0 : W15 m ρ c (Proc.devRef .tc main_arg11) = W0 m ρ c (Proc.devRef .tc main_arg11) :=
  (keep_arg11_15 m ρ c).trans ((keep_arg11_14 m ρ c).trans ((keep_arg11_13 m ρ c).trans ((keep_arg11_12 m ρ c).trans ((keep_arg11_11 m ρ c).trans ((keep_arg11_10 m ρ c).trans ((keep_arg11_9 m ρ c).trans ((keep_arg11_8 m ρ c).trans ((keep_arg11_7 m ρ c).trans ((keep_arg11_6 m ρ c).trans ((keep_arg11_5 m ρ c).trans ((keep_arg11_4 m ρ c).trans ((keep_arg11_3 m ρ c).trans ((keep_arg11_2 m ρ c).trans (keep_arg11_1 m ρ c))))))))))))))

theorem keep_arg12_18 : W18 m ρ c (Proc.devRef .tc main_arg12) = W17 m ρ c (Proc.devRef .tc main_arg12) := W18_of_ne m ρ c main_arg12 (by decide)
theorem keep_arg12_17 : W17 m ρ c (Proc.devRef .tc main_arg12) = W16 m ρ c (Proc.devRef .tc main_arg12) := by
  show StableHlo.after hostOps9 (W16 m ρ c) (Proc.devRef .tc main_arg12) = _
  keep_host hostOps9
theorem keep_arg12_16 : W16 m ρ c (Proc.devRef .tc main_arg12) = W15 m ρ c (Proc.devRef .tc main_arg12) := W16_of_ne m ρ c main_arg12 (by decide)
theorem keep_arg12_15 : W15 m ρ c (Proc.devRef .tc main_arg12) = W14 m ρ c (Proc.devRef .tc main_arg12) := W15_of_ne m ρ c main_arg12 (by decide)
theorem keep_arg12_14 : W14 m ρ c (Proc.devRef .tc main_arg12) = W13 m ρ c (Proc.devRef .tc main_arg12) := by
  show StableHlo.after hostOps7 (W13 m ρ c) (Proc.devRef .tc main_arg12) = _
  keep_host hostOps7
theorem keep_arg12_13 : W13 m ρ c (Proc.devRef .tc main_arg12) = W12 m ρ c (Proc.devRef .tc main_arg12) := W13_of_ne m ρ c main_arg12 (by decide)
theorem keep_arg12_12 : W12 m ρ c (Proc.devRef .tc main_arg12) = W11 m ρ c (Proc.devRef .tc main_arg12) := by
  show StableHlo.after hostOps6 (W11 m ρ c) (Proc.devRef .tc main_arg12) = _
  keep_host hostOps6
theorem keep_arg12_11 : W11 m ρ c (Proc.devRef .tc main_arg12) = W10 m ρ c (Proc.devRef .tc main_arg12) := W11_of_ne m ρ c main_arg12 (by decide)
theorem keep_arg12_10 : W10 m ρ c (Proc.devRef .tc main_arg12) = W9 m ρ c (Proc.devRef .tc main_arg12) := by
  show StableHlo.after hostOps5 (W9 m ρ c) (Proc.devRef .tc main_arg12) = _
  keep_host hostOps5
theorem keep_arg12_9 : W9 m ρ c (Proc.devRef .tc main_arg12) = W8 m ρ c (Proc.devRef .tc main_arg12) := W9_of_ne m ρ c main_arg12 (by decide)
theorem keep_arg12_8 : W8 m ρ c (Proc.devRef .tc main_arg12) = W7 m ρ c (Proc.devRef .tc main_arg12) := W8_of_ne m ρ c main_arg12 (by decide)
theorem keep_arg12_7 : W7 m ρ c (Proc.devRef .tc main_arg12) = W6 m ρ c (Proc.devRef .tc main_arg12) := by
  show StableHlo.after hostOps3 (W6 m ρ c) (Proc.devRef .tc main_arg12) = _
  keep_host hostOps3
theorem keep_arg12_6 : W6 m ρ c (Proc.devRef .tc main_arg12) = W5 m ρ c (Proc.devRef .tc main_arg12) := W6_of_ne m ρ c main_arg12 (by decide)
theorem keep_arg12_5 : W5 m ρ c (Proc.devRef .tc main_arg12) = W4 m ρ c (Proc.devRef .tc main_arg12) := by
  show StableHlo.after hostOps2 (W4 m ρ c) (Proc.devRef .tc main_arg12) = _
  keep_host hostOps2
theorem keep_arg12_4 : W4 m ρ c (Proc.devRef .tc main_arg12) = W3 m ρ c (Proc.devRef .tc main_arg12) := W4_of_ne m ρ c main_arg12 (by decide)
theorem keep_arg12_3 : W3 m ρ c (Proc.devRef .tc main_arg12) = W2 m ρ c (Proc.devRef .tc main_arg12) := by
  show StableHlo.after hostOps1 (W2 m ρ c) (Proc.devRef .tc main_arg12) = _
  keep_host hostOps1
theorem keep_arg12_2 : W2 m ρ c (Proc.devRef .tc main_arg12) = W1 m ρ c (Proc.devRef .tc main_arg12) := W2_of_ne m ρ c main_arg12 (by decide)
theorem keep_arg12_1 : W1 m ρ c (Proc.devRef .tc main_arg12) = W0 m ρ c (Proc.devRef .tc main_arg12) := by
  show StableHlo.after hostOps0 (W0 m ρ c) (Proc.devRef .tc main_arg12) = _
  keep_host hostOps0
/-- `main_arg12` is written by none of the segments 1–18. -/
theorem walk_arg12_18_0 : W18 m ρ c (Proc.devRef .tc main_arg12) = W0 m ρ c (Proc.devRef .tc main_arg12) :=
  (keep_arg12_18 m ρ c).trans ((keep_arg12_17 m ρ c).trans ((keep_arg12_16 m ρ c).trans ((keep_arg12_15 m ρ c).trans ((keep_arg12_14 m ρ c).trans ((keep_arg12_13 m ρ c).trans ((keep_arg12_12 m ρ c).trans ((keep_arg12_11 m ρ c).trans ((keep_arg12_10 m ρ c).trans ((keep_arg12_9 m ρ c).trans ((keep_arg12_8 m ρ c).trans ((keep_arg12_7 m ρ c).trans ((keep_arg12_6 m ρ c).trans ((keep_arg12_5 m ρ c).trans ((keep_arg12_4 m ρ c).trans ((keep_arg12_3 m ρ c).trans ((keep_arg12_2 m ρ c).trans (keep_arg12_1 m ρ c)))))))))))))))))

theorem keep_arg13_20 : W20 m ρ c (Proc.devRef .tc main_arg13) = W19 m ρ c (Proc.devRef .tc main_arg13) := W20_of_ne m ρ c main_arg13 (by decide)
theorem keep_arg13_19 : W19 m ρ c (Proc.devRef .tc main_arg13) = W18 m ρ c (Proc.devRef .tc main_arg13) := by
  show StableHlo.after hostOps10 (W18 m ρ c) (Proc.devRef .tc main_arg13) = _
  keep_host hostOps10
theorem keep_arg13_18 : W18 m ρ c (Proc.devRef .tc main_arg13) = W17 m ρ c (Proc.devRef .tc main_arg13) := W18_of_ne m ρ c main_arg13 (by decide)
theorem keep_arg13_17 : W17 m ρ c (Proc.devRef .tc main_arg13) = W16 m ρ c (Proc.devRef .tc main_arg13) := by
  show StableHlo.after hostOps9 (W16 m ρ c) (Proc.devRef .tc main_arg13) = _
  keep_host hostOps9
theorem keep_arg13_16 : W16 m ρ c (Proc.devRef .tc main_arg13) = W15 m ρ c (Proc.devRef .tc main_arg13) := W16_of_ne m ρ c main_arg13 (by decide)
theorem keep_arg13_15 : W15 m ρ c (Proc.devRef .tc main_arg13) = W14 m ρ c (Proc.devRef .tc main_arg13) := W15_of_ne m ρ c main_arg13 (by decide)
theorem keep_arg13_14 : W14 m ρ c (Proc.devRef .tc main_arg13) = W13 m ρ c (Proc.devRef .tc main_arg13) := by
  show StableHlo.after hostOps7 (W13 m ρ c) (Proc.devRef .tc main_arg13) = _
  keep_host hostOps7
theorem keep_arg13_13 : W13 m ρ c (Proc.devRef .tc main_arg13) = W12 m ρ c (Proc.devRef .tc main_arg13) := W13_of_ne m ρ c main_arg13 (by decide)
theorem keep_arg13_12 : W12 m ρ c (Proc.devRef .tc main_arg13) = W11 m ρ c (Proc.devRef .tc main_arg13) := by
  show StableHlo.after hostOps6 (W11 m ρ c) (Proc.devRef .tc main_arg13) = _
  keep_host hostOps6
theorem keep_arg13_11 : W11 m ρ c (Proc.devRef .tc main_arg13) = W10 m ρ c (Proc.devRef .tc main_arg13) := W11_of_ne m ρ c main_arg13 (by decide)
theorem keep_arg13_10 : W10 m ρ c (Proc.devRef .tc main_arg13) = W9 m ρ c (Proc.devRef .tc main_arg13) := by
  show StableHlo.after hostOps5 (W9 m ρ c) (Proc.devRef .tc main_arg13) = _
  keep_host hostOps5
theorem keep_arg13_9 : W9 m ρ c (Proc.devRef .tc main_arg13) = W8 m ρ c (Proc.devRef .tc main_arg13) := W9_of_ne m ρ c main_arg13 (by decide)
theorem keep_arg13_8 : W8 m ρ c (Proc.devRef .tc main_arg13) = W7 m ρ c (Proc.devRef .tc main_arg13) := W8_of_ne m ρ c main_arg13 (by decide)
theorem keep_arg13_7 : W7 m ρ c (Proc.devRef .tc main_arg13) = W6 m ρ c (Proc.devRef .tc main_arg13) := by
  show StableHlo.after hostOps3 (W6 m ρ c) (Proc.devRef .tc main_arg13) = _
  keep_host hostOps3
theorem keep_arg13_6 : W6 m ρ c (Proc.devRef .tc main_arg13) = W5 m ρ c (Proc.devRef .tc main_arg13) := W6_of_ne m ρ c main_arg13 (by decide)
theorem keep_arg13_5 : W5 m ρ c (Proc.devRef .tc main_arg13) = W4 m ρ c (Proc.devRef .tc main_arg13) := by
  show StableHlo.after hostOps2 (W4 m ρ c) (Proc.devRef .tc main_arg13) = _
  keep_host hostOps2
theorem keep_arg13_4 : W4 m ρ c (Proc.devRef .tc main_arg13) = W3 m ρ c (Proc.devRef .tc main_arg13) := W4_of_ne m ρ c main_arg13 (by decide)
theorem keep_arg13_3 : W3 m ρ c (Proc.devRef .tc main_arg13) = W2 m ρ c (Proc.devRef .tc main_arg13) := by
  show StableHlo.after hostOps1 (W2 m ρ c) (Proc.devRef .tc main_arg13) = _
  keep_host hostOps1
theorem keep_arg13_2 : W2 m ρ c (Proc.devRef .tc main_arg13) = W1 m ρ c (Proc.devRef .tc main_arg13) := W2_of_ne m ρ c main_arg13 (by decide)
theorem keep_arg13_1 : W1 m ρ c (Proc.devRef .tc main_arg13) = W0 m ρ c (Proc.devRef .tc main_arg13) := by
  show StableHlo.after hostOps0 (W0 m ρ c) (Proc.devRef .tc main_arg13) = _
  keep_host hostOps0
/-- `main_arg13` is written by none of the segments 1–20. -/
theorem walk_arg13_20_0 : W20 m ρ c (Proc.devRef .tc main_arg13) = W0 m ρ c (Proc.devRef .tc main_arg13) :=
  (keep_arg13_20 m ρ c).trans ((keep_arg13_19 m ρ c).trans ((keep_arg13_18 m ρ c).trans ((keep_arg13_17 m ρ c).trans ((keep_arg13_16 m ρ c).trans ((keep_arg13_15 m ρ c).trans ((keep_arg13_14 m ρ c).trans ((keep_arg13_13 m ρ c).trans ((keep_arg13_12 m ρ c).trans ((keep_arg13_11 m ρ c).trans ((keep_arg13_10 m ρ c).trans ((keep_arg13_9 m ρ c).trans ((keep_arg13_8 m ρ c).trans ((keep_arg13_7 m ρ c).trans ((keep_arg13_6 m ρ c).trans ((keep_arg13_5 m ρ c).trans ((keep_arg13_4 m ρ c).trans ((keep_arg13_3 m ρ c).trans ((keep_arg13_2 m ρ c).trans (keep_arg13_1 m ρ c)))))))))))))))))))

theorem keep_arg14_20 : W20 m ρ c (Proc.devRef .tc main_arg14) = W19 m ρ c (Proc.devRef .tc main_arg14) := W20_of_ne m ρ c main_arg14 (by decide)
theorem keep_arg14_19 : W19 m ρ c (Proc.devRef .tc main_arg14) = W18 m ρ c (Proc.devRef .tc main_arg14) := by
  show StableHlo.after hostOps10 (W18 m ρ c) (Proc.devRef .tc main_arg14) = _
  keep_host hostOps10
theorem keep_arg14_18 : W18 m ρ c (Proc.devRef .tc main_arg14) = W17 m ρ c (Proc.devRef .tc main_arg14) := W18_of_ne m ρ c main_arg14 (by decide)
theorem keep_arg14_17 : W17 m ρ c (Proc.devRef .tc main_arg14) = W16 m ρ c (Proc.devRef .tc main_arg14) := by
  show StableHlo.after hostOps9 (W16 m ρ c) (Proc.devRef .tc main_arg14) = _
  keep_host hostOps9
theorem keep_arg14_16 : W16 m ρ c (Proc.devRef .tc main_arg14) = W15 m ρ c (Proc.devRef .tc main_arg14) := W16_of_ne m ρ c main_arg14 (by decide)
theorem keep_arg14_15 : W15 m ρ c (Proc.devRef .tc main_arg14) = W14 m ρ c (Proc.devRef .tc main_arg14) := W15_of_ne m ρ c main_arg14 (by decide)
theorem keep_arg14_14 : W14 m ρ c (Proc.devRef .tc main_arg14) = W13 m ρ c (Proc.devRef .tc main_arg14) := by
  show StableHlo.after hostOps7 (W13 m ρ c) (Proc.devRef .tc main_arg14) = _
  keep_host hostOps7
theorem keep_arg14_13 : W13 m ρ c (Proc.devRef .tc main_arg14) = W12 m ρ c (Proc.devRef .tc main_arg14) := W13_of_ne m ρ c main_arg14 (by decide)
theorem keep_arg14_12 : W12 m ρ c (Proc.devRef .tc main_arg14) = W11 m ρ c (Proc.devRef .tc main_arg14) := by
  show StableHlo.after hostOps6 (W11 m ρ c) (Proc.devRef .tc main_arg14) = _
  keep_host hostOps6
theorem keep_arg14_11 : W11 m ρ c (Proc.devRef .tc main_arg14) = W10 m ρ c (Proc.devRef .tc main_arg14) := W11_of_ne m ρ c main_arg14 (by decide)
theorem keep_arg14_10 : W10 m ρ c (Proc.devRef .tc main_arg14) = W9 m ρ c (Proc.devRef .tc main_arg14) := by
  show StableHlo.after hostOps5 (W9 m ρ c) (Proc.devRef .tc main_arg14) = _
  keep_host hostOps5
theorem keep_arg14_9 : W9 m ρ c (Proc.devRef .tc main_arg14) = W8 m ρ c (Proc.devRef .tc main_arg14) := W9_of_ne m ρ c main_arg14 (by decide)
theorem keep_arg14_8 : W8 m ρ c (Proc.devRef .tc main_arg14) = W7 m ρ c (Proc.devRef .tc main_arg14) := W8_of_ne m ρ c main_arg14 (by decide)
theorem keep_arg14_7 : W7 m ρ c (Proc.devRef .tc main_arg14) = W6 m ρ c (Proc.devRef .tc main_arg14) := by
  show StableHlo.after hostOps3 (W6 m ρ c) (Proc.devRef .tc main_arg14) = _
  keep_host hostOps3
theorem keep_arg14_6 : W6 m ρ c (Proc.devRef .tc main_arg14) = W5 m ρ c (Proc.devRef .tc main_arg14) := W6_of_ne m ρ c main_arg14 (by decide)
theorem keep_arg14_5 : W5 m ρ c (Proc.devRef .tc main_arg14) = W4 m ρ c (Proc.devRef .tc main_arg14) := by
  show StableHlo.after hostOps2 (W4 m ρ c) (Proc.devRef .tc main_arg14) = _
  keep_host hostOps2
theorem keep_arg14_4 : W4 m ρ c (Proc.devRef .tc main_arg14) = W3 m ρ c (Proc.devRef .tc main_arg14) := W4_of_ne m ρ c main_arg14 (by decide)
theorem keep_arg14_3 : W3 m ρ c (Proc.devRef .tc main_arg14) = W2 m ρ c (Proc.devRef .tc main_arg14) := by
  show StableHlo.after hostOps1 (W2 m ρ c) (Proc.devRef .tc main_arg14) = _
  keep_host hostOps1
theorem keep_arg14_2 : W2 m ρ c (Proc.devRef .tc main_arg14) = W1 m ρ c (Proc.devRef .tc main_arg14) := W2_of_ne m ρ c main_arg14 (by decide)
theorem keep_arg14_1 : W1 m ρ c (Proc.devRef .tc main_arg14) = W0 m ρ c (Proc.devRef .tc main_arg14) := by
  show StableHlo.after hostOps0 (W0 m ρ c) (Proc.devRef .tc main_arg14) = _
  keep_host hostOps0
/-- `main_arg14` is written by none of the segments 1–20. -/
theorem walk_arg14_20_0 : W20 m ρ c (Proc.devRef .tc main_arg14) = W0 m ρ c (Proc.devRef .tc main_arg14) :=
  (keep_arg14_20 m ρ c).trans ((keep_arg14_19 m ρ c).trans ((keep_arg14_18 m ρ c).trans ((keep_arg14_17 m ρ c).trans ((keep_arg14_16 m ρ c).trans ((keep_arg14_15 m ρ c).trans ((keep_arg14_14 m ρ c).trans ((keep_arg14_13 m ρ c).trans ((keep_arg14_12 m ρ c).trans ((keep_arg14_11 m ρ c).trans ((keep_arg14_10 m ρ c).trans ((keep_arg14_9 m ρ c).trans ((keep_arg14_8 m ρ c).trans ((keep_arg14_7 m ρ c).trans ((keep_arg14_6 m ρ c).trans ((keep_arg14_5 m ρ c).trans ((keep_arg14_4 m ρ c).trans ((keep_arg14_3 m ρ c).trans ((keep_arg14_2 m ρ c).trans (keep_arg14_1 m ρ c)))))))))))))))))))

theorem keep_v95_19 : W19 m ρ c (Proc.devRef .tc main_v95) = W18 m ρ c (Proc.devRef .tc main_v95) := by
  show StableHlo.after hostOps10 (W18 m ρ c) (Proc.devRef .tc main_v95) = _
  keep_host hostOps10
theorem keep_v95_18 : W18 m ρ c (Proc.devRef .tc main_v95) = W17 m ρ c (Proc.devRef .tc main_v95) := W18_of_ne m ρ c main_v95 (by decide)
theorem keep_v95_17 : W17 m ρ c (Proc.devRef .tc main_v95) = W16 m ρ c (Proc.devRef .tc main_v95) := by
  show StableHlo.after hostOps9 (W16 m ρ c) (Proc.devRef .tc main_v95) = _
  keep_host hostOps9
/-- `main_v95` is written by none of the segments 17–19. -/
theorem walk_v95_19_16 : W19 m ρ c (Proc.devRef .tc main_v95) = W16 m ρ c (Proc.devRef .tc main_v95) :=
  (keep_v95_19 m ρ c).trans ((keep_v95_18 m ρ c).trans (keep_v95_17 m ρ c))

theorem keep_v124_0_21 : W21 m ρ c (Proc.devRef .tc main_v124_0) = W20 m ρ c (Proc.devRef .tc main_v124_0) := by
  show StableHlo.after hostOps11 (W20 m ρ c) (Proc.devRef .tc main_v124_0) = _
  keep_host hostOps11
/-- `main_v124_0` is written by none of the segments 21–21. -/
theorem walk_v124_0_21_20 : W21 m ρ c (Proc.devRef .tc main_v124_0) = W20 m ρ c (Proc.devRef .tc main_v124_0) :=
  keep_v124_0_21 m ρ c

end Cert.KernelIdeal.HandFold

end
-- ==== Proof.RegionMatmul8.lean ====
/- The dense product stage of graph-convolution layer 3. The node features form a 100000 × 64 matrix A and the
   layer's weights a 64 × 64 matrix W; the stage computes A·W in twenty row blocks of 5000 rows, each block the product
   of the corresponding 5000 rows of A with the whole of W. Over the extended reals the change of float format before
   the product is the identity and the product accumulates into zero, so entry (r, q) of a block is the plain sum over
   k of A(r, k)·W(k, q). Proved here: the array the stage leaves is the whole product, entry by entry, whatever the
   two operand arrays hold when the stage is entered. -/
import proofs.«145301_j17463337025613_1_alg».proof.Proof.Gen.KernelIdeal.Frame
import proofs.«145301_j17463337025613_1_alg».proof.Proof.RegionDefs

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- One block's product at an entry: the sum over the contracted coordinate of the products of the entries. -/
theorem blockProd8_apply (x0 : Vec Ideal S5000x64 .f32) (x1 : Vec Ideal S64x64 .f32) (p : Fin 5000) (q : Fin 64) :
    k8_pay1 x0 x1 (ix2 p q) = ∑ k : Fin 64, x0 (ix2 p k) * x1 (ix2 k q) := by
  unfold k8_pay1
  try simp only [shapeCast_self]
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have c2 := contrEquiv1_symm_val dot_S5000x64_S64x64_S5000x64_1_0_0_1_n_n 64 rfl rfl k
  have l2 : (dot_S5000x64_S64x64_S5000x64_1_0_0_1_n_n).lhsIdx (ix2 p q) ((contrEquiv1 _ 64 rfl rfl).symm k) = ix2 p k := by
    funext ax; apply Fin.ext
    match ax with
    | ⟨0, _⟩ => simp [DotDims.lhsIdx, dot_S5000x64_S64x64_S5000x64_1_0_0_1_n_n]; rfl
    | ⟨1, _⟩ => simp [DotDims.lhsIdx, dot_S5000x64_S64x64_S5000x64_1_0_0_1_n_n]; exact c2
  have r2 : (dot_S5000x64_S64x64_S5000x64_1_0_0_1_n_n).rhsIdx (ix2 p q) ((contrEquiv1 _ 64 rfl rfl).symm k) = ix2 k q := by
    funext ax; apply Fin.ext
    match ax with
    | ⟨0, _⟩ => simp [DotDims.rhsIdx, dot_S5000x64_S64x64_S5000x64_1_0_0_1_n_n]; exact c2
    | ⟨1, _⟩ => simp [DotDims.rhsIdx, dot_S5000x64_S64x64_S5000x64_1_0_0_1_n_n]; rfl
  rw [l2, r2]
  rfl

/-- Where the windows' blocks sit, decided once over the twenty grid points: the two row-blocked windows (the feature
    matrix and the result) are at block row t, column block 0; the weight window is always the whole matrix. -/
theorem blockIndex8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What grid point t writes back is block t of the whole product of the two operand arrays. -/
theorem flushed8_eq (c : Dev nD) (t : Fin cfg8.N) :
    (dat8 (F := Ideal) V c).flushed 2 t
      = ((cfg8.win 2).blk t).view.read (Elt Ideal) (prodArr (V c (Pipeline.arrRef spec8 0)) (V c (Pipeline.arrRef spec8 1))) := by
  show (cfg8.win 2).cut (grid8.coords t) ((dat8 V c).after 2 t) = _
  rw [after8_2]
  unfold out8_2
  rw [View.canon_unit_zero offsetsZero2]
  simp only [View.ld_unit_zero (S := S5000x64) offsetsZero2, View.ld_unit_zero (S := S64x64) offsetsZero2]
  obtain ⟨e0, e1, e2, e3, e4, e5⟩ := blockIndex8 t
  funext j
  obtain ⟨p, q, rfl⟩ : ∃ (p : Fin 5000) (q : Fin 64), j = ix2 p q := ⟨j 0, j 1, eq_ix2 j⟩
  show k8_pay1 (iblk8 V c 0 t) (iblk8 V c 1 t) (ix2 p q)
    = prodArr (V c (Pipeline.arrRef spec8 0)) (V c (Pipeline.arrRef spec8 1)) (((cfg8.win 2).blk t).view.emb (ix2 p q))
  refine (blockProd8_apply _ _ p q).trans ?_
  unfold prodArr prodAt
  refine Finset.sum_congr rfl fun k _ => ?_
  have h0 : ((cfg8.win 0).blk t).view.emb (ix2 p k) = ix2 ((((cfg8.win 2).blk t).view.emb (ix2 p q)) 0) k := by
    funext a; apply Fin.ext
    match a with
    | ⟨0, _⟩ => show win8_0.index t (0 : Fin 2) * 5000 + 1 * p.val = win8_2.index t (0 : Fin 2) * 5000 + 1 * p.val; omega
    | ⟨1, _⟩ => show win8_0.index t (1 : Fin 2) * 64 + 1 * k.val = k.val; omega
  have h1 : ((cfg8.win 1).blk t).view.emb (ix2 k q) = ix2 k ((((cfg8.win 2).blk t).view.emb (ix2 p q)) 1) := by
    funext a; apply Fin.ext
    match a with
    | ⟨0, _⟩ => show win8_1.index t (0 : Fin 2) * 64 + 1 * k.val = k.val; omega
    | ⟨1, _⟩ => show win8_1.index t (1 : Fin 2) * 64 + 1 * q.val = win8_2.index t (1 : Fin 2) * 64 + 1 * q.val; omega
  exact congrArg₂ (fun a b : EReal => a * b) (congrArg (V c (Pipeline.arrRef spec8 0)) h0) (congrArg (V c (Pipeline.arrRef spec8 1)) h1)

/-- An index of the result array lies in point t's block iff each coordinate lies in the block's range on its axis. -/
theorem mem_block8 (t : Fin cfg8.N) (i : S100000x64.Idx) :
    i ∈ ((cfg8.win 2).blk t).view.set ↔ ∀ a : Fin 2, win8_2.index t a * S5000x64.size a ≤ (i a).val ∧ (i a).val < win8_2.index t a * S5000x64.size a + S5000x64.size a := by
  show i ∈ ((View.whole main_v95).slice (win8_2.rect t)).set ↔ _
  rw [View.set_slice_whole, Rect.mem_set_unit]
  exact Iff.rfl

/-- The twenty row blocks cover the result array: row r lies in block r / 5000. -/
theorem cover8 (i : S100000x64.Idx) : ∃ t : Fin cfg8.N, (cfg8.win 2).flush t = true ∧ i ∈ ((cfg8.win 2).blk t).view.set := by
  have hi0 : (i 0).val < 100000 := (i 0).isLt
  have hi1 : (i 1).val < 64 := (i 1).isLt
  have hN : cfg8.N = 20 := N_8
  have ht : (i 0).val / 5000 < cfg8.N := by rw [hN]; omega
  obtain ⟨e0, e1, e2, e3, e4, e5⟩ := blockIndex8 ⟨(i 0).val / 5000, ht⟩
  refine ⟨⟨(i 0).val / 5000, ht⟩, flush8_2 _, ?_⟩
  rw [mem_block8]
  intro a
  match a with
  | ⟨0, _⟩ =>
    show win8_2.index ⟨(i 0).val / 5000, ht⟩ (0 : Fin 2) * 5000 ≤ (i 0).val ∧ (i 0).val < win8_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win8_2.index ⟨(i 0).val / 5000, ht⟩ (1 : Fin 2) * 64 ≤ (i 1).val ∧ (i 1).val < win8_2.index ⟨(i 0).val / 5000, ht⟩ (1 : Fin 2) * 64 + 64
    rw [e5]; omega

/-- The array the stage leaves is the product of the two operand arrays it found: at index i, with r and q the two
    coordinates of i, the sum over k of A(r, k)·W(k, q), A the array of window 0 and W the array of window 1. -/
theorem final8 (c : Dev nD) :
    (dat8 (F := Ideal) V c).arrAt 2 cfg8.N
      = prodArr (V c (Pipeline.arrRef spec8 0)) (V c (Pipeline.arrRef spec8 1)) :=
  (dat8 (F := Ideal) V c).arrAt_eq_of_cover 2 _ (fun t _ => flushed8_eq V c t) cover8

end Cert.KernelIdeal.HandValue

end
-- ==== Proof.RegionMessage9.lean ====
/- The edge-message stage of graph-convolution layer 3. For each of the 1600000 edges the feature row gathered at the
   edge's source (a row of a 1600000 × 64 array H) is scaled by the edge's normalisation weight (a 1600000 × 1 column
   Nrm): entry (e, q) is H(e, q)·Nrm(e, 0). The stage works in two hundred blocks of 8000 edges; within a block the
   weight column is broadcast across the 64 features and multiplied entry by entry. Proved here: the array the stage
   leaves is that product at every entry, whatever the two operand arrays hold when the stage is entered. -/
import proofs.«145301_j17463337025613_1_alg».proof.Proof.Gen.KernelIdeal.Frame
import proofs.«145301_j17463337025613_1_alg».proof.Proof.RegionDefs

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- One block of messages at an entry: the gathered feature times the edge's weight. -/
theorem blockMsg9_apply (x0 : Vec Ideal S8000x64 .f32) (x1 : Vec Ideal S8000x1 .f32) (p : Fin 8000) (q : Fin 64) :
    k9_pay1 x0 x1 (ix2 p q) = x0 (ix2 p q) * x1 (ix2 p (0 : Fin 1)) := by
  unfold k9_pay1
  simp only [shapeCast_self]
  refine (mulf_apply _ _ (ix2 p q)).trans ?_
  exact congrArg (x0 (ix2 p q) * ·) (colBroadcast_apply x1 broadcasts_S8000x1_S8000x64 p q)

/-- Where the windows' blocks sit, decided once over the two hundred grid points: all three windows are at block
    row t, column block 0. -/
theorem blockIndex9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

set_option maxHeartbeats 400000 in
/-- What grid point t writes back is block t of the whole array of messages. -/
theorem flushed9_eq (c : Dev nD) (t : Fin cfg9.N) :
    (dat9 (F := Ideal) V c).flushed 2 t
      = ((cfg9.win 2).blk t).view.read (Elt Ideal) (msgArr (V c (Pipeline.arrRef spec9 0)) (V c (Pipeline.arrRef spec9 1))) := by
  show (cfg9.win 2).cut (grid9.coords t) ((dat9 V c).after 2 t) = _
  rw [after9_2]
  unfold out9_2
  rw [View.canon_unit_zero offsetsZero2]
  simp only [View.ld_unit_zero (S := S8000x64) offsetsZero2, View.ld_unit_zero (S := S8000x1) offsetsZero2]
  obtain ⟨e0, e1, e2, e3, e4, e5⟩ := blockIndex9 t
  funext j
  obtain ⟨p, q, rfl⟩ : ∃ (p : Fin 8000) (q : Fin 64), j = ix2 p q := ⟨j 0, j 1, eq_ix2 j⟩
  show k9_pay1 (iblk9 V c 0 t) (iblk9 V c 1 t) (ix2 p q)
    = msgArr (V c (Pipeline.arrRef spec9 0)) (V c (Pipeline.arrRef spec9 1)) (((cfg9.win 2).blk t).view.emb (ix2 p q))
  refine (blockMsg9_apply _ _ p q).trans ?_
  unfold msgArr msgAt
  have h0 : ((cfg9.win 0).blk t).view.emb (ix2 p q)
      = ix2 ((((cfg9.win 2).blk t).view.emb (ix2 p q)) 0) ((((cfg9.win 2).blk t).view.emb (ix2 p q)) 1) := by
    funext a; apply Fin.ext
    match a with
    | ⟨0, _⟩ => show win9_0.index t (0 : Fin 2) * 8000 + 1 * p.val = win9_2.index t (0 : Fin 2) * 8000 + 1 * p.val; omega
    | ⟨1, _⟩ => show win9_0.index t (1 : Fin 2) * 64 + 1 * q.val = win9_2.index t (1 : Fin 2) * 64 + 1 * q.val; omega
  have h1 : ((cfg9.win 1).blk t).view.emb (ix2 p (0 : Fin 1)) = ix2 ((((cfg9.win 2).blk t).view.emb (ix2 p q)) 0) (0 : Fin 1) := by
    funext a; apply Fin.ext
    match a with
    | ⟨0, _⟩ => show win9_1.index t (0 : Fin 2) * 8000 + 1 * p.val = win9_2.index t (0 : Fin 2) * 8000 + 1 * p.val; omega
    | ⟨1, _⟩ => show win9_1.index t (1 : Fin 2) * 1 + 1 * 0 = 0; omega
  exact congrArg₂ (fun a b : EReal => a * b) (congrArg (V c (Pipeline.arrRef spec9 0)) h0) (congrArg (V c (Pipeline.arrRef spec9 1)) h1)

/-- An index of the result array lies in point t's block iff each coordinate lies in the block's range on its axis. -/
theorem mem_block9 (t : Fin cfg9.N) (i : S1600000x64.Idx) :
    i ∈ ((cfg9.win 2).blk t).view.set ↔ ∀ a : Fin 2, win9_2.index t a * S8000x64.size a ≤ (i a).val ∧ (i a).val < win9_2.index t a * S8000x64.size a + S8000x64.size a := by
  show i ∈ ((View.whole main_v119).slice (win9_2.rect t)).set ↔ _
  rw [View.set_slice_whole, Rect.mem_set_unit]
  exact Iff.rfl

/-- The two hundred blocks cover the result array: edge e lies in block e / 8000. -/
theorem cover9 (i : S1600000x64.Idx) : ∃ t : Fin cfg9.N, (cfg9.win 2).flush t = true ∧ i ∈ ((cfg9.win 2).blk t).view.set := by
  have hi0 : (i 0).val < 1600000 := (i 0).isLt
  have hi1 : (i 1).val < 64 := (i 1).isLt
  have hN : cfg9.N = 200 := N_9
  have ht : (i 0).val / 8000 < cfg9.N := by rw [hN]; omega
  obtain ⟨e0, e1, e2, e3, e4, e5⟩ := blockIndex9 ⟨(i 0).val / 8000, ht⟩
  refine ⟨⟨(i 0).val / 8000, ht⟩, flush9_2 _, ?_⟩
  rw [mem_block9]
  intro a
  match a with
  | ⟨0, _⟩ =>
    show win9_2.index ⟨(i 0).val / 8000, ht⟩ (0 : Fin 2) * 8000 ≤ (i 0).val ∧ (i 0).val < win9_2.index ⟨(i 0).val / 8000, ht⟩ (0 : Fin 2) * 8000 + 8000
    rw [e4]; show (i 0).val / 8000 * 8000 ≤ (i 0).val ∧ (i 0).val < (i 0).val / 8000 * 8000 + 8000; omega
  | ⟨1, _⟩ =>
    show win9_2.index ⟨(i 0).val / 8000, ht⟩ (1 : Fin 2) * 64 ≤ (i 1).val ∧ (i 1).val < win9_2.index ⟨(i 0).val / 8000, ht⟩ (1 : Fin 2) * 64 + 64
    rw [e5]; omega

/-- The array the stage leaves: at index i, with e and q the two coordinates of i, H(e, q)·Nrm(e, 0), H the array of
    window 0 (the gathered features) and Nrm the array of window 1 (the edge weights). -/
theorem final9 (c : Dev nD) :
    (dat9 (F := Ideal) V c).arrAt 2 cfg9.N
      = msgArr (V c (Pipeline.arrRef spec9 0)) (V c (Pipeline.arrRef spec9 1)) :=
  (dat9 (F := Ideal) V c).arrAt_eq_of_cover 2 _ (fun t _ => flushed9_eq V c t) cover9

end Cert.KernelIdeal.HandValue

end
-- ==== Proof.RegionStats10.lean ====
/-
  The values the relu-and-statistics region 10 leaves in its three result arrays, over the extended reals.

  The region walks 20 row blocks of 5000 rows of the [100000, 64] arrays agg and h, the [100000, 1] column dinv2
  and the [1, 64] row b.  At block t it computes, for each row r of the block and lane q,
      Z(5000 t + r, q) = max (agg + dinv2 * h + b) 0,
  stores that block of Z, and adds the block's column sums of Z and of Z * Z into two [1, 64] accumulators that
  it zeroes at block 0 and carries from block to block; the accumulators are written back after block 19.

  Proved here, for any contents of the arrays at the region's entry:
    * each case of the body leaves the block of Z in the first result's buffer and accumulator + block column sum
      (of Z, of Z * Z) in the other two — the accumulator being the zero row in the first block's case;
    * by induction on the block, after block n the accumulators hold the sums over the rows below 5000 (n + 1);
    * hence the first result array ends as Z, and the other two as the column sums of Z and of Z * Z over all
      100000 rows (regrouping 20 blocks of 5000 into one sum needs only commutative-monoid laws).
-/
import proofs.«145301_j17463337025613_1_alg».proof.Proof.Gen.KernelIdeal.Frame
import proofs.«145301_j17463337025613_1_alg».proof.Proof.StatsSum
import Idealize.ShloMosaic.Lib.Pipeline.Value
import Idealize.ShloMosaic.Lib.Tactic

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen

theorem statsZeroOff10 : (![0, 0] : Fin 2 → Nat) = fun _ => 0 := funext fun a => by fin_cases a <;> rfl

/-! ## What each case of the body leaves, as the body's arithmetic of the blocks it loads -/

section Pieces

variable {F : FTy → Type} [FloatOps F]

/-- First block: the block of Z. -/
theorem out10_A_4_eq (c : Dev nD) (i : grid10.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : cond10_0 i) (x0 x1 : Vec F S5000x64 .f32) (x2 : Vec F S5000x1 .f32) (x3 : Vec F S1x64 .f32) :
    out10_A_4 c i a1 h1 a2 h2 a3 h3 a4 h4 a5 h5 a6 h6 a7 h7 hc x0 x1 x2 x3 = k10_pay3 x0 x2 x1 x3 := by
  unfold out10_A_4
  rw [View.read_writes_eq_canon _ _ _ (cover10_A_4 c i a1 h1 a2 h2 a3 h3 a4 h4 a5 h5 a6 h6 a7 h7 hc x0 x1 x2 x3)]
  unfold kernelRun10_A
  dsimp only
  sl_unfold_words
  rw [View.canon_unit_zero statsZeroOff10]
  simp only [View.readAt_eq_ld, h1.read_unread, h2.read_unread, h3.read_unread, h4.read_unread,
    View.ld_unit_zero (S := S5000x64) statsZeroOff10, View.ld_unit_zero (S := S5000x1) statsZeroOff10, View.ld_unit_zero (S := S1x64) statsZeroOff10]

/-- First block: the zero row plus the block's column sums of Z. -/
theorem out10_A_5_eq (c : Dev nD) (i : grid10.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : cond10_0 i) (x0 x1 : Vec F S5000x64 .f32) (x2 : Vec F S5000x1 .f32) (x3 : Vec F S1x64 .f32) :
    out10_A_5 c i a1 h1 a2 h2 a3 h3 a4 h4 a5 h5 a6 h6 a7 h7 hc x0 x1 x2 x3 = k10_pay4 x0 x2 x1 x3 k10_pay1 := by
  unfold out10_A_5
  rw [View.read_writes_eq_canon _ _ _ (cover10_A_5 c i a1 h1 a2 h2 a3 h3 a4 h4 a5 h5 a6 h6 a7 h7 hc x0 x1 x2 x3)]
  unfold kernelRun10_A
  dsimp only
  sl_unfold_words
  rw [View.canon_cons_unit_zero (S := S1x64) statsZeroOff10, View.readCov_unit_zero (S := S1x64) _ statsZeroOff10]
  simp only [View.readAt_eq_ld, h1.read_unread, h2.read_unread, h3.read_unread, h4.read_unread,
    View.ld_unit_zero (S := S5000x64) statsZeroOff10, View.ld_unit_zero (S := S5000x1) statsZeroOff10, View.ld_unit_zero (S := S1x64) statsZeroOff10]

/-- First block: the zero row plus the block's column sums of Z * Z. -/
theorem out10_A_6_eq (c : Dev nD) (i : grid10.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : cond10_0 i) (x0 x1 : Vec F S5000x64 .f32) (x2 : Vec F S5000x1 .f32) (x3 : Vec F S1x64 .f32) :
    out10_A_6 c i a1 h1 a2 h2 a3 h3 a4 h4 a5 h5 a6 h6 a7 h7 hc x0 x1 x2 x3 = k10_pay5 x0 x2 x1 x3 k10_pay2 := by
  unfold out10_A_6
  rw [View.read_writes_eq_canon _ _ _ (cover10_A_6 c i a1 h1 a2 h2 a3 h3 a4 h4 a5 h5 a6 h6 a7 h7 hc x0 x1 x2 x3)]
  unfold kernelRun10_A
  dsimp only
  sl_unfold_words
  rw [View.canon_cons_unit_zero (S := S1x64) statsZeroOff10, View.readCov_unit_zero (S := S1x64) _ statsZeroOff10]
  simp only [View.readAt_eq_ld, h1.read_unread, h2.read_unread, h3.read_unread, h4.read_unread,
    View.ld_unit_zero (S := S5000x64) statsZeroOff10, View.ld_unit_zero (S := S5000x1) statsZeroOff10, View.ld_unit_zero (S := S1x64) statsZeroOff10]

/-- A later block: the block of Z. -/
theorem out10_B_4_eq (c : Dev nD) (i : grid10.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : ¬cond10_0 i) (x0 x1 : Vec F S5000x64 .f32) (x2 : Vec F S5000x1 .f32) (x3 xo5 xo6 : Vec F S1x64 .f32) :
    out10_B_4 c i a1 h1 a2 h2 a3 h3 a4 h4 a5 h5 a6 h6 a7 h7 hc x0 x1 x2 x3 xo5 xo6 = k10_pay3 x0 x2 x1 x3 := by
  unfold out10_B_4
  rw [View.read_writes_eq_canon _ _ _ (cover10_B_4 c i a1 h1 a2 h2 a3 h3 a4 h4 a5 h5 a6 h6 a7 h7 hc x0 x1 x2 x3 xo5 xo6)]
  unfold kernelRun10_B
  dsimp only
  sl_unfold_words
  rw [View.canon_unit_zero statsZeroOff10]
  simp only [View.readAt_eq_ld, h1.read_unread, h2.read_unread, h3.read_unread, h4.read_unread, h6.read_unread, h7.read_unread,
    View.ld_unit_zero (S := S5000x64) statsZeroOff10, View.ld_unit_zero (S := S5000x1) statsZeroOff10, View.ld_unit_zero (S := S1x64) statsZeroOff10]

/-- A later block: the carried row plus the block's column sums of Z. -/
theorem out10_B_5_eq (c : Dev nD) (i : grid10.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : ¬cond10_0 i) (x0 x1 : Vec F S5000x64 .f32) (x2 : Vec F S5000x1 .f32) (x3 xo5 xo6 : Vec F S1x64 .f32) :
    out10_B_5 c i a1 h1 a2 h2 a3 h3 a4 h4 a5 h5 a6 h6 a7 h7 hc x0 x1 x2 x3 xo5 xo6 = k10_pay4 x0 x2 x1 x3 xo5 := by
  unfold out10_B_5
  rw [View.read_writes_eq_canon _ _ _ (cover10_B_5 c i a1 h1 a2 h2 a3 h3 a4 h4 a5 h5 a6 h6 a7 h7 hc x0 x1 x2 x3 xo5 xo6)]
  unfold kernelRun10_B
  dsimp only
  sl_unfold_words
  rw [View.canon_unit_zero statsZeroOff10]
  simp only [View.readAt_eq_ld, h1.read_unread, h2.read_unread, h3.read_unread, h4.read_unread, h6.read_unread, h7.read_unread,
    View.ld_unit_zero (S := S5000x64) statsZeroOff10, View.ld_unit_zero (S := S5000x1) statsZeroOff10, View.ld_unit_zero (S := S1x64) statsZeroOff10]

/-- A later block: the carried row plus the block's column sums of Z * Z. -/
theorem out10_B_6_eq (c : Dev nD) (i : grid10.Coords) (a1 : Memref sig .tc .vmem S5000x64 .f32) (h1 : a1.IsWhole)
    (a2 : Memref sig .tc .vmem S5000x64 .f32) (h2 : a2.IsWhole) (a3 : Memref sig .tc .vmem S5000x1 .f32) (h3 : a3.IsWhole)
    (a4 : Memref sig .tc .vmem S1x64 .f32) (h4 : a4.IsWhole) (a5 : Memref sig .tc .vmem S5000x64 .f32) (h5 : a5.IsWhole)
    (a6 : Memref sig .tc .vmem S1x64 .f32) (h6 : a6.IsWhole) (a7 : Memref sig .tc .vmem S1x64 .f32) (h7 : a7.IsWhole)
    (hc : ¬cond10_0 i) (x0 x1 : Vec F S5000x64 .f32) (x2 : Vec F S5000x1 .f32) (x3 xo5 xo6 : Vec F S1x64 .f32) :
    out10_B_6 c i a1 h1 a2 h2 a3 h3 a4 h4 a5 h5 a6 h6 a7 h7 hc x0 x1 x2 x3 xo5 xo6 = k10_pay5 x0 x2 x1 x3 xo6 := by
  unfold out10_B_6
  rw [View.read_writes_eq_canon _ _ _ (cover10_B_6 c i a1 h1 a2 h2 a3 h3 a4 h4 a5 h5 a6 h6 a7 h7 hc x0 x1 x2 x3 xo5 xo6)]
  unfold kernelRun10_B
  dsimp only
  sl_unfold_words
  rw [View.canon_unit_zero statsZeroOff10]
  simp only [View.readAt_eq_ld, h1.read_unread, h2.read_unread, h3.read_unread, h4.read_unread, h6.read_unread, h7.read_unread,
    View.ld_unit_zero (S := S5000x64) statsZeroOff10, View.ld_unit_zero (S := S5000x1) statsZeroOff10, View.ld_unit_zero (S := S1x64) statsZeroOff10]

end Pieces

/-! ## The body's arithmetic read at an index, over the extended reals -/

/-- The body's relu'd affine block at row r, lane q. -/
theorem pay10_3_apply (v3 v7 : Vec Ideal S5000x64 .f32) (v5 : Vec Ideal S5000x1 .f32) (v12 : Vec Ideal S1x64 .f32)
    (r : Fin 5000) (q : Fin 64) :
    k10_pay3 (F := Ideal) v3 v5 v7 v12 (ix2 r q)
      = max (v3 (ix2 r q) + v5 (ix2 r (0 : Fin 1)) * v7 (ix2 r q) + v12 (ix2 (0 : Fin 1) q)) (Ideal.ofBits .f32 0x00000000#32) := by
  have e1 : broadcastTo S5000x64 (shapeCast S5000x1 v5 shapeCasts_S5000x1_S5000x1) broadcasts_S5000x1_S5000x64 (ix2 r q)
      = v5 (ix2 r (0 : Fin 1)) := by
    rw [shapeCast_self]; exact broadcastTo_a1_ab_apply v5 _ r q
  have e2 : broadcastTo S5000x64 (shapeCast S1x64 v12 shapeCasts_S1x64_S1x64) broadcasts_S1x64_S5000x64 (ix2 r q)
      = v12 (ix2 (0 : Fin 1) q) := by
    rw [shapeCast_self]; exact broadcastTo_1b_ab_apply v12 _ r q
  unfold k10_pay3
  show max (shapeCast S5000x64 v3 shapeCasts_S5000x64_S5000x64 (ix2 r q)
      + broadcastTo S5000x64 (shapeCast S5000x1 v5 shapeCasts_S5000x1_S5000x1) broadcasts_S5000x1_S5000x64 (ix2 r q)
        * shapeCast S5000x64 v7 shapeCasts_S5000x64_S5000x64 (ix2 r q)
      + broadcastTo S5000x64 (shapeCast S1x64 v12 shapeCasts_S1x64_S1x64) broadcasts_S1x64_S5000x64 (ix2 r q))
      (Ideal.ofBits .f32 0x00000000#32) = _
  rw [e1, e2, shapeCast_self, shapeCast_self]

/-- The running column sum after the body: the carried value plus the block's column sum. -/
theorem pay10_4_apply (v3 v7 : Vec Ideal S5000x64 .f32) (v5 : Vec Ideal S5000x1 .f32) (v12 v19 : Vec Ideal S1x64 .f32)
    (u : Fin 1) (q : Fin 64) :
    k10_pay4 (F := Ideal) v3 v5 v7 v12 v19 (ix2 u q)
      = v19 (ix2 u q) + ∑ k : Fin 5000, k10_pay3 (F := Ideal) v3 v5 v7 v12 (ix2 k q) := by
  unfold k10_pay4
  show shapeCast S1x64 v19 shapeCasts_S1x64_S1x64 (ix2 u q)
      + shapeCast S1x64 (multiReduction .add [0] S64 (k10_pay3 (F := Ideal) v3 v5 v7 v12) 0x00000000#32 reduces_S5000x64_S64 (.inl rfl) rfl)
          shapeCasts_S64_S1x64 (ix2 u q) = _
  rw [shapeCast_self]
  refine congrArg (v19 (ix2 u q) + ·) ?_
  refine (shapeCast_a_1a_apply _ shapeCasts_S64_S1x64 u q).trans ?_
  exact multiReduction_add_rows (k10_pay3 (F := Ideal) v3 v5 v7 v12) 0x00000000#32 reduces_S5000x64_S64 (.inl rfl) rfl q

/-- The running column sum of squares after the body. -/
theorem pay10_5_apply (v3 v7 : Vec Ideal S5000x64 .f32) (v5 : Vec Ideal S5000x1 .f32) (v12 v25 : Vec Ideal S1x64 .f32)
    (u : Fin 1) (q : Fin 64) :
    k10_pay5 (F := Ideal) v3 v5 v7 v12 v25 (ix2 u q)
      = v25 (ix2 u q) + ∑ k : Fin 5000, k10_pay3 (F := Ideal) v3 v5 v7 v12 (ix2 k q) * k10_pay3 (F := Ideal) v3 v5 v7 v12 (ix2 k q) := by
  unfold k10_pay5
  show shapeCast S1x64 v25 shapeCasts_S1x64_S1x64 (ix2 u q)
      + shapeCast S1x64 (multiReduction .add [0] S64 (mulf (k10_pay3 (F := Ideal) v3 v5 v7 v12) (k10_pay3 (F := Ideal) v3 v5 v7 v12)) 0x00000000#32 reduces_S5000x64_S64 (.inl rfl) rfl)
          shapeCasts_S64_S1x64 (ix2 u q) = _
  rw [shapeCast_self]
  refine congrArg (v25 (ix2 u q) + ·) ?_
  refine (shapeCast_a_1a_apply _ shapeCasts_S64_S1x64 u q).trans ?_
  exact multiReduction_add_rows (mulf (k10_pay3 (F := Ideal) v3 v5 v7 v12) (k10_pay3 (F := Ideal) v3 v5 v7 v12)) 0x00000000#32 reduces_S5000x64_S64 (.inl rfl) rfl q

/-- The zero rows the first block stores read 0. -/
theorem pay10_1_apply (j : S1x64.Idx) : k10_pay1 (F := Ideal) j = 0 := Ideal.ofBits_zero_f32
theorem pay10_2_apply (j : S1x64.Idx) : k10_pay2 (F := Ideal) j = 0 := Ideal.ofBits_zero_f32

/-! ## The blocks the body loads, read off the arrays as the region finds them -/

variable (V : (c : Dev nD) → (b : Ref sig .tc) → Buf (Elt Ideal) ((c : Thread nD τ).loc b))

/-- Where each window's block sits at each of the 20 points: row block t for the three row-blocked inputs and the
    first result, block (0, 0) for the row b and the two accumulators — decided over the grid. -/
theorem statsIdx10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0 :=
  (by decide +kernel : ∀ t : Fin grid10.N, _)

theorem N10 : cfg10.N = 20 := N_10

/-- The windows' arrays by name: windows 0-3 are agg, h, dinv2, b; windows 4-6 the three results. -/
theorem arrRef10_0 : Pipeline.arrRef spec10 0 = main_v122 := rfl
theorem arrRef10_1 : Pipeline.arrRef spec10 1 = main_v95 := rfl
theorem arrRef10_2 : Pipeline.arrRef spec10 2 = main_v12 := rfl
theorem arrRef10_3 : Pipeline.arrRef spec10 3 = main_v123 := rfl
theorem arrRef10_4 : Pipeline.arrRef spec10 4 = main_v124_0 := rfl
theorem arrRef10_5 : Pipeline.arrRef spec10 5 = main_v124_1 := rfl
theorem arrRef10_6 : Pipeline.arrRef spec10 6 = main_v124_2 := rfl

/-- Row 5000 t + r of the arrays, for a row r of block t. -/
def statsRow10 (t : Fin cfg10.N) (r : Fin 5000) : Fin 100000 :=
  ⟨5000 * t.val + r.val, by have hN : cfg10.N = 20 := N10; have := t.isLt; have := r.isLt; omega⟩

theorem iblk10_0_at (c : Dev nD) (t : Fin cfg10.N) (r : Fin 5000) (q : Fin 64) :
    iblk10 V c 0 t (ix2 r q) = V c main_v122 (ix2 (statsRow10 t r) q) := by
  show V c main_v122 (((cfg10.win 0).blk t).view.emb (ix2 r q)) = V c main_v122 (ix2 (statsRow10 t r) q)
  refine congrArg (V c main_v122) (funext fun a => Fin.ext ?_)
  obtain ⟨e0, e1, -⟩ := statsIdx10 t
  match a with
  | ⟨0, _⟩ => show win10_0.index t (0 : Fin 2) * 5000 + 1 * r.val = 5000 * t.val + r.val; rw [e0]; omega
  | ⟨1, _⟩ => show win10_0.index t (1 : Fin 2) * 64 + 1 * q.val = q.val; rw [e1]; omega

theorem iblk10_1_at (c : Dev nD) (t : Fin cfg10.N) (r : Fin 5000) (q : Fin 64) :
    iblk10 V c 1 t (ix2 r q) = V c main_v95 (ix2 (statsRow10 t r) q) := by
  show V c main_v95 (((cfg10.win 1).blk t).view.emb (ix2 r q)) = V c main_v95 (ix2 (statsRow10 t r) q)
  refine congrArg (V c main_v95) (funext fun a => Fin.ext ?_)
  obtain ⟨-, -, e0, e1, -⟩ := statsIdx10 t
  match a with
  | ⟨0, _⟩ => show win10_1.index t (0 : Fin 2) * 5000 + 1 * r.val = 5000 * t.val + r.val; rw [e0]; omega
  | ⟨1, _⟩ => show win10_1.index t (1 : Fin 2) * 64 + 1 * q.val = q.val; rw [e1]; omega

theorem iblk10_2_at (c : Dev nD) (t : Fin cfg10.N) (r : Fin 5000) (u : Fin 1) :
    iblk10 V c 2 t (ix2 r u) = V c main_v12 (ix2 (statsRow10 t r) u) := by
  show V c main_v12 (((cfg10.win 2).blk t).view.emb (ix2 r u)) = V c main_v12 (ix2 (statsRow10 t r) u)
  refine congrArg (V c main_v12) (funext fun a => Fin.ext ?_)
  obtain ⟨-, -, -, -, e0, e1, -⟩ := statsIdx10 t
  match a with
  | ⟨0, _⟩ => show win10_2.index t (0 : Fin 2) * 5000 + 1 * r.val = 5000 * t.val + r.val; rw [e0]; omega
  | ⟨1, _⟩ => show win10_2.index t (1 : Fin 2) * 1 + 1 * u.val = u.val; rw [e1]; omega

theorem iblk10_3_at (c : Dev nD) (t : Fin cfg10.N) (u : Fin 1) (q : Fin 64) :
    iblk10 V c 3 t (ix2 u q) = V c main_v123 (ix2 u q) := by
  show V c main_v123 (((cfg10.win 3).blk t).view.emb (ix2 u q)) = V c main_v123 (ix2 u q)
  refine congrArg (V c main_v123) (funext fun a => Fin.ext ?_)
  obtain ⟨-, -, -, -, -, -, e0, e1, -⟩ := statsIdx10 t
  match a with
  | ⟨0, _⟩ => show win10_3.index t (0 : Fin 2) * 1 + 1 * u.val = u.val; rw [e0]; omega
  | ⟨1, _⟩ => show win10_3.index t (1 : Fin 2) * 64 + 1 * q.val = q.val; rw [e1]; omega

/-- The block of Z the body computes at point t is block t of the array Z of the entry contents. -/
theorem zblock10_at (c : Dev nD) (t : Fin cfg10.N) (r : Fin 5000) (q : Fin 64) :
    k10_pay3 (F := Ideal) (iblk10 V c 0 t) (iblk10 V c 2 t) (iblk10 V c 1 t) (iblk10 V c 3 t) (ix2 r q)
      = Zat (V c main_v122) (V c main_v95) (V c main_v12) (V c main_v123) (statsRow10 t r) q := by
  refine (pay10_3_apply (iblk10 V c 0 t) (iblk10 V c 1 t) (iblk10 V c 2 t) (iblk10 V c 3 t) r q).trans ?_
  rw [iblk10_0_at V c t r q, iblk10_1_at V c t r q, iblk10_2_at V c t r 0, iblk10_3_at V c t 0 q]
  rfl

/-! ## What each point leaves in the three buffers, as the body's arithmetic -/

section Outs

variable {F : FTy → Type} [FloatOps F]
variable (W : (c : Dev nD) → (b : Ref sig .tc) → Buf (Elt F) ((c : Thread nD τ).loc b))

/-- At the first point: the block of Z, and the zero rows plus the block's column sums. -/
theorem outs10_A (c : Dev nD) (t : Fin cfg10.N) (h0 : t.val % 20 = 0) :
    outsAt10 W c t.val t.isLt
      = (k10_pay3 (iblk10 W c 0 t) (iblk10 W c 2 t) (iblk10 W c 1 t) (iblk10 W c 3 t),
         k10_pay4 (iblk10 W c 0 t) (iblk10 W c 2 t) (iblk10 W c 1 t) (iblk10 W c 3 t) (k10_pay1 (F := F)),
         k10_pay5 (iblk10 W c 0 t) (iblk10 W c 2 t) (iblk10 W c 1 t) (iblk10 W c 3 t) (k10_pay2 (F := F))) := by
  rw [outsAt10_A W c t h0, out10_A_4_eq, out10_A_5_eq, out10_A_6_eq]

/-- At a later point: the block of Z, and the rows the point before left plus the block's column sums. -/
theorem outs10_B (c : Dev nD) (t : Fin cfg10.N) (h0 : ¬t.val % 20 = 0) :
    outsAt10 W c t.val t.isLt
      = (k10_pay3 (iblk10 W c 0 t) (iblk10 W c 2 t) (iblk10 W c 1 t) (iblk10 W c 3 t),
         k10_pay4 (iblk10 W c 0 t) (iblk10 W c 2 t) (iblk10 W c 1 t) (iblk10 W c 3 t)
           (outsAt10 W c (t.val - 1) (Nat.lt_of_le_of_lt (Nat.sub_le _ _) t.isLt)).2.1,
         k10_pay5 (iblk10 W c 0 t) (iblk10 W c 2 t) (iblk10 W c 1 t) (iblk10 W c 3 t)
           (outsAt10 W c (t.val - 1) (Nat.lt_of_le_of_lt (Nat.sub_le _ _) t.isLt)).2.2) := by
  rw [outsAt10_B W c t h0, out10_B_4_eq, out10_B_5_eq, out10_B_6_eq]

end Outs

/-! ## The accumulators after each point: the sums over the rows seen so far -/

/-- After point n the accumulators hold, at lane q, the sums of Z and of Z * Z over the rows below 5000 (n + 1)
    (written as sums over the naturals, the entries extended by zero past the last row). -/
theorem acc10_inv (c : Dev nD) : ∀ (n : ℕ) (hn : n < cfg10.N) (u : Fin 1) (q : Fin 64),
    (outsAt10 (F := Ideal) V c n hn).2.1 (ix2 u q)
        = ∑ s ∈ Finset.range (5000 * (n + 1)), extend0 (fun r => Zat (V c main_v122) (V c main_v95) (V c main_v12) (V c main_v123) r q) s
    ∧ (outsAt10 (F := Ideal) V c n hn).2.2 (ix2 u q)
        = ∑ s ∈ Finset.range (5000 * (n + 1)), extend0 (fun r => Zat (V c main_v122) (V c main_v95) (V c main_v12) (V c main_v123) r q * Zat (V c main_v122) (V c main_v95) (V c main_v12) (V c main_v123) r q) s
  | 0, hn, u, q => by
    have hA := outs10_A (F := Ideal) V c ⟨0, hn⟩ rfl
    have hlt : ∀ k : Fin 5000, 5000 * 0 + k.val < 100000 := fun k => by have := k.isLt; omega
    have h5 : (outsAt10 (F := Ideal) V c 0 hn).2.1
        = k10_pay4 (F := Ideal) (iblk10 V c 0 ⟨0, hn⟩) (iblk10 V c 2 ⟨0, hn⟩) (iblk10 V c 1 ⟨0, hn⟩) (iblk10 V c 3 ⟨0, hn⟩) (k10_pay1 (F := Ideal)) := congrArg (fun p => p.2.1) hA
    have h6 : (outsAt10 (F := Ideal) V c 0 hn).2.2
        = k10_pay5 (F := Ideal) (iblk10 V c 0 ⟨0, hn⟩) (iblk10 V c 2 ⟨0, hn⟩) (iblk10 V c 1 ⟨0, hn⟩) (iblk10 V c 3 ⟨0, hn⟩) (k10_pay2 (F := Ideal)) := congrArg (fun p => p.2.2) hA
    constructor
    · rw [h5, pay10_4_apply, pay10_1_apply, sum_range_succ_block _ 5000 0]
      refine congrArg₂ (· + ·) ?_ (Finset.sum_congr rfl fun k _ => ?_)
      · rw [Nat.mul_zero, Finset.range_zero, Finset.sum_empty]
      · rw [zblock10_at V c ⟨0, hn⟩ k q, extend0_of_lt _ _ (hlt k)]
        rfl
    · rw [h6, pay10_5_apply, pay10_2_apply, sum_range_succ_block _ 5000 0]
      refine congrArg₂ (· + ·) ?_ (Finset.sum_congr rfl fun k _ => ?_)
      · rw [Nat.mul_zero, Finset.range_zero, Finset.sum_empty]
      · rw [zblock10_at V c ⟨0, hn⟩ k q, extend0_of_lt _ _ (hlt k)]
        rfl
  | n + 1, hn, u, q => by
    have hN : cfg10.N = 20 := N10
    have hB : ¬(⟨n + 1, hn⟩ : Fin cfg10.N).val % 20 = 0 := by dsimp only; omega
    have hBeq := outs10_B (F := Ideal) V c ⟨n + 1, hn⟩ hB
    have ih := acc10_inv c n (Nat.lt_of_succ_lt hn) u q
    have hlt : ∀ k : Fin 5000, 5000 * (n + 1) + k.val < 100000 := fun k => by have := k.isLt; omega
    have h5 : (outsAt10 (F := Ideal) V c (n + 1) hn).2.1
        = k10_pay4 (F := Ideal) (iblk10 V c 0 ⟨n + 1, hn⟩) (iblk10 V c 2 ⟨n + 1, hn⟩) (iblk10 V c 1 ⟨n + 1, hn⟩) (iblk10 V c 3 ⟨n + 1, hn⟩) (outsAt10 (F := Ideal) V c n (Nat.lt_of_succ_lt hn)).2.1 :=
      congrArg (fun p => p.2.1) hBeq
    have h6 : (outsAt10 (F := Ideal) V c (n + 1) hn).2.2
        = k10_pay5 (F := Ideal) (iblk10 V c 0 ⟨n + 1, hn⟩) (iblk10 V c 2 ⟨n + 1, hn⟩) (iblk10 V c 1 ⟨n + 1, hn⟩) (iblk10 V c 3 ⟨n + 1, hn⟩) (outsAt10 (F := Ideal) V c n (Nat.lt_of_succ_lt hn)).2.2 :=
      congrArg (fun p => p.2.2) hBeq
    constructor
    · rw [h5, pay10_4_apply, ih.1, sum_range_succ_block _ 5000 (n + 1)]
      refine congrArg (_ + ·) (Finset.sum_congr rfl fun k _ => ?_)
      rw [zblock10_at V c ⟨n + 1, hn⟩ k q, extend0_of_lt _ _ (hlt k)]
      rfl
    · rw [h6, pay10_5_apply, ih.2, sum_range_succ_block _ 5000 (n + 1)]
      refine congrArg (_ + ·) (Finset.sum_congr rfl fun k _ => ?_)
      rw [zblock10_at V c ⟨n + 1, hn⟩ k q, extend0_of_lt _ _ (hlt k)]
      rfl

/-- What each point leaves in the first result's buffer: its block of Z. -/
theorem zout10 (c : Dev nD) (t : Fin cfg10.N) :
    (outsAt10 (F := Ideal) V c t.val t.isLt).1 = k10_pay3 (F := Ideal) (iblk10 V c 0 t) (iblk10 V c 2 t) (iblk10 V c 1 t) (iblk10 V c 3 t) := by
  by_cases h0 : t.val % 20 = 0
  · exact congrArg (fun p => p.1) (outs10_A (F := Ideal) V c t h0)
  · exact congrArg (fun p => p.1) (outs10_B (F := Ideal) V c t h0)

/-! ## The result arrays after the region -/

/-- What point t writes back to the first result is block t of Z. -/
theorem flushed10_4 (c : Dev nD) (t : Fin cfg10.N) :
    (dat10 (F := Ideal) V c).flushed 4 t
      = ((cfg10.win 4).blk t).view.read (Elt Ideal) (Zarr (V c main_v122) (V c main_v95) (V c main_v12) (V c main_v123)) := by
  show (cfg10.win 4).cut (grid10.coords t) ((dat10 (F := Ideal) V c).after 4 t) = _
  rw [after10_4, zout10]
  funext j
  obtain ⟨r, q, rfl⟩ : ∃ (r : Fin 5000) (q : Fin 64), j = ix2 r q := ⟨j 0, j 1, eq_ix2 j⟩
  refine (zblock10_at V c t r q).trans ?_
  show _ = Zarr (V c main_v122) (V c main_v95) (V c main_v12) (V c main_v123) (((cfg10.win 4).blk t).view.emb (ix2 r q))
  have e : ((cfg10.win 4).blk t).view.emb (ix2 r q) = ix2 (statsRow10 t r) q := by
    funext a; apply Fin.ext
    obtain ⟨-, -, -, -, -, -, -, -, e0, e1, -⟩ := statsIdx10 t
    match a with
    | ⟨0, _⟩ => show win10_4.index t (0 : Fin 2) * 5000 + 1 * r.val = 5000 * t.val + r.val; rw [e0]; omega
    | ⟨1, _⟩ => show win10_4.index t (1 : Fin 2) * 64 + 1 * q.val = q.val; rw [e1]; omega
  rw [e]
  rfl

/-- An index of the first result is in point t's block iff its row is in row block t. -/
theorem mem_blk10_4 (t : Fin cfg10.N) (i : S100000x64.Idx) :
    i ∈ ((cfg10.win 4).blk t).view.set ↔ ∀ a : Fin 2, win10_4.index t a * S5000x64.size a ≤ (i a).val ∧ (i a).val < win10_4.index t a * S5000x64.size a + S5000x64.size a := by
  show i ∈ ((View.whole main_v124_0).slice (win10_4.rect t)).set ↔ _
  rw [View.set_slice_whole, Rect.mem_set_unit]
  exact Iff.rfl

/-- THE FIRST RESULT after the region: the array Z of the entry contents. -/
theorem final10_z (c : Dev nD) :
    (dat10 (F := Ideal) V c).arrAt 4 cfg10.N = Zarr (V c main_v122) (V c main_v95) (V c main_v12) (V c main_v123) :=
  (dat10 (F := Ideal) V c).arrAt_eq_of_cover 4 _ (fun t _ => flushed10_4 V c t) fun i => by
    have hi0 : (i 0).val < 100000 := (i 0).isLt
    have hi1 : (i 1).val < 64 := (i 1).isLt
    have hN : cfg10.N = 20 := N10
    have hq : (i 0).val / 5000 < cfg10.N := by rw [hN]; omega
    refine ⟨⟨(i 0).val / 5000, hq⟩, flush10_4 _, ?_⟩
    rw [mem_blk10_4]
    obtain ⟨-, -, -, -, -, -, -, -, e0, e1, -⟩ := statsIdx10 ⟨(i 0).val / 5000, hq⟩
    intro a
    match a with
    | ⟨0, _⟩ =>
      show win10_4.index ⟨(i 0).val / 5000, hq⟩ (0 : Fin 2) * 5000 ≤ (i 0).val ∧ (i 0).val < win10_4.index ⟨(i 0).val / 5000, hq⟩ (0 : Fin 2) * 5000 + 5000
      rw [e0]; dsimp only; omega
    | ⟨1, _⟩ =>
      show win10_4.index ⟨(i 0).val / 5000, hq⟩ (1 : Fin 2) * 64 ≤ (i 1).val ∧ (i 1).val < win10_4.index ⟨(i 0).val / 5000, hq⟩ (1 : Fin 2) * 64 + 64
      rw [e1]; omega

/-- The accumulators' one block is their whole array: its element (u, q) sits at (u, q). -/
theorem emb10_5 (t : Fin cfg10.N) (u : Fin 1) (q : Fin 64) : ((cfg10.win 5).blk t).view.emb (ix2 u q) = ix2 u q := by
  funext a; apply Fin.ext
  obtain ⟨-, -, -, -, -, -, -, -, -, -, e0, e1, -⟩ := statsIdx10 t
  match a with
  | ⟨0, _⟩ => show win10_5.index t (0 : Fin 2) * 1 + 1 * u.val = u.val; rw [e0]; omega
  | ⟨1, _⟩ => show win10_5.index t (1 : Fin 2) * 64 + 1 * q.val = q.val; rw [e1]; omega

theorem emb10_6 (t : Fin cfg10.N) (u : Fin 1) (q : Fin 64) : ((cfg10.win 6).blk t).view.emb (ix2 u q) = ix2 u q := by
  funext a; apply Fin.ext
  obtain ⟨-, -, -, -, -, -, -, -, -, -, -, -, e0, e1⟩ := statsIdx10 t
  match a with
  | ⟨0, _⟩ => show win10_6.index t (0 : Fin 2) * 1 + 1 * u.val = u.val; rw [e0]; omega
  | ⟨1, _⟩ => show win10_6.index t (1 : Fin 2) * 64 + 1 * q.val = q.val; rw [e1]; omega

/-- Reading any [1, 64] array through the accumulators' block reads it in place. -/
theorem read10_5 (t : Fin cfg10.N) (G : S1x64.Idx → Ideal .f32) (u : Fin 1) (q : Fin 64) :
    ((cfg10.win 5).blk t).view.read (Elt Ideal) G (ix2 u q) = G (ix2 u q) := by
  show G (((cfg10.win 5).blk t).view.emb (ix2 u q)) = _
  rw [emb10_5]

theorem read10_6 (t : Fin cfg10.N) (G : S1x64.Idx → Ideal .f32) (u : Fin 1) (q : Fin 64) :
    ((cfg10.win 6).blk t).view.read (Elt Ideal) G (ix2 u q) = G (ix2 u q) := by
  show G (((cfg10.win 6).blk t).view.emb (ix2 u q)) = _
  rw [emb10_6]

/-- The one write-back of the sum accumulator, after the last point, writes the column sums of Z. -/
theorem flushed10_5 (c : Dev nD) (t : Fin cfg10.N) (hf : (cfg10.win 5).flush t = true) :
    (dat10 (F := Ideal) V c).flushed 5 t
      = ((cfg10.win 5).blk t).view.read (Elt Ideal) (Zsum (V c main_v122) (V c main_v95) (V c main_v12) (V c main_v123)) := by
  have hN : cfg10.N = 20 := N10
  have h19 : t.val = 19 := by have := (flush10_5 t).mp hf; have := t.isLt; omega
  show (cfg10.win 5).cut (grid10.coords t) ((dat10 (F := Ideal) V c).after 5 t) = _
  rw [after10_5]
  funext j
  obtain ⟨u, q, rfl⟩ : ∃ (u : Fin 1) (q : Fin 64), j = ix2 u q := ⟨j 0, j 1, eq_ix2 j⟩
  refine ((acc10_inv V c t.val t.isLt u q).1).trans ?_
  rw [read10_5 t _ u q, h19]
  have hz : Zsum (V c main_v122) (V c main_v95) (V c main_v12) (V c main_v123) (ix2 u q) = ∑ r : Fin 100000, Zat (V c main_v122) (V c main_v95) (V c main_v12) (V c main_v123) r q := rfl
  rw [hz]
  show ∑ s ∈ Finset.range 100000, _ = _
  exact (sum_univ_eq_range_extend0 (N := 100000) fun r => Zat (V c main_v122) (V c main_v95) (V c main_v12) (V c main_v123) r q).symm

/-- The one write-back of the sum-of-squares accumulator writes the column sums of Z * Z. -/
theorem flushed10_6 (c : Dev nD) (t : Fin cfg10.N) (hf : (cfg10.win 6).flush t = true) :
    (dat10 (F := Ideal) V c).flushed 6 t
      = ((cfg10.win 6).blk t).view.read (Elt Ideal) (Zsumsq (V c main_v122) (V c main_v95) (V c main_v12) (V c main_v123)) := by
  have hN : cfg10.N = 20 := N10
  have h19 : t.val = 19 := by have := (flush10_6 t).mp hf; have := t.isLt; omega
  show (cfg10.win 6).cut (grid10.coords t) ((dat10 (F := Ideal) V c).after 6 t) = _
  rw [after10_6]
  funext j
  obtain ⟨u, q, rfl⟩ : ∃ (u : Fin 1) (q : Fin 64), j = ix2 u q := ⟨j 0, j 1, eq_ix2 j⟩
  refine ((acc10_inv V c t.val t.isLt u q).2).trans ?_
  rw [read10_6 t _ u q, h19]
  have hz : Zsumsq (V c main_v122) (V c main_v95) (V c main_v12) (V c main_v123) (ix2 u q) = ∑ r : Fin 100000, Zat (V c main_v122) (V c main_v95) (V c main_v12) (V c main_v123) r q * Zat (V c main_v122) (V c main_v95) (V c main_v12) (V c main_v123) r q := rfl
  rw [hz]
  show ∑ s ∈ Finset.range 100000, _ = _
  exact (sum_univ_eq_range_extend0 (N := 100000) fun r => Zat (V c main_v122) (V c main_v95) (V c main_v12) (V c main_v123) r q * Zat (V c main_v122) (V c main_v95) (V c main_v12) (V c main_v123) r q).symm

/-- The last point, whose write-back covers the accumulators' arrays. -/
def statsLast10 : Fin cfg10.N := ⟨19, by have hN : cfg10.N = 20 := N10; omega⟩

/-- THE SECOND RESULT after the region: the column sums of Z over all 100000 rows. -/
theorem final10_sum (c : Dev nD) :
    (dat10 (F := Ideal) V c).arrAt 5 cfg10.N = Zsum (V c main_v122) (V c main_v95) (V c main_v12) (V c main_v123) :=
  (dat10 (F := Ideal) V c).arrAt_eq_of_cover 5 _ (flushed10_5 V c) fun i =>
    ⟨statsLast10, (flush10_5 statsLast10).mpr rfl, by
      show i ∈ ((View.whole main_v124_1).slice (win10_5.rect statsLast10)).set
      rw [View.set_slice_whole, Rect.mem_set_unit]
      have hi0 : (i 0).val < 1 := (i 0).isLt
      have hi1 : (i 1).val < 64 := (i 1).isLt
      obtain ⟨-, -, -, -, -, -, -, -, -, -, e0, e1, -⟩ := statsIdx10 statsLast10
      intro a
      match a with
      | ⟨0, _⟩ =>
        show win10_5.index statsLast10 (0 : Fin 2) * 1 ≤ (i 0).val ∧ (i 0).val < win10_5.index statsLast10 (0 : Fin 2) * 1 + 1
        rw [e0]; omega
      | ⟨1, _⟩ =>
        show win10_5.index statsLast10 (1 : Fin 2) * 64 ≤ (i 1).val ∧ (i 1).val < win10_5.index statsLast10 (1 : Fin 2) * 64 + 64
        rw [e1]; omega⟩

/-- THE THIRD RESULT after the region: the column sums of Z * Z over all 100000 rows. -/
theorem final10_sumsq (c : Dev nD) :
    (dat10 (F := Ideal) V c).arrAt 6 cfg10.N = Zsumsq (V c main_v122) (V c main_v95) (V c main_v12) (V c main_v123) :=
  (dat10 (F := Ideal) V c).arrAt_eq_of_cover 6 _ (flushed10_6 V c) fun i =>
    ⟨statsLast10, (flush10_6 statsLast10).mpr rfl, by
      show i ∈ ((View.whole main_v124_2).slice (win10_6.rect statsLast10)).set
      rw [View.set_slice_whole, Rect.mem_set_unit]
      have hi0 : (i 0).val < 1 := (i 0).isLt
      have hi1 : (i 1).val < 64 := (i 1).isLt
      obtain ⟨-, -, -, -, -, -, -, -, -, -, -, -, e0, e1⟩ := statsIdx10 statsLast10
      intro a
      match a with
      | ⟨0, _⟩ =>
        show win10_6.index statsLast10 (0 : Fin 2) * 1 ≤ (i 0).val ∧ (i 0).val < win10_6.index statsLast10 (0 : Fin 2) * 1 + 1
        rw [e0]; omega
      | ⟨1, _⟩ =>
        show win10_6.index statsLast10 (1 : Fin 2) * 64 ≤ (i 1).val ∧ (i 1).val < win10_6.index statsLast10 (1 : Fin 2) * 64 + 64
        rw [e1]; omega⟩

end Cert.KernelIdeal.HandValue

end
-- ==== Proof.RegionBn11.lean ====
/- The normalisation stage of graph-convolution layer 3. The activations z form a 100000 × 64 matrix; for each of the 64
   columns the stage is given the column's mean m, variance v, scale g and shift b (four 1 × 64 rows) and sends entry
   (r, q) to g(q)·(z(r, q) − m(q))·rsqrt(v(q) + ε) + b(q), ε the single-precision word 0x3727C5AC, in this order of
   operations. It works in twenty row blocks of 5000 rows, the four rows broadcast down each block. Proved here: the
   array the stage leaves is that function of the five operand arrays at every entry, whatever they hold when the
   stage is entered. The windows, in order: 0 the activations, 1 the means, 2 the variances, 3 the scales, 4 the
   shifts, 5 the result. -/
import proofs.«145301_j17463337025613_1_alg».proof.Proof.Gen.KernelIdeal.Frame
import proofs.«145301_j17463337025613_1_alg».proof.Proof.RegionDefs

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- One block of the normalisation at an entry; the body's five loads are, in its own order, the variances, the
    scales, the activations, the means and the shifts. -/
theorem blockBn11_apply (xv xg : Vec Ideal S1x64 .f32) (xz : Vec Ideal S5000x64 .f32) (xm xb : Vec Ideal S1x64 .f32) (p : Fin 5000) (q : Fin 64) :
    k11_pay1 xv xg xz xm xb (ix2 p q)
      = xg (ix2 (0 : Fin 1) q) * (xz (ix2 p q) - xm (ix2 (0 : Fin 1) q))
          * Ideal.rsqrt (xv (ix2 (0 : Fin 1) q) + Ideal.ofBits .f32 0x3727C5AC#32) + xb (ix2 (0 : Fin 1) q) := by
  unfold k11_pay1
  simp only [shapeCast_self]
  refine (addf_apply _ _ (ix2 p q)).trans ?_
  rw [broadcastTo_1b_ab_apply xb broadcasts_S1x64_S5000x64 p q]
  refine congrArg (· + xb (ix2 (0 : Fin 1) q)) ?_
  refine (mulf_apply _ _ (ix2 p q)).trans ?_
  rw [broadcastTo_1b_ab_apply _ broadcasts_S1x64_S5000x64 p q]
  refine congrArg₂ (· * ·) ?_ rfl
  refine (mulf_apply _ _ (ix2 p q)).trans ?_
  rw [broadcastTo_1b_ab_apply xg broadcasts_S1x64_S5000x64 p q]
  refine congrArg (xg (ix2 (0 : Fin 1) q) * ·) ?_
  refine (subf_apply _ _ (ix2 p q)).trans ?_
  rw [broadcastTo_1b_ab_apply xm broadcasts_S1x64_S5000x64 p q]

/-- Where the windows' blocks sit, decided once over the twenty grid points: the activations and the result are at
    block row t, column block 0; each of the four row windows is always its whole array. -/
theorem blockIndex11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

set_option maxHeartbeats 1000000 in
/-- Where an entry of the activations' block at point t sits in its array: where the result's entry sits in the result. -/
theorem embAct11 (t : Fin cfg11.N) (p : Fin 5000) (q : Fin 64) :
    ((cfg11.win 0).blk t).view.emb (ix2 p q) = ix2 ((((cfg11.win 5).blk t).view.emb (ix2 p q)) 0) ((((cfg11.win 5).blk t).view.emb (ix2 p q)) 1) := by
  obtain ⟨e0, e1, e2, e3, e4, e5, e6, e7, e8, e9, e10, e11⟩ := blockIndex11 t
  funext a; apply Fin.ext
  match a with
  | ⟨0, _⟩ => show win11_0.index t (0 : Fin 2) * 5000 + 1 * p.val = win11_5.index t (0 : Fin 2) * 5000 + 1 * p.val; omega
  | ⟨1, _⟩ => show win11_0.index t (1 : Fin 2) * 64 + 1 * q.val = win11_5.index t (1 : Fin 2) * 64 + 1 * q.val; omega

set_option maxHeartbeats 1000000 in
/-- Where an entry of the one-row block of the means sits in its array: in row 0, in the column the result's entry has. -/
theorem embRow11_1 (t : Fin cfg11.N) (p : Fin 5000) (q : Fin 64) :
    ((cfg11.win 1).blk t).view.emb (ix2 (0 : Fin 1) q) = ix2 (0 : Fin 1) ((((cfg11.win 5).blk t).view.emb (ix2 p q)) 1) := by
  obtain ⟨e0, e1, e2, e3, e4, e5, e6, e7, e8, e9, e10, e11⟩ := blockIndex11 t
  funext a; apply Fin.ext
  match a with
  | ⟨0, _⟩ => show win11_1.index t (0 : Fin 2) * 1 + 1 * 0 = 0; omega
  | ⟨1, _⟩ => show win11_1.index t (1 : Fin 2) * 64 + 1 * q.val = win11_5.index t (1 : Fin 2) * 64 + 1 * q.val; omega

set_option maxHeartbeats 1000000 in
/-- Where an entry of the one-row block of the variances sits in its array: in row 0, in the column the result's entry has. -/
theorem embRow11_2 (t : Fin cfg11.N) (p : Fin 5000) (q : Fin 64) :
    ((cfg11.win 2).blk t).view.emb (ix2 (0 : Fin 1) q) = ix2 (0 : Fin 1) ((((cfg11.win 5).blk t).view.emb (ix2 p q)) 1) := by
  obtain ⟨e0, e1, e2, e3, e4, e5, e6, e7, e8, e9, e10, e11⟩ := blockIndex11 t
  funext a; apply Fin.ext
  match a with
  | ⟨0, _⟩ => show win11_2.index t (0 : Fin 2) * 1 + 1 * 0 = 0; omega
  | ⟨1, _⟩ => show win11_2.index t (1 : Fin 2) * 64 + 1 * q.val = win11_5.index t (1 : Fin 2) * 64 + 1 * q.val; omega

set_option maxHeartbeats 1000000 in
/-- Where an entry of the one-row block of the scales sits in its array: in row 0, in the column the result's entry has. -/
theorem embRow11_3 (t : Fin cfg11.N) (p : Fin 5000) (q : Fin 64) :
    ((cfg11.win 3).blk t).view.emb (ix2 (0 : Fin 1) q) = ix2 (0 : Fin 1) ((((cfg11.win 5).blk t).view.emb (ix2 p q)) 1) := by
  obtain ⟨e0, e1, e2, e3, e4, e5, e6, e7, e8, e9, e10, e11⟩ := blockIndex11 t
  funext a; apply Fin.ext
  match a with
  | ⟨0, _⟩ => show win11_3.index t (0 : Fin 2) * 1 + 1 * 0 = 0; omega
  | ⟨1, _⟩ => show win11_3.index t (1 : Fin 2) * 64 + 1 * q.val = win11_5.index t (1 : Fin 2) * 64 + 1 * q.val; omega

set_option maxHeartbeats 1000000 in
/-- Where an entry of the one-row block of the shifts sits in its array: in row 0, in the column the result's entry has. -/
theorem embRow11_4 (t : Fin cfg11.N) (p : Fin 5000) (q : Fin 64) :
    ((cfg11.win 4).blk t).view.emb (ix2 (0 : Fin 1) q) = ix2 (0 : Fin 1) ((((cfg11.win 5).blk t).view.emb (ix2 p q)) 1) := by
  obtain ⟨e0, e1, e2, e3, e4, e5, e6, e7, e8, e9, e10, e11⟩ := blockIndex11 t
  funext a; apply Fin.ext
  match a with
  | ⟨0, _⟩ => show win11_4.index t (0 : Fin 2) * 1 + 1 * 0 = 0; omega
  | ⟨1, _⟩ => show win11_4.index t (1 : Fin 2) * 64 + 1 * q.val = win11_5.index t (1 : Fin 2) * 64 + 1 * q.val; omega

set_option maxHeartbeats 1000000 in
/-- What grid point t writes back is block t of the whole normalised array. -/
theorem flushed11_eq (c : Dev nD) (t : Fin cfg11.N) :
    (dat11 (F := Ideal) V c).flushed 5 t
      = ((cfg11.win 5).blk t).view.read (Elt Ideal) (bnArr (V c (Pipeline.arrRef spec11 0)) (V c (Pipeline.arrRef spec11 1))
          (V c (Pipeline.arrRef spec11 2)) (V c (Pipeline.arrRef spec11 3)) (V c (Pipeline.arrRef spec11 4))) := by
  show (cfg11.win 5).cut (grid11.coords t) ((dat11 V c).after 5 t) = _
  rw [after11_5]
  unfold out11_5
  rw [View.canon_unit_zero offsetsZero2]
  simp only [View.ld_unit_zero (S := S5000x64) offsetsZero2, View.ld_unit_zero (S := S1x64) offsetsZero2]
  funext j
  obtain ⟨p, q, rfl⟩ : ∃ (p : Fin 5000) (q : Fin 64), j = ix2 p q := ⟨j 0, j 1, eq_ix2 j⟩
  show k11_pay1 (iblk11 V c 2 t) (iblk11 V c 3 t) (iblk11 V c 0 t) (iblk11 V c 1 t) (iblk11 V c 4 t) (ix2 p q)
    = bnArr (V c (Pipeline.arrRef spec11 0)) (V c (Pipeline.arrRef spec11 1)) (V c (Pipeline.arrRef spec11 2))
        (V c (Pipeline.arrRef spec11 3)) (V c (Pipeline.arrRef spec11 4)) (((cfg11.win 5).blk t).view.emb (ix2 p q))
  refine (blockBn11_apply _ _ _ _ _ p q).trans ?_
  unfold bnArr bnAt
  have h0 := embAct11 t p q
  have h1 := embRow11_1 t p q
  have h2 := embRow11_2 t p q
  have h3 := embRow11_3 t p q
  have h4 := embRow11_4 t p q
  have r0 : iblk11 V c 0 t (ix2 p q) = V c (Pipeline.arrRef spec11 0) (ix2 ((((cfg11.win 5).blk t).view.emb (ix2 p q)) 0) ((((cfg11.win 5).blk t).view.emb (ix2 p q)) 1)) :=
    congrArg (V c (Pipeline.arrRef spec11 0)) h0
  have r1 : iblk11 V c 1 t (ix2 (0 : Fin 1) q) = V c (Pipeline.arrRef spec11 1) (ix2 (0 : Fin 1) ((((cfg11.win 5).blk t).view.emb (ix2 p q)) 1)) :=
    congrArg (V c (Pipeline.arrRef spec11 1)) h1
  have r2 : iblk11 V c 2 t (ix2 (0 : Fin 1) q) = V c (Pipeline.arrRef spec11 2) (ix2 (0 : Fin 1) ((((cfg11.win 5).blk t).view.emb (ix2 p q)) 1)) :=
    congrArg (V c (Pipeline.arrRef spec11 2)) h2
  have r3 : iblk11 V c 3 t (ix2 (0 : Fin 1) q) = V c (Pipeline.arrRef spec11 3) (ix2 (0 : Fin 1) ((((cfg11.win 5).blk t).view.emb (ix2 p q)) 1)) :=
    congrArg (V c (Pipeline.arrRef spec11 3)) h3
  have r4 : iblk11 V c 4 t (ix2 (0 : Fin 1) q) = V c (Pipeline.arrRef spec11 4) (ix2 (0 : Fin 1) ((((cfg11.win 5).blk t).view.emb (ix2 p q)) 1)) :=
    congrArg (V c (Pipeline.arrRef spec11 4)) h4
  rw [r0, r1, r2, r3, r4]

/-- An index of the result array lies in point t's block iff each coordinate lies in the block's range on its axis. -/
theorem mem_block11 (t : Fin cfg11.N) (i : S100000x64.Idx) :
    i ∈ ((cfg11.win 5).blk t).view.set ↔ ∀ a : Fin 2, win11_5.index t a * S5000x64.size a ≤ (i a).val ∧ (i a).val < win11_5.index t a * S5000x64.size a + S5000x64.size a := by
  show i ∈ ((View.whole main_v135).slice (win11_5.rect t)).set ↔ _
  rw [View.set_slice_whole, Rect.mem_set_unit]
  exact Iff.rfl

/-- The twenty row blocks cover the result array: row r lies in block r / 5000. -/
theorem cover11 (i : S100000x64.Idx) : ∃ t : Fin cfg11.N, (cfg11.win 5).flush t = true ∧ i ∈ ((cfg11.win 5).blk t).view.set := by
  have hi0 : (i 0).val < 100000 := (i 0).isLt
  have hi1 : (i 1).val < 64 := (i 1).isLt
  have hN : cfg11.N = 20 := N_11
  have ht : (i 0).val / 5000 < cfg11.N := by rw [hN]; omega
  obtain ⟨e0, e1, e2, e3, e4, e5, e6, e7, e8, e9, e10, e11⟩ := blockIndex11 ⟨(i 0).val / 5000, ht⟩
  refine ⟨⟨(i 0).val / 5000, ht⟩, flush11_5 _, ?_⟩
  rw [mem_block11]
  intro a
  match a with
  | ⟨0, _⟩ =>
    show win11_5.index ⟨(i 0).val / 5000, ht⟩ (0 : Fin 2) * 5000 ≤ (i 0).val ∧ (i 0).val < win11_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win11_5.index ⟨(i 0).val / 5000, ht⟩ (1 : Fin 2) * 64 ≤ (i 1).val ∧ (i 1).val < win11_5.index ⟨(i 0).val / 5000, ht⟩ (1 : Fin 2) * 64 + 64
    rw [e11]; omega

/-- The array the stage leaves: at index i, with r and q the two coordinates of i,
    g(0, q)·(z(r, q) − m(0, q))·rsqrt(v(0, q) + ε) + b(0, q), where z, m, v, g, b are the arrays of windows 0 to 4. -/
theorem final11 (c : Dev nD) :
    (dat11 (F := Ideal) V c).arrAt 5 cfg11.N
      = bnArr (V c (Pipeline.arrRef spec11 0)) (V c (Pipeline.arrRef spec11 1)) (V c (Pipeline.arrRef spec11 2))
          (V c (Pipeline.arrRef spec11 3)) (V c (Pipeline.arrRef spec11 4)) :=
  (dat11 (F := Ideal) V c).arrAt_eq_of_cover 5 _ (fun t _ => flushed11_eq V c t) cover11

end Cert.KernelIdeal.HandValue

end
-- ==== Proof.KLayer3.lean ====
/-
  Layer 3 of the idealized kernel program, read off the segment-by-segment fold: each region's output array is
  the region's closed form of its input arrays; each host stretch's results are its operations of the arrays it reads;
  the long-lived arrays are what the first stretch left.  Chained, the layer's output buffer holds `kLayer` of the
  layer's input, the layer's parameters, the two rows of the edge list and the degrees' reciprocal square roots.
-/
import proofs.«145301_j17463337025613_1_alg».proof.Proof.KFoldA
import proofs.«145301_j17463337025613_1_alg».proof.Proof.KStretch3
import proofs.«145301_j17463337025613_1_alg».proof.Proof.KKeepP2
import proofs.«145301_j17463337025613_1_alg».proof.Proof.KKeepA3
import proofs.«145301_j17463337025613_1_alg».proof.Proof.KTerms
import proofs.«145301_j17463337025613_1_alg».proof.Proof.RegionMatmul8
import proofs.«145301_j17463337025613_1_alg».proof.Proof.RegionMessage9
import proofs.«145301_j17463337025613_1_alg».proof.Proof.RegionStats10
import proofs.«145301_j17463337025613_1_alg».proof.Proof.RegionBn11

noncomputable section

namespace Cert.KernelIdeal.HandFold

open Cert.KernelIdeal Cert.KernelIdeal.Gen Idealize.ShloMosaic Idealize.ShloMosaic.TcCoe Idealize.SL.Sem
open Idealize.ShloMosaic.StableHlo Cert.Gcn.RefSpec

open Cert.KernelIdeal.HandValue

variable (m : (ℓ : Loc nD τ sig) → Buf (Elt Ideal) ℓ) (ρ : Dev nD → PrngReg) (c : Dev nD)
variable (hd : ∀ i, IntOp.cmpi .sge (refDst (edges m c) i) (0#32) = 1#1)
variable (X : FVec Ideal S100000x64 .f32)
variable (hin : @Eq (FVec Ideal S100000x64 .f32) (W15 m ρ c (Proc.devRef .tc main_v94)) X)

include hin in
/-- The matmul region leaves h = x·W. -/
theorem L2_H : @Eq (FVec Ideal S100000x64 .f32) (W16 m ρ c (Proc.devRef .tc main_v95)) (prodArr X (m ((c.tc : Thread nD τ).loc main_arg11))) := by
  have e := (W16_arr m ρ c 2).trans (final8 (V15 m ρ) c)
  have hx : @Eq (FVec Ideal S100000x64 .f32) (V15 m ρ c (Pipeline.arrRef spec8 0)) X := hin
  have hw : @Eq (FVec Ideal S64x64 .f32) (V15 m ρ c (Pipeline.arrRef spec8 1)) (m ((c.tc : Thread nD τ).loc main_arg11)) := walk_arg11_15_0 m ρ c
  rw [hx, hw] at e
  exact e

include hin in
/-- The gathered rows of h. -/
theorem L2_HS : @Eq (FVec Ideal S1600000x64 .f32) (W17 m ρ c (Proc.devRef .tc main_v102)) (tHS (prodArr X (m ((c.tc : Thread nD τ).loc main_arg11))) (refSrc (edges m c))) := by
  have e := st2_hsrc (W16 m ρ c)
  rw [L2_H m ρ c X hin, (pers_v1_16 m ρ c).trans (s0_src m ρ c)] at e
  exact e

include hd in
/-- The edge weights as a column. -/
theorem L2_NR : @Eq (FVec Ideal S1600000x1 .f32) (W17 m ρ c (Proc.devRef .tc main_v118)) (tNR (refDinv (F := Ideal) (refDst (edges m c))) (refSrc (edges m c)) (refDst (edges m c))) := by
  have e := st2_norm (W16 m ρ c)
  rw [(pers_v1_16 m ρ c).trans (s0_src m ρ c), (pers_v3_16 m ρ c).trans (s0_dst m ρ c),
    (pers_v10_16 m ρ c).trans (s0_dinv m ρ c hd)] at e
  exact e

include hd hin in
/-- The message region leaves each gathered row times its edge weight. -/
theorem L2_M : @Eq (FVec Ideal S1600000x64 .f32) (W18 m ρ c (Proc.devRef .tc main_v119))
    (msgArr (tHS (prodArr X (m ((c.tc : Thread nD τ).loc main_arg11))) (refSrc (edges m c))) (tNR (refDinv (F := Ideal) (refDst (edges m c))) (refSrc (edges m c)) (refDst (edges m c)))) := by
  have e := (W18_arr m ρ c 2).trans (final9 (V17 m ρ) c)
  have h0 : @Eq (FVec Ideal S1600000x64 .f32) (V17 m ρ c (Pipeline.arrRef spec9 0)) _ := L2_HS m ρ c X hin
  have h1 : @Eq (FVec Ideal S1600000x1 .f32) (V17 m ρ c (Pipeline.arrRef spec9 1)) _ := L2_NR m ρ c hd
  rw [h0, h1] at e
  exact e

include hd hin in
/-- The messages summed into destination rows. -/
theorem L2_A : @Eq (FVec Ideal S100000x64 .f32) (W19 m ρ c (Proc.devRef .tc main_v122))
    (tA (refDst (edges m c)) (msgArr (tHS (prodArr X (m ((c.tc : Thread nD τ).loc main_arg11))) (refSrc (edges m c))) (tNR (refDinv (F := Ideal) (refDst (edges m c))) (refSrc (edges m c)) (refDst (edges m c))))) := by
  have e := st2_agg (W18 m ρ c)
  rw [L2_M m ρ c hd X hin, (pers_v3_18 m ρ c).trans (s0_dst m ρ c)] at e
  exact e

/-- The bias as a row. -/
theorem L2_BB : @Eq (FVec Ideal S1x64 .f32) (W19 m ρ c (Proc.devRef .tc main_v123)) (tRow (m ((c.tc : Thread nD τ).loc main_arg12))) := by
  have e := st2_bias (W18 m ρ c)
  rw [show W18 m ρ c (Proc.devRef .tc main_arg12) = m ((c.tc : Thread nD τ).loc main_arg12) from walk_arg12_18_0 m ρ c] at e
  exact e

/-! ### The statistics region: z and its column sums -/

include hd hin in
theorem L2_Z : @Eq (FVec Ideal S100000x64 .f32) (W20 m ρ c (Proc.devRef .tc main_v124_0)) (Zarr (tA (refDst (edges m c)) (msgArr (tHS (prodArr X (m ((c.tc : Thread nD τ).loc main_arg11))) (refSrc (edges m c))) (tNR (refDinv (F := Ideal) (refDst (edges m c))) (refSrc (edges m c)) (refDst (edges m c))))) (prodArr X (m ((c.tc : Thread nD τ).loc main_arg11))) (tD2 (refDinv (F := Ideal) (refDst (edges m c)))) (tRow (m ((c.tc : Thread nD τ).loc main_arg12)))) := by
  have e := (W20_arr m ρ c 4).trans (final10_z (V19 m ρ) c)
  have h0 : @Eq (FVec Ideal S100000x64 .f32) (V19 m ρ c main_v122) _ := L2_A m ρ c hd X hin
  have h1 : @Eq (FVec Ideal S100000x64 .f32) (V19 m ρ c main_v95) _ := (walk_v95_19_16 m ρ c).trans (L2_H m ρ c X hin)
  have h2 : @Eq (FVec Ideal S100000x1 .f32) (V19 m ρ c main_v12) _ := (pers_v12_19 m ρ c).trans (s0_dinv2 m ρ c hd)
  have h3 : @Eq (FVec Ideal S1x64 .f32) (V19 m ρ c main_v123) _ := L2_BB m ρ c
  rw [h0, h1, h2, h3] at e
  exact e

include hd hin in
theorem L2_S : @Eq (FVec Ideal S1x64 .f32) (W20 m ρ c (Proc.devRef .tc main_v124_1)) (Zsum (tA (refDst (edges m c)) (msgArr (tHS (prodArr X (m ((c.tc : Thread nD τ).loc main_arg11))) (refSrc (edges m c))) (tNR (refDinv (F := Ideal) (refDst (edges m c))) (refSrc (edges m c)) (refDst (edges m c))))) (prodArr X (m ((c.tc : Thread nD τ).loc main_arg11))) (tD2 (refDinv (F := Ideal) (refDst (edges m c)))) (tRow (m ((c.tc : Thread nD τ).loc main_arg12)))) := by
  have e := (W20_arr m ρ c 5).trans (final10_sum (V19 m ρ) c)
  have h0 : @Eq (FVec Ideal S100000x64 .f32) (V19 m ρ c main_v122) _ := L2_A m ρ c hd X hin
  have h1 : @Eq (FVec Ideal S100000x64 .f32) (V19 m ρ c main_v95) _ := (walk_v95_19_16 m ρ c).trans (L2_H m ρ c X hin)
  have h2 : @Eq (FVec Ideal S100000x1 .f32) (V19 m ρ c main_v12) _ := (pers_v12_19 m ρ c).trans (s0_dinv2 m ρ c hd)
  have h3 : @Eq (FVec Ideal S1x64 .f32) (V19 m ρ c main_v123) _ := L2_BB m ρ c
  rw [h0, h1, h2, h3] at e
  exact e

include hd hin in
theorem L2_SS : @Eq (FVec Ideal S1x64 .f32) (W20 m ρ c (Proc.devRef .tc main_v124_2)) (Zsumsq (tA (refDst (edges m c)) (msgArr (tHS (prodArr X (m ((c.tc : Thread nD τ).loc main_arg11))) (refSrc (edges m c))) (tNR (refDinv (F := Ideal) (refDst (edges m c))) (refSrc (edges m c)) (refDst (edges m c))))) (prodArr X (m ((c.tc : Thread nD τ).loc main_arg11))) (tD2 (refDinv (F := Ideal) (refDst (edges m c)))) (tRow (m ((c.tc : Thread nD τ).loc main_arg12)))) := by
  have e := (W20_arr m ρ c 6).trans (final10_sumsq (V19 m ρ) c)
  have h0 : @Eq (FVec Ideal S100000x64 .f32) (V19 m ρ c main_v122) _ := L2_A m ρ c hd X hin
  have h1 : @Eq (FVec Ideal S100000x64 .f32) (V19 m ρ c main_v95) _ := (walk_v95_19_16 m ρ c).trans (L2_H m ρ c X hin)
  have h2 : @Eq (FVec Ideal S100000x1 .f32) (V19 m ρ c main_v12) _ := (pers_v12_19 m ρ c).trans (s0_dinv2 m ρ c hd)
  have h3 : @Eq (FVec Ideal S1x64 .f32) (V19 m ρ c main_v123) _ := L2_BB m ρ c
  rw [h0, h1, h2, h3] at e
  exact e

/-! ### Means, clamped raw variances, scale and shift rows -/

include hd hin in
theorem L2_MEAN : @Eq (FVec Ideal S1x64 .f32) (W21 m ρ c (Proc.devRef .tc main_v126)) (tMean (Zsum (tA (refDst (edges m c)) (msgArr (tHS (prodArr X (m ((c.tc : Thread nD τ).loc main_arg11))) (refSrc (edges m c))) (tNR (refDinv (F := Ideal) (refDst (edges m c))) (refSrc (edges m c)) (refDst (edges m c))))) (prodArr X (m ((c.tc : Thread nD τ).loc main_arg11))) (tD2 (refDinv (F := Ideal) (refDst (edges m c)))) (tRow (m ((c.tc : Thread nD τ).loc main_arg12))))) := by
  have e := st2_mean (W20 m ρ c)
  rw [L2_S m ρ c hd X hin] at e
  exact e

include hd hin in
theorem L2_VAR : @Eq (FVec Ideal S1x64 .f32) (W21 m ρ c (Proc.devRef .tc main_v132)) (tVar (Zsum (tA (refDst (edges m c)) (msgArr (tHS (prodArr X (m ((c.tc : Thread nD τ).loc main_arg11))) (refSrc (edges m c))) (tNR (refDinv (F := Ideal) (refDst (edges m c))) (refSrc (edges m c)) (refDst (edges m c))))) (prodArr X (m ((c.tc : Thread nD τ).loc main_arg11))) (tD2 (refDinv (F := Ideal) (refDst (edges m c)))) (tRow (m ((c.tc : Thread nD τ).loc main_arg12)))) (Zsumsq (tA (refDst (edges m c)) (msgArr (tHS (prodArr X (m ((c.tc : Thread nD τ).loc main_arg11))) (refSrc (edges m c))) (tNR (refDinv (F := Ideal) (refDst (edges m c))) (refSrc (edges m c)) (refDst (edges m c))))) (prodArr X (m ((c.tc : Thread nD τ).loc main_arg11))) (tD2 (refDinv (F := Ideal) (refDst (edges m c)))) (tRow (m ((c.tc : Thread nD τ).loc main_arg12))))) := by
  have e := st2_var (W20 m ρ c)
  rw [L2_SS m ρ c hd X hin, L2_S m ρ c hd X hin] at e
  exact e

theorem L2_GG : @Eq (FVec Ideal S1x64 .f32) (W21 m ρ c (Proc.devRef .tc main_v133)) (tRow (m ((c.tc : Thread nD τ).loc main_arg13))) := by
  have e := st2_gamma (W20 m ρ c)
  rw [show W20 m ρ c (Proc.devRef .tc main_arg13) = m ((c.tc : Thread nD τ).loc main_arg13) from walk_arg13_20_0 m ρ c] at e
  exact e

theorem L2_BE : @Eq (FVec Ideal S1x64 .f32) (W21 m ρ c (Proc.devRef .tc main_v134)) (tRow (m ((c.tc : Thread nD τ).loc main_arg14))) := by
  have e := st2_beta (W20 m ρ c)
  rw [show W20 m ρ c (Proc.devRef .tc main_arg14) = m ((c.tc : Thread nD τ).loc main_arg14) from walk_arg14_20_0 m ρ c] at e
  exact e

/-! ### The batch-norm region, and the layer -/

include hd hin in
/-- After the layer's last region its output buffer holds the kernel program's layer of the layer's input. -/
theorem L2_O : @Eq (FVec Ideal S100000x64 .f32) (W22 m ρ c (Proc.devRef .tc main_v135))
    (kLayer X (m ((c.tc : Thread nD τ).loc main_arg11)) (m ((c.tc : Thread nD τ).loc main_arg12)) (m ((c.tc : Thread nD τ).loc main_arg13)) (m ((c.tc : Thread nD τ).loc main_arg14)) (refSrc (edges m c)) (refDst (edges m c)) (refDinv (F := Ideal) (refDst (edges m c)))) := by
  have e := (W22_arr m ρ c 5).trans (final11 (V21 m ρ) c)
  have h0 : @Eq (FVec Ideal S100000x64 .f32) (V21 m ρ c (Pipeline.arrRef spec11 0)) _ :=
    (walk_v124_0_21_20 m ρ c).trans (L2_Z m ρ c hd X hin)
  have h1 : @Eq (FVec Ideal S1x64 .f32) (V21 m ρ c (Pipeline.arrRef spec11 1)) _ := L2_MEAN m ρ c hd X hin
  have h2 : @Eq (FVec Ideal S1x64 .f32) (V21 m ρ c (Pipeline.arrRef spec11 2)) _ := L2_VAR m ρ c hd X hin
  have h3 : @Eq (FVec Ideal S1x64 .f32) (V21 m ρ c (Pipeline.arrRef spec11 3)) _ := L2_GG m ρ c
  have h4 : @Eq (FVec Ideal S1x64 .f32) (V21 m ρ c (Pipeline.arrRef spec11 4)) _ := L2_BE m ρ c
  rw [h0, h1, h2, h3, h4] at e
  unfold kLayer
  exact e

end Cert.KernelIdeal.HandFold

end
-- ==== Proof.LibKeepdimsCols.lean ====
/-
  Column vectors read at an index.

  A row reduction with `keepdims` leaves an `[a]` array that is then viewed as the column `[a, 1]` and broadcast along
  the rows of an `[a, b]` array. Read at an index:

  * an `[a]` array cast to `[a, 1]` reads, at `(p, u)`, the operand at `p` (`shapeCast_a_a1_apply`);
  * an `[a, 1]` column broadcast to `[a, b]` reads, at `(p, c)`, the column at `(p, 0)` (`broadcastTo_a1_ab_apply`).

  Both are generic in the extents and in the element type.
-/
import Idealize.ShloMosaic.Lib.Pipeline.Value
import Idealize.ShloMosaic.Lib.ValueIdx

namespace Cert.LibKeepdimsCols

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCols
-- ==== Proof.LibPlainDot.lean ====
/-
  The plain matrix product read at an entry, over the extended reals.

  For the dimension numbers of an ordinary product of an `M × K` matrix by a `K × N` matrix
  (`DotDims.plain M K N`: no batch axis, the left operand contracted on its columns, the right one on its rows),
  at the ideal values:

  * a `tpu.matmul` into the zero accumulator, at entry `(p, q)`, is `∑ k, lhs (p, k) * rhs (k, q)`
    (`matmul_zero_plain`);
  * the host's `dot_general`, at entry `(p, q)`, is the same sum, whatever its schedule key (`dotGeneral_plain`).

  Both are generic in the three extents and in the operands' float formats (a change of format is the identity
  at the ideal values). The contraction index of these dimension numbers has one axis, of extent `K`; the sum over
  it is re-indexed to a sum over `Fin K` through `ValueIdx.contrEquiv1`, and the operand indices at output index
  `(p, q)` and contraction coordinate `k` are `(p, k)` and `(k, q)`, coordinate by coordinate.
-/
import Idealize.ShloMosaic.Lib.ValueIdx
import Idealize.ShloMosaic.PureOps.Ideal.Laws

open Idealize.ShloMosaic Idealize.ShloMosaic.ValueIdx
open scoped BigOperators

noncomputable section

namespace Cert.LibPlainDot

variable {M K N : Nat}

/-- The left operand's index at output `(p, q)` and contraction coordinate `k` is `(p, k)`. -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ => exact contrEquiv1_symm_val (DotDims.plain M K N) K rfl rfl k)

/-- The right operand's index at output `(p, q)` and contraction coordinate `k` is `(k, q)`. -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact contrEquiv1_symm_val (DotDims.plain M K N) K rfl rfl k
    | ⟨1, _⟩ => rfl)

/-- A `tpu.matmul` of an `M × K` by a `K × N` operand into the zero accumulator, at entry `(p, q)`: the sum over
    `k` of `lhs (p, k) * rhs (k, q)`. -/
theorem matmul_zero_plain {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` of an `M × K` by a `K × N` operand, at entry `(p, q)`: the same sum. -/
theorem dotGeneral_plain {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.LibPlainDot

end
-- ==== Proof.LayerMath.lean ====
/-
  One layer of the graph-convolution encoder, at the extended reals.

  Given the arrays a row-blocked evaluation of one layer leaves — the matrix product H = X·W entry by entry, the
  per-edge messages M = H[src] · (dinv[src] · dinv[dst]), the rectified sum Z = max (agg + dinv² · H + b, 0) with agg
  the scatter-addition of M over the destinations, the column sums S = Σ Z and SS = Σ Z², and the normalised output
  O = γ · (Z − μ) · rsqrt (max (SS/N − μ², 0) + ε) + β with μ = S/N — this file proves that O is the reference's layer
  (its batch normalisation of its convolution, with the variance as the centred second moment) and that every entry
  of O is a real number. It also proves that the inverse square roots of the degrees are real numbers.

  The steps: each broadcast of the reference read at an index; the convolution equals Z; all entries real; the
  reference's column mean is S/N; its centred variance equals the clamped raw form (real columns, N > 0); the
  reciprocal square root of a nonnegative real plus a positive real is real.
-/
import proofs.«145301_j17463337025613_1_alg».proof.Proof.RefSpec
import proofs.«145301_j17463337025613_1_alg».proof.Proof.LibRealValued
import proofs.«145301_j17463337025613_1_alg».proof.Proof.GcnAlgebra
import proofs.«145301_j17463337025613_1_alg».proof.Proof.LibPlainDot
import proofs.«145301_j17463337025613_1_alg».proof.Proof.LibKeepdimsCols

noncomputable section

namespace Cert.Gcn.LayerMath

open Idealize.ShloMosaic Idealize.ShloMosaic.ValueIdx
open Cert.ReferenceIdeal Cert.ReferenceIdeal.Facts₀
open Cert.LibRealValued Cert.Gcn.RefSpec
open scoped BigOperators

variable [Cert.ReferenceIdeal.Facts₀]

/-! ## The float constants as extended reals -/

/-- The pattern of 100000.0 denotes the real 100000. -/
theorem ofBits_count : Ideal.ofBits .f32 0x47C35000#32 = ((100000 : ℝ) : EReal) := by
  simp [Ideal.ofBits, Ideal.ieee, -EReal.coe_mul]; norm_num

/-- The pattern of the variance's additive constant denotes a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  positivity

/-! ## The reference's broadcasts read at an index -/

section Bcast
variable {α : Type}

/-- A scalar broadcast to any shape reads the scalar. -/
theorem bcast_scalar_apply {t : Shape} (dims : Fin S_.rank → Fin t.rank) (h : S_.BroadcastsInDim t dims)
    (x : S_.Idx → α) (j : t.Idx) : broadcastInDim t dims h x j = x ix0 :=
  broadcastInDim_apply dims h x j ix0 fun a => a.elim0

/-- An edge vector viewed as a column reads, at (e, u), the vector at e. -/
theorem bcast_edge_col_apply (h : S1600000.BroadcastsInDim S1600000x1 ![0]) (x : S1600000.Idx → α)
    (e : Fin 1600000) (u : Fin 1) : broadcastInDim S1600000x1 ![0] h x (ix2 e u) = x (ix1 e) :=
  broadcastInDim_apply _ _ x _ (ix1 e) fun a => match a with | ⟨0, _⟩ => rfl

/-- An edge column broadcast along 64 features reads, at (e, q), the column at (e, 0). -/
theorem bcast_edge_row_apply (h : S1600000x1.BroadcastsInDim S1600000x64 ![0, 1]) (x : S1600000x1.Idx → α)
    (e : Fin 1600000) (q : Fin 64) :
    broadcastInDim S1600000x64 ![0, 1] h x (ix2 e q) = x (ix2 e (0 : Fin 1)) :=
  broadcastInDim_apply _ _ x _ (ix2 e (0 : Fin 1)) fun a => match a with | ⟨0, _⟩ => rfl | ⟨1, _⟩ => rfl

/-- A node vector viewed as a column reads, at (r, u), the vector at r. -/
theorem bcast_node_col_apply (h : S100000.BroadcastsInDim S100000x1 ![0]) (x : S100000.Idx → α)
    (r : Fin 100000) (u : Fin 1) : broadcastInDim S100000x1 ![0] h x (ix2 r u) = x (ix1 r) :=
  broadcastInDim_apply _ _ x _ (ix1 r) fun a => match a with | ⟨0, _⟩ => rfl

/-- A node column broadcast along 64 features reads, at (r, q), the column at (r, 0). -/
theorem bcast_node_row_apply (h : S100000x1.BroadcastsInDim S100000x64 ![0, 1]) (x : S100000x1.Idx → α)
    (r : Fin 100000) (q : Fin 64) :
    broadcastInDim S100000x64 ![0, 1] h x (ix2 r q) = x (ix2 r (0 : Fin 1)) :=
  broadcastInDim_apply _ _ x _ (ix2 r (0 : Fin 1)) fun a => match a with | ⟨0, _⟩ => rfl | ⟨1, _⟩ => rfl

/-- A feature vector viewed as a row reads, at (u, q), the vector at q. -/
theorem bcast_feat_row_apply (h : S64.BroadcastsInDim S1x64 ![1]) (x : S64.Idx → α) (u : Fin 1) (q : Fin 64) :
    broadcastInDim S1x64 ![1] h x (ix2 u q) = x (ix1 q) :=
  broadcastInDim_apply _ _ x _ (ix1 q) fun a => match a with | ⟨0, _⟩ => rfl

/-- A feature row broadcast over the nodes reads, at (r, q), the row at (0, q). -/
theorem bcast_feat_all_apply (h : S1x64.BroadcastsInDim S100000x64 ![0, 1]) (x : S1x64.Idx → α)
    (r : Fin 100000) (q : Fin 64) :
    broadcastInDim S100000x64 ![0, 1] h x (ix2 r q) = x (ix2 (0 : Fin 1) q) :=
  broadcastInDim_apply _ _ x _ (ix2 (0 : Fin 1) q) fun a => match a with | ⟨0, _⟩ => rfl | ⟨1, _⟩ => rfl

/-- A feature vector broadcast to every node reads, at (r, q), the vector at q. -/
theorem bcast_feat_apply (h : S1x64.BroadcastsInDim S100000x64 ![0, 1]) (h' : S64.BroadcastsInDim S1x64 ![1])
    (x : S64.Idx → α) (r : Fin 100000) (q : Fin 64) :
    broadcastInDim S100000x64 ![0, 1] h (broadcastInDim S1x64 ![1] h' x) (ix2 r q) = x (ix1 q) := by
  rw [bcast_feat_all_apply, bcast_feat_row_apply]

end Bcast

/-! ## The arrays between the stages -/

/-- A vector of node indices as the column of start indices the gathers and the scatter-addition read. -/
abbrev idxCol (d : IVec S1600000 32) : IVec S1600000x1 32 :=
  broadcastInDim S1600000x1 ![0] bcast_S1600000_S1600000x1_0 d

/-- The rows of a node array at the edges' (wrapped) end points. -/
abbrev gatherRows (H : FVec Ideal S100000x64 .f32) (d : IVec S1600000 32) : FVec Ideal S1600000x64 .f32 :=
  Host.gather gather_S100000x64_S1600000x1_S1600000x64_1_0_n_n_0_1_164 H (idxCol (refWrap d))

/-- The entries of a node vector at the edges' (wrapped) end points. -/
abbrev gatherVec (v : FVec Ideal S100000 .f32) (d : IVec S1600000 32) : FVec Ideal S1600000 .f32 :=
  Host.gather gather_S100000_S1600000x1_S1600000_n_0_n_n_0_1_1 v (idxCol (refWrap d))

/-- The scatter-addition of the edge rows into the all-zero node array, over the destinations as given. -/
abbrev aggOf (dst : IVec S1600000 32) (M : FVec Ideal S1600000x64 .f32) : FVec Ideal S100000x64 .f32 :=
  Host.scatterAdd scatter_S100000x64_S1600000x1_S1600000x64_1_0_0_1
    (broadcastInDim S100000x64 ![] bcast_S_S100000x64 (constant S_ .f32 0x00000000#32)) (idxCol dst) M

/-! ## The convolution -/

/-- The reference's matrix product is the array of the plain sums over the contracted axis. -/
theorem dot_eq (X : FVec Ideal S100000x64 .f32) (W : FVec Ideal S64x64 .f32) (H : FVec Ideal S100000x64 .f32)
    (hH : ∀ (r : Fin 100000) (q : Fin 64), H (ix2 r q) = ∑ k : Fin 64, X (ix2 r k) * W (ix2 k q)) :
    Host.dotGeneral dot_S100000x64_S64x64_S100000x64_1_0_0_1_n_n none X W = H := by
  funext j
  obtain ⟨r, q, rfl⟩ : ∃ r q, j = ix2 r q := ⟨j 0, j 1, eq_ix2 j⟩
  rw [hH]
  exact Cert.LibPlainDot.dotGeneral_plain none .single X W r q

/-- The reference's message array: the gathered rows times the two-fold broadcast of the edge weights. -/
theorem msg_eq (H : FVec Ideal S100000x64 .f32) (src dst : IVec S1600000 32) (dinv : FVec Ideal S100000 .f32)
    (M : FVec Ideal S1600000x64 .f32)
    (hM : ∀ (e : Fin 1600000) (q : Fin 64),
      M (ix2 e q) = gatherRows H src (ix2 e q) * (gatherVec dinv src (ix1 e) * gatherVec dinv dst (ix1 e))) :
    mulf (gatherRows H src)
      (broadcastInDim S1600000x64 ![0, 1] bcast_S1600000x1_S1600000x64_0_1
        (broadcastInDim S1600000x1 ![0] bcast_S1600000_S1600000x1_0
          (mulf (gatherVec dinv src) (gatherVec dinv dst)))) = M := by
  funext j
  obtain ⟨e, q, rfl⟩ : ∃ e q, j = ix2 e q := ⟨j 0, j 1, eq_ix2 j⟩
  rw [hM, mulf_apply, bcast_edge_row_apply, bcast_edge_col_apply, mulf_apply]

/-- The reference's convolution with its rectifier is the array Z. -/
theorem conv_eq (X : FVec Ideal S100000x64 .f32) (W : FVec Ideal S64x64 .f32) (b : FVec Ideal S64 .f32)
    (src dst : IVec S1600000 32) (dinv : FVec Ideal S100000 .f32)
    (H : FVec Ideal S100000x64 .f32)
    (hH : ∀ (r : Fin 100000) (q : Fin 64), H (ix2 r q) = ∑ k : Fin 64, X (ix2 r k) * W (ix2 k q))
    (M : FVec Ideal S1600000x64 .f32)
    (hM : ∀ (e : Fin 1600000) (q : Fin 64),
      M (ix2 e q) = gatherRows H src (ix2 e q) * (gatherVec dinv src (ix1 e) * gatherVec dinv dst (ix1 e)))
    (Z : FVec Ideal S100000x64 .f32)
    (hZ : ∀ (r : Fin 100000) (q : Fin 64),
      Z (ix2 r q) = max (aggOf dst M (ix2 r q) + (dinv (ix1 r) * dinv (ix1 r)) * H (ix2 r q) + b (ix1 q)) 0) :
    refConv X W b src dst dinv = Z := by
  funext j
  obtain ⟨r, q, rfl⟩ : ∃ r q, j = ix2 r q := ⟨j 0, j 1, eq_ix2 j⟩
  rw [hZ]
  unfold refConv
  simp only [dot_eq X W H hH, msg_eq H src dst dinv M hM]
  rw [maximumf_apply, addf_apply, addf_apply, mulf_apply, bcast_feat_apply, bcast_node_row_apply,
    bcast_node_col_apply, mulf_apply, bcast_scalar_apply, constant_apply, Ideal.ofBits_zero_f32]

/-! ## Column sums, mean and variance of the reference -/

/-- The host's division and reciprocal square root at an index. -/
theorem hostDivf_apply {s : Shape} {φ : FTy} (a c : FVec Ideal s φ) (i : s.Idx) :
    Host.divf a c i = Ideal.div (a i) (c i) := rfl
theorem hostRsqrt_apply {s : Shape} {φ : FTy} (a : FVec Ideal s φ) (i : s.Idx) :
    Host.rsqrt a i = Ideal.rsqrt (a i) := rfl

/-- The reference's column sum from the zero constant is the plain sum over the nodes. -/
theorem colsum_apply (z : FVec Ideal S100000x64 .f32) (q : Fin 64) :
    Host.reduceAdd z (constant (F := Ideal) S_ .f32 0x00000000#32) reducesTo_S100000x64_S64_d0 h_S_ (ix1 q)
      = ∑ r : Fin 100000, z (ix2 r q) := by
  have hred : S100000x64.Reduces [0] S64 := by decide
  show Ideal.hostReduceAdd reducesTo_S100000x64_S64_d0 z (Ideal.ofBits .f32 0x00000000#32) (ix1 q) = _
  refine (Ideal.hostReduceAdd_single reducesTo_S100000x64_S64_d0 hred z _ (ix1 q)).trans ?_
  rw [Ideal.ofBits_zero_f32, zero_add]
  exact Finset.sum_congr rfl fun r _ =>
    congrArg z (funext fun a => Fin.ext (match a with | ⟨0, _⟩ => rfl | ⟨1, _⟩ => rfl))

/-- The reference's column mean: the column sum divided by the real 100000. -/
theorem refMean_apply (z : FVec Ideal S100000x64 .f32) (q : Fin 64) :
    refMean z (ix1 q) = Ideal.div (∑ r : Fin 100000, z (ix2 r q)) ((100000 : ℝ) : EReal) := by
  unfold refMean
  simp only [hostDivf_apply, colsum_apply, bcast_scalar_apply, constant_apply, ofBits_count]

/-- The reference's divisor of the variance, 100000 − 0, is the real 100000. -/
theorem norm_val :
    (subf (constant (F := Ideal) S_ .f32 0x47C35000#32) (sitofp .f32 (constantI S_ 32 0#32))) ix0
      = ((100000 : ℝ) : EReal) := by
  rw [subf_apply, constant_apply, ofBits_count]
  show ((100000 : ℝ) : EReal) - ((((0#32 : BitVec 32).toInt : ℤ) : ℝ) : EReal) = _
  simp

/-- The reference's test "divisor > 0" holds. -/
theorem norm_pos :
    cmpf .ogt (subf (constant (F := Ideal) S_ .f32 0x47C35000#32) (sitofp .f32 (constantI S_ 32 0#32)))
      (constant (F := Ideal) S_ .f32 0x00000000#32) ix0 = 1#1 := by
  rw [cmpf_apply, norm_val, constant_apply, Ideal.ofBits_zero_f32]
  show BitVec.ofBool (decide ((0 : EReal) < ((100000 : ℝ) : EReal))) = 1#1
  rw [decide_eq_true (by exact_mod_cast (by norm_num : (0 : ℝ) < 100000))]
  rfl

/-- The reference's column variance: the sum of the squared deviations from the column mean, divided by the real
    100000 (its divisor is positive, so its selection takes the quotient). -/
theorem refVar_apply (z : FVec Ideal S100000x64 .f32) (q : Fin 64) :
    refVar z (ix1 q)
      = Ideal.div (∑ r : Fin 100000,
            (z (ix2 r q) - Ideal.div (∑ r : Fin 100000, z (ix2 r q)) ((100000 : ℝ) : EReal))
              * (z (ix2 r q) - Ideal.div (∑ r : Fin 100000, z (ix2 r q)) ((100000 : ℝ) : EReal)))
          ((100000 : ℝ) : EReal) := by
  unfold refVar
  simp only [select_apply, bcast_scalar_apply, norm_pos, norm_val, select_one, hostDivf_apply, colsum_apply]
  refine congrArg (fun t => Ideal.div t ((100000 : ℝ) : EReal)) (Finset.sum_congr rfl fun r _ => ?_)
  rw [mulf_apply, subf_apply, bcast_feat_all_apply, hostDivf_apply, bcast_feat_row_apply, colsum_apply,
    bcast_scalar_apply, constant_apply, ofBits_count]

/-- The reference's batch normalisation at an entry. -/
theorem refBn_apply (z : FVec Ideal S100000x64 .f32) (γ β : FVec Ideal S64 .f32) (r : Fin 100000) (q : Fin 64) :
    refBn z γ β (ix2 r q)
      = γ (ix1 q) * (z (ix2 r q) - refMean z (ix1 q))
          * Ideal.rsqrt (refVar z (ix1 q) + Ideal.ofBits .f32 0x3727C5AC#32) + β (ix1 q) := by
  unfold refBn
  simp only [addf_apply, mulf_apply, subf_apply]
  rw [bcast_feat_apply, bcast_feat_apply, bcast_feat_apply, bcast_feat_apply, hostRsqrt_apply, addf_apply,
    bcast_scalar_apply, constant_apply]

/-! ## Real entries -/

/-- A difference of two reals is real. -/
theorem real_sub {x y : EReal} (hx : ∃ r : ℝ, x = r) (hy : ∃ r : ℝ, y = r) : ∃ r : ℝ, x - y = r := by
  obtain ⟨a, rfl⟩ := hx; obtain ⟨c, rfl⟩ := hy; exact ⟨a - c, (EReal.coe_sub a c).symm⟩

/-- A real divided by the real 100000 is real. -/
theorem real_div_count {x : EReal} (hx : ∃ r : ℝ, x = r) :
    ∃ r : ℝ, Ideal.div x ((100000 : ℝ) : EReal) = r := by
  obtain ⟨a, rfl⟩ := hx
  rw [Ideal.div_coe (by norm_num : (100000 : ℝ) ≠ 0)]
  exact ⟨a * (1 / 100000), (EReal.coe_mul _ _).symm⟩

/-- The reciprocal square root of a nonnegative real plus a positive real is real. -/
theorem rsqrt_real_of_nonneg_add_pos {v ε : ℝ} (hv : 0 ≤ v) (hε : 0 < ε) :
    ∃ r : ℝ, Ideal.rsqrt ((v : EReal) + (ε : EReal)) = r := by
  rw [← EReal.coe_add, Ideal.rsqrt_coe, if_neg (not_lt.mpr (by linarith)), if_neg (ne_of_gt (by linarith))]
  exact ⟨_, rfl⟩

/-- The host's accumulating scatter at an element: the operand's element plus a finite sum of updates. -/
theorem scatterAdd_exists {s si su : Shape} {w : Nat} {φ : FTy} (d : ScatterDims s si su) (x : FVec Ideal s φ)
    (idx : IVec si w) (upd : FVec Ideal su φ) (i : s.Idx) :
    ∃ T : Finset su.Idx, Host.scatterAdd d x idx upd i = x i + ∑ j ∈ T, upd j := ⟨_, rfl⟩

/-! ## The layer -/

/-- One layer: the normalised output of the staged arrays is the reference's layer, and all its entries are real. -/
theorem layer_eq (X : FVec Ideal S100000x64 .f32) (W : FVec Ideal S64x64 .f32) (b γ β : FVec Ideal S64 .f32)
    (src dst : IVec S1600000 32) (dinv : FVec Ideal S100000 .f32)
    (hX : RealV X) (hW : RealV W) (hb : RealV b) (hγ : RealV γ) (hβ : RealV β) (hd : RealV dinv)
    (H : FVec Ideal S100000x64 .f32)
    (hH : ∀ (r : Fin 100000) (q : Fin 64), H (ix2 r q) = ∑ k : Fin 64, X (ix2 r k) * W (ix2 k q))
    (M : FVec Ideal S1600000x64 .f32)
    (hM : ∀ (e : Fin 1600000) (q : Fin 64),
      M (ix2 e q) = gatherRows H src (ix2 e q) * (gatherVec dinv src (ix1 e) * gatherVec dinv dst (ix1 e)))
    (Z : FVec Ideal S100000x64 .f32)
    (hZ : ∀ (r : Fin 100000) (q : Fin 64),
      Z (ix2 r q) = max (aggOf dst M (ix2 r q) + (dinv (ix1 r) * dinv (ix1 r)) * H (ix2 r q) + b (ix1 q)) 0)
    (S SS : FVec Ideal S1x64 .f32)
    (hS : ∀ q : Fin 64, S (ix2 (0 : Fin 1) q) = ∑ r : Fin 100000, Z (ix2 r q))
    (hSS : ∀ q : Fin 64, SS (ix2 (0 : Fin 1) q) = ∑ r : Fin 100000, Z (ix2 r q) * Z (ix2 r q))
    (O : FVec Ideal S100000x64 .f32)
    (hO : ∀ (r : Fin 100000) (q : Fin 64),
      O (ix2 r q)
        = γ (ix1 q) * (Z (ix2 r q) - Ideal.div (S (ix2 (0 : Fin 1) q)) (Ideal.ofBits .f32 0x47C35000#32))
            * Ideal.rsqrt
                (max (Ideal.div (SS (ix2 (0 : Fin 1) q)) (Ideal.ofBits .f32 0x47C35000#32)
                      - Ideal.div (S (ix2 (0 : Fin 1) q)) (Ideal.ofBits .f32 0x47C35000#32)
                        * Ideal.div (S (ix2 (0 : Fin 1) q)) (Ideal.ofBits .f32 0x47C35000#32)) 0
                  + Ideal.ofBits .f32 0x3727C5AC#32)
          + β (ix1 q)) :
    O = refLayer X W b γ β src dst dinv ∧ RealV O := by
  have hHr : RealV H := fun j => by
    obtain ⟨r, q, rfl⟩ : ∃ r q, j = ix2 r q := ⟨j 0, j 1, eq_ix2 j⟩
    rw [hH]
    exact real_sum _ _ fun k _ => real_mul (hX _) (hW _)
  have hMr : RealV M := fun j => by
    obtain ⟨e, q, rfl⟩ : ∃ e q, j = ix2 e q := ⟨j 0, j 1, eq_ix2 j⟩
    rw [hM]
    exact real_mul (RealV.gather _ _ hHr _) (real_mul (RealV.gather _ _ hd _) (RealV.gather _ _ hd _))
  have hZr : RealV Z := fun j => by
    obtain ⟨r, q, rfl⟩ : ∃ r q, j = ix2 r q := ⟨j 0, j 1, eq_ix2 j⟩
    rw [hZ]
    exact real_max
      (real_add (real_add (RealV.scatterAdd _ _ (RealV.broadcastInDim _ RealV.constant_zero) hMr _)
        (real_mul (real_mul (hd _) (hd _)) (hHr _))) (hb _))
      ⟨0, EReal.coe_zero.symm⟩
  have hconv : refConv X W b src dst dinv = Z := conv_eq X W b src dst dinv H hH M hM Z hZ
  have key : ∀ (r : Fin 100000) (q : Fin 64),
      O (ix2 r q) = refBn Z γ β (ix2 r q) ∧ ∃ x : ℝ, O (ix2 r q) = x := by
    intro r q
    have hcol : ∀ r' : Fin 100000, ∃ x : ℝ, Z (ix2 r' q) = x := fun r' => hZr _
    have hvar := Cert.Gcn.Algebra.raw_var_eq_centred (n := 100000) (100000 : ℝ) (by norm_num) (by norm_num)
      (fun r' => Z (ix2 r' q)) hcol
    beta_reduce at hvar
    have hSr : ∃ x : ℝ, (∑ r' : Fin 100000, Z (ix2 r' q)) = x := real_sum _ _ fun r' _ => hcol r'
    have hSSr : ∃ x : ℝ, (∑ r' : Fin 100000, Z (ix2 r' q) * Z (ix2 r' q)) = x :=
      real_sum _ _ fun r' _ => real_mul (hcol r') (hcol r')
    have hmr := real_div_count hSr
    have hvr : ∃ x : ℝ, max (Ideal.div (∑ r' : Fin 100000, Z (ix2 r' q) * Z (ix2 r' q)) ((100000 : ℝ) : EReal)
        - Ideal.div (∑ r' : Fin 100000, Z (ix2 r' q)) ((100000 : ℝ) : EReal)
          * Ideal.div (∑ r' : Fin 100000, Z (ix2 r' q)) ((100000 : ℝ) : EReal)) 0 = x :=
      real_max (real_sub (real_div_count hSSr) (real_mul hmr hmr)) ⟨0, EReal.coe_zero.symm⟩
    obtain ⟨v, hv⟩ := hvr
    have hv0 : 0 ≤ v := by
      have : (0 : EReal) ≤ (v : EReal) := by rw [← hv]; exact le_max_right _ _
      exact_mod_cast this
    obtain ⟨ε, hε, hεeq⟩ := ofBits_eps
    refine ⟨?_, ?_⟩
    · rw [hO, refBn_apply, refMean_apply, refVar_apply, hS, hSS, ofBits_count, hvar]
    · rw [hO, hS, hSS, ofBits_count, hv, hεeq]
      exact real_add (real_mul (real_mul (hγ _) (real_sub (hcol r) hmr)) (rsqrt_real_of_nonneg_add_pos hv0 hε))
        (hβ _)
  refine ⟨funext fun j => ?_, fun j => ?_⟩
  · obtain ⟨r, q, rfl⟩ : ∃ r q, j = ix2 r q := ⟨j 0, j 1, eq_ix2 j⟩
    unfold refLayer
    rw [hconv]
    exact (key r q).1
  · obtain ⟨r, q, rfl⟩ : ∃ r q, j = ix2 r q := ⟨j 0, j 1, eq_ix2 j⟩
    exact (key r q).2

/-! ## The degrees -/

/-- The inverse square roots of the degrees are real: each degree is zero, plus one per incoming edge, plus one,
    so at least one. -/
theorem dinv_real (dst : IVec S1600000 32) : RealV (refDinv (F := Ideal) dst) := fun i => by
  unfold refDinv
  rw [hostRsqrt_apply, addf_apply]
  beta_reduce
  obtain ⟨T, hT⟩ := scatterAdd_exists scatter_S100000_S1600000x1_S1600000_n_0_0_1
    (broadcastInDim S100000 ![] bcast_S_S100000 (constant (F := Ideal) S_ .f32 0x00000000#32))
    (broadcastInDim S1600000x1 ![0] bcast_S1600000_S1600000x1_0 (refWrap dst))
    (broadcastInDim S1600000 ![] bcast_S_S1600000 (constant (F := Ideal) S_ .f32 0x3F800000#32)) i
  rw [hT, bcast_scalar_apply, bcast_scalar_apply, constant_apply, constant_apply, Ideal.ofBits_zero_f32,
    ofBits_one_f32,
    Finset.sum_congr rfl fun j _ => (bcast_scalar_apply _ bcast_S_S1600000
      (constant (F := Ideal) S_ .f32 0x3F800000#32) j).trans ((constant_apply _ _).trans ofBits_one_f32)]
  exact rsqrt_of_one_le _ (Cert.Gcn.Algebra.one_le_count_add_one T)

end Cert.Gcn.LayerMath

end
-- ==== Proof.KLayerMath.lean ====
/- One layer of the kernel program's whole-array terms is the specification's layer.
   Read at an index, each array of the kernel's layer is the entry the layer's mathematics names: the product's entry
   is the sum over k of X(r, k) · W(k, q); a message is the gathered feature times the product of the two gathered
   inverse roots; the rectified pre-activation is max (agg + dinv² · h + b, 0); the statistics are the column sums of it
   and of its square; the output is γ · (z − mean) · rsqrt (max (mean of squares − mean², 0) + ε) + β. Columns [a, 1] and
   rows [1, a] made from vectors read the vector's entry. These entrywise readings are the hypotheses under which the
   layer law identifies the arrays' composition with the specification's layer and shows it real-valued. -/
import proofs.«145301_j17463337025613_1_alg».proof.Proof.KTerms
import proofs.«145301_j17463337025613_1_alg».proof.Proof.LibKeepdimsCols
import proofs.«145301_j17463337025613_1_alg».proof.Proof.LayerMath
import Idealize.ShloMosaic.Lib.IdealHost
import Idealize.ShloMosaic.Lib.ValueLayout

noncomputable section

namespace Cert.KernelIdeal.HandFold

open Cert.KernelIdeal Cert.KernelIdeal.Gen Idealize.ShloMosaic Cert.Gcn.RefSpec Cert.KernelIdeal.HandValue

open Idealize.ShloMosaic.ValueIdx Cert.LibKeepdimsCols
open scoped BigOperators

/-! ## The layer's arrays read at an index -/

/-- The product at (r, q): the sum over k of X(r, k) · W(k, q). -/
theorem prodArr_ix2 (X : FVec Ideal S100000x64 .f32) (W : FVec Ideal S64x64 .f32) (r : Fin 100000) (q : Fin 64) :
    prodArr X W (ix2 r q) = ∑ k : Fin 64, X (ix2 r k) * W (ix2 k q) := rfl

/-- The edge weights' column at (e, u): the product of the two gathered inverse roots at edge e. -/
theorem tNR_ix2 (dinv : FVec Ideal S100000 .f32) (src dst : IVec S1600000 32) (e : Fin 1600000) (u : Fin 1) :
    tNR dinv src dst (ix2 e u) = tG dinv src (ix1 e) * tG dinv dst (ix1 e) :=
  (shapeCast_a_a1_apply (mulf (tG dinv src) (tG dinv dst)) shapeCasts_S1600000_S1600000x1 e u).trans rfl

/-- The messages at (e, q): the gathered feature times the edge's weight. -/
theorem msgArr_ix2 (H : FVec Ideal S100000x64 .f32) (src dst : IVec S1600000 32) (dinv : FVec Ideal S100000 .f32)
    (e : Fin 1600000) (q : Fin 64) :
    msgArr (tHS H src) (tNR dinv src dst) (ix2 e q)
      = tHS H src (ix2 e q) * (tG dinv src (ix1 e) * tG dinv dst (ix1 e)) := by
  show tHS H src (ix2 e q) * tNR dinv src dst (ix2 e (0 : Fin 1)) = _
  rw [tNR_ix2]

/-- The squared inverse roots' column at (r, u). -/
theorem tD2_ix2 (dinv : FVec Ideal S100000 .f32) (r : Fin 100000) (u : Fin 1) :
    tD2 dinv (ix2 r u) = dinv (ix1 r) * dinv (ix1 r) :=
  (shapeCast_a_a1_apply (mulf dinv dinv) shapeCasts_S100000_S100000x1 r u).trans rfl

/-- A vector viewed as a row, at (u, q). -/
theorem tRow_ix2 (v : FVec Ideal S64 .f32) (u : Fin 1) (q : Fin 64) : tRow v (ix2 u q) = v (ix1 q) :=
  shapeCast_a_1a_apply v shapeCasts_S64_S1x64 u q

/-- The rectified pre-activation at (r, q). -/
theorem Zarr_tix2 (A H : FVec Ideal S100000x64 .f32) (dinv : FVec Ideal S100000 .f32) (b : FVec Ideal S64 .f32)
    (r : Fin 100000) (q : Fin 64) :
    Zarr A H (tD2 dinv) (tRow b) (ix2 r q)
      = max (A (ix2 r q) + (dinv (ix1 r) * dinv (ix1 r)) * H (ix2 r q) + b (ix1 q)) 0 := by
  show max (A (ix2 r q) + tD2 dinv (ix2 r (0 : Fin 1)) * H (ix2 r q) + tRow b (ix2 (0 : Fin 1) q))
      (Ideal.ofBits .f32 0x00000000#32) = _
  rw [tD2_ix2, tRow_ix2, Ideal.ofBits_zero_f32]

/-- The column sums at (0, q). -/
theorem Zsum_ix2 (A H : FVec Ideal S100000x64 .f32) (D : FVec Ideal S100000x1 .f32) (B : FVec Ideal S1x64 .f32) (q : Fin 64) :
    Zsum A H D B (ix2 (0 : Fin 1) q) = ∑ r : Fin 100000, Zarr A H D B (ix2 r q) := rfl

/-- The column sums of squares at (0, q). -/
theorem Zsumsq_ix2 (A H : FVec Ideal S100000x64 .f32) (D : FVec Ideal S100000x1 .f32) (B : FVec Ideal S1x64 .f32) (q : Fin 64) :
    Zsumsq A H D B (ix2 (0 : Fin 1) q) = ∑ r : Fin 100000, Zarr A H D B (ix2 r q) * Zarr A H D B (ix2 r q) := rfl

/-- A scalar constant broadcast to a row, at an index. -/
theorem rowConst_apply (w : BitVec 32) (i : S1x64.Idx) :
    broadcastInDim S1x64 ![] bcast_S_S1x64 (constant (F := Ideal) S_ .f32 w) i = Ideal.ofBits .f32 w :=
  (broadcastInDim_scalar_apply bcast_S_S1x64 (constant (F := Ideal) S_ .f32 w) i).trans rfl

/-- The column means at an index. -/
theorem tMean_apply (S : FVec Ideal S1x64 .f32) (i : S1x64.Idx) :
    tMean S i = Ideal.div (S i) (Ideal.ofBits .f32 0x47C35000#32) := by
  show Ideal.div (S i) (broadcastInDim S1x64 ![] bcast_S_S1x64 (constant (F := Ideal) S_ .f32 0x47C35000#32) i) = _
  rw [rowConst_apply]

/-- The clamped raw variances at an index. -/
theorem tVar_apply (S SS : FVec Ideal S1x64 .f32) (i : S1x64.Idx) :
    tVar S SS i = max (Ideal.div (SS i) (Ideal.ofBits .f32 0x47C35000#32)
        - Ideal.div (S i) (Ideal.ofBits .f32 0x47C35000#32) * Ideal.div (S i) (Ideal.ofBits .f32 0x47C35000#32)) 0 := by
  show max (Ideal.div (SS i) (broadcastInDim S1x64 ![] bcast_S_S1x64 (constant (F := Ideal) S_ .f32 0x47C35000#32) i)
      - tMean S i * tMean S i)
      (broadcastInDim S1x64 ![] bcast_S_S1x64 (constant (F := Ideal) S_ .f32 0x00000000#32) i) = _
  rw [rowConst_apply, rowConst_apply, tMean_apply, Ideal.ofBits_zero_f32]

/-- The normalised output at (r, q). -/
theorem bnArr_tix2 (Z : FVec Ideal S100000x64 .f32) (S SS : FVec Ideal S1x64 .f32) (γ β : FVec Ideal S64 .f32)
    (r : Fin 100000) (q : Fin 64) :
    bnArr Z (tMean S) (tVar S SS) (tRow γ) (tRow β) (ix2 r q)
      = γ (ix1 q) * (Z (ix2 r q) - Ideal.div (S (ix2 (0 : Fin 1) q)) (Ideal.ofBits .f32 0x47C35000#32))
          * Ideal.rsqrt (max (Ideal.div (SS (ix2 (0 : Fin 1) q)) (Ideal.ofBits .f32 0x47C35000#32)
              - Ideal.div (S (ix2 (0 : Fin 1) q)) (Ideal.ofBits .f32 0x47C35000#32)
                * Ideal.div (S (ix2 (0 : Fin 1) q)) (Ideal.ofBits .f32 0x47C35000#32)) 0
            + Ideal.ofBits .f32 0x3727C5AC#32)
        + β (ix1 q) := by
  show tRow γ (ix2 (0 : Fin 1) q) * (Z (ix2 r q) - tMean S (ix2 (0 : Fin 1) q))
      * Ideal.rsqrt (tVar S SS (ix2 (0 : Fin 1) q) + Ideal.ofBits .f32 0x3727C5AC#32) + tRow β (ix2 (0 : Fin 1) q) = _
  rw [tRow_ix2, tRow_ix2, tMean_apply, tVar_apply]

open Cert.LibRealValued

/-- The kernel's layer is the specification's layer, and real-valued, on real-valued inputs: the layer law at the
    kernel's arrays, each of its entrywise hypotheses one of the readings above. -/
theorem kLayer_eq (X : FVec Ideal S100000x64 .f32) (W : FVec Ideal S64x64 .f32) (b γ β : FVec Ideal S64 .f32)
    (src dst : IVec S1600000 32) (dinv : FVec Ideal S100000 .f32)
    (hX : RealV X) (hW : RealV W) (hb : RealV b) (hγ : RealV γ) (hβ : RealV β) (hd : RealV dinv) :
    kLayer X W b γ β src dst dinv = refLayer X W b γ β src dst dinv ∧ RealV (kLayer X W b γ β src dst dinv) :=
  Cert.Gcn.LayerMath.layer_eq X W b γ β src dst dinv hX hW hb hγ hβ hd
    (prodArr X W) (fun r q => prodArr_ix2 X W r q)
    (msgArr (tHS (prodArr X W) src) (tNR dinv src dst)) (fun e q => msgArr_ix2 (prodArr X W) src dst dinv e q)
    (Zarr (tA dst (msgArr (tHS (prodArr X W) src) (tNR dinv src dst))) (prodArr X W) (tD2 dinv) (tRow b))
    (fun r q => Zarr_tix2 _ (prodArr X W) dinv b r q)
    (Zsum (tA dst (msgArr (tHS (prodArr X W) src) (tNR dinv src dst))) (prodArr X W) (tD2 dinv) (tRow b))
    (Zsumsq (tA dst (msgArr (tHS (prodArr X W) src) (tNR dinv src dst))) (prodArr X W) (tD2 dinv) (tRow b))
    (fun q => Zsum_ix2 _ _ _ _ q) (fun q => Zsumsq_ix2 _ _ _ _ q)
    (kLayer X W b γ β src dst dinv)
    (fun r q => bnArr_tix2 _ _ _ γ β r q)

end Cert.KernelIdeal.HandFold

end
-- ==== Proof.PreFacts.lean ====
/-
  The precondition read as mathematics.  It is a conjunction of fifteen "all" tests over the argument arrays:
  fourteen say that every entry of a float array has absolute value below +∞ — so every entry is a real
  number —, and the last says that every destination node id (row 1 of the edge list) is nonnegative as a signed
  32-bit word.  On nonnegative ids the Python-style wrap-around of a negative index, "if d < 0 then d + 100000
  else d", is the identity: this is the one place where the two programs index differently.
-/
import proofs.«145301_j17463337025613_1_alg».proof.Defs
import proofs.«145301_j17463337025613_1_alg».proof.Proof.Gen.Pre_finite_inputs
import proofs.«145301_j17463337025613_1_alg».proof.Proof.LibRealValued
import Idealize.ShloMosaic.Lib.ReduceAll
import Idealize.ShloMosaic.Lib.ValueIdx

noncomputable section

namespace Cert.Gcn.PreFacts

open Idealize.ShloMosaic Idealize.ShloMosaic.TcCoe Cert.LibRealValued Cert.Pre_finite_inputs Cert.Pre_finite_inputs.Facts

instance : Subsingleton S_.Idx := ⟨fun a b => funext fun d => d.elim0⟩

/-- The f32 pattern of +∞ denotes the top element. -/
theorem ofBits_inf : Ideal.ofBits .f32 0x7F800000#32 = (⊤ : EReal) := by
  simp [Ideal.ofBits, Ideal.ieee]

/-- An extended real whose absolute value max x (−x) is below +∞ is a real number. -/
theorem real_of_abs_lt_top (x : EReal) (h : max x (-x) < ⊤) : ∃ r : ℝ, x = r := by
  induction x using EReal.rec with
  | bot => simp at h
  | top => simp at h
  | coe r => exact ⟨r, rfl⟩

/-- A conjunction of two one-bit words is 1 exactly when both are. -/
theorem andi_apply {s : Shape} (u v : IVec s 1) (j : s.Idx) : andi u v j = 1#1 ↔ u j = 1#1 ∧ v j = 1#1 :=
  IntOp.andi_eq_one

/-- One float test of the precondition: if "all |x| < +∞" evaluates to 1 then every entry of x is real. -/
theorem realV_of_all (s : Shape) {axes : List (Fin s.rank)} (x : FVec Ideal s .f32)
    {bc : S_.BroadcastsInDim s (![] : Fin 0 → Fin s.rank)} {hr : s.ReducesTo axes S_} {hu : 0 < S_.numel} {j : S_.Idx}
    (e : Host.reduce IntOp.andi (cmpf .olt (Host.absf x) (broadcastInDim s ![] bc (constant S_ .f32 0x7F800000#32)))
          (constantI S_ 1 1#1) hr hu j = 1#1) : RealV x := by
  intro i
  have hi := Host.reduce_andi_all _ _ hr hu j e i
  have h2 : BitVec.ofBool (decide (max (x i) (-(x i)) < Ideal.ofBits .f32 0x7F800000#32)) = 1#1 := hi
  rw [ofBits_inf] at h2
  have h3 : decide (max (x i) (-(x i)) < (⊤ : EReal)) = true := by
    cases hb : decide (max (x i) (-(x i)) < (⊤ : EReal)) with
    | false => rw [hb] at h2; exact absurd h2 (by decide)
    | true => rfl
  exact real_of_abs_lt_top _ (of_decide_eq_true h3)

/-- The destination row of the edge list, as the precondition (and both programs) cut it out: row 1 of the
    [2, E] array, flattened to [E]. -/
def dstRow (a : IVec S2x1600000 32) : IVec S1600000 32 :=
  shapeCast S1600000 ((extractStridedSlice S1x1600000 ![1, 0] · slices_S2x1600000_S1x1600000_1_0) a) shapeCasts_S1x1600000_S1600000

open Cert.KernelIdeal in
/-- THE PRECONDITION DECODED: every float argument the programs read is real-valued, and every destination id is
    a nonnegative signed word. (The edge attributes are also finite, but no program reads them.) -/
theorem decode (m : (ℓ : Loc nD τ sig) → Buf (Elt Ideal) ℓ) (h : Cert.Pre_KernelIdeal m) (c : Dev nD) :
    RealV (m ((c.tc : Thread nD τ).loc main_arg1))
    ∧ (RealV (m ((c.tc : Thread nD τ).loc main_arg3)) ∧ RealV (m ((c.tc : Thread nD τ).loc main_arg4))
        ∧ RealV (m ((c.tc : Thread nD τ).loc main_arg5)) ∧ RealV (m ((c.tc : Thread nD τ).loc main_arg6)))
    ∧ (RealV (m ((c.tc : Thread nD τ).loc main_arg7)) ∧ RealV (m ((c.tc : Thread nD τ).loc main_arg8))
        ∧ RealV (m ((c.tc : Thread nD τ).loc main_arg9)) ∧ RealV (m ((c.tc : Thread nD τ).loc main_arg10)))
    ∧ (RealV (m ((c.tc : Thread nD τ).loc main_arg11)) ∧ RealV (m ((c.tc : Thread nD τ).loc main_arg12))
        ∧ RealV (m ((c.tc : Thread nD τ).loc main_arg13)) ∧ RealV (m ((c.tc : Thread nD τ).loc main_arg14)))
    ∧ ∀ i, IntOp.cmpi .sge (dstRow (m ((c.tc : Thread nD τ).loc main_arg0)) i) (0#32) = 1#1 := by
  have e := congrFun (h c) ValueIdx.ix0
  unfold fn fn_part1 fn_part2 fn_part3 fn_part4 at e
  dsimp only at e
  simp only [andi_apply] at e
  obtain ⟨⟨⟨⟨⟨⟨⟨⟨⟨⟨⟨⟨⟨⟨h1, -⟩, h3⟩, h4⟩, h5⟩, h6⟩, h7⟩, h8⟩, h9⟩, h10⟩, h11⟩, h12⟩, h13⟩, h14⟩, h15⟩ := e
  refine ⟨realV_of_all Cert.Pre_finite_inputs.S100000x64 _ h1, ⟨realV_of_all Cert.Pre_finite_inputs.S64x64 _ h3, realV_of_all Cert.Pre_finite_inputs.S64 _ h4, realV_of_all Cert.Pre_finite_inputs.S64 _ h5,
    realV_of_all Cert.Pre_finite_inputs.S64 _ h6⟩, ⟨realV_of_all Cert.Pre_finite_inputs.S64x64 _ h7, realV_of_all Cert.Pre_finite_inputs.S64 _ h8, realV_of_all Cert.Pre_finite_inputs.S64 _ h9,
    realV_of_all Cert.Pre_finite_inputs.S64 _ h10⟩, ⟨realV_of_all Cert.Pre_finite_inputs.S64x64 _ h11, realV_of_all Cert.Pre_finite_inputs.S64 _ h12, realV_of_all Cert.Pre_finite_inputs.S64 _ h13,
    realV_of_all Cert.Pre_finite_inputs.S64 _ h14⟩, fun i => ?_⟩
  exact Host.reduce_andi_all _ _ _ _ _ h15 i

end Cert.Gcn.PreFacts

end
-- ==== Proof.KNet.lean ====
/-
  The idealized kernel program's result.  Under the precondition every float argument is real-valued and every
  destination id is nonnegative, so the degrees' reciprocal square roots are the reference's and real; then layer by
  layer the kernel program's layer is the reference's layer (and real-valued, which the next layer's variance needs).
  Chained over the three layers, the result buffer ends at the reference network of the kernel's own arguments.
-/
import proofs.«145301_j17463337025613_1_alg».proof.Proof.KLayer1
import proofs.«145301_j17463337025613_1_alg».proof.Proof.KLayer2
import proofs.«145301_j17463337025613_1_alg».proof.Proof.KLayer3
import proofs.«145301_j17463337025613_1_alg».proof.Proof.KLayerMath
import proofs.«145301_j17463337025613_1_alg».proof.Proof.LayerMath
import proofs.«145301_j17463337025613_1_alg».proof.Proof.PreFacts

noncomputable section

namespace Cert.KernelIdeal.HandFold

open Cert.KernelIdeal Cert.KernelIdeal.Gen Idealize.ShloMosaic Idealize.ShloMosaic.TcCoe Idealize.SL.Sem
open Idealize.ShloMosaic.StableHlo Cert.Gcn.RefSpec

open Cert.LibRealValued

variable (m : (ℓ : Loc nD τ sig) → Buf (Elt Ideal) ℓ) (ρ : Dev nD → PrngReg)

theorem kernel_net (hpre : Cert.Pre_KernelIdeal m) (c : Dev nD) :
    @Eq (FVec Ideal S100000x64 .f32) (W22 m ρ c (Proc.devRef .tc main_v135)) (refNet (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) := by
  obtain ⟨hx, ⟨hW1, hb1, hg1, hbe1⟩, ⟨hW2, hb2, hg2, hbe2⟩, ⟨hW3, hb3, hg3, hbe3⟩, hdst⟩ := Cert.Gcn.PreFacts.decode m hpre c
  have hd : ∀ i, IntOp.cmpi .sge (refDst (edges m c) i) (0#32) = 1#1 := hdst
  have hdr : RealV (refDinv (F := Ideal) (refDst (edges m c))) := Cert.Gcn.LayerMath.dinv_real _
  -- layer 1
  have e1 := L0_O m ρ c hd (m ((c.tc : Thread nD τ).loc main_arg1)) (s0_arg1 m ρ c)
  obtain ⟨q1, r1⟩ := kLayer_eq (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (refSrc (edges m c)) (refDst (edges m c))
    (refDinv (F := Ideal) (refDst (edges m c))) hx hW1 hb1 hg1 hbe1 hdr
  rw [q1] at e1 r1
  -- layer 2
  have e2 := L1_O m ρ c hd _ e1
  obtain ⟨q2, r2⟩ := kLayer_eq _ (m ((c.tc : Thread nD τ).loc main_arg7)) (m ((c.tc : Thread nD τ).loc main_arg8)) (m ((c.tc : Thread nD τ).loc main_arg9)) (m ((c.tc : Thread nD τ).loc main_arg10)) (refSrc (edges m c)) (refDst (edges m c))
    (refDinv (F := Ideal) (refDst (edges m c))) r1 hW2 hb2 hg2 hbe2 hdr
  rw [q2] at e2 r2
  -- layer 3
  have e3 := L2_O m ρ c hd _ e2
  obtain ⟨q3, -⟩ := kLayer_eq _ (m ((c.tc : Thread nD τ).loc main_arg11)) (m ((c.tc : Thread nD τ).loc main_arg12)) (m ((c.tc : Thread nD τ).loc main_arg13)) (m ((c.tc : Thread nD τ).loc main_arg14)) (refSrc (edges m c)) (refDst (edges m c))
    (refDinv (F := Ideal) (refDst (edges m c))) r2 hW3 hb3 hg3 hbe3 hdr
  rw [q3] at e3
  exact e3

end Cert.KernelIdeal.HandFold

end
-- ==== Proof.RefOps.lean ====
/- The reference program's @main as a straight line of host operations.
   The printed program runs four consecutive windows of statements; three outlined functions (the rectifier, the
   variance with its inner select) are called from it, and a call runs the callee's operations on the call's own
   buffers. Listed here, window by window, are all the operations in execution order, the callees' operations standing
   at their call sites. Proved: @main is the sequential run of that list; every operation touches TensorCore buffers
   only and determines its result; hence every weakly fair execution terminates with each buffer at the fold of the
   operations' results over the launch contents. -/
import proofs.«145301_j17463337025613_1_alg».proof.Proof.Gen.ReferenceIdeal
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 1 … 60, the called functions' operations in place of their calls
    (operations 1 … 60 of 294). -/
abbrev ops0 : List (HloOp τ sig (Elt F)) :=
  [ unary main_arg0 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg0 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x00000000#32),
    unary main_cst main_v4 (broadcastInDim S100000 ![] bcast_S_S100000 : (⟨S_, .f32⟩ : BufTy).Contents (Elt F) → (⟨S100000, .f32⟩ : BufTy).Contents (Elt F)),
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v3 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_v3 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v3 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    nullary main_cst_1 (constant S_ .f32 0x3F800000#32),
    unary main_cst_1 main_v11 (broadcastInDim S1600000 ![] bcast_S_S1600000 : (⟨S_, .f32⟩ : BufTy).Contents (Elt F) → (⟨S1600000, .f32⟩ : BufTy).Contents (Elt F)),
    ternary main_v4 main_v10 main_v11 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v12 main_v13 main_v14 (addf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    binary main_arg1 main_arg3 main_v16 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_3 (constantI S_ 32 0#32),
    unary main_c_3 main_v17 (broadcastInDim S1600000 ![] bcast_S_S1600000 : (⟨S_, .i32⟩ : BufTy).Contents (Elt F) → (⟨S1600000, .i32⟩ : BufTy).Contents (Elt F)),
    binary main_v1 main_v17 main_v18 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v19 (broadcastInDim S1600000 ![] bcast_S_S1600000 : (⟨S_, .i32⟩ : BufTy).Contents (Elt F) → (⟨S1600000, .i32⟩ : BufTy).Contents (Elt F)),
    binary main_v1 main_v19 main_v20 (addi : (⟨S1600000, .i32⟩ : BufTy).Contents (Elt F) → (⟨S1600000, .i32⟩ : BufTy).Contents (Elt F) → (⟨S1600000, .i32⟩ : BufTy).Contents (Elt F)),
    ternary main_v18 main_v20 main_v1 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v21 main_v22 (broadcastInDim S1600000x1 ![0] bcast_S1600000_S1600000x1_0 : (⟨S1600000, .i32⟩ : BufTy).Contents (Elt F) → (⟨S1600000x1, .i32⟩ : BufTy).Contents (Elt F)),
    binary main_v15 main_v22 main_v23 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_5 (constantI S_ 32 0#32),
    unary main_c_5 main_v24 (broadcastInDim S1600000 ![] bcast_S_S1600000 : (⟨S_, .i32⟩ : BufTy).Contents (Elt F) → (⟨S1600000, .i32⟩ : BufTy).Contents (Elt F)),
    binary main_v3 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v26 (broadcastInDim S1600000 ![] bcast_S_S1600000 : (⟨S_, .i32⟩ : BufTy).Contents (Elt F) → (⟨S1600000, .i32⟩ : BufTy).Contents (Elt F)),
    binary main_v3 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_v3 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v15 main_v29 main_v30 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v23 main_v30 main_v31 (mulf : (⟨S1600000, .f32⟩ : BufTy).Contents (Elt F) → (⟨S1600000, .f32⟩ : BufTy).Contents (Elt F) → (⟨S1600000, .f32⟩ : BufTy).Contents (Elt F)),
    unary main_v31 main_v32 (broadcastInDim S1600000x1 ![0] bcast_S1600000_S1600000x1_0 : (⟨S1600000, .f32⟩ : BufTy).Contents (Elt F) → (⟨S1600000x1, .f32⟩ : BufTy).Contents (Elt F)),
    nullary main_c_7 (constantI S_ 32 0#32),
    unary main_c_7 main_v33 (broadcastInDim S1600000 ![] bcast_S_S1600000 : (⟨S_, .i32⟩ : BufTy).Contents (Elt F) → (⟨S1600000, .i32⟩ : BufTy).Contents (Elt F)),
    binary main_v1 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v35 (broadcastInDim S1600000 ![] bcast_S_S1600000 : (⟨S_, .i32⟩ : BufTy).Contents (Elt F) → (⟨S1600000, .i32⟩ : BufTy).Contents (Elt F)),
    binary main_v1 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_v1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_v16 main_v38 main_v39 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v32 main_v40 (broadcastInDim S1600000x64 ![0, 1] bcast_S1600000x1_S1600000x64_0_1 : (⟨S1600000x1, .f32⟩ : BufTy).Contents (Elt F) → (⟨S1600000x64, .f32⟩ : BufTy).Contents (Elt F)),
    binary main_v39 main_v40 main_v41 (mulf : (⟨S1600000x64, .f32⟩ : BufTy).Contents (Elt F) → (⟨S1600000x64, .f32⟩ : BufTy).Contents (Elt F) → (⟨S1600000x64, .f32⟩ : BufTy).Contents (Elt F)),
    nullary main_cst_9 (constant S_ .f32 0x00000000#32),
    unary main_cst_9 main_v42 (broadcastInDim S100000x64 ![] bcast_S_S100000x64 : (⟨S_, .f32⟩ : BufTy).Contents (Elt F) → (⟨S100000x64, .f32⟩ : BufTy).Contents (Elt F)),
    unary main_v3 main_v43 (broadcastInDim S1600000x1 ![0] bcast_S1600000_S1600000x1_0 : (⟨S1600000, .i32⟩ : BufTy).Contents (Elt F) → (⟨S1600000x1, .i32⟩ : BufTy).Contents (Elt F)),
    ternary main_v42 main_v43 main_v41 main_v44 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v15 main_v15 main_v45 (mulf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x64 ![0, 1] bcast_S100000x1_S100000x64_0_1 : (⟨S100000x1, .f32⟩ : BufTy).Contents (Elt F) → (⟨S100000x64, .f32⟩ : BufTy).Contents (Elt F)) ]

/-- The operations of @main's statements 61 … 120, the called functions' operations in place of their calls
    (operations 61 … 143 of 294). -/
abbrev ops1 : List (HloOp τ sig (Elt F)) :=
  [ binary main_v47 main_v16 main_v48 (mulf : (⟨S100000x64, .f32⟩ : BufTy).Contents (Elt F) → (⟨S100000x64, .f32⟩ : BufTy).Contents (Elt F) → (⟨S100000x64, .f32⟩ : BufTy).Contents (Elt F)),
    binary main_v44 main_v48 main_v49 (addf : (⟨S100000x64, .f32⟩ : BufTy).Contents (Elt F) → (⟨S100000x64, .f32⟩ : BufTy).Contents (Elt F) → (⟨S100000x64, .f32⟩ : BufTy).Contents (Elt F)),
    unary main_arg4 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v49 main_v51 main_v52 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v52 : TRef sig ⟨S100000x64, .f32⟩) main_call0.v0 main_call0.v1 maximumf,
    nullary main_cst_10 (constant S_ .f32 0x00000000#32),
    binary main_v53 main_cst_10 main_v54 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_11 (constant S_ .f32 0x47C35000#32),
    unary main_cst_11 main_v55 (broadcastInDim S64 ![] bcast_S_S64 : (⟨S_, .f32⟩ : BufTy).Contents (Elt F) → (⟨S64, .f32⟩ : BufTy).Contents (Elt F)),
    binary main_v54 main_v55 main_v56 (Host.divf : (⟨S64, .f32⟩ : BufTy).Contents (Elt F) → (⟨S64, .f32⟩ : BufTy).Contents (Elt F) → (⟨S64, .f32⟩ : BufTy).Contents (Elt F)),
    nullary main_c_12 (constantI S_ 32 0#32),
    TRef.nullary main_call1.cst (constant S_ .f32 0x00000000#32),
    TRef.binary (.of main_v53 : TRef sig ⟨S100000x64, .f32⟩) main_call1.cst main_call1.v0 (fun x v => Host.reduceAdd x v reducesTo_S100000x64_S64_d0 h_S_),
    TRef.unary main_call1.v0 main_call1.v1 (broadcastInDim S1x64 ![1] bcast_S64_S1x64_1),
    TRef.nullary main_call1.cst_0 (constant S_ .f32 0x47C35000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S100000x64 ![0, 1] bcast_S1x64_S100000x64_0_1),
    TRef.binary (.of main_v53 : TRef sig ⟨S100000x64, .f32⟩) main_call1.v4 main_call1.v5 subf,
    TRef.binary main_call1.v5 main_call1.v5 main_call1.v6 mulf,
    TRef.unary (.of main_c_12 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b),
    unary main_v56 main_v58 (broadcastInDim S1x64 ![1] bcast_S64_S1x64_1 : (⟨S64, .f32⟩ : BufTy).Contents (Elt F) → (⟨S1x64, .f32⟩ : BufTy).Contents (Elt F)),
    unary main_v58 main_v59 (broadcastInDim S100000x64 ![0, 1] bcast_S1x64_S100000x64_0_1 : (⟨S1x64, .f32⟩ : BufTy).Contents (Elt F) → (⟨S100000x64, .f32⟩ : BufTy).Contents (Elt F)),
    binary main_v53 main_v59 main_v60 (subf : (⟨S100000x64, .f32⟩ : BufTy).Contents (Elt F) → (⟨S100000x64, .f32⟩ : BufTy).Contents (Elt F) → (⟨S100000x64, .f32⟩ : BufTy).Contents (Elt F)),
    unary main_arg5 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v62 main_v60 main_v63 (mulf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3727C5AC#32),
    unary main_cst_13 main_v64 (broadcastInDim S64 ![] bcast_S_S64 : (⟨S_, .f32⟩ : BufTy).Contents (Elt F) → (⟨S64, .f32⟩ : BufTy).Contents (Elt F)),
    binary main_v57 main_v64 main_v65 (addf : (⟨S64, .f32⟩ : BufTy).Contents (Elt F) → (⟨S64, .f32⟩ : BufTy).Contents (Elt F) → (⟨S64, .f32⟩ : BufTy).Contents (Elt F)),
    unary main_v65 main_v66 (Host.rsqrt : (⟨S64, .f32⟩ : BufTy).Contents (Elt F) → (⟨S64, .f32⟩ : BufTy).Contents (Elt F)),
    unary main_v66 main_v67 (broadcastInDim S1x64 ![1] bcast_S64_S1x64_1 : (⟨S64, .f32⟩ : BufTy).Contents (Elt F) → (⟨S1x64, .f32⟩ : BufTy).Contents (Elt F)),
    unary main_v67 main_v68 (broadcastInDim S100000x64 ![0, 1] bcast_S1x64_S100000x64_0_1 : (⟨S1x64, .f32⟩ : BufTy).Contents (Elt F) → (⟨S100000x64, .f32⟩ : BufTy).Contents (Elt F)),
    binary main_v63 main_v68 main_v69 (mulf : (⟨S100000x64, .f32⟩ : BufTy).Contents (Elt F) → (⟨S100000x64, .f32⟩ : BufTy).Contents (Elt F) → (⟨S100000x64, .f32⟩ : BufTy).Contents (Elt F)),
    unary main_arg6 main_v70 (broadcastInDim S1x64 ![1] bcast_S64_S1x64_1 : (⟨S64, .f32⟩ : BufTy).Contents (Elt F) → (⟨S1x64, .f32⟩ : BufTy).Contents (Elt F)),
    unary main_v70 main_v71 (broadcastInDim S100000x64 ![0, 1] bcast_S1x64_S100000x64_0_1 : (⟨S1x64, .f32⟩ : BufTy).Contents (Elt F) → (⟨S100000x64, .f32⟩ : BufTy).Contents (Elt F)),
    binary main_v69 main_v71 main_v72 (addf : (⟨S100000x64, .f32⟩ : BufTy).Contents (Elt F) → (⟨S100000x64, .f32⟩ : BufTy).Contents (Elt F) → (⟨S100000x64, .f32⟩ : BufTy).Contents (Elt F)),
    binary main_v72 main_arg7 main_v73 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_14 (constantI S_ 32 0#32),
    unary main_c_14 main_v74 (broadcastInDim S1600000 ![] bcast_S_S1600000 : (⟨S_, .i32⟩ : BufTy).Contents (Elt F) → (⟨S1600000, .i32⟩ : BufTy).Contents (Elt F)),
    binary main_v1 main_v74 main_v75 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v76 (broadcastInDim S1600000 ![] bcast_S_S1600000 : (⟨S_, .i32⟩ : BufTy).Contents (Elt F) → (⟨S1600000, .i32⟩ : BufTy).Contents (Elt F)),
    binary main_v1 main_v76 main_v77 (addi : (⟨S1600000, .i32⟩ : BufTy).Contents (Elt F) → (⟨S1600000, .i32⟩ : BufTy).Contents (Elt F) → (⟨S1600000, .i32⟩ : BufTy).Contents (Elt F)),
    ternary main_v75 main_v77 main_v1 main_v78 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v78 main_v79 (broadcastInDim S1600000x1 ![0] bcast_S1600000_S1600000x1_0 : (⟨S1600000, .i32⟩ : BufTy).Contents (Elt F) → (⟨S1600000x1, .i32⟩ : BufTy).Contents (Elt F)),
    binary main_v15 main_v79 main_v80 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_16 (constantI S_ 32 0#32),
    unary main_c_16 main_v81 (broadcastInDim S1600000 ![] bcast_S_S1600000 : (⟨S_, .i32⟩ : BufTy).Contents (Elt F) → (⟨S1600000, .i32⟩ : BufTy).Contents (Elt F)),
    binary main_v3 main_v81 main_v82 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v83 (broadcastInDim S1600000 ![] bcast_S_S1600000 : (⟨S_, .i32⟩ : BufTy).Contents (Elt F) → (⟨S1600000, .i32⟩ : BufTy).Contents (Elt F)),
    binary main_v3 main_v83 main_v84 (addi : (⟨S1600000, .i32⟩ : BufTy).Contents (Elt F) → (⟨S1600000, .i32⟩ : BufTy).Contents (Elt F) → (⟨S1600000, .i32⟩ : BufTy).Contents (Elt F)),
    ternary main_v82 main_v84 main_v3 main_v85 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v85 main_v86 (broadcastInDim S1600000x1 ![0] bcast_S1600000_S1600000x1_0 : (⟨S1600000, .i32⟩ : BufTy).Contents (Elt F) → (⟨S1600000x1, .i32⟩ : BufTy).Contents (Elt F)),
    binary main_v15 main_v86 main_v87 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v80 main_v87 main_v88 (mulf : (⟨S1600000, .f32⟩ : BufTy).Contents (Elt F) → (⟨S1600000, .f32⟩ : BufTy).Contents (Elt F) → (⟨S1600000, .f32⟩ : BufTy).Contents (Elt F)),
    unary main_v88 main_v89 (broadcastInDim S1600000x1 ![0] bcast_S1600000_S1600000x1_0 : (⟨S1600000, .f32⟩ : BufTy).Contents (Elt F) → (⟨S1600000x1, .f32⟩ : BufTy).Contents (Elt F)),
    nullary main_c_18 (constantI S_ 32 0#32),
    unary main_c_18 main_v90 (broadcastInDim S1600000 ![] bcast_S_S1600000 : (⟨S_, .i32⟩ : BufTy).Contents (Elt F) → (⟨S1600000, .i32⟩ : BufTy).Contents (Elt F)),
    binary main_v1 main_v90 main_v91 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v92 (broadcastInDim S1600000 ![] bcast_S_S1600000 : (⟨S_, .i32⟩ : BufTy).Contents (Elt F) → (⟨S1600000, .i32⟩ : BufTy).Contents (Elt F)),
    binary main_v1 main_v92 main_v93 (addi : (⟨S1600000, .i32⟩ : BufTy).Contents (Elt F) → (⟨S1600000, .i32⟩ : BufTy).Contents (Elt F) → (⟨S1600000, .i32⟩ : BufTy).Contents (Elt F)),
    ternary main_v91 main_v93 main_v1 main_v94 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v94 main_v95 (broadcastInDim S1600000x1 ![0] bcast_S1600000_S1600000x1_0 : (⟨S1600000, .i32⟩ : BufTy).Contents (Elt F) → (⟨S1600000x1, .i32⟩ : BufTy).Contents (Elt F)),
    binary main_v73 main_v95 main_v96 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v89 main_v97 (broadcastInDim S1600000x64 ![0, 1] bcast_S1600000x1_S1600000x64_0_1 : (⟨S1600000x1, .f32⟩ : BufTy).Contents (Elt F) → (⟨S1600000x64, .f32⟩ : BufTy).Contents (Elt F)) ]

/-- The operations of @main's statements 121 … 180, the called functions' operations in place of their calls
    (operations 144 … 226 of 294). -/
abbrev ops2 : List (HloOp τ sig (Elt F)) :=
  [ binary main_v96 main_v97 main_v98 (mulf : (⟨S1600000x64, .f32⟩ : BufTy).Contents (Elt F) → (⟨S1600000x64, .f32⟩ : BufTy).Contents (Elt F) → (⟨S1600000x64, .f32⟩ : BufTy).Contents (Elt F)),
    nullary main_cst_20 (constant S_ .f32 0x00000000#32),
    unary main_cst_20 main_v99 (broadcastInDim S100000x64 ![] bcast_S_S100000x64 : (⟨S_, .f32⟩ : BufTy).Contents (Elt F) → (⟨S100000x64, .f32⟩ : BufTy).Contents (Elt F)),
    unary main_v3 main_v100 (broadcastInDim S1600000x1 ![0] bcast_S1600000_S1600000x1_0 : (⟨S1600000, .i32⟩ : BufTy).Contents (Elt F) → (⟨S1600000x1, .i32⟩ : BufTy).Contents (Elt F)),
    ternary main_v99 main_v100 main_v98 main_v101 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v15 main_v15 main_v102 (mulf : (⟨S100000, .f32⟩ : BufTy).Contents (Elt F) → (⟨S100000, .f32⟩ : BufTy).Contents (Elt F) → (⟨S100000, .f32⟩ : BufTy).Contents (Elt F)),
    unary main_v102 main_v103 (broadcastInDim S100000x1 ![0] bcast_S100000_S100000x1_0 : (⟨S100000, .f32⟩ : BufTy).Contents (Elt F) → (⟨S100000x1, .f32⟩ : BufTy).Contents (Elt F)),
    unary main_v103 main_v104 (broadcastInDim S100000x64 ![0, 1] bcast_S100000x1_S100000x64_0_1 : (⟨S100000x1, .f32⟩ : BufTy).Contents (Elt F) → (⟨S100000x64, .f32⟩ : BufTy).Contents (Elt F)),
    binary main_v104 main_v73 main_v105 (mulf : (⟨S100000x64, .f32⟩ : BufTy).Contents (Elt F) → (⟨S100000x64, .f32⟩ : BufTy).Contents (Elt F) → (⟨S100000x64, .f32⟩ : BufTy).Contents (Elt F)),
    binary main_v101 main_v105 main_v106 (addf : (⟨S100000x64, .f32⟩ : BufTy).Contents (Elt F) → (⟨S100000x64, .f32⟩ : BufTy).Contents (Elt F) → (⟨S100000x64, .f32⟩ : BufTy).Contents (Elt F)),
    unary main_arg8 main_v107 (broadcastInDim S1x64 ![1] bcast_S64_S1x64_1 : (⟨S64, .f32⟩ : BufTy).Contents (Elt F) → (⟨S1x64, .f32⟩ : BufTy).Contents (Elt F)),
    unary main_v107 main_v108 (broadcastInDim S100000x64 ![0, 1] bcast_S1x64_S100000x64_0_1 : (⟨S1x64, .f32⟩ : BufTy).Contents (Elt F) → (⟨S100000x64, .f32⟩ : BufTy).Contents (Elt F)),
    binary main_v106 main_v108 main_v109 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v109 : TRef sig ⟨S100000x64, .f32⟩) main_call2.v0 main_call2.v1 maximumf,
    nullary main_cst_21 (constant S_ .f32 0x00000000#32),
    binary main_v110 main_cst_21 main_v111 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_22 (constant S_ .f32 0x47C35000#32),
    unary main_cst_22 main_v112 (broadcastInDim S64 ![] bcast_S_S64 : (⟨S_, .f32⟩ : BufTy).Contents (Elt F) → (⟨S64, .f32⟩ : BufTy).Contents (Elt F)),
    binary main_v111 main_v112 main_v113 (Host.divf : (⟨S64, .f32⟩ : BufTy).Contents (Elt F) → (⟨S64, .f32⟩ : BufTy).Contents (Elt F) → (⟨S64, .f32⟩ : BufTy).Contents (Elt F)),
    nullary main_c_23 (constantI S_ 32 0#32),
    TRef.nullary main_call3.cst (constant S_ .f32 0x00000000#32),
    TRef.binary (.of main_v110 : TRef sig ⟨S100000x64, .f32⟩) main_call3.cst main_call3.v0 (fun x v => Host.reduceAdd x v reducesTo_S100000x64_S64_d0 h_S_),
    TRef.unary main_call3.v0 main_call3.v1 (broadcastInDim S1x64 ![1] bcast_S64_S1x64_1),
    TRef.nullary main_call3.cst_0 (constant S_ .f32 0x47C35000#32),
    TRef.unary main_call3.cst_0 main_call3.v2 (broadcastInDim S1x64 ![] bcast_S_S1x64),
    TRef.binary main_call3.v1 main_call3.v2 main_call3.v3 Host.divf,
    TRef.unary main_call3.v3 main_call3.v4 (broadcastInDim S100000x64 ![0, 1] bcast_S1x64_S100000x64_0_1),
    TRef.binary (.of main_v110 : TRef sig ⟨S100000x64, .f32⟩) main_call3.v4 main_call3.v5 subf,
    TRef.binary main_call3.v5 main_call3.v5 main_call3.v6 mulf,
    TRef.unary (.of main_c_23 : TRef sig ⟨S_, .i32⟩) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x64_S64_d0 h_S_),
    TRef.unary main_call3.v8 main_call3.v10 (broadcastInDim S64 ![] bcast_S_S64),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S64 ![] bcast_S_S64),
    TRef.ternary main_call3.v12 main_call3.v11 main_call3.call0.v1 main_call3.call0.v2 (fun p a b => select (broadcastInDim S64 ![] bcast_S_S64 p) a b),
    unary main_v113 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v110 main_v116 main_v117 (subf : (⟨S100000x64, .f32⟩ : BufTy).Contents (Elt F) → (⟨S100000x64, .f32⟩ : BufTy).Contents (Elt F) → (⟨S100000x64, .f32⟩ : BufTy).Contents (Elt F)),
    unary main_arg9 main_v118 (broadcastInDim S1x64 ![1] bcast_S64_S1x64_1 : (⟨S64, .f32⟩ : BufTy).Contents (Elt F) → (⟨S1x64, .f32⟩ : BufTy).Contents (Elt F)),
    unary main_v118 main_v119 (broadcastInDim S100000x64 ![0, 1] bcast_S1x64_S100000x64_0_1 : (⟨S1x64, .f32⟩ : BufTy).Contents (Elt F) → (⟨S100000x64, .f32⟩ : BufTy).Contents (Elt F)),
    binary main_v119 main_v117 main_v120 (mulf : (⟨S100000x64, .f32⟩ : BufTy).Contents (Elt F) → (⟨S100000x64, .f32⟩ : BufTy).Contents (Elt F) → (⟨S100000x64, .f32⟩ : BufTy).Contents (Elt F)),
    nullary main_cst_24 (constant S_ .f32 0x3727C5AC#32),
    unary main_cst_24 main_v121 (broadcastInDim S64 ![] bcast_S_S64 : (⟨S_, .f32⟩ : BufTy).Contents (Elt F) → (⟨S64, .f32⟩ : BufTy).Contents (Elt F)),
    binary main_v114 main_v121 main_v122 (addf : (⟨S64, .f32⟩ : BufTy).Contents (Elt F) → (⟨S64, .f32⟩ : BufTy).Contents (Elt F) → (⟨S64, .f32⟩ : BufTy).Contents (Elt F)),
    unary main_v122 main_v123 (Host.rsqrt : (⟨S64, .f32⟩ : BufTy).Contents (Elt F) → (⟨S64, .f32⟩ : BufTy).Contents (Elt F)),
    unary main_v123 main_v124 (broadcastInDim S1x64 ![1] bcast_S64_S1x64_1 : (⟨S64, .f32⟩ : BufTy).Contents (Elt F) → (⟨S1x64, .f32⟩ : BufTy).Contents (Elt F)),
    unary main_v124 main_v125 (broadcastInDim S100000x64 ![0, 1] bcast_S1x64_S100000x64_0_1 : (⟨S1x64, .f32⟩ : BufTy).Contents (Elt F) → (⟨S100000x64, .f32⟩ : BufTy).Contents (Elt F)),
    binary main_v120 main_v125 main_v126 (mulf : (⟨S100000x64, .f32⟩ : BufTy).Contents (Elt F) → (⟨S100000x64, .f32⟩ : BufTy).Contents (Elt F) → (⟨S100000x64, .f32⟩ : BufTy).Contents (Elt F)),
    unary main_arg10 main_v127 (broadcastInDim S1x64 ![1] bcast_S64_S1x64_1 : (⟨S64, .f32⟩ : BufTy).Contents (Elt F) → (⟨S1x64, .f32⟩ : BufTy).Contents (Elt F)),
    unary main_v127 main_v128 (broadcastInDim S100000x64 ![0, 1] bcast_S1x64_S100000x64_0_1 : (⟨S1x64, .f32⟩ : BufTy).Contents (Elt F) → (⟨S100000x64, .f32⟩ : BufTy).Contents (Elt F)),
    binary main_v126 main_v128 main_v129 (addf : (⟨S100000x64, .f32⟩ : BufTy).Contents (Elt F) → (⟨S100000x64, .f32⟩ : BufTy).Contents (Elt F) → (⟨S100000x64, .f32⟩ : BufTy).Contents (Elt F)),
    binary main_v129 main_arg11 main_v130 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_25 (constantI S_ 32 0#32),
    unary main_c_25 main_v131 (broadcastInDim S1600000 ![] bcast_S_S1600000 : (⟨S_, .i32⟩ : BufTy).Contents (Elt F) → (⟨S1600000, .i32⟩ : BufTy).Contents (Elt F)),
    binary main_v1 main_v131 main_v132 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v133 (broadcastInDim S1600000 ![] bcast_S_S1600000 : (⟨S_, .i32⟩ : BufTy).Contents (Elt F) → (⟨S1600000, .i32⟩ : BufTy).Contents (Elt F)),
    binary main_v1 main_v133 main_v134 (addi : (⟨S1600000, .i32⟩ : BufTy).Contents (Elt F) → (⟨S1600000, .i32⟩ : BufTy).Contents (Elt F) → (⟨S1600000, .i32⟩ : BufTy).Contents (Elt F)),
    ternary main_v132 main_v134 main_v1 main_v135 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v135 main_v136 (broadcastInDim S1600000x1 ![0] bcast_S1600000_S1600000x1_0 : (⟨S1600000, .i32⟩ : BufTy).Contents (Elt F) → (⟨S1600000x1, .i32⟩ : BufTy).Contents (Elt F)),
    binary main_v15 main_v136 main_v137 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_27 (constantI S_ 32 0#32),
    unary main_c_27 main_v138 (broadcastInDim S1600000 ![] bcast_S_S1600000 : (⟨S_, .i32⟩ : BufTy).Contents (Elt F) → (⟨S1600000, .i32⟩ : BufTy).Contents (Elt F)),
    binary main_v3 main_v138 main_v139 (cmpi .slt : (⟨S1600000, .i32⟩ : BufTy).Contents (Elt F) → (⟨S1600000, .i32⟩ : BufTy).Contents (Elt F) → (⟨S1600000, .i1⟩ : BufTy).Contents (Elt F)),
    nullary main_c_28 (constantI S_ 32 100000#32),
    unary main_c_28 main_v140 (broadcastInDim S1600000 ![] bcast_S_S1600000 : (⟨S_, .i32⟩ : BufTy).Contents (Elt F) → (⟨S1600000, .i32⟩ : BufTy).Contents (Elt F)),
    binary main_v3 main_v140 main_v141 (addi : (⟨S1600000, .i32⟩ : BufTy).Contents (Elt F) → (⟨S1600000, .i32⟩ : BufTy).Contents (Elt F) → (⟨S1600000, .i32⟩ : BufTy).Contents (Elt F)),
    ternary main_v139 main_v141 main_v3 main_v142 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v142 main_v143 (broadcastInDim S1600000x1 ![0] bcast_S1600000_S1600000x1_0 : (⟨S1600000, .i32⟩ : BufTy).Contents (Elt F) → (⟨S1600000x1, .i32⟩ : BufTy).Contents (Elt F)),
    binary main_v15 main_v143 main_v144 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v137 main_v144 main_v145 (mulf : (⟨S1600000, .f32⟩ : BufTy).Contents (Elt F) → (⟨S1600000, .f32⟩ : BufTy).Contents (Elt F) → (⟨S1600000, .f32⟩ : BufTy).Contents (Elt F)),
    unary main_v145 main_v146 (broadcastInDim S1600000x1 ![0] bcast_S1600000_S1600000x1_0 : (⟨S1600000, .f32⟩ : BufTy).Contents (Elt F) → (⟨S1600000x1, .f32⟩ : BufTy).Contents (Elt F)),
    nullary main_c_29 (constantI S_ 32 0#32),
    unary main_c_29 main_v147 (broadcastInDim S1600000 ![] bcast_S_S1600000 : (⟨S_, .i32⟩ : BufTy).Contents (Elt F) → (⟨S1600000, .i32⟩ : BufTy).Contents (Elt F)) ]

/-- The operations of @main's statements 181 … 226, the called functions' operations in place of their calls
    (operations 227 … 294 of 294). -/
abbrev ops3 : List (HloOp τ sig (Elt F)) :=
  [ binary main_v1 main_v147 main_v148 (cmpi .slt : (⟨S1600000, .i32⟩ : BufTy).Contents (Elt F) → (⟨S1600000, .i32⟩ : BufTy).Contents (Elt F) → (⟨S1600000, .i1⟩ : BufTy).Contents (Elt F)),
    nullary main_c_30 (constantI S_ 32 100000#32),
    unary main_c_30 main_v149 (broadcastInDim S1600000 ![] bcast_S_S1600000 : (⟨S_, .i32⟩ : BufTy).Contents (Elt F) → (⟨S1600000, .i32⟩ : BufTy).Contents (Elt F)),
    binary main_v1 main_v149 main_v150 (addi : (⟨S1600000, .i32⟩ : BufTy).Contents (Elt F) → (⟨S1600000, .i32⟩ : BufTy).Contents (Elt F) → (⟨S1600000, .i32⟩ : BufTy).Contents (Elt F)),
    ternary main_v148 main_v150 main_v1 main_v151 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v151 main_v152 (broadcastInDim S1600000x1 ![0] bcast_S1600000_S1600000x1_0 : (⟨S1600000, .i32⟩ : BufTy).Contents (Elt F) → (⟨S1600000x1, .i32⟩ : BufTy).Contents (Elt F)),
    binary main_v130 main_v152 main_v153 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v146 main_v154 (broadcastInDim S1600000x64 ![0, 1] bcast_S1600000x1_S1600000x64_0_1 : (⟨S1600000x1, .f32⟩ : BufTy).Contents (Elt F) → (⟨S1600000x64, .f32⟩ : BufTy).Contents (Elt F)),
    binary main_v153 main_v154 main_v155 (mulf : (⟨S1600000x64, .f32⟩ : BufTy).Contents (Elt F) → (⟨S1600000x64, .f32⟩ : BufTy).Contents (Elt F) → (⟨S1600000x64, .f32⟩ : BufTy).Contents (Elt F)),
    nullary main_cst_31 (constant S_ .f32 0x00000000#32),
    unary main_cst_31 main_v156 (broadcastInDim S100000x64 ![] bcast_S_S100000x64 : (⟨S_, .f32⟩ : BufTy).Contents (Elt F) → (⟨S100000x64, .f32⟩ : BufTy).Contents (Elt F)),
    unary main_v3 main_v157 (broadcastInDim S1600000x1 ![0] bcast_S1600000_S1600000x1_0 : (⟨S1600000, .i32⟩ : BufTy).Contents (Elt F) → (⟨S1600000x1, .i32⟩ : BufTy).Contents (Elt F)),
    ternary main_v156 main_v157 main_v155 main_v158 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v15 main_v15 main_v159 (mulf : (⟨S100000, .f32⟩ : BufTy).Contents (Elt F) → (⟨S100000, .f32⟩ : BufTy).Contents (Elt F) → (⟨S100000, .f32⟩ : BufTy).Contents (Elt F)),
    unary main_v159 main_v160 (broadcastInDim S100000x1 ![0] bcast_S100000_S100000x1_0 : (⟨S100000, .f32⟩ : BufTy).Contents (Elt F) → (⟨S100000x1, .f32⟩ : BufTy).Contents (Elt F)),
    unary main_v160 main_v161 (broadcastInDim S100000x64 ![0, 1] bcast_S100000x1_S100000x64_0_1 : (⟨S100000x1, .f32⟩ : BufTy).Contents (Elt F) → (⟨S100000x64, .f32⟩ : BufTy).Contents (Elt F)),
    binary main_v161 main_v130 main_v162 (mulf : (⟨S100000x64, .f32⟩ : BufTy).Contents (Elt F) → (⟨S100000x64, .f32⟩ : BufTy).Contents (Elt F) → (⟨S100000x64, .f32⟩ : BufTy).Contents (Elt F)),
    binary main_v158 main_v162 main_v163 (addf : (⟨S100000x64, .f32⟩ : BufTy).Contents (Elt F) → (⟨S100000x64, .f32⟩ : BufTy).Contents (Elt F) → (⟨S100000x64, .f32⟩ : BufTy).Contents (Elt F)),
    unary main_arg12 main_v164 (broadcastInDim S1x64 ![1] bcast_S64_S1x64_1 : (⟨S64, .f32⟩ : BufTy).Contents (Elt F) → (⟨S1x64, .f32⟩ : BufTy).Contents (Elt F)),
    unary main_v164 main_v165 (broadcastInDim S100000x64 ![0, 1] bcast_S1x64_S100000x64_0_1 : (⟨S1x64, .f32⟩ : BufTy).Contents (Elt F) → (⟨S100000x64, .f32⟩ : BufTy).Contents (Elt F)),
    binary main_v163 main_v165 main_v166 (addf : (⟨S100000x64, .f32⟩ : BufTy).Contents (Elt F) → (⟨S100000x64, .f32⟩ : BufTy).Contents (Elt F) → (⟨S100000x64, .f32⟩ : BufTy).Contents (Elt F)),
    TRef.nullary main_call4.cst (constant S_ .f32 0x00000000#32),
    TRef.unary main_call4.cst main_call4.v0 (broadcastInDim S100000x64 ![] bcast_S_S100000x64),
    TRef.binary (.of main_v166 : TRef sig ⟨S100000x64, .f32⟩) main_call4.v0 main_call4.v1 maximumf,
    nullary main_cst_32 (constant S_ .f32 0x00000000#32),
    binary main_v167 main_cst_32 main_v168 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_33 (constant S_ .f32 0x47C35000#32),
    unary main_cst_33 main_v169 (broadcastInDim S64 ![] bcast_S_S64 : (⟨S_, .f32⟩ : BufTy).Contents (Elt F) → (⟨S64, .f32⟩ : BufTy).Contents (Elt F)),
    binary main_v168 main_v169 main_v170 (Host.divf : (⟨S64, .f32⟩ : BufTy).Contents (Elt F) → (⟨S64, .f32⟩ : BufTy).Contents (Elt F) → (⟨S64, .f32⟩ : BufTy).Contents (Elt F)),
    nullary main_c_34 (constantI S_ 32 0#32),
    TRef.nullary main_call5.cst (constant S_ .f32 0x00000000#32),
    TRef.binary (.of main_v167 : TRef sig ⟨S100000x64, .f32⟩) main_call5.cst main_call5.v0 (fun x v => Host.reduceAdd x v reducesTo_S100000x64_S64_d0 h_S_),
    TRef.unary main_call5.v0 main_call5.v1 (broadcastInDim S1x64 ![1] bcast_S64_S1x64_1),
    TRef.nullary main_call5.cst_0 (constant S_ .f32 0x47C35000#32),
    TRef.unary main_call5.cst_0 main_call5.v2 (broadcastInDim S1x64 ![] bcast_S_S1x64),
    TRef.binary main_call5.v1 main_call5.v2 main_call5.v3 Host.divf,
    TRef.unary main_call5.v3 main_call5.v4 (broadcastInDim S100000x64 ![0, 1] bcast_S1x64_S100000x64_0_1),
    TRef.binary (.of main_v167 : TRef sig ⟨S100000x64, .f32⟩) main_call5.v4 main_call5.v5 subf,
    TRef.binary main_call5.v5 main_call5.v5 main_call5.v6 mulf,
    TRef.unary (.of main_c_34 : TRef sig ⟨S_, .i32⟩) main_call5.v7 (sitofp .f32),
    TRef.nullary main_call5.cst_1 (constant S_ .f32 0x47C35000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x64_S64_d0 h_S_),
    TRef.unary main_call5.v8 main_call5.v10 (broadcastInDim S64 ![] bcast_S_S64),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S64 ![] bcast_S_S64),
    TRef.ternary main_call5.v12 main_call5.v11 main_call5.call0.v1 main_call5.call0.v2 (fun p a b => select (broadcastInDim S64 ![] bcast_S_S64 p) a b),
    unary main_v170 main_v172 (broadcastInDim S1x64 ![1] bcast_S64_S1x64_1 : (⟨S64, .f32⟩ : BufTy).Contents (Elt F) → (⟨S1x64, .f32⟩ : BufTy).Contents (Elt F)),
    unary main_v172 main_v173 (broadcastInDim S100000x64 ![0, 1] bcast_S1x64_S100000x64_0_1 : (⟨S1x64, .f32⟩ : BufTy).Contents (Elt F) → (⟨S100000x64, .f32⟩ : BufTy).Contents (Elt F)),
    binary main_v167 main_v173 main_v174 (subf : (⟨S100000x64, .f32⟩ : BufTy).Contents (Elt F) → (⟨S100000x64, .f32⟩ : BufTy).Contents (Elt F) → (⟨S100000x64, .f32⟩ : BufTy).Contents (Elt F)),
    unary main_arg13 main_v175 (broadcastInDim S1x64 ![1] bcast_S64_S1x64_1 : (⟨S64, .f32⟩ : BufTy).Contents (Elt F) → (⟨S1x64, .f32⟩ : BufTy).Contents (Elt F)),
    unary main_v175 main_v176 (broadcastInDim S100000x64 ![0, 1] bcast_S1x64_S100000x64_0_1 : (⟨S1x64, .f32⟩ : BufTy).Contents (Elt F) → (⟨S100000x64, .f32⟩ : BufTy).Contents (Elt F)),
    binary main_v176 main_v174 main_v177 (mulf : (⟨S100000x64, .f32⟩ : BufTy).Contents (Elt F) → (⟨S100000x64, .f32⟩ : BufTy).Contents (Elt F) → (⟨S100000x64, .f32⟩ : BufTy).Contents (Elt F)),
    nullary main_cst_35 (constant S_ .f32 0x3727C5AC#32),
    unary main_cst_35 main_v178 (broadcastInDim S64 ![] bcast_S_S64 : (⟨S_, .f32⟩ : BufTy).Contents (Elt F) → (⟨S64, .f32⟩ : BufTy).Contents (Elt F)),
    binary main_v171 main_v178 main_v179 (addf : (⟨S64, .f32⟩ : BufTy).Contents (Elt F) → (⟨S64, .f32⟩ : BufTy).Contents (Elt F) → (⟨S64, .f32⟩ : BufTy).Contents (Elt F)),
    unary main_v179 main_v180 (Host.rsqrt : (⟨S64, .f32⟩ : BufTy).Contents (Elt F) → (⟨S64, .f32⟩ : BufTy).Contents (Elt F)),
    unary main_v180 main_v181 (broadcastInDim S1x64 ![1] bcast_S64_S1x64_1 : (⟨S64, .f32⟩ : BufTy).Contents (Elt F) → (⟨S1x64, .f32⟩ : BufTy).Contents (Elt F)),
    unary main_v181 main_v182 (broadcastInDim S100000x64 ![0, 1] bcast_S1x64_S100000x64_0_1 : (⟨S1x64, .f32⟩ : BufTy).Contents (Elt F) → (⟨S100000x64, .f32⟩ : BufTy).Contents (Elt F)),
    binary main_v177 main_v182 main_v183 (mulf : (⟨S100000x64, .f32⟩ : BufTy).Contents (Elt F) → (⟨S100000x64, .f32⟩ : BufTy).Contents (Elt F) → (⟨S100000x64, .f32⟩ : BufTy).Contents (Elt F)),
    unary main_arg14 main_v184 (broadcastInDim S1x64 ![1] bcast_S64_S1x64_1 : (⟨S64, .f32⟩ : BufTy).Contents (Elt F) → (⟨S1x64, .f32⟩ : BufTy).Contents (Elt F)),
    unary main_v184 main_v185 (broadcastInDim S100000x64 ![0, 1] bcast_S1x64_S100000x64_0_1 : (⟨S1x64, .f32⟩ : BufTy).Contents (Elt F) → (⟨S100000x64, .f32⟩ : BufTy).Contents (Elt F)),
    binary main_v183 main_v185 main_v186 (addf : (⟨S100000x64, .f32⟩ : BufTy).Contents (Elt F) → (⟨S100000x64, .f32⟩ : BufTy).Contents (Elt F) → (⟨S100000x64, .f32⟩ : BufTy).Contents (Elt F)) ]

/-- All 294 operations of @main, in execution order. -/
abbrev ops : List (HloOp τ sig (Elt F)) := ops0 ++ (ops1 ++ (ops2 ++ ops3))

set_option maxRecDepth 8192 in
/-- Window 0 of @main is the sequential run of its operations: a call unfolds to its callee's body, and sequencing
    reassociates by computation. -/
theorem main_part0_eq (c : Dev nD) : main_part0 (F := F) c = seq ops0 := rfl

set_option maxRecDepth 8192 in
/-- Window 1 of @main is the sequential run of its operations: a call unfolds to its callee's body, and sequencing
    reassociates by computation. -/
theorem main_part1_eq (c : Dev nD) : main_part1 (F := F) c = seq ops1 := rfl

set_option maxRecDepth 8192 in
/-- Window 2 of @main is the sequential run of its operations: a call unfolds to its callee's body, and sequencing
    reassociates by computation. -/
theorem main_part2_eq (c : Dev nD) : main_part2 (F := F) c = seq ops2 := rfl

set_option maxRecDepth 8192 in
/-- Window 3 of @main is the sequential run of its operations: a call unfolds to its callee's body, and sequencing
    reassociates by computation. -/
theorem main_part3_eq (c : Dev nD) : main_part3 (F := F) c = seq ops3 := rfl

/-- @main is the sequential run of the whole list: its four windows in order. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub ..⟩

set_option maxRecDepth 8192 in
/-- No operation of the window leaves a buffer undetermined. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_sub : (ops1 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩

set_option maxRecDepth 8192 in
/-- No operation of the window leaves a buffer undetermined. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_sub : (ops2 : List (HloOp τ sig (Elt F))).Forall fun op => op.bufs ⊆ tcRefs τ sig :=
  ⟨binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub ..⟩

set_option maxRecDepth 8192 in
/-- No operation of the window leaves a buffer undetermined. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_sub : (ops3 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

set_option maxRecDepth 8192 in
/-- No operation of the window leaves a buffer undetermined. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation reads and writes TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-- Every operation determines its result. -/
theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

/-- On every device, for any float values, from any memory with zero counters: every weakly fair execution of @main
    terminates, and each TensorCore buffer ends at the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.HandRun

end
-- ==== Proof.RefStageD.lean ====
/- The reference's first operations, read back: the two rows of the edge list and the inverse square roots of the node
   degrees are the specification's functions of the edge list; no argument is written. -/
import proofs.«145301_j17463337025613_1_alg».proof.Proof.Gen.ReferenceIdeal
import proofs.«145301_j17463337025613_1_alg».proof.Proof.RefSpec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Gcn.RefSpec

variable {F : FTy → Type} [FloatOps F]

/-- Operations 1 … 21 of @main, in order (a called function's operations in place of its call). -/
def stageD : List (HloOp τ sig (Elt F)) :=
  [ unary main_arg0 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg0 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x00000000#32),
    unary main_cst main_v4 (broadcastInDim S100000 ![] bcast_S_S100000 : (⟨S_, .f32⟩ : BufTy).Contents (Elt F) → (⟨S100000, .f32⟩ : BufTy).Contents (Elt F)),
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v3 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_v3 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v3 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    nullary main_cst_1 (constant S_ .f32 0x3F800000#32),
    unary main_cst_1 main_v11 (broadcastInDim S1600000 ![] bcast_S_S1600000 : (⟨S_, .f32⟩ : BufTy).Contents (Elt F) → (⟨S1600000, .f32⟩ : BufTy).Contents (Elt F)),
    ternary main_v4 main_v10 main_v11 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v12 main_v13 main_v14 (addf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)) ]

set_option maxRecDepth 16384 in
set_option maxHeartbeats 4000000 in
/-- The sources: row 0 of the edge list. -/
theorem stageD_src (W : Valuation τ sig (Elt F)) :
    after stageD W (Proc.devRef .tc main_v1) = refSrc (W (Proc.devRef .tc main_arg0)) := by
  unfold stageD
  after_results_simp <;> rfl

set_option maxRecDepth 16384 in
set_option maxHeartbeats 4000000 in
/-- The destinations: row 1 of the edge list. -/
theorem stageD_dst (W : Valuation τ sig (Elt F)) :
    after stageD W (Proc.devRef .tc main_v3) = refDst (W (Proc.devRef .tc main_arg0)) := by
  unfold stageD
  after_results_simp <;> rfl

set_option maxRecDepth 16384 in
set_option maxHeartbeats 4000000 in
/-- The inverse square roots of the degrees. -/
theorem stageD_dinv (W : Valuation τ sig (Elt F)) :
    after stageD W (Proc.devRef .tc main_v15) = refDinv (refDst (W (Proc.devRef .tc main_arg0))) := by
  unfold stageD
  after_results_simp <;> rfl

set_option maxRecDepth 16384 in
set_option maxHeartbeats 4000000 in
/-- No operation of the stretch writes `main_arg0`. -/
theorem stageD_keep_main_arg0 (W : Valuation τ sig (Elt F)) :
    after stageD W (Proc.devRef .tc main_arg0) = W (Proc.devRef .tc main_arg0) := by
  unfold stageD
  after_results_simp

set_option maxRecDepth 16384 in
set_option maxHeartbeats 4000000 in
/-- No operation of the stretch writes `main_arg1`. -/
theorem stageD_keep_main_arg1 (W : Valuation τ sig (Elt F)) :
    after stageD W (Proc.devRef .tc main_arg1) = W (Proc.devRef .tc main_arg1) := by
  unfold stageD
  after_results_simp

set_option maxRecDepth 16384 in
set_option maxHeartbeats 4000000 in
/-- No operation of the stretch writes `main_arg2`. -/
theorem stageD_keep_main_arg2 (W : Valuation τ sig (Elt F)) :
    after stageD W (Proc.devRef .tc main_arg2) = W (Proc.devRef .tc main_arg2) := by
  unfold stageD
  after_results_simp

set_option maxRecDepth 16384 in
set_option maxHeartbeats 4000000 in
/-- No operation of the stretch writes `main_arg3`. -/
theorem stageD_keep_main_arg3 (W : Valuation τ sig (Elt F)) :
    after stageD W (Proc.devRef .tc main_arg3) = W (Proc.devRef .tc main_arg3) := by
  unfold stageD
  after_results_simp

set_option maxRecDepth 16384 in
set_option maxHeartbeats 4000000 in
/-- No operation of the stretch writes `main_arg4`. -/
theorem stageD_keep_main_arg4 (W : Valuation τ sig (Elt F)) :
    after stageD W (Proc.devRef .tc main_arg4) = W (Proc.devRef .tc main_arg4) := by
  unfold stageD
  after_results_simp

set_option maxRecDepth 16384 in
set_option maxHeartbeats 4000000 in
/-- No operation of the stretch writes `main_arg5`. -/
theorem stageD_keep_main_arg5 (W : Valuation τ sig (Elt F)) :
    after stageD W (Proc.devRef .tc main_arg5) = W (Proc.devRef .tc main_arg5) := by
  unfold stageD
  after_results_simp

set_option maxRecDepth 16384 in
set_option maxHeartbeats 4000000 in
/-- No operation of the stretch writes `main_arg6`. -/
theorem stageD_keep_main_arg6 (W : Valuation τ sig (Elt F)) :
    after stageD W (Proc.devRef .tc main_arg6) = W (Proc.devRef .tc main_arg6) := by
  unfold stageD
  after_results_simp

set_option maxRecDepth 16384 in
set_option maxHeartbeats 4000000 in
/-- No operation of the stretch writes `main_arg7`. -/
theorem stageD_keep_main_arg7 (W : Valuation τ sig (Elt F)) :
    after stageD W (Proc.devRef .tc main_arg7) = W (Proc.devRef .tc main_arg7) := by
  unfold stageD
  after_results_simp

set_option maxRecDepth 16384 in
set_option maxHeartbeats 4000000 in
/-- No operation of the stretch writes `main_arg8`. -/
theorem stageD_keep_main_arg8 (W : Valuation τ sig (Elt F)) :
    after stageD W (Proc.devRef .tc main_arg8) = W (Proc.devRef .tc main_arg8) := by
  unfold stageD
  after_results_simp

set_option maxRecDepth 16384 in
set_option maxHeartbeats 4000000 in
/-- No operation of the stretch writes `main_arg9`. -/
theorem stageD_keep_main_arg9 (W : Valuation τ sig (Elt F)) :
    after stageD W (Proc.devRef .tc main_arg9) = W (Proc.devRef .tc main_arg9) := by
  unfold stageD
  after_results_simp

set_option maxRecDepth 16384 in
set_option maxHeartbeats 4000000 in
/-- No operation of the stretch writes `main_arg10`. -/
theorem stageD_keep_main_arg10 (W : Valuation τ sig (Elt F)) :
    after stageD W (Proc.devRef .tc main_arg10) = W (Proc.devRef .tc main_arg10) := by
  unfold stageD
  after_results_simp

set_option maxRecDepth 16384 in
set_option maxHeartbeats 4000000 in
/-- No operation of the stretch writes `main_arg11`. -/
theorem stageD_keep_main_arg11 (W : Valuation τ sig (Elt F)) :
    after stageD W (Proc.devRef .tc main_arg11) = W (Proc.devRef .tc main_arg11) := by
  unfold stageD
  after_results_simp

set_option maxRecDepth 16384 in
set_option maxHeartbeats 4000000 in
/-- No operation of the stretch writes `main_arg12`. -/
theorem stageD_keep_main_arg12 (W : Valuation τ sig (Elt F)) :
    after stageD W (Proc.devRef .tc main_arg12) = W (Proc.devRef .tc main_arg12) := by
  unfold stageD
  after_results_simp

set_option maxRecDepth 16384 in
set_option maxHeartbeats 4000000 in
/-- No operation of the stretch writes `main_arg13`. -/
theorem stageD_keep_main_arg13 (W : Valuation τ sig (Elt F)) :
    after stageD W (Proc.devRef .tc main_arg13) = W (Proc.devRef .tc main_arg13) := by
  unfold stageD
  after_results_simp

set_option maxRecDepth 16384 in
set_option maxHeartbeats 4000000 in
/-- No operation of the stretch writes `main_arg14`. -/
theorem stageD_keep_main_arg14 (W : Valuation τ sig (Elt F)) :
    after stageD W (Proc.devRef .tc main_arg14) = W (Proc.devRef .tc main_arg14) := by
  unfold stageD
  after_results_simp

end Cert.ReferenceIdeal.HandRun

end
-- ==== Proof.RefStageL1.lean ====
/- The reference's first layer, read back: its operations leave the specification's layer function of the features,
   the layer's parameters, the two index rows and the inverse square roots of the degrees; the index rows, the degrees'
   inverse roots and every argument are left as they were. -/
import proofs.«145301_j17463337025613_1_alg».proof.Proof.Gen.ReferenceIdeal
import proofs.«145301_j17463337025613_1_alg».proof.Proof.RefSpec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Gcn.RefSpec

variable {F : FTy → Type} [FloatOps F]

/-- Operations 22 … 112 of @main, in order (a called function's operations in place of its call). -/
def stageL1 : List (HloOp τ sig (Elt F)) :=
  [ binary main_arg1 main_arg3 main_v16 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_3 (constantI S_ 32 0#32),
    unary main_c_3 main_v17 (broadcastInDim S1600000 ![] bcast_S_S1600000 : (⟨S_, .i32⟩ : BufTy).Contents (Elt F) → (⟨S1600000, .i32⟩ : BufTy).Contents (Elt F)),
    binary main_v1 main_v17 main_v18 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v19 (broadcastInDim S1600000 ![] bcast_S_S1600000 : (⟨S_, .i32⟩ : BufTy).Contents (Elt F) → (⟨S1600000, .i32⟩ : BufTy).Contents (Elt F)),
    binary main_v1 main_v19 main_v20 (addi : (⟨S1600000, .i32⟩ : BufTy).Contents (Elt F) → (⟨S1600000, .i32⟩ : BufTy).Contents (Elt F) → (⟨S1600000, .i32⟩ : BufTy).Contents (Elt F)),
    ternary main_v18 main_v20 main_v1 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v21 main_v22 (broadcastInDim S1600000x1 ![0] bcast_S1600000_S1600000x1_0 : (⟨S1600000, .i32⟩ : BufTy).Contents (Elt F) → (⟨S1600000x1, .i32⟩ : BufTy).Contents (Elt F)),
    binary main_v15 main_v22 main_v23 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_5 (constantI S_ 32 0#32),
    unary main_c_5 main_v24 (broadcastInDim S1600000 ![] bcast_S_S1600000 : (⟨S_, .i32⟩ : BufTy).Contents (Elt F) → (⟨S1600000, .i32⟩ : BufTy).Contents (Elt F)),
    binary main_v3 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v26 (broadcastInDim S1600000 ![] bcast_S_S1600000 : (⟨S_, .i32⟩ : BufTy).Contents (Elt F) → (⟨S1600000, .i32⟩ : BufTy).Contents (Elt F)),
    binary main_v3 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_v3 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v15 main_v29 main_v30 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v23 main_v30 main_v31 (mulf : (⟨S1600000, .f32⟩ : BufTy).Contents (Elt F) → (⟨S1600000, .f32⟩ : BufTy).Contents (Elt F) → (⟨S1600000, .f32⟩ : BufTy).Contents (Elt F)),
    unary main_v31 main_v32 (broadcastInDim S1600000x1 ![0] bcast_S1600000_S1600000x1_0 : (⟨S1600000, .f32⟩ : BufTy).Contents (Elt F) → (⟨S1600000x1, .f32⟩ : BufTy).Contents (Elt F)),
    nullary main_c_7 (constantI S_ 32 0#32),
    unary main_c_7 main_v33 (broadcastInDim S1600000 ![] bcast_S_S1600000 : (⟨S_, .i32⟩ : BufTy).Contents (Elt F) → (⟨S1600000, .i32⟩ : BufTy).Contents (Elt F)),
    binary main_v1 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v35 (broadcastInDim S1600000 ![] bcast_S_S1600000 : (⟨S_, .i32⟩ : BufTy).Contents (Elt F) → (⟨S1600000, .i32⟩ : BufTy).Contents (Elt F)),
    binary main_v1 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_v1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_v16 main_v38 main_v39 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v32 main_v40 (broadcastInDim S1600000x64 ![0, 1] bcast_S1600000x1_S1600000x64_0_1 : (⟨S1600000x1, .f32⟩ : BufTy).Contents (Elt F) → (⟨S1600000x64, .f32⟩ : BufTy).Contents (Elt F)),
    binary main_v39 main_v40 main_v41 (mulf : (⟨S1600000x64, .f32⟩ : BufTy).Contents (Elt F) → (⟨S1600000x64, .f32⟩ : BufTy).Contents (Elt F) → (⟨S1600000x64, .f32⟩ : BufTy).Contents (Elt F)),
    nullary main_cst_9 (constant S_ .f32 0x00000000#32),
    unary main_cst_9 main_v42 (broadcastInDim S100000x64 ![] bcast_S_S100000x64 : (⟨S_, .f32⟩ : BufTy).Contents (Elt F) → (⟨S100000x64, .f32⟩ : BufTy).Contents (Elt F)),
    unary main_v3 main_v43 (broadcastInDim S1600000x1 ![0] bcast_S1600000_S1600000x1_0 : (⟨S1600000, .i32⟩ : BufTy).Contents (Elt F) → (⟨S1600000x1, .i32⟩ : BufTy).Contents (Elt F)),
    ternary main_v42 main_v43 main_v41 main_v44 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v15 main_v15 main_v45 (mulf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x64 ![0, 1] bcast_S100000x1_S100000x64_0_1 : (⟨S100000x1, .f32⟩ : BufTy).Contents (Elt F) → (⟨S100000x64, .f32⟩ : BufTy).Contents (Elt F)),
    binary main_v47 main_v16 main_v48 (mulf : (⟨S100000x64, .f32⟩ : BufTy).Contents (Elt F) → (⟨S100000x64, .f32⟩ : BufTy).Contents (Elt F) → (⟨S100000x64, .f32⟩ : BufTy).Contents (Elt F)),
    binary main_v44 main_v48 main_v49 (addf : (⟨S100000x64, .f32⟩ : BufTy).Contents (Elt F) → (⟨S100000x64, .f32⟩ : BufTy).Contents (Elt F) → (⟨S100000x64, .f32⟩ : BufTy).Contents (Elt F)),
    unary main_arg4 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v49 main_v51 main_v52 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v52 : TRef sig ⟨S100000x64, .f32⟩) main_call0.v0 main_call0.v1 maximumf,
    nullary main_cst_10 (constant S_ .f32 0x00000000#32),
    binary main_v53 main_cst_10 main_v54 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_11 (constant S_ .f32 0x47C35000#32),
    unary main_cst_11 main_v55 (broadcastInDim S64 ![] bcast_S_S64 : (⟨S_, .f32⟩ : BufTy).Contents (Elt F) → (⟨S64, .f32⟩ : BufTy).Contents (Elt F)),
    binary main_v54 main_v55 main_v56 (Host.divf : (⟨S64, .f32⟩ : BufTy).Contents (Elt F) → (⟨S64, .f32⟩ : BufTy).Contents (Elt F) → (⟨S64, .f32⟩ : BufTy).Contents (Elt F)),
    nullary main_c_12 (constantI S_ 32 0#32),
    TRef.nullary main_call1.cst (constant S_ .f32 0x00000000#32),
    TRef.binary (.of main_v53 : TRef sig ⟨S100000x64, .f32⟩) main_call1.cst main_call1.v0 (fun x v => Host.reduceAdd x v reducesTo_S100000x64_S64_d0 h_S_),
    TRef.unary main_call1.v0 main_call1.v1 (broadcastInDim S1x64 ![1] bcast_S64_S1x64_1),
    TRef.nullary main_call1.cst_0 (constant S_ .f32 0x47C35000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S100000x64 ![0, 1] bcast_S1x64_S100000x64_0_1),
    TRef.binary (.of main_v53 : TRef sig ⟨S100000x64, .f32⟩) main_call1.v4 main_call1.v5 subf,
    TRef.binary main_call1.v5 main_call1.v5 main_call1.v6 mulf,
    TRef.unary (.of main_c_12 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b),
    unary main_v56 main_v58 (broadcastInDim S1x64 ![1] bcast_S64_S1x64_1 : (⟨S64, .f32⟩ : BufTy).Contents (Elt F) → (⟨S1x64, .f32⟩ : BufTy).Contents (Elt F)),
    unary main_v58 main_v59 (broadcastInDim S100000x64 ![0, 1] bcast_S1x64_S100000x64_0_1 : (⟨S1x64, .f32⟩ : BufTy).Contents (Elt F) → (⟨S100000x64, .f32⟩ : BufTy).Contents (Elt F)),
    binary main_v53 main_v59 main_v60 (subf : (⟨S100000x64, .f32⟩ : BufTy).Contents (Elt F) → (⟨S100000x64, .f32⟩ : BufTy).Contents (Elt F) → (⟨S100000x64, .f32⟩ : BufTy).Contents (Elt F)),
    unary main_arg5 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v62 main_v60 main_v63 (mulf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3727C5AC#32),
    unary main_cst_13 main_v64 (broadcastInDim S64 ![] bcast_S_S64 : (⟨S_, .f32⟩ : BufTy).Contents (Elt F) → (⟨S64, .f32⟩ : BufTy).Contents (Elt F)),
    binary main_v57 main_v64 main_v65 (addf : (⟨S64, .f32⟩ : BufTy).Contents (Elt F) → (⟨S64, .f32⟩ : BufTy).Contents (Elt F) → (⟨S64, .f32⟩ : BufTy).Contents (Elt F)),
    unary main_v65 main_v66 (Host.rsqrt : (⟨S64, .f32⟩ : BufTy).Contents (Elt F) → (⟨S64, .f32⟩ : BufTy).Contents (Elt F)),
    unary main_v66 main_v67 (broadcastInDim S1x64 ![1] bcast_S64_S1x64_1 : (⟨S64, .f32⟩ : BufTy).Contents (Elt F) → (⟨S1x64, .f32⟩ : BufTy).Contents (Elt F)),
    unary main_v67 main_v68 (broadcastInDim S100000x64 ![0, 1] bcast_S1x64_S100000x64_0_1 : (⟨S1x64, .f32⟩ : BufTy).Contents (Elt F) → (⟨S100000x64, .f32⟩ : BufTy).Contents (Elt F)),
    binary main_v63 main_v68 main_v69 (mulf : (⟨S100000x64, .f32⟩ : BufTy).Contents (Elt F) → (⟨S100000x64, .f32⟩ : BufTy).Contents (Elt F) → (⟨S100000x64, .f32⟩ : BufTy).Contents (Elt F)),
    unary main_arg6 main_v70 (broadcastInDim S1x64 ![1] bcast_S64_S1x64_1 : (⟨S64, .f32⟩ : BufTy).Contents (Elt F) → (⟨S1x64, .f32⟩ : BufTy).Contents (Elt F)),
    unary main_v70 main_v71 (broadcastInDim S100000x64 ![0, 1] bcast_S1x64_S100000x64_0_1 : (⟨S1x64, .f32⟩ : BufTy).Contents (Elt F) → (⟨S100000x64, .f32⟩ : BufTy).Contents (Elt F)),
    binary main_v69 main_v71 main_v72 (addf : (⟨S100000x64, .f32⟩ : BufTy).Contents (Elt F) → (⟨S100000x64, .f32⟩ : BufTy).Contents (Elt F) → (⟨S100000x64, .f32⟩ : BufTy).Contents (Elt F)) ]

set_option maxRecDepth 16384 in
set_option maxHeartbeats 4000000 in
/-- The first layer's output. -/
theorem stageL1_res (W : Valuation τ sig (Elt F)) :
    after stageL1 W (Proc.devRef .tc main_v72) = refLayer (W (Proc.devRef .tc main_arg1)) (W (Proc.devRef .tc main_arg3)) (W (Proc.devRef .tc main_arg4)) (W (Proc.devRef .tc main_arg5)) (W (Proc.devRef .tc main_arg6)) (W (Proc.devRef .tc main_v1)) (W (Proc.devRef .tc main_v3)) (W (Proc.devRef .tc main_v15)) := by
  unfold stageL1
  after_results_simp <;> rfl

set_option maxRecDepth 16384 in
set_option maxHeartbeats 4000000 in
/-- No operation of the stretch writes `main_v1`. -/
theorem stageL1_keep_main_v1 (W : Valuation τ sig (Elt F)) :
    after stageL1 W (Proc.devRef .tc main_v1) = W (Proc.devRef .tc main_v1) := by
  unfold stageL1
  after_results_simp

set_option maxRecDepth 16384 in
set_option maxHeartbeats 4000000 in
/-- No operation of the stretch writes `main_v3`. -/
theorem stageL1_keep_main_v3 (W : Valuation τ sig (Elt F)) :
    after stageL1 W (Proc.devRef .tc main_v3) = W (Proc.devRef .tc main_v3) := by
  unfold stageL1
  after_results_simp

set_option maxRecDepth 16384 in
set_option maxHeartbeats 4000000 in
/-- No operation of the stretch writes `main_v15`. -/
theorem stageL1_keep_main_v15 (W : Valuation τ sig (Elt F)) :
    after stageL1 W (Proc.devRef .tc main_v15) = W (Proc.devRef .tc main_v15) := by
  unfold stageL1
  after_results_simp

set_option maxRecDepth 16384 in
set_option maxHeartbeats 4000000 in
/-- No operation of the stretch writes `main_arg0`. -/
theorem stageL1_keep_main_arg0 (W : Valuation τ sig (Elt F)) :
    after stageL1 W (Proc.devRef .tc main_arg0) = W (Proc.devRef .tc main_arg0) := by
  unfold stageL1
  after_results_simp

set_option maxRecDepth 16384 in
set_option maxHeartbeats 4000000 in
/-- No operation of the stretch writes `main_arg1`. -/
theorem stageL1_keep_main_arg1 (W : Valuation τ sig (Elt F)) :
    after stageL1 W (Proc.devRef .tc main_arg1) = W (Proc.devRef .tc main_arg1) := by
  unfold stageL1
  after_results_simp

set_option maxRecDepth 16384 in
set_option maxHeartbeats 4000000 in
/-- No operation of the stretch writes `main_arg2`. -/
theorem stageL1_keep_main_arg2 (W : Valuation τ sig (Elt F)) :
    after stageL1 W (Proc.devRef .tc main_arg2) = W (Proc.devRef .tc main_arg2) := by
  unfold stageL1
  after_results_simp

set_option maxRecDepth 16384 in
set_option maxHeartbeats 4000000 in
/-- No operation of the stretch writes `main_arg3`. -/
theorem stageL1_keep_main_arg3 (W : Valuation τ sig (Elt F)) :
    after stageL1 W (Proc.devRef .tc main_arg3) = W (Proc.devRef .tc main_arg3) := by
  unfold stageL1
  after_results_simp

set_option maxRecDepth 16384 in
set_option maxHeartbeats 4000000 in
/-- No operation of the stretch writes `main_arg4`. -/
theorem stageL1_keep_main_arg4 (W : Valuation τ sig (Elt F)) :
    after stageL1 W (Proc.devRef .tc main_arg4) = W (Proc.devRef .tc main_arg4) := by
  unfold stageL1
  after_results_simp

set_option maxRecDepth 16384 in
set_option maxHeartbeats 4000000 in
/-- No operation of the stretch writes `main_arg5`. -/
theorem stageL1_keep_main_arg5 (W : Valuation τ sig (Elt F)) :
    after stageL1 W (Proc.devRef .tc main_arg5) = W (Proc.devRef .tc main_arg5) := by
  unfold stageL1
  after_results_simp

set_option maxRecDepth 16384 in
set_option maxHeartbeats 4000000 in
/-- No operation of the stretch writes `main_arg6`. -/
theorem stageL1_keep_main_arg6 (W : Valuation τ sig (Elt F)) :
    after stageL1 W (Proc.devRef .tc main_arg6) = W (Proc.devRef .tc main_arg6) := by
  unfold stageL1
  after_results_simp

set_option maxRecDepth 16384 in
set_option maxHeartbeats 4000000 in
/-- No operation of the stretch writes `main_arg7`. -/
theorem stageL1_keep_main_arg7 (W : Valuation τ sig (Elt F)) :
    after stageL1 W (Proc.devRef .tc main_arg7) = W (Proc.devRef .tc main_arg7) := by
  unfold stageL1
  after_results_simp

set_option maxRecDepth 16384 in
set_option maxHeartbeats 4000000 in
/-- No operation of the stretch writes `main_arg8`. -/
theorem stageL1_keep_main_arg8 (W : Valuation τ sig (Elt F)) :
    after stageL1 W (Proc.devRef .tc main_arg8) = W (Proc.devRef .tc main_arg8) := by
  unfold stageL1
  after_results_simp

set_option maxRecDepth 16384 in
set_option maxHeartbeats 4000000 in
/-- No operation of the stretch writes `main_arg9`. -/
theorem stageL1_keep_main_arg9 (W : Valuation τ sig (Elt F)) :
    after stageL1 W (Proc.devRef .tc main_arg9) = W (Proc.devRef .tc main_arg9) := by
  unfold stageL1
  after_results_simp

set_option maxRecDepth 16384 in
set_option maxHeartbeats 4000000 in
/-- No operation of the stretch writes `main_arg10`. -/
theorem stageL1_keep_main_arg10 (W : Valuation τ sig (Elt F)) :
    after stageL1 W (Proc.devRef .tc main_arg10) = W (Proc.devRef .tc main_arg10) := by
  unfold stageL1
  after_results_simp

set_option maxRecDepth 16384 in
set_option maxHeartbeats 4000000 in
/-- No operation of the stretch writes `main_arg11`. -/
theorem stageL1_keep_main_arg11 (W : Valuation τ sig (Elt F)) :
    after stageL1 W (Proc.devRef .tc main_arg11) = W (Proc.devRef .tc main_arg11) := by
  unfold stageL1
  after_results_simp

set_option maxRecDepth 16384 in
set_option maxHeartbeats 4000000 in
/-- No operation of the stretch writes `main_arg12`. -/
theorem stageL1_keep_main_arg12 (W : Valuation τ sig (Elt F)) :
    after stageL1 W (Proc.devRef .tc main_arg12) = W (Proc.devRef .tc main_arg12) := by
  unfold stageL1
  after_results_simp

set_option maxRecDepth 16384 in
set_option maxHeartbeats 4000000 in
/-- No operation of the stretch writes `main_arg13`. -/
theorem stageL1_keep_main_arg13 (W : Valuation τ sig (Elt F)) :
    after stageL1 W (Proc.devRef .tc main_arg13) = W (Proc.devRef .tc main_arg13) := by
  unfold stageL1
  after_results_simp

set_option maxRecDepth 16384 in
set_option maxHeartbeats 4000000 in
/-- No operation of the stretch writes `main_arg14`. -/
theorem stageL1_keep_main_arg14 (W : Valuation τ sig (Elt F)) :
    after stageL1 W (Proc.devRef .tc main_arg14) = W (Proc.devRef .tc main_arg14) := by
  unfold stageL1
  after_results_simp

end Cert.ReferenceIdeal.HandRun

end
-- ==== Proof.RefStageL2.lean ====
/- The reference's second layer, read back: its operations leave the specification's layer function of the first
   layer's output, the layer's parameters, the two index rows and the inverse square roots of the degrees; the index
   rows, the degrees' inverse roots and every argument are left as they were. -/
import proofs.«145301_j17463337025613_1_alg».proof.Proof.Gen.ReferenceIdeal
import proofs.«145301_j17463337025613_1_alg».proof.Proof.RefSpec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Gcn.RefSpec

variable {F : FTy → Type} [FloatOps F]

/-- Operations 113 … 203 of @main, in order (a called function's operations in place of its call). -/
def stageL2 : List (HloOp τ sig (Elt F)) :=
  [ binary main_v72 main_arg7 main_v73 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_14 (constantI S_ 32 0#32),
    unary main_c_14 main_v74 (broadcastInDim S1600000 ![] bcast_S_S1600000 : (⟨S_, .i32⟩ : BufTy).Contents (Elt F) → (⟨S1600000, .i32⟩ : BufTy).Contents (Elt F)),
    binary main_v1 main_v74 main_v75 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v76 (broadcastInDim S1600000 ![] bcast_S_S1600000 : (⟨S_, .i32⟩ : BufTy).Contents (Elt F) → (⟨S1600000, .i32⟩ : BufTy).Contents (Elt F)),
    binary main_v1 main_v76 main_v77 (addi : (⟨S1600000, .i32⟩ : BufTy).Contents (Elt F) → (⟨S1600000, .i32⟩ : BufTy).Contents (Elt F) → (⟨S1600000, .i32⟩ : BufTy).Contents (Elt F)),
    ternary main_v75 main_v77 main_v1 main_v78 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v78 main_v79 (broadcastInDim S1600000x1 ![0] bcast_S1600000_S1600000x1_0 : (⟨S1600000, .i32⟩ : BufTy).Contents (Elt F) → (⟨S1600000x1, .i32⟩ : BufTy).Contents (Elt F)),
    binary main_v15 main_v79 main_v80 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_16 (constantI S_ 32 0#32),
    unary main_c_16 main_v81 (broadcastInDim S1600000 ![] bcast_S_S1600000 : (⟨S_, .i32⟩ : BufTy).Contents (Elt F) → (⟨S1600000, .i32⟩ : BufTy).Contents (Elt F)),
    binary main_v3 main_v81 main_v82 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v83 (broadcastInDim S1600000 ![] bcast_S_S1600000 : (⟨S_, .i32⟩ : BufTy).Contents (Elt F) → (⟨S1600000, .i32⟩ : BufTy).Contents (Elt F)),
    binary main_v3 main_v83 main_v84 (addi : (⟨S1600000, .i32⟩ : BufTy).Contents (Elt F) → (⟨S1600000, .i32⟩ : BufTy).Contents (Elt F) → (⟨S1600000, .i32⟩ : BufTy).Contents (Elt F)),
    ternary main_v82 main_v84 main_v3 main_v85 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v85 main_v86 (broadcastInDim S1600000x1 ![0] bcast_S1600000_S1600000x1_0 : (⟨S1600000, .i32⟩ : BufTy).Contents (Elt F) → (⟨S1600000x1, .i32⟩ : BufTy).Contents (Elt F)),
    binary main_v15 main_v86 main_v87 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v80 main_v87 main_v88 (mulf : (⟨S1600000, .f32⟩ : BufTy).Contents (Elt F) → (⟨S1600000, .f32⟩ : BufTy).Contents (Elt F) → (⟨S1600000, .f32⟩ : BufTy).Contents (Elt F)),
    unary main_v88 main_v89 (broadcastInDim S1600000x1 ![0] bcast_S1600000_S1600000x1_0 : (⟨S1600000, .f32⟩ : BufTy).Contents (Elt F) → (⟨S1600000x1, .f32⟩ : BufTy).Contents (Elt F)),
    nullary main_c_18 (constantI S_ 32 0#32),
    unary main_c_18 main_v90 (broadcastInDim S1600000 ![] bcast_S_S1600000 : (⟨S_, .i32⟩ : BufTy).Contents (Elt F) → (⟨S1600000, .i32⟩ : BufTy).Contents (Elt F)),
    binary main_v1 main_v90 main_v91 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v92 (broadcastInDim S1600000 ![] bcast_S_S1600000 : (⟨S_, .i32⟩ : BufTy).Contents (Elt F) → (⟨S1600000, .i32⟩ : BufTy).Contents (Elt F)),
    binary main_v1 main_v92 main_v93 (addi : (⟨S1600000, .i32⟩ : BufTy).Contents (Elt F) → (⟨S1600000, .i32⟩ : BufTy).Contents (Elt F) → (⟨S1600000, .i32⟩ : BufTy).Contents (Elt F)),
    ternary main_v91 main_v93 main_v1 main_v94 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v94 main_v95 (broadcastInDim S1600000x1 ![0] bcast_S1600000_S1600000x1_0 : (⟨S1600000, .i32⟩ : BufTy).Contents (Elt F) → (⟨S1600000x1, .i32⟩ : BufTy).Contents (Elt F)),
    binary main_v73 main_v95 main_v96 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v89 main_v97 (broadcastInDim S1600000x64 ![0, 1] bcast_S1600000x1_S1600000x64_0_1 : (⟨S1600000x1, .f32⟩ : BufTy).Contents (Elt F) → (⟨S1600000x64, .f32⟩ : BufTy).Contents (Elt F)),
    binary main_v96 main_v97 main_v98 (mulf : (⟨S1600000x64, .f32⟩ : BufTy).Contents (Elt F) → (⟨S1600000x64, .f32⟩ : BufTy).Contents (Elt F) → (⟨S1600000x64, .f32⟩ : BufTy).Contents (Elt F)),
    nullary main_cst_20 (constant S_ .f32 0x00000000#32),
    unary main_cst_20 main_v99 (broadcastInDim S100000x64 ![] bcast_S_S100000x64 : (⟨S_, .f32⟩ : BufTy).Contents (Elt F) → (⟨S100000x64, .f32⟩ : BufTy).Contents (Elt F)),
    unary main_v3 main_v100 (broadcastInDim S1600000x1 ![0] bcast_S1600000_S1600000x1_0 : (⟨S1600000, .i32⟩ : BufTy).Contents (Elt F) → (⟨S1600000x1, .i32⟩ : BufTy).Contents (Elt F)),
    ternary main_v99 main_v100 main_v98 main_v101 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v15 main_v15 main_v102 (mulf : (⟨S100000, .f32⟩ : BufTy).Contents (Elt F) → (⟨S100000, .f32⟩ : BufTy).Contents (Elt F) → (⟨S100000, .f32⟩ : BufTy).Contents (Elt F)),
    unary main_v102 main_v103 (broadcastInDim S100000x1 ![0] bcast_S100000_S100000x1_0 : (⟨S100000, .f32⟩ : BufTy).Contents (Elt F) → (⟨S100000x1, .f32⟩ : BufTy).Contents (Elt F)),
    unary main_v103 main_v104 (broadcastInDim S100000x64 ![0, 1] bcast_S100000x1_S100000x64_0_1 : (⟨S100000x1, .f32⟩ : BufTy).Contents (Elt F) → (⟨S100000x64, .f32⟩ : BufTy).Contents (Elt F)),
    binary main_v104 main_v73 main_v105 (mulf : (⟨S100000x64, .f32⟩ : BufTy).Contents (Elt F) → (⟨S100000x64, .f32⟩ : BufTy).Contents (Elt F) → (⟨S100000x64, .f32⟩ : BufTy).Contents (Elt F)),
    binary main_v101 main_v105 main_v106 (addf : (⟨S100000x64, .f32⟩ : BufTy).Contents (Elt F) → (⟨S100000x64, .f32⟩ : BufTy).Contents (Elt F) → (⟨S100000x64, .f32⟩ : BufTy).Contents (Elt F)),
    unary main_arg8 main_v107 (broadcastInDim S1x64 ![1] bcast_S64_S1x64_1 : (⟨S64, .f32⟩ : BufTy).Contents (Elt F) → (⟨S1x64, .f32⟩ : BufTy).Contents (Elt F)),
    unary main_v107 main_v108 (broadcastInDim S100000x64 ![0, 1] bcast_S1x64_S100000x64_0_1 : (⟨S1x64, .f32⟩ : BufTy).Contents (Elt F) → (⟨S100000x64, .f32⟩ : BufTy).Contents (Elt F)),
    binary main_v106 main_v108 main_v109 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v109 : TRef sig ⟨S100000x64, .f32⟩) main_call2.v0 main_call2.v1 maximumf,
    nullary main_cst_21 (constant S_ .f32 0x00000000#32),
    binary main_v110 main_cst_21 main_v111 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_22 (constant S_ .f32 0x47C35000#32),
    unary main_cst_22 main_v112 (broadcastInDim S64 ![] bcast_S_S64 : (⟨S_, .f32⟩ : BufTy).Contents (Elt F) → (⟨S64, .f32⟩ : BufTy).Contents (Elt F)),
    binary main_v111 main_v112 main_v113 (Host.divf : (⟨S64, .f32⟩ : BufTy).Contents (Elt F) → (⟨S64, .f32⟩ : BufTy).Contents (Elt F) → (⟨S64, .f32⟩ : BufTy).Contents (Elt F)),
    nullary main_c_23 (constantI S_ 32 0#32),
    TRef.nullary main_call3.cst (constant S_ .f32 0x00000000#32),
    TRef.binary (.of main_v110 : TRef sig ⟨S100000x64, .f32⟩) main_call3.cst main_call3.v0 (fun x v => Host.reduceAdd x v reducesTo_S100000x64_S64_d0 h_S_),
    TRef.unary main_call3.v0 main_call3.v1 (broadcastInDim S1x64 ![1] bcast_S64_S1x64_1),
    TRef.nullary main_call3.cst_0 (constant S_ .f32 0x47C35000#32),
    TRef.unary main_call3.cst_0 main_call3.v2 (broadcastInDim S1x64 ![] bcast_S_S1x64),
    TRef.binary main_call3.v1 main_call3.v2 main_call3.v3 Host.divf,
    TRef.unary main_call3.v3 main_call3.v4 (broadcastInDim S100000x64 ![0, 1] bcast_S1x64_S100000x64_0_1),
    TRef.binary (.of main_v110 : TRef sig ⟨S100000x64, .f32⟩) main_call3.v4 main_call3.v5 subf,
    TRef.binary main_call3.v5 main_call3.v5 main_call3.v6 mulf,
    TRef.unary (.of main_c_23 : TRef sig ⟨S_, .i32⟩) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x64_S64_d0 h_S_),
    TRef.unary main_call3.v8 main_call3.v10 (broadcastInDim S64 ![] bcast_S_S64),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S64 ![] bcast_S_S64),
    TRef.ternary main_call3.v12 main_call3.v11 main_call3.call0.v1 main_call3.call0.v2 (fun p a b => select (broadcastInDim S64 ![] bcast_S_S64 p) a b),
    unary main_v113 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v110 main_v116 main_v117 (subf : (⟨S100000x64, .f32⟩ : BufTy).Contents (Elt F) → (⟨S100000x64, .f32⟩ : BufTy).Contents (Elt F) → (⟨S100000x64, .f32⟩ : BufTy).Contents (Elt F)),
    unary main_arg9 main_v118 (broadcastInDim S1x64 ![1] bcast_S64_S1x64_1 : (⟨S64, .f32⟩ : BufTy).Contents (Elt F) → (⟨S1x64, .f32⟩ : BufTy).Contents (Elt F)),
    unary main_v118 main_v119 (broadcastInDim S100000x64 ![0, 1] bcast_S1x64_S100000x64_0_1 : (⟨S1x64, .f32⟩ : BufTy).Contents (Elt F) → (⟨S100000x64, .f32⟩ : BufTy).Contents (Elt F)),
    binary main_v119 main_v117 main_v120 (mulf : (⟨S100000x64, .f32⟩ : BufTy).Contents (Elt F) → (⟨S100000x64, .f32⟩ : BufTy).Contents (Elt F) → (⟨S100000x64, .f32⟩ : BufTy).Contents (Elt F)),
    nullary main_cst_24 (constant S_ .f32 0x3727C5AC#32),
    unary main_cst_24 main_v121 (broadcastInDim S64 ![] bcast_S_S64 : (⟨S_, .f32⟩ : BufTy).Contents (Elt F) → (⟨S64, .f32⟩ : BufTy).Contents (Elt F)),
    binary main_v114 main_v121 main_v122 (addf : (⟨S64, .f32⟩ : BufTy).Contents (Elt F) → (⟨S64, .f32⟩ : BufTy).Contents (Elt F) → (⟨S64, .f32⟩ : BufTy).Contents (Elt F)),
    unary main_v122 main_v123 (Host.rsqrt : (⟨S64, .f32⟩ : BufTy).Contents (Elt F) → (⟨S64, .f32⟩ : BufTy).Contents (Elt F)),
    unary main_v123 main_v124 (broadcastInDim S1x64 ![1] bcast_S64_S1x64_1 : (⟨S64, .f32⟩ : BufTy).Contents (Elt F) → (⟨S1x64, .f32⟩ : BufTy).Contents (Elt F)),
    unary main_v124 main_v125 (broadcastInDim S100000x64 ![0, 1] bcast_S1x64_S100000x64_0_1 : (⟨S1x64, .f32⟩ : BufTy).Contents (Elt F) → (⟨S100000x64, .f32⟩ : BufTy).Contents (Elt F)),
    binary main_v120 main_v125 main_v126 (mulf : (⟨S100000x64, .f32⟩ : BufTy).Contents (Elt F) → (⟨S100000x64, .f32⟩ : BufTy).Contents (Elt F) → (⟨S100000x64, .f32⟩ : BufTy).Contents (Elt F)),
    unary main_arg10 main_v127 (broadcastInDim S1x64 ![1] bcast_S64_S1x64_1 : (⟨S64, .f32⟩ : BufTy).Contents (Elt F) → (⟨S1x64, .f32⟩ : BufTy).Contents (Elt F)),
    unary main_v127 main_v128 (broadcastInDim S100000x64 ![0, 1] bcast_S1x64_S100000x64_0_1 : (⟨S1x64, .f32⟩ : BufTy).Contents (Elt F) → (⟨S100000x64, .f32⟩ : BufTy).Contents (Elt F)),
    binary main_v126 main_v128 main_v129 (addf : (⟨S100000x64, .f32⟩ : BufTy).Contents (Elt F) → (⟨S100000x64, .f32⟩ : BufTy).Contents (Elt F) → (⟨S100000x64, .f32⟩ : BufTy).Contents (Elt F)) ]

set_option maxRecDepth 16384 in
set_option maxHeartbeats 4000000 in
/-- The second layer's output. -/
theorem stageL2_res (W : Valuation τ sig (Elt F)) :
    after stageL2 W (Proc.devRef .tc main_v129) = refLayer (W (Proc.devRef .tc main_v72)) (W (Proc.devRef .tc main_arg7)) (W (Proc.devRef .tc main_arg8)) (W (Proc.devRef .tc main_arg9)) (W (Proc.devRef .tc main_arg10)) (W (Proc.devRef .tc main_v1)) (W (Proc.devRef .tc main_v3)) (W (Proc.devRef .tc main_v15)) := by
  unfold stageL2
  after_results_simp <;> rfl

set_option maxRecDepth 16384 in
set_option maxHeartbeats 4000000 in
/-- No operation of the stretch writes `main_v1`. -/
theorem stageL2_keep_main_v1 (W : Valuation τ sig (Elt F)) :
    after stageL2 W (Proc.devRef .tc main_v1) = W (Proc.devRef .tc main_v1) := by
  unfold stageL2
  after_results_simp

set_option maxRecDepth 16384 in
set_option maxHeartbeats 4000000 in
/-- No operation of the stretch writes `main_v3`. -/
theorem stageL2_keep_main_v3 (W : Valuation τ sig (Elt F)) :
    after stageL2 W (Proc.devRef .tc main_v3) = W (Proc.devRef .tc main_v3) := by
  unfold stageL2
  after_results_simp

set_option maxRecDepth 16384 in
set_option maxHeartbeats 4000000 in
/-- No operation of the stretch writes `main_v15`. -/
theorem stageL2_keep_main_v15 (W : Valuation τ sig (Elt F)) :
    after stageL2 W (Proc.devRef .tc main_v15) = W (Proc.devRef .tc main_v15) := by
  unfold stageL2
  after_results_simp

set_option maxRecDepth 16384 in
set_option maxHeartbeats 4000000 in
/-- No operation of the stretch writes `main_arg0`. -/
theorem stageL2_keep_main_arg0 (W : Valuation τ sig (Elt F)) :
    after stageL2 W (Proc.devRef .tc main_arg0) = W (Proc.devRef .tc main_arg0) := by
  unfold stageL2
  after_results_simp

set_option maxRecDepth 16384 in
set_option maxHeartbeats 4000000 in
/-- No operation of the stretch writes `main_arg1`. -/
theorem stageL2_keep_main_arg1 (W : Valuation τ sig (Elt F)) :
    after stageL2 W (Proc.devRef .tc main_arg1) = W (Proc.devRef .tc main_arg1) := by
  unfold stageL2
  after_results_simp

set_option maxRecDepth 16384 in
set_option maxHeartbeats 4000000 in
/-- No operation of the stretch writes `main_arg2`. -/
theorem stageL2_keep_main_arg2 (W : Valuation τ sig (Elt F)) :
    after stageL2 W (Proc.devRef .tc main_arg2) = W (Proc.devRef .tc main_arg2) := by
  unfold stageL2
  after_results_simp

set_option maxRecDepth 16384 in
set_option maxHeartbeats 4000000 in
/-- No operation of the stretch writes `main_arg3`. -/
theorem stageL2_keep_main_arg3 (W : Valuation τ sig (Elt F)) :
    after stageL2 W (Proc.devRef .tc main_arg3) = W (Proc.devRef .tc main_arg3) := by
  unfold stageL2
  after_results_simp

set_option maxRecDepth 16384 in
set_option maxHeartbeats 4000000 in
/-- No operation of the stretch writes `main_arg4`. -/
theorem stageL2_keep_main_arg4 (W : Valuation τ sig (Elt F)) :
    after stageL2 W (Proc.devRef .tc main_arg4) = W (Proc.devRef .tc main_arg4) := by
  unfold stageL2
  after_results_simp

set_option maxRecDepth 16384 in
set_option maxHeartbeats 4000000 in
/-- No operation of the stretch writes `main_arg5`. -/
theorem stageL2_keep_main_arg5 (W : Valuation τ sig (Elt F)) :
    after stageL2 W (Proc.devRef .tc main_arg5) = W (Proc.devRef .tc main_arg5) := by
  unfold stageL2
  after_results_simp

set_option maxRecDepth 16384 in
set_option maxHeartbeats 4000000 in
/-- No operation of the stretch writes `main_arg6`. -/
theorem stageL2_keep_main_arg6 (W : Valuation τ sig (Elt F)) :
    after stageL2 W (Proc.devRef .tc main_arg6) = W (Proc.devRef .tc main_arg6) := by
  unfold stageL2
  after_results_simp

set_option maxRecDepth 16384 in
set_option maxHeartbeats 4000000 in
/-- No operation of the stretch writes `main_arg7`. -/
theorem stageL2_keep_main_arg7 (W : Valuation τ sig (Elt F)) :
    after stageL2 W (Proc.devRef .tc main_arg7) = W (Proc.devRef .tc main_arg7) := by
  unfold stageL2
  after_results_simp

set_option maxRecDepth 16384 in
set_option maxHeartbeats 4000000 in
/-- No operation of the stretch writes `main_arg8`. -/
theorem stageL2_keep_main_arg8 (W : Valuation τ sig (Elt F)) :
    after stageL2 W (Proc.devRef .tc main_arg8) = W (Proc.devRef .tc main_arg8) := by
  unfold stageL2
  after_results_simp

set_option maxRecDepth 16384 in
set_option maxHeartbeats 4000000 in
/-- No operation of the stretch writes `main_arg9`. -/
theorem stageL2_keep_main_arg9 (W : Valuation τ sig (Elt F)) :
    after stageL2 W (Proc.devRef .tc main_arg9) = W (Proc.devRef .tc main_arg9) := by
  unfold stageL2
  after_results_simp

set_option maxRecDepth 16384 in
set_option maxHeartbeats 4000000 in
/-- No operation of the stretch writes `main_arg10`. -/
theorem stageL2_keep_main_arg10 (W : Valuation τ sig (Elt F)) :
    after stageL2 W (Proc.devRef .tc main_arg10) = W (Proc.devRef .tc main_arg10) := by
  unfold stageL2
  after_results_simp

set_option maxRecDepth 16384 in
set_option maxHeartbeats 4000000 in
/-- No operation of the stretch writes `main_arg11`. -/
theorem stageL2_keep_main_arg11 (W : Valuation τ sig (Elt F)) :
    after stageL2 W (Proc.devRef .tc main_arg11) = W (Proc.devRef .tc main_arg11) := by
  unfold stageL2
  after_results_simp

set_option maxRecDepth 16384 in
set_option maxHeartbeats 4000000 in
/-- No operation of the stretch writes `main_arg12`. -/
theorem stageL2_keep_main_arg12 (W : Valuation τ sig (Elt F)) :
    after stageL2 W (Proc.devRef .tc main_arg12) = W (Proc.devRef .tc main_arg12) := by
  unfold stageL2
  after_results_simp

set_option maxRecDepth 16384 in
set_option maxHeartbeats 4000000 in
/-- No operation of the stretch writes `main_arg13`. -/
theorem stageL2_keep_main_arg13 (W : Valuation τ sig (Elt F)) :
    after stageL2 W (Proc.devRef .tc main_arg13) = W (Proc.devRef .tc main_arg13) := by
  unfold stageL2
  after_results_simp

set_option maxRecDepth 16384 in
set_option maxHeartbeats 4000000 in
/-- No operation of the stretch writes `main_arg14`. -/
theorem stageL2_keep_main_arg14 (W : Valuation τ sig (Elt F)) :
    after stageL2 W (Proc.devRef .tc main_arg14) = W (Proc.devRef .tc main_arg14) := by
  unfold stageL2
  after_results_simp

end Cert.ReferenceIdeal.HandRun

end
-- ==== Proof.RefStageL3.lean ====
/- The reference's third layer, read back: its operations leave the specification's layer function of the second
   layer's output, the layer's parameters, the two index rows and the inverse square roots of the degrees; every
   argument is left as it was. -/
import proofs.«145301_j17463337025613_1_alg».proof.Proof.Gen.ReferenceIdeal
import proofs.«145301_j17463337025613_1_alg».proof.Proof.RefSpec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Gcn.RefSpec

variable {F : FTy → Type} [FloatOps F]

/-- Operations 204 … 294 of @main, in order (a called function's operations in place of its call). -/
def stageL3 : List (HloOp τ sig (Elt F)) :=
  [ binary main_v129 main_arg11 main_v130 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_25 (constantI S_ 32 0#32),
    unary main_c_25 main_v131 (broadcastInDim S1600000 ![] bcast_S_S1600000 : (⟨S_, .i32⟩ : BufTy).Contents (Elt F) → (⟨S1600000, .i32⟩ : BufTy).Contents (Elt F)),
    binary main_v1 main_v131 main_v132 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v133 (broadcastInDim S1600000 ![] bcast_S_S1600000 : (⟨S_, .i32⟩ : BufTy).Contents (Elt F) → (⟨S1600000, .i32⟩ : BufTy).Contents (Elt F)),
    binary main_v1 main_v133 main_v134 (addi : (⟨S1600000, .i32⟩ : BufTy).Contents (Elt F) → (⟨S1600000, .i32⟩ : BufTy).Contents (Elt F) → (⟨S1600000, .i32⟩ : BufTy).Contents (Elt F)),
    ternary main_v132 main_v134 main_v1 main_v135 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v135 main_v136 (broadcastInDim S1600000x1 ![0] bcast_S1600000_S1600000x1_0 : (⟨S1600000, .i32⟩ : BufTy).Contents (Elt F) → (⟨S1600000x1, .i32⟩ : BufTy).Contents (Elt F)),
    binary main_v15 main_v136 main_v137 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_27 (constantI S_ 32 0#32),
    unary main_c_27 main_v138 (broadcastInDim S1600000 ![] bcast_S_S1600000 : (⟨S_, .i32⟩ : BufTy).Contents (Elt F) → (⟨S1600000, .i32⟩ : BufTy).Contents (Elt F)),
    binary main_v3 main_v138 main_v139 (cmpi .slt : (⟨S1600000, .i32⟩ : BufTy).Contents (Elt F) → (⟨S1600000, .i32⟩ : BufTy).Contents (Elt F) → (⟨S1600000, .i1⟩ : BufTy).Contents (Elt F)),
    nullary main_c_28 (constantI S_ 32 100000#32),
    unary main_c_28 main_v140 (broadcastInDim S1600000 ![] bcast_S_S1600000 : (⟨S_, .i32⟩ : BufTy).Contents (Elt F) → (⟨S1600000, .i32⟩ : BufTy).Contents (Elt F)),
    binary main_v3 main_v140 main_v141 (addi : (⟨S1600000, .i32⟩ : BufTy).Contents (Elt F) → (⟨S1600000, .i32⟩ : BufTy).Contents (Elt F) → (⟨S1600000, .i32⟩ : BufTy).Contents (Elt F)),
    ternary main_v139 main_v141 main_v3 main_v142 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v142 main_v143 (broadcastInDim S1600000x1 ![0] bcast_S1600000_S1600000x1_0 : (⟨S1600000, .i32⟩ : BufTy).Contents (Elt F) → (⟨S1600000x1, .i32⟩ : BufTy).Contents (Elt F)),
    binary main_v15 main_v143 main_v144 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v137 main_v144 main_v145 (mulf : (⟨S1600000, .f32⟩ : BufTy).Contents (Elt F) → (⟨S1600000, .f32⟩ : BufTy).Contents (Elt F) → (⟨S1600000, .f32⟩ : BufTy).Contents (Elt F)),
    unary main_v145 main_v146 (broadcastInDim S1600000x1 ![0] bcast_S1600000_S1600000x1_0 : (⟨S1600000, .f32⟩ : BufTy).Contents (Elt F) → (⟨S1600000x1, .f32⟩ : BufTy).Contents (Elt F)),
    nullary main_c_29 (constantI S_ 32 0#32),
    unary main_c_29 main_v147 (broadcastInDim S1600000 ![] bcast_S_S1600000 : (⟨S_, .i32⟩ : BufTy).Contents (Elt F) → (⟨S1600000, .i32⟩ : BufTy).Contents (Elt F)),
    binary main_v1 main_v147 main_v148 (cmpi .slt : (⟨S1600000, .i32⟩ : BufTy).Contents (Elt F) → (⟨S1600000, .i32⟩ : BufTy).Contents (Elt F) → (⟨S1600000, .i1⟩ : BufTy).Contents (Elt F)),
    nullary main_c_30 (constantI S_ 32 100000#32),
    unary main_c_30 main_v149 (broadcastInDim S1600000 ![] bcast_S_S1600000 : (⟨S_, .i32⟩ : BufTy).Contents (Elt F) → (⟨S1600000, .i32⟩ : BufTy).Contents (Elt F)),
    binary main_v1 main_v149 main_v150 (addi : (⟨S1600000, .i32⟩ : BufTy).Contents (Elt F) → (⟨S1600000, .i32⟩ : BufTy).Contents (Elt F) → (⟨S1600000, .i32⟩ : BufTy).Contents (Elt F)),
    ternary main_v148 main_v150 main_v1 main_v151 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v151 main_v152 (broadcastInDim S1600000x1 ![0] bcast_S1600000_S1600000x1_0 : (⟨S1600000, .i32⟩ : BufTy).Contents (Elt F) → (⟨S1600000x1, .i32⟩ : BufTy).Contents (Elt F)),
    binary main_v130 main_v152 main_v153 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v146 main_v154 (broadcastInDim S1600000x64 ![0, 1] bcast_S1600000x1_S1600000x64_0_1 : (⟨S1600000x1, .f32⟩ : BufTy).Contents (Elt F) → (⟨S1600000x64, .f32⟩ : BufTy).Contents (Elt F)),
    binary main_v153 main_v154 main_v155 (mulf : (⟨S1600000x64, .f32⟩ : BufTy).Contents (Elt F) → (⟨S1600000x64, .f32⟩ : BufTy).Contents (Elt F) → (⟨S1600000x64, .f32⟩ : BufTy).Contents (Elt F)),
    nullary main_cst_31 (constant S_ .f32 0x00000000#32),
    unary main_cst_31 main_v156 (broadcastInDim S100000x64 ![] bcast_S_S100000x64 : (⟨S_, .f32⟩ : BufTy).Contents (Elt F) → (⟨S100000x64, .f32⟩ : BufTy).Contents (Elt F)),
    unary main_v3 main_v157 (broadcastInDim S1600000x1 ![0] bcast_S1600000_S1600000x1_0 : (⟨S1600000, .i32⟩ : BufTy).Contents (Elt F) → (⟨S1600000x1, .i32⟩ : BufTy).Contents (Elt F)),
    ternary main_v156 main_v157 main_v155 main_v158 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v15 main_v15 main_v159 (mulf : (⟨S100000, .f32⟩ : BufTy).Contents (Elt F) → (⟨S100000, .f32⟩ : BufTy).Contents (Elt F) → (⟨S100000, .f32⟩ : BufTy).Contents (Elt F)),
    unary main_v159 main_v160 (broadcastInDim S100000x1 ![0] bcast_S100000_S100000x1_0 : (⟨S100000, .f32⟩ : BufTy).Contents (Elt F) → (⟨S100000x1, .f32⟩ : BufTy).Contents (Elt F)),
    unary main_v160 main_v161 (broadcastInDim S100000x64 ![0, 1] bcast_S100000x1_S100000x64_0_1 : (⟨S100000x1, .f32⟩ : BufTy).Contents (Elt F) → (⟨S100000x64, .f32⟩ : BufTy).Contents (Elt F)),
    binary main_v161 main_v130 main_v162 (mulf : (⟨S100000x64, .f32⟩ : BufTy).Contents (Elt F) → (⟨S100000x64, .f32⟩ : BufTy).Contents (Elt F) → (⟨S100000x64, .f32⟩ : BufTy).Contents (Elt F)),
    binary main_v158 main_v162 main_v163 (addf : (⟨S100000x64, .f32⟩ : BufTy).Contents (Elt F) → (⟨S100000x64, .f32⟩ : BufTy).Contents (Elt F) → (⟨S100000x64, .f32⟩ : BufTy).Contents (Elt F)),
    unary main_arg12 main_v164 (broadcastInDim S1x64 ![1] bcast_S64_S1x64_1 : (⟨S64, .f32⟩ : BufTy).Contents (Elt F) → (⟨S1x64, .f32⟩ : BufTy).Contents (Elt F)),
    unary main_v164 main_v165 (broadcastInDim S100000x64 ![0, 1] bcast_S1x64_S100000x64_0_1 : (⟨S1x64, .f32⟩ : BufTy).Contents (Elt F) → (⟨S100000x64, .f32⟩ : BufTy).Contents (Elt F)),
    binary main_v163 main_v165 main_v166 (addf : (⟨S100000x64, .f32⟩ : BufTy).Contents (Elt F) → (⟨S100000x64, .f32⟩ : BufTy).Contents (Elt F) → (⟨S100000x64, .f32⟩ : BufTy).Contents (Elt F)),
    TRef.nullary main_call4.cst (constant S_ .f32 0x00000000#32),
    TRef.unary main_call4.cst main_call4.v0 (broadcastInDim S100000x64 ![] bcast_S_S100000x64),
    TRef.binary (.of main_v166 : TRef sig ⟨S100000x64, .f32⟩) main_call4.v0 main_call4.v1 maximumf,
    nullary main_cst_32 (constant S_ .f32 0x00000000#32),
    binary main_v167 main_cst_32 main_v168 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_33 (constant S_ .f32 0x47C35000#32),
    unary main_cst_33 main_v169 (broadcastInDim S64 ![] bcast_S_S64 : (⟨S_, .f32⟩ : BufTy).Contents (Elt F) → (⟨S64, .f32⟩ : BufTy).Contents (Elt F)),
    binary main_v168 main_v169 main_v170 (Host.divf : (⟨S64, .f32⟩ : BufTy).Contents (Elt F) → (⟨S64, .f32⟩ : BufTy).Contents (Elt F) → (⟨S64, .f32⟩ : BufTy).Contents (Elt F)),
    nullary main_c_34 (constantI S_ 32 0#32),
    TRef.nullary main_call5.cst (constant S_ .f32 0x00000000#32),
    TRef.binary (.of main_v167 : TRef sig ⟨S100000x64, .f32⟩) main_call5.cst main_call5.v0 (fun x v => Host.reduceAdd x v reducesTo_S100000x64_S64_d0 h_S_),
    TRef.unary main_call5.v0 main_call5.v1 (broadcastInDim S1x64 ![1] bcast_S64_S1x64_1),
    TRef.nullary main_call5.cst_0 (constant S_ .f32 0x47C35000#32),
    TRef.unary main_call5.cst_0 main_call5.v2 (broadcastInDim S1x64 ![] bcast_S_S1x64),
    TRef.binary main_call5.v1 main_call5.v2 main_call5.v3 Host.divf,
    TRef.unary main_call5.v3 main_call5.v4 (broadcastInDim S100000x64 ![0, 1] bcast_S1x64_S100000x64_0_1),
    TRef.binary (.of main_v167 : TRef sig ⟨S100000x64, .f32⟩) main_call5.v4 main_call5.v5 subf,
    TRef.binary main_call5.v5 main_call5.v5 main_call5.v6 mulf,
    TRef.unary (.of main_c_34 : TRef sig ⟨S_, .i32⟩) main_call5.v7 (sitofp .f32),
    TRef.nullary main_call5.cst_1 (constant S_ .f32 0x47C35000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x64_S64_d0 h_S_),
    TRef.unary main_call5.v8 main_call5.v10 (broadcastInDim S64 ![] bcast_S_S64),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S64 ![] bcast_S_S64),
    TRef.ternary main_call5.v12 main_call5.v11 main_call5.call0.v1 main_call5.call0.v2 (fun p a b => select (broadcastInDim S64 ![] bcast_S_S64 p) a b),
    unary main_v170 main_v172 (broadcastInDim S1x64 ![1] bcast_S64_S1x64_1 : (⟨S64, .f32⟩ : BufTy).Contents (Elt F) → (⟨S1x64, .f32⟩ : BufTy).Contents (Elt F)),
    unary main_v172 main_v173 (broadcastInDim S100000x64 ![0, 1] bcast_S1x64_S100000x64_0_1 : (⟨S1x64, .f32⟩ : BufTy).Contents (Elt F) → (⟨S100000x64, .f32⟩ : BufTy).Contents (Elt F)),
    binary main_v167 main_v173 main_v174 (subf : (⟨S100000x64, .f32⟩ : BufTy).Contents (Elt F) → (⟨S100000x64, .f32⟩ : BufTy).Contents (Elt F) → (⟨S100000x64, .f32⟩ : BufTy).Contents (Elt F)),
    unary main_arg13 main_v175 (broadcastInDim S1x64 ![1] bcast_S64_S1x64_1 : (⟨S64, .f32⟩ : BufTy).Contents (Elt F) → (⟨S1x64, .f32⟩ : BufTy).Contents (Elt F)),
    unary main_v175 main_v176 (broadcastInDim S100000x64 ![0, 1] bcast_S1x64_S100000x64_0_1 : (⟨S1x64, .f32⟩ : BufTy).Contents (Elt F) → (⟨S100000x64, .f32⟩ : BufTy).Contents (Elt F)),
    binary main_v176 main_v174 main_v177 (mulf : (⟨S100000x64, .f32⟩ : BufTy).Contents (Elt F) → (⟨S100000x64, .f32⟩ : BufTy).Contents (Elt F) → (⟨S100000x64, .f32⟩ : BufTy).Contents (Elt F)),
    nullary main_cst_35 (constant S_ .f32 0x3727C5AC#32),
    unary main_cst_35 main_v178 (broadcastInDim S64 ![] bcast_S_S64 : (⟨S_, .f32⟩ : BufTy).Contents (Elt F) → (⟨S64, .f32⟩ : BufTy).Contents (Elt F)),
    binary main_v171 main_v178 main_v179 (addf : (⟨S64, .f32⟩ : BufTy).Contents (Elt F) → (⟨S64, .f32⟩ : BufTy).Contents (Elt F) → (⟨S64, .f32⟩ : BufTy).Contents (Elt F)),
    unary main_v179 main_v180 (Host.rsqrt : (⟨S64, .f32⟩ : BufTy).Contents (Elt F) → (⟨S64, .f32⟩ : BufTy).Contents (Elt F)),
    unary main_v180 main_v181 (broadcastInDim S1x64 ![1] bcast_S64_S1x64_1 : (⟨S64, .f32⟩ : BufTy).Contents (Elt F) → (⟨S1x64, .f32⟩ : BufTy).Contents (Elt F)),
    unary main_v181 main_v182 (broadcastInDim S100000x64 ![0, 1] bcast_S1x64_S100000x64_0_1 : (⟨S1x64, .f32⟩ : BufTy).Contents (Elt F) → (⟨S100000x64, .f32⟩ : BufTy).Contents (Elt F)),
    binary main_v177 main_v182 main_v183 (mulf : (⟨S100000x64, .f32⟩ : BufTy).Contents (Elt F) → (⟨S100000x64, .f32⟩ : BufTy).Contents (Elt F) → (⟨S100000x64, .f32⟩ : BufTy).Contents (Elt F)),
    unary main_arg14 main_v184 (broadcastInDim S1x64 ![1] bcast_S64_S1x64_1 : (⟨S64, .f32⟩ : BufTy).Contents (Elt F) → (⟨S1x64, .f32⟩ : BufTy).Contents (Elt F)),
    unary main_v184 main_v185 (broadcastInDim S100000x64 ![0, 1] bcast_S1x64_S100000x64_0_1 : (⟨S1x64, .f32⟩ : BufTy).Contents (Elt F) → (⟨S100000x64, .f32⟩ : BufTy).Contents (Elt F)),
    binary main_v183 main_v185 main_v186 (addf : (⟨S100000x64, .f32⟩ : BufTy).Contents (Elt F) → (⟨S100000x64, .f32⟩ : BufTy).Contents (Elt F) → (⟨S100000x64, .f32⟩ : BufTy).Contents (Elt F)) ]

set_option maxRecDepth 16384 in
set_option maxHeartbeats 4000000 in
/-- The third layer's output: the program's result. -/
theorem stageL3_res (W : Valuation τ sig (Elt F)) :
    after stageL3 W (Proc.devRef .tc main_v186) = refLayer (W (Proc.devRef .tc main_v129)) (W (Proc.devRef .tc main_arg11)) (W (Proc.devRef .tc main_arg12)) (W (Proc.devRef .tc main_arg13)) (W (Proc.devRef .tc main_arg14)) (W (Proc.devRef .tc main_v1)) (W (Proc.devRef .tc main_v3)) (W (Proc.devRef .tc main_v15)) := by
  unfold stageL3
  after_results_simp <;> rfl

set_option maxRecDepth 16384 in
set_option maxHeartbeats 4000000 in
/-- No operation of the stretch writes `main_arg0`. -/
theorem stageL3_keep_main_arg0 (W : Valuation τ sig (Elt F)) :
    after stageL3 W (Proc.devRef .tc main_arg0) = W (Proc.devRef .tc main_arg0) := by
  unfold stageL3
  after_results_simp

set_option maxRecDepth 16384 in
set_option maxHeartbeats 4000000 in
/-- No operation of the stretch writes `main_arg1`. -/
theorem stageL3_keep_main_arg1 (W : Valuation τ sig (Elt F)) :
    after stageL3 W (Proc.devRef .tc main_arg1) = W (Proc.devRef .tc main_arg1) := by
  unfold stageL3
  after_results_simp

set_option maxRecDepth 16384 in
set_option maxHeartbeats 4000000 in
/-- No operation of the stretch writes `main_arg2`. -/
theorem stageL3_keep_main_arg2 (W : Valuation τ sig (Elt F)) :
    after stageL3 W (Proc.devRef .tc main_arg2) = W (Proc.devRef .tc main_arg2) := by
  unfold stageL3
  after_results_simp

set_option maxRecDepth 16384 in
set_option maxHeartbeats 4000000 in
/-- No operation of the stretch writes `main_arg3`. -/
theorem stageL3_keep_main_arg3 (W : Valuation τ sig (Elt F)) :
    after stageL3 W (Proc.devRef .tc main_arg3) = W (Proc.devRef .tc main_arg3) := by
  unfold stageL3
  after_results_simp

set_option maxRecDepth 16384 in
set_option maxHeartbeats 4000000 in
/-- No operation of the stretch writes `main_arg4`. -/
theorem stageL3_keep_main_arg4 (W : Valuation τ sig (Elt F)) :
    after stageL3 W (Proc.devRef .tc main_arg4) = W (Proc.devRef .tc main_arg4) := by
  unfold stageL3
  after_results_simp

set_option maxRecDepth 16384 in
set_option maxHeartbeats 4000000 in
/-- No operation of the stretch writes `main_arg5`. -/
theorem stageL3_keep_main_arg5 (W : Valuation τ sig (Elt F)) :
    after stageL3 W (Proc.devRef .tc main_arg5) = W (Proc.devRef .tc main_arg5) := by
  unfold stageL3
  after_results_simp

set_option maxRecDepth 16384 in
set_option maxHeartbeats 4000000 in
/-- No operation of the stretch writes `main_arg6`. -/
theorem stageL3_keep_main_arg6 (W : Valuation τ sig (Elt F)) :
    after stageL3 W (Proc.devRef .tc main_arg6) = W (Proc.devRef .tc main_arg6) := by
  unfold stageL3
  after_results_simp

set_option maxRecDepth 16384 in
set_option maxHeartbeats 4000000 in
/-- No operation of the stretch writes `main_arg7`. -/
theorem stageL3_keep_main_arg7 (W : Valuation τ sig (Elt F)) :
    after stageL3 W (Proc.devRef .tc main_arg7) = W (Proc.devRef .tc main_arg7) := by
  unfold stageL3
  after_results_simp

set_option maxRecDepth 16384 in
set_option maxHeartbeats 4000000 in
/-- No operation of the stretch writes `main_arg8`. -/
theorem stageL3_keep_main_arg8 (W : Valuation τ sig (Elt F)) :
    after stageL3 W (Proc.devRef .tc main_arg8) = W (Proc.devRef .tc main_arg8) := by
  unfold stageL3
  after_results_simp

set_option maxRecDepth 16384 in
set_option maxHeartbeats 4000000 in
/-- No operation of the stretch writes `main_arg9`. -/
theorem stageL3_keep_main_arg9 (W : Valuation τ sig (Elt F)) :
    after stageL3 W (Proc.devRef .tc main_arg9) = W (Proc.devRef .tc main_arg9) := by
  unfold stageL3
  after_results_simp

set_option maxRecDepth 16384 in
set_option maxHeartbeats 4000000 in
/-- No operation of the stretch writes `main_arg10`. -/
theorem stageL3_keep_main_arg10 (W : Valuation τ sig (Elt F)) :
    after stageL3 W (Proc.devRef .tc main_arg10) = W (Proc.devRef .tc main_arg10) := by
  unfold stageL3
  after_results_simp

set_option maxRecDepth 16384 in
set_option maxHeartbeats 4000000 in
/-- No operation of the stretch writes `main_arg11`. -/
theorem stageL3_keep_main_arg11 (W : Valuation τ sig (Elt F)) :
    after stageL3 W (Proc.devRef .tc main_arg11) = W (Proc.devRef .tc main_arg11) := by
  unfold stageL3
  after_results_simp

set_option maxRecDepth 16384 in
set_option maxHeartbeats 4000000 in
/-- No operation of the stretch writes `main_arg12`. -/
theorem stageL3_keep_main_arg12 (W : Valuation τ sig (Elt F)) :
    after stageL3 W (Proc.devRef .tc main_arg12) = W (Proc.devRef .tc main_arg12) := by
  unfold stageL3
  after_results_simp

set_option maxRecDepth 16384 in
set_option maxHeartbeats 4000000 in
/-- No operation of the stretch writes `main_arg13`. -/
theorem stageL3_keep_main_arg13 (W : Valuation τ sig (Elt F)) :
    after stageL3 W (Proc.devRef .tc main_arg13) = W (Proc.devRef .tc main_arg13) := by
  unfold stageL3
  after_results_simp

set_option maxRecDepth 16384 in
set_option maxHeartbeats 4000000 in
/-- No operation of the stretch writes `main_arg14`. -/
theorem stageL3_keep_main_arg14 (W : Valuation τ sig (Elt F)) :
    after stageL3 W (Proc.devRef .tc main_arg14) = W (Proc.devRef .tc main_arg14) := by
  unfold stageL3
  after_results_simp

end Cert.ReferenceIdeal.HandRun

end
-- ==== Proof.RefRun.lean ====
/- The reference program's run, read back.
   Every weakly fair execution of the reference's @main terminates with the result array at the fold of @main's
   operations over the launch contents and with the fifteen argument arrays as launched: no operation writes an
   argument. The fold, cut into the degree computation and the three layers, is the specification's network function of the
   arguments. The frame claim of the reference follows from the run. -/
import proofs.«145301_j17463337025613_1_alg».proof.Defs
import proofs.«145301_j17463337025613_1_alg».proof.Proof.Gen.Pre_finite_inputs
import proofs.«145301_j17463337025613_1_alg».proof.Proof.RefOps
import proofs.«145301_j17463337025613_1_alg».proof.Proof.RefSpec
import proofs.«145301_j17463337025613_1_alg».proof.Proof.RefStageD
import proofs.«145301_j17463337025613_1_alg».proof.Proof.RefStageL1
import proofs.«145301_j17463337025613_1_alg».proof.Proof.RefStageL2
import proofs.«145301_j17463337025613_1_alg».proof.Proof.RefStageL3

noncomputable section

namespace Cert.ReferenceIdeal.HandRun

open Cert.Gcn.RefSpec Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- The operation list, cut by windows of statements, is the same list cut into the degree computation and the layers. -/
theorem ops_stages : (ops : List (HloOp τ sig (Elt F))) = stageD ++ (stageL1 ++ (stageL2 ++ stageL3)) := rfl

/-- The fold over the whole list is the stretches' folds in order. -/
theorem after_ops (V : Valuation τ sig (Elt F)) :
    after ops V = after stageL3 (after stageL2 (after stageL1 (after stageD V))) := by
  rw [ops_stages, after_append, after_append, after_append]

/-- No operation writes `main_arg0`. -/
theorem keep_main_arg0 (V : Valuation τ sig (Elt F)) :
    after ops V (Proc.devRef .tc main_arg0) = V (Proc.devRef .tc main_arg0) := by
  rw [after_ops, stageL3_keep_main_arg0, stageL2_keep_main_arg0, stageL1_keep_main_arg0, stageD_keep_main_arg0]

/-- No operation writes `main_arg1`. -/
theorem keep_main_arg1 (V : Valuation τ sig (Elt F)) :
    after ops V (Proc.devRef .tc main_arg1) = V (Proc.devRef .tc main_arg1) := by
  rw [after_ops, stageL3_keep_main_arg1, stageL2_keep_main_arg1, stageL1_keep_main_arg1, stageD_keep_main_arg1]

/-- No operation writes `main_arg2`. -/
theorem keep_main_arg2 (V : Valuation τ sig (Elt F)) :
    after ops V (Proc.devRef .tc main_arg2) = V (Proc.devRef .tc main_arg2) := by
  rw [after_ops, stageL3_keep_main_arg2, stageL2_keep_main_arg2, stageL1_keep_main_arg2, stageD_keep_main_arg2]

/-- No operation writes `main_arg3`. -/
theorem keep_main_arg3 (V : Valuation τ sig (Elt F)) :
    after ops V (Proc.devRef .tc main_arg3) = V (Proc.devRef .tc main_arg3) := by
  rw [after_ops, stageL3_keep_main_arg3, stageL2_keep_main_arg3, stageL1_keep_main_arg3, stageD_keep_main_arg3]

/-- No operation writes `main_arg4`. -/
theorem keep_main_arg4 (V : Valuation τ sig (Elt F)) :
    after ops V (Proc.devRef .tc main_arg4) = V (Proc.devRef .tc main_arg4) := by
  rw [after_ops, stageL3_keep_main_arg4, stageL2_keep_main_arg4, stageL1_keep_main_arg4, stageD_keep_main_arg4]

/-- No operation writes `main_arg5`. -/
theorem keep_main_arg5 (V : Valuation τ sig (Elt F)) :
    after ops V (Proc.devRef .tc main_arg5) = V (Proc.devRef .tc main_arg5) := by
  rw [after_ops, stageL3_keep_main_arg5, stageL2_keep_main_arg5, stageL1_keep_main_arg5, stageD_keep_main_arg5]

/-- No operation writes `main_arg6`. -/
theorem keep_main_arg6 (V : Valuation τ sig (Elt F)) :
    after ops V (Proc.devRef .tc main_arg6) = V (Proc.devRef .tc main_arg6) := by
  rw [after_ops, stageL3_keep_main_arg6, stageL2_keep_main_arg6, stageL1_keep_main_arg6, stageD_keep_main_arg6]

/-- No operation writes `main_arg7`. -/
theorem keep_main_arg7 (V : Valuation τ sig (Elt F)) :
    after ops V (Proc.devRef .tc main_arg7) = V (Proc.devRef .tc main_arg7) := by
  rw [after_ops, stageL3_keep_main_arg7, stageL2_keep_main_arg7, stageL1_keep_main_arg7, stageD_keep_main_arg7]

/-- No operation writes `main_arg8`. -/
theorem keep_main_arg8 (V : Valuation τ sig (Elt F)) :
    after ops V (Proc.devRef .tc main_arg8) = V (Proc.devRef .tc main_arg8) := by
  rw [after_ops, stageL3_keep_main_arg8, stageL2_keep_main_arg8, stageL1_keep_main_arg8, stageD_keep_main_arg8]

/-- No operation writes `main_arg9`. -/
theorem keep_main_arg9 (V : Valuation τ sig (Elt F)) :
    after ops V (Proc.devRef .tc main_arg9) = V (Proc.devRef .tc main_arg9) := by
  rw [after_ops, stageL3_keep_main_arg9, stageL2_keep_main_arg9, stageL1_keep_main_arg9, stageD_keep_main_arg9]

/-- No operation writes `main_arg10`. -/
theorem keep_main_arg10 (V : Valuation τ sig (Elt F)) :
    after ops V (Proc.devRef .tc main_arg10) = V (Proc.devRef .tc main_arg10) := by
  rw [after_ops, stageL3_keep_main_arg10, stageL2_keep_main_arg10, stageL1_keep_main_arg10, stageD_keep_main_arg10]

/-- No operation writes `main_arg11`. -/
theorem keep_main_arg11 (V : Valuation τ sig (Elt F)) :
    after ops V (Proc.devRef .tc main_arg11) = V (Proc.devRef .tc main_arg11) := by
  rw [after_ops, stageL3_keep_main_arg11, stageL2_keep_main_arg11, stageL1_keep_main_arg11, stageD_keep_main_arg11]

/-- No operation writes `main_arg12`. -/
theorem keep_main_arg12 (V : Valuation τ sig (Elt F)) :
    after ops V (Proc.devRef .tc main_arg12) = V (Proc.devRef .tc main_arg12) := by
  rw [after_ops, stageL3_keep_main_arg12, stageL2_keep_main_arg12, stageL1_keep_main_arg12, stageD_keep_main_arg12]

/-- No operation writes `main_arg13`. -/
theorem keep_main_arg13 (V : Valuation τ sig (Elt F)) :
    after ops V (Proc.devRef .tc main_arg13) = V (Proc.devRef .tc main_arg13) := by
  rw [after_ops, stageL3_keep_main_arg13, stageL2_keep_main_arg13, stageL1_keep_main_arg13, stageD_keep_main_arg13]

/-- No operation writes `main_arg14`. -/
theorem keep_main_arg14 (V : Valuation τ sig (Elt F)) :
    after ops V (Proc.devRef .tc main_arg14) = V (Proc.devRef .tc main_arg14) := by
  rw [after_ops, stageL3_keep_main_arg14, stageL2_keep_main_arg14, stageL1_keep_main_arg14, stageD_keep_main_arg14]

/-- On every device, for any float values, from any memory with zero counters: every weakly fair execution of @main
    terminates with the result array at the operations' fold over the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v186) = after ops (launchContents m c) (Proc.devRef .tc main_v186)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨h c main_v186,
      (h c main_arg0).trans (keep_main_arg0 _),
      (h c main_arg1).trans (keep_main_arg1 _),
      (h c main_arg2).trans (keep_main_arg2 _),
      (h c main_arg3).trans (keep_main_arg3 _),
      (h c main_arg4).trans (keep_main_arg4 _),
      (h c main_arg5).trans (keep_main_arg5 _),
      (h c main_arg6).trans (keep_main_arg6 _),
      (h c main_arg7).trans (keep_main_arg7 _),
      (h c main_arg8).trans (keep_main_arg8 _),
      (h c main_arg9).trans (keep_main_arg9 _),
      (h c main_arg10).trans (keep_main_arg10 _),
      (h c main_arg11).trans (keep_main_arg11 _),
      (h c main_arg12).trans (keep_main_arg12 _),
      (h c main_arg13).trans (keep_main_arg13 _),
      (h c main_arg14).trans (keep_main_arg14 _)⟩)
    (run_all m ρ)

/-- The reference runs (terminates, nothing faulting) and its argument arrays end unchanged. -/
theorem frame_ri : Cert.frame_ReferenceIdeal := fun m ρ _ =>
  (θ_run Cert.ReferenceIdeal.defs _ _).mono (fun _ h c => (h c).2) (run (F := Ideal) m ρ)

/-- The fold at the result array is the specification's network of the arguments: the degree computation's results
    feed the first layer, each layer's output the next, the index rows and the degrees' inverse roots carried through. -/
theorem res_eq (V : Valuation τ sig (Elt F)) :
    after ops V (Proc.devRef .tc main_v186)
      = refNet (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [after_ops, stageL3_res,
    stageL2_res, stageL2_keep_main_v1, stageL2_keep_main_v3, stageL2_keep_main_v15, stageL2_keep_main_arg11, stageL2_keep_main_arg12, stageL2_keep_main_arg13, stageL2_keep_main_arg14,
    stageL1_res, stageL1_keep_main_v1, stageL1_keep_main_v3, stageL1_keep_main_v15, stageL1_keep_main_arg7, stageL1_keep_main_arg8, stageL1_keep_main_arg9, stageL1_keep_main_arg10, stageL1_keep_main_arg11, stageL1_keep_main_arg12, stageL1_keep_main_arg13, stageL1_keep_main_arg14,
    stageD_src, stageD_dst, stageD_dinv, stageD_keep_main_arg1, stageD_keep_main_arg3, stageD_keep_main_arg4, stageD_keep_main_arg5, stageD_keep_main_arg6, stageD_keep_main_arg7, stageD_keep_main_arg8, stageD_keep_main_arg9, stageD_keep_main_arg10, stageD_keep_main_arg11, stageD_keep_main_arg12, stageD_keep_main_arg13, stageD_keep_main_arg14]
  rfl

/-- The run with the result named: the result array ends at the specification's network of the launch arguments. -/
theorem run_net (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v186)
        = refNet (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (res_eq (launchContents m c)), (h c).2⟩) (run m ρ)

end Cert.ReferenceIdeal.HandRun

end
-- ==== Proof.lean ====
/-
  The certificate of the 3-layer GCN encoder kernel against its jnp reference, at the extended reals.

  The two programs compute, per layer, h = x·W, the messages h[src]·dinv[src]·dinv[dst] summed into destination rows,
  z = max(agg + dinv²·h + b, 0), and the batch normalisation γ·(z − mean)·rsqrt(var + ε) + β over the 100000 nodes.
  They differ in three ways.  The kernel tiles every stage (row blocks of 5000 or 8000) and accumulates the column
  sums of z and z² block by block: sums on the extended reals may be regrouped freely.  The kernel's variance is the
  raw form max(Σz²/N − mean², 0), the reference's the centred form Σ(z − mean)²/N: equal on real columns, which is
  where the precondition's finiteness is used (every intermediate stays real: degrees are at least one, variances are
  nonnegative and ε is positive).  And the degree count indexes by the raw destination id in the kernel, by the
  Python-wrapped id in the reference: the two counts agree exactly when no destination id is negative, which is why
  this statement's precondition asks, beside the finiteness of the float arguments, that every destination id be
  nonnegative (with a negative id the reference itself counts an edge at a node it never aggregates into).

  The frames of the two kernel programs are the generated ones; the reference's frame and run are read off its
  list of host operations; `preserves` is trivial (the idealization rewrote nothing).
-/
import proofs.«145301_j17463337025613_1_alg».proof.Defs
import proofs.«145301_j17463337025613_1_alg».proof.Proof.Gen.Kernel
import proofs.«145301_j17463337025613_1_alg».proof.Proof.Gen.Kernel.Frame
import proofs.«145301_j17463337025613_1_alg».proof.Proof.Gen.KernelIdeal
import proofs.«145301_j17463337025613_1_alg».proof.Proof.Gen.KernelIdeal.Frame
import proofs.«145301_j17463337025613_1_alg».proof.Proof.Gen.ReferenceIdeal
import proofs.«145301_j17463337025613_1_alg».proof.Proof.Gen.Pre_finite_inputs
import proofs.«145301_j17463337025613_1_alg».proof.Proof.KernelRun
import proofs.«145301_j17463337025613_1_alg».proof.Proof.KNet
import proofs.«145301_j17463337025613_1_alg».proof.Proof.RefRun
import Idealize.ShloMosaic.Adequacy
import Idealize.ShloMosaic.Init

noncomputable section

namespace Cert.Proof

open Idealize.ShloMosaic Idealize.ShloMosaic.TcCoe Idealize.SL.Sem Cert.Gcn.RefSpec

/-- Both idealized programs end at the reference network of their (agreeing) arguments. -/
theorem algebraic : Cert.algebraic_KernelIdeal_ReferenceIdeal := by
  intro m g m' g' hpre hagree
  refine ⟨fun c => refNet (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.HandFold.kernel_net m g hpre c), (h c).2⟩)
      (Cert.KernelIdeal.HandRun.run_result (F := Ideal) m g)
  · refine (θ_run Cert.ReferenceIdeal.defs _ _).mono (fun r h c => ⟨(h c).1.trans ?_, (h c).2⟩)
      (Cert.ReferenceIdeal.HandRun.run_net (F := Ideal) m' g')
    obtain ⟨h0, h1, -, h3, h4, h5, h6, h7, h8, h9, h10, h11, h12, h13, h14⟩ := hagree c
    rw [h0, h1, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.ReferenceIdeal.HandRun.frame_ri,
    trivial,
    algebraic⟩

end Cert.Proof

end
